-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S64x512 : Shape := ⟨2, ![64, 512]⟩
abbrev S512x1024 : Shape := ⟨2, ![512, 1024]⟩
abbrev S8x1024x512 : Shape := ⟨3, ![8, 1024, 512]⟩
abbrev S512x512 : Shape := ⟨2, ![512, 512]⟩
abbrev S512x1 : Shape := ⟨2, ![512, 1]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S8x1024x512 : S_.BroadcastsInDim S8x1024x512 (![] : Fin 0 → Fin S8x1024x512.rank)
  reducesTo_S8x1024x512_S_d0_1_2 : S8x1024x512.ReducesTo [0, 1, 2] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S64x512 : S_.BroadcastsInDim S64x512 (![] : Fin 0 → Fin S64x512.rank)
  reducesTo_S64x512_S_d0_1 : S64x512.ReducesTo [0, 1] S_

variable [Facts]

def fn_part1 {F : FTy → Type} [FloatOps F] (main_arg1 : IVec S64x512 32) (main_arg5 : FVec F S512x1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x1 .f32 := Host.absf main_arg5
  let main_cst_6 : FVec F S_ .f32 := constant S_ .f32 0x7F800000#32
  let main_v20 : FVec F S512x1 .f32 := broadcastInDim S512x1 ![] bcast_S_S512x1 main_cst_6
  let main_v21 : IVec S512x1 1 := cmpf .olt main_v19 main_v20
  let main_c_7 : IVec S_ 1 := constantI S_ 1 1#1
  let main_v22 : IVec S_ 1 := (fun x v => Host.reduce IntOp.andi x v reducesTo_S512x1_S_d0_1 h_S_) main_v21 main_c_7
  let main_v23 : IVec S_ 1 := andi main_v18 main_v22
  let main_c_8 : IVec S_ 32 := constantI S_ 32 0#32
  let main_v24 : IVec S64x512 32 := broadcastInDim S64x512 ![] bcast_S_S64x512 main_c_8
  let main_v25 : IVec S64x512 1 := cmpi .sge main_arg1 main_v24
  let main_c_9 : IVec S_ 1 := constantI S_ 1 1#1
  let main_v26 : IVec S_ 1 := (fun x v => Host.reduce IntOp.andi x v reducesTo_S64x512_S_d0_1 h_S_) main_v25 main_c_9
  let main_v27 : IVec S_ 1 := andi main_v23 main_v26
  let main_c_10 : IVec S_ 32 := constantI S_ 32 8#32
  let main_v28 : IVec S64x512 32 := broadcastInDim S64x512 ![] bcast_S_S64x512 main_c_10
  let main_v29 : IVec S64x512 1 := cmpi .slt main_arg1 main_v28
  let main_c_11 : IVec S_ 1 := constantI S_ 1 1#1
  let main_v30 : IVec S_ 1 := (fun x v => Host.reduce IntOp.andi x v reducesTo_S64x512_S_d0_1 h_S_) main_v29 main_c_11
  let main_v31 : IVec S_ 1 := andi main_v27 main_v30
  main_v31

def fn {F : FTy → Type} [FloatOps F] (main_arg0 : FVec F S64x512x512 .f32) (main_arg1 : IVec S64x512 32) (main_arg2 : FVec F S512x1024 .f32) (main_arg3 : FVec F S8x1024x512 .f32) (main_arg4 : FVec F S512x512 .f32) (main_arg5 : FVec F S512x1 .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S512x1024 .f32 := Host.absf main_arg2
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S8x1024x512 .f32 := Host.absf main_arg3
  let main_cst_2 : FVec F S_ .f32 := constant S_ .f32 0x7F800000#32
  let main_v10 : FVec F S8x1024x512 .f32 := broadcastInDim S8x1024x512 ![] bcast_S_S8x1024x512 main_cst_2
  let main_v11 : IVec S8x1024x512 1 := cmpf .olt main_v9 main_v10
  let main_c_3 : IVec S_ 1 := constantI S_ 1 1#1
  let main_v12 : IVec S_ 1 := (fun x v => Host.reduce IntOp.andi x v reducesTo_S8x1024x512_S_d0_1_2 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg1 main_arg5 main_v13 main_v16
-- ==== Kernel.lean ====
abbrev S64x512x512 : Shape := ⟨3, ![64, 512, 512]⟩
abbrev S64x512 : Shape := ⟨2, ![64, 512]⟩
abbrev S512x1024 : Shape := ⟨2, ![512, 1024]⟩
abbrev S8x1024x512 : Shape := ⟨3, ![8, 1024, 512]⟩
abbrev S512x512 : Shape := ⟨2, ![512, 512]⟩
abbrev S512x1 : Shape := ⟨2, ![512, 1]⟩
abbrev S32768x512 : Shape := ⟨2, ![32768, 512]⟩
abbrev S32768 : Shape := ⟨1, ![32768]⟩
abbrev S_ : Shape := ⟨0, ![]⟩
abbrev S512x128 : Shape := ⟨2, ![512, 128]⟩
abbrev S32768x1024 : Shape := ⟨2, ![32768, 1024]⟩
abbrev S32768x1 : Shape := ⟨2, ![32768, 1]⟩
abbrev S8 : Shape := ⟨1, ![8]⟩
abbrev S1x8 : Shape := ⟨2, ![1, 8]⟩
abbrev S32768x8 : Shape := ⟨2, ![32768, 8]⟩
abbrev S32768x1x1 : Shape := ⟨3, ![32768, 1, 1]⟩
abbrev S1 : Shape := ⟨1, ![1]⟩
abbrev S1x1x1 : Shape := ⟨3, ![1, 1, 1]⟩
abbrev S9 : Shape := ⟨1, ![9]⟩
abbrev S1x1 : Shape := ⟨2, ![1, 1]⟩
abbrev S72 : Shape := ⟨1, ![72]⟩
abbrev S8x1 : Shape := ⟨2, ![8, 1]⟩
abbrev S1x72 : Shape := ⟨2, ![1, 72]⟩
abbrev S8x72 : Shape := ⟨2, ![8, 72]⟩
abbrev S36864x1024 : Shape := ⟨2, ![36864, 1024]⟩
abbrev S36864x512 : Shape := ⟨2, ![36864, 512]⟩
abbrev S1x1024x512 : Shape := ⟨3, ![1, 1024, 512]⟩
abbrev S1024x512 : Shape := ⟨2, ![1024, 512]⟩
abbrev S32768x128 : Shape := ⟨2, ![32768, 128]⟩

abbrev nBuf : Space → Nat
  | .hbm => 178
  | .vmem => 19
  | .smem => 1
  | _ => 0

abbrev hbmTy0_0 (i : Nat) : BufTy := match i % 128 with
  | 0 => ⟨S64x512x512, .f32⟩
  | 1 => ⟨S64x512, .i32⟩
  | 2 => ⟨S512x1024, .f32⟩
  | 3 => ⟨S8x1024x512, .f32⟩
  | 4 => ⟨S512x512, .f32⟩
  | 5 => ⟨S512x1, .f32⟩
  | 6 => ⟨S32768x512, .f32⟩
  | 7 => ⟨S32768, .i32⟩
  | 8 => ⟨S512x1024, .bf16⟩
  | 9 => ⟨S8x1024x512, .bf16⟩
  | 10 => ⟨S512x512, .bf16⟩
  | 11 => ⟨S_, .i32⟩
  | 12 => ⟨S_, .f32⟩
  | 13 => ⟨S512x128, .f32⟩
  | 14 => ⟨S512x128, .bf16⟩
  | 15 => ⟨S32768x1024, .bf16⟩
  | 16 => ⟨S32768x1, .i32⟩
  | 17 => ⟨S8, .i32⟩
  | 18 => ⟨S1x8, .i32⟩
  | 19 => ⟨S32768x8, .i32⟩
  | 20 => ⟨S32768x8, .i32⟩
  | 21 => ⟨S32768x8, .i1⟩
  | 22 => ⟨S32768x8, .i32⟩
  | 23 => ⟨S_, .i32⟩
  | 24 => ⟨S_, .i32⟩
  | 25 => ⟨S32768x8, .i32⟩
  | 26 => ⟨S1x8, .i32⟩
  | 27 => ⟨S8, .i32⟩
  | 28 => ⟨S32768x1, .i32⟩
  | 29 => ⟨S_, .i32⟩
  | 30 => ⟨S32768x1, .i32⟩
  | 31 => ⟨S32768x1, .i1⟩
  | 32 => ⟨S_, .i32⟩
  | 33 => ⟨S32768x1, .i32⟩
  | 34 => ⟨S32768x1, .i32⟩
  | 35 => ⟨S32768x1, .i32⟩
  | 36 => ⟨S32768x1x1, .i32⟩
  | 37 => ⟨S1, .i32⟩
  | 38 => ⟨S_, .i32⟩
  | 39 => ⟨S32768x1x1, .i32⟩
  | 40 => ⟨S32768x1x1, .i1⟩
  | 41 => ⟨S1x1x1, .i32⟩
  | 42 => ⟨S32768x1x1, .i32⟩
  | 43 => ⟨S32768x1x1, .i1⟩
  | 44 => ⟨S32768x1x1, .i1⟩
  | 45 => ⟨S_, .i1⟩
  | 46 => ⟨S32768x1, .i1⟩
  | 47 => ⟨S32768x1, .i32⟩
  | 48 => ⟨S_, .i32⟩
  | 49 => ⟨S32768x1, .i32⟩
  | 50 => ⟨S32768x1, .i32⟩
  | 51 => ⟨S32768, .i32⟩
  | 52 => ⟨S_, .i32⟩
  | 53 => ⟨S32768, .i32⟩
  | 54 => ⟨S32768, .i32⟩
  | 55 => ⟨S_, .i32⟩
  | 56 => ⟨S8, .i32⟩
  | 57 => ⟨S8, .i32⟩
  | 58 => ⟨S_, .i32⟩
  | 59 => ⟨S8, .i32⟩
  | 60 => ⟨S8, .i32⟩
  | 61 => ⟨S_, .i32⟩
  | 62 => ⟨S_, .i32⟩
  | 63 => ⟨S8, .i32⟩
  | 64 => ⟨S8, .i32⟩
  | 65 => ⟨S8, .i32⟩
  | 66 => ⟨S_, .i32⟩
  | 67 => ⟨S8, .i32⟩
  | 68 => ⟨S8, .i1⟩
  | 69 => ⟨S8, .i32⟩
  | 70 => ⟨S8, .i32⟩
  | 71 => ⟨S_, .i32⟩
  | 72 => ⟨S8, .i32⟩
  | 73 => ⟨S8, .i1⟩
  | 74 => ⟨S8, .i1⟩
  | 75 => ⟨S_, .i32⟩
  | 76 => ⟨S8, .i32⟩
  | 77 => ⟨S8, .i32⟩
  | 78 => ⟨S8, .i32⟩
  | 79 => ⟨S_, .i32⟩
  | 80 => ⟨S8, .i32⟩
  | 81 => ⟨S8, .i32⟩
  | 82 => ⟨S_, .i32⟩
  | 83 => ⟨S1, .i32⟩
  | 84 => ⟨S_, .i32⟩
  | 85 => ⟨S_, .i32⟩
  | 86 => ⟨S8, .i32⟩
  | 87 => ⟨S9, .i32⟩
  | 88 => ⟨S8, .i32⟩
  | 89 => ⟨S_, .i32⟩
  | 90 => ⟨S32768, .i32⟩
  | 91 => ⟨S32768, .i1⟩
  | 92 => ⟨S_, .i32⟩
  | 93 => ⟨S32768, .i32⟩
  | 94 => ⟨S32768, .i32⟩
  | 95 => ⟨S32768, .i32⟩
  | 96 => ⟨S32768x1, .i32⟩
  | 97 => ⟨S1, .i32⟩
  | 98 => ⟨S_, .i32⟩
  | 99 => ⟨S32768x1, .i32⟩
  | 100 => ⟨S32768x1, .i1⟩
  | 101 => ⟨S1x1, .i32⟩
  | 102 => ⟨S32768x1, .i32⟩
  | 103 => ⟨S32768x1, .i1⟩
  | 104 => ⟨S32768x1, .i1⟩
  | 105 => ⟨S_, .i1⟩
  | 106 => ⟨S32768, .i1⟩
  | 107 => ⟨S32768, .i32⟩
  | 108 => ⟨S_, .i32⟩
  | 109 => ⟨S32768, .i32⟩
  | 110 => ⟨S32768, .i32⟩
  | 111 => ⟨S32768, .i32⟩
  | 112 => ⟨S_, .i32⟩
  | 113 => ⟨S_, .i32⟩
  | 114 => ⟨S8, .i32⟩
  | 115 => ⟨S8, .i32⟩
  | 116 => ⟨S8, .i32⟩
  | 117 => ⟨S_, .i32⟩
  | 118 => ⟨S8, .i32⟩
  | 119 => ⟨S8, .i1⟩
  | 120 => ⟨S8, .i32⟩
  | 121 => ⟨S8, .i32⟩
  | 122 => ⟨S_, .i32⟩
  | 123 => ⟨S8, .i32⟩
  | 124 => ⟨S8, .i1⟩
  | 125 => ⟨S8, .i1⟩
  | 126 => ⟨S_, .i32⟩
  | 127 => ⟨S8, .i32⟩
  | _ => ⟨S64x512x512, .f32⟩

abbrev hbmTy0_1 (i : Nat) : BufTy := match i % 128 with
  | 0 => ⟨S8, .i32⟩
  | 1 => ⟨S8, .i32⟩
  | 2 => ⟨S72, .i32⟩
  | 3 => ⟨S8x1, .i32⟩
  | 4 => ⟨S1x72, .i32⟩
  | 5 => ⟨S8x72, .i32⟩
  | 6 => ⟨S8x72, .i32⟩
  | 7 => ⟨S8x72, .i1⟩
  | 8 => ⟨S8x72, .i32⟩
  | 9 => ⟨S_, .i32⟩
  | 10 => ⟨S72, .i32⟩
  | 11 => ⟨S_, .i32⟩
  | 12 => ⟨S72, .i32⟩
  | 13 => ⟨S_, .bf16⟩
  | 14 => ⟨S36864x1024, .bf16⟩
  | 15 => ⟨S_, .i32⟩
  | 16 => ⟨S32768, .i32⟩
  | 17 => ⟨S32768, .i1⟩
  | 18 => ⟨S_, .i32⟩
  | 19 => ⟨S32768, .i32⟩
  | 20 => ⟨S32768, .i32⟩
  | 21 => ⟨S32768, .i32⟩
  | 22 => ⟨S32768x1, .i32⟩
  | 23 => ⟨S36864x1024, .bf16⟩
  | 24 => ⟨S36864x512, .f32⟩
  | 25 => ⟨S_, .i32⟩
  | 26 => ⟨S32768, .i32⟩
  | 27 => ⟨S32768, .i1⟩
  | 28 => ⟨S_, .i32⟩
  | 29 => ⟨S32768, .i32⟩
  | 30 => ⟨S32768, .i32⟩
  | 31 => ⟨S32768, .i32⟩
  | 32 => ⟨S32768x1, .i32⟩
  | 33 => ⟨S1, .i32⟩
  | 34 => ⟨S_, .i32⟩
  | 35 => ⟨S32768x1, .i32⟩
  | 36 => ⟨S32768x1, .i1⟩
  | 37 => ⟨S1x1, .i32⟩
  | 38 => ⟨S32768x1, .i32⟩
  | 39 => ⟨S32768x1, .i1⟩
  | 40 => ⟨S32768x1, .i1⟩
  | 41 => ⟨S_, .i1⟩
  | 42 => ⟨S32768, .i1⟩
  | 43 => ⟨S32768x512, .f32⟩
  | 44 => ⟨S32768x512, .i1⟩
  | 45 => ⟨S_, .f32⟩
  | 46 => ⟨S32768x512, .f32⟩
  | 47 => ⟨S32768x512, .f32⟩
  | 48 => ⟨S32768x128, .f32⟩
  | 49 => ⟨S32768x1, .f32⟩
  | _ => ⟨S64x512x512, .f32⟩

abbrev hbmTy (i : Nat) : BufTy := match i / 128 with
  | 0 => hbmTy0_0 i
  | 1 => hbmTy0_1 i
  | _ => ⟨S64x512x512, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1x1024x512, .bf16⟩
  | .local _ .vmem, ⟨8, _⟩ => ⟨S1x1024x512, .bf16⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .bf16⟩
  | .local _ .vmem, ⟨16, _⟩ => ⟨S512x128, .bf16⟩
  | .local _ .vmem, ⟨17, _⟩ => ⟨S512x128, .f32⟩
  | .local _ .vmem, ⟨18, _⟩ => ⟨S512x128, .f32⟩
  | .local _ .smem, ⟨0, _⟩ => ⟨S72, .i32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call1_call0_c : Ref sig .tc := ⟨.hbm, 23, rfl⟩
abbrev main_call1_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_c_4 : Ref sig .tc := ⟨.hbm, 48, rfl⟩
abbrev main_call2_v14 : Ref sig .tc := ⟨.hbm, 49, rfl⟩
abbrev main_v19 : Ref sig .tc := ⟨.hbm, 50, rfl⟩
abbrev main_v20 : Ref sig .tc := ⟨.hbm, 51, rfl⟩
abbrev main_c_0 : Ref sig .tc := ⟨.hbm, 52, rfl⟩
abbrev main_v21 : Ref sig .tc := ⟨.hbm, 53, rfl⟩
abbrev main_v22 : Ref sig .tc := ⟨.hbm, 54, rfl⟩
abbrev main_c_1 : Ref sig .tc := ⟨.hbm, 55, rfl⟩
abbrev main_v23 : Ref sig .tc := ⟨.hbm, 56, rfl⟩
abbrev main_v24 : Ref sig .tc := ⟨.hbm, 57, rfl⟩
abbrev main_c_2 : Ref sig .tc := ⟨.hbm, 58, rfl⟩
abbrev main_v25 : Ref sig .tc := ⟨.hbm, 59, rfl⟩
abbrev main_v26 : Ref sig .tc := ⟨.hbm, 60, rfl⟩
abbrev main_c_3 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_c : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_call3_c_0 : Ref sig .tc := ⟨.hbm, 75, rfl⟩
abbrev main_call3_v12 : Ref sig .tc := ⟨.hbm, 76, rfl⟩
abbrev main_call3_v13 : Ref sig .tc := ⟨.hbm, 77, rfl⟩
abbrev main_v27 : Ref sig .tc := ⟨.hbm, 78, rfl⟩
abbrev main_c_4 : Ref sig .tc := ⟨.hbm, 79, rfl⟩
abbrev main_v28 : Ref sig .tc := ⟨.hbm, 80, rfl⟩
abbrev main_v29 : Ref sig .tc := ⟨.hbm, 81, rfl⟩
abbrev main_c_5 : Ref sig .tc := ⟨.hbm, 82, rfl⟩
abbrev main_v30 : Ref sig .tc := ⟨.hbm, 83, rfl⟩
abbrev main_call4_call0_c : Ref sig .tc := ⟨.hbm, 84, rfl⟩
abbrev main_call4_call0_v0 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_call5_c : Ref sig .tc := ⟨.hbm, 89, rfl⟩
abbrev main_call5_v0 : Ref sig .tc := ⟨.hbm, 90, rfl⟩
abbrev main_call5_v1 : Ref sig .tc := ⟨.hbm, 91, rfl⟩
abbrev main_call5_c_0 : Ref sig .tc := ⟨.hbm, 92, rfl⟩
abbrev main_call5_v2 : Ref sig .tc := ⟨.hbm, 93, rfl⟩
abbrev main_call5_v3 : Ref sig .tc := ⟨.hbm, 94, rfl⟩
abbrev main_call5_v4 : Ref sig .tc := ⟨.hbm, 95, rfl⟩
abbrev main_call5_v5 : Ref sig .tc := ⟨.hbm, 96, rfl⟩
abbrev main_call5_c_1 : Ref sig .tc := ⟨.hbm, 97, rfl⟩
abbrev main_call5_c_2 : Ref sig .tc := ⟨.hbm, 98, rfl⟩
abbrev main_call5_v6 : Ref sig .tc := ⟨.hbm, 99, rfl⟩
abbrev main_call5_v7 : Ref sig .tc := ⟨.hbm, 100, rfl⟩
abbrev main_call5_v8 : Ref sig .tc := ⟨.hbm, 101, rfl⟩
abbrev main_call5_v9 : Ref sig .tc := ⟨.hbm, 102, rfl⟩
abbrev main_call5_v10 : Ref sig .tc := ⟨.hbm, 103, rfl⟩
abbrev main_call5_v11 : Ref sig .tc := ⟨.hbm, 104, rfl⟩
abbrev main_call5_c_3 : Ref sig .tc := ⟨.hbm, 105, rfl⟩
abbrev main_call5_v12 : Ref sig .tc := ⟨.hbm, 106, rfl⟩
abbrev main_call5_v13 : Ref sig .tc := ⟨.hbm, 107, rfl⟩
abbrev main_call5_c_4 : Ref sig .tc := ⟨.hbm, 108, rfl⟩
abbrev main_call5_v14 : Ref sig .tc := ⟨.hbm, 109, rfl⟩
abbrev main_v34 : Ref sig .tc := ⟨.hbm, 110, rfl⟩
abbrev main_v35 : Ref sig .tc := ⟨.hbm, 111, rfl⟩
abbrev main_c_6 : Ref sig .tc := ⟨.hbm, 112, rfl⟩
abbrev main_call6_v0 : Ref sig .tc := ⟨.hbm, 113, rfl⟩
abbrev main_call6_v1 : Ref sig .tc := ⟨.hbm, 114, rfl⟩
abbrev main_call6_v2 : Ref sig .tc := ⟨.hbm, 115, rfl⟩
abbrev main_call6_v3 : Ref sig .tc := ⟨.hbm, 116, rfl⟩
abbrev main_call6_v4 : Ref sig .tc := ⟨.hbm, 117, rfl⟩
abbrev main_call6_v5 : Ref sig .tc := ⟨.hbm, 118, rfl⟩
abbrev main_call6_v6 : Ref sig .tc := ⟨.hbm, 119, rfl⟩
abbrev main_call6_v7 : Ref sig .tc := ⟨.hbm, 120, rfl⟩
abbrev main_call6_v8 : Ref sig .tc := ⟨.hbm, 121, rfl⟩
abbrev main_call6_c : Ref sig .tc := ⟨.hbm, 122, rfl⟩
abbrev main_call6_v9 : Ref sig .tc := ⟨.hbm, 123, rfl⟩
abbrev main_call6_v10 : Ref sig .tc := ⟨.hbm, 124, rfl⟩
abbrev main_call6_v11 : Ref sig .tc := ⟨.hbm, 125, rfl⟩
abbrev main_call6_c_0 : Ref sig .tc := ⟨.hbm, 126, rfl⟩
abbrev main_call6_v12 : Ref sig .tc := ⟨.hbm, 127, rfl⟩
abbrev main_call6_v13 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_v40 : Ref sig .tc := ⟨.hbm, 133, rfl⟩
abbrev main_v41 : Ref sig .tc := ⟨.hbm, 134, rfl⟩
abbrev main_v42 : Ref sig .tc := ⟨.hbm, 135, rfl⟩
abbrev main_v43 : Ref sig .tc := ⟨.hbm, 136, rfl⟩
abbrev main_c_7 : Ref sig .tc := ⟨.hbm, 137, rfl⟩
abbrev main_v44 : Ref sig .tc := ⟨.hbm, 138, rfl⟩
abbrev main_c_8 : Ref sig .tc := ⟨.hbm, 139, rfl⟩
abbrev main_v45 : Ref sig .tc := ⟨.hbm, 140, rfl⟩
abbrev main_cst : Ref sig .tc := ⟨.hbm, 141, rfl⟩
abbrev main_v47 : Ref sig .tc := ⟨.hbm, 142, rfl⟩
abbrev main_c_9 : Ref sig .tc := ⟨.hbm, 143, rfl⟩
abbrev main_v48 : Ref sig .tc := ⟨.hbm, 144, rfl⟩
abbrev main_v49 : Ref sig .tc := ⟨.hbm, 145, rfl⟩
abbrev main_c_10 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_v55 : Ref sig .tc := ⟨.hbm, 152, rfl⟩
abbrev main_call7_c : Ref sig .tc := ⟨.hbm, 153, rfl⟩
abbrev main_call7_v0 : Ref sig .tc := ⟨.hbm, 154, rfl⟩
abbrev main_call7_v1 : Ref sig .tc := ⟨.hbm, 155, rfl⟩
abbrev main_call7_c_0 : Ref sig .tc := ⟨.hbm, 156, rfl⟩
abbrev main_call7_v2 : Ref sig .tc := ⟨.hbm, 157, rfl⟩
abbrev main_call7_v3 : Ref sig .tc := ⟨.hbm, 158, rfl⟩
abbrev main_call7_v4 : Ref sig .tc := ⟨.hbm, 159, rfl⟩
abbrev main_call7_v5 : Ref sig .tc := ⟨.hbm, 160, rfl⟩
abbrev main_call7_c_1 : Ref sig .tc := ⟨.hbm, 161, rfl⟩
abbrev main_call7_c_2 : Ref sig .tc := ⟨.hbm, 162, rfl⟩
abbrev main_call7_v6 : Ref sig .tc := ⟨.hbm, 163, rfl⟩
abbrev main_call7_v7 : Ref sig .tc := ⟨.hbm, 164, rfl⟩
abbrev main_call7_v8 : Ref sig .tc := ⟨.hbm, 165, rfl⟩
abbrev main_call7_v9 : Ref sig .tc := ⟨.hbm, 166, rfl⟩
abbrev main_call7_v10 : Ref sig .tc := ⟨.hbm, 167, rfl⟩
abbrev main_call7_v11 : Ref sig .tc := ⟨.hbm, 168, rfl⟩
abbrev main_call7_c_3 : Ref sig .tc := ⟨.hbm, 169, rfl⟩
abbrev main_call7_v12 : Ref sig .tc := ⟨.hbm, 170, rfl⟩
abbrev main_call7_v13 : Ref sig .tc := ⟨.hbm, 171, rfl⟩
abbrev main_call7_v14 : Ref sig .tc := ⟨.hbm, 172, rfl⟩
abbrev main_call7_cst : Ref sig .tc := ⟨.hbm, 173, rfl⟩
abbrev main_call7_v15 : Ref sig .tc := ⟨.hbm, 174, rfl⟩
abbrev main_v56 : Ref sig .tc := ⟨.hbm, 175, rfl⟩
abbrev main_v57 : Ref sig .tc := ⟨.hbm, 176, rfl⟩
abbrev main_v58 : Ref sig .tc := ⟨.hbm, 177, rfl⟩
abbrev main_v46 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem4_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![72], ![false]⟩

abbrev pre1 : Pipeline.Prefetch sig := ⟨1, ![main_v46.idx], fun | 0 => main_v46.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (k1_off1_inb : ∀ i : grid1.Coords, ∀ a, (k1_off1 i) a + S1.size a ≤ S72.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S72) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S64x512x512_S32768x512 : S64x512x512.ShapeCasts S32768x512
  shapeCasts_S64x512_S32768 : S64x512.ShapeCasts S32768
  bitsLt_bf16_f32 : FTy.bits .bf16 < FTy.bits .f32
  pads_S512x1_S512x128_000_01270 : S512x1.Pads (![0, 0] : Fin 2 → Nat) ![0, 127] ![0, 0] S512x128
  h_S_ : 0 < S_.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  packedbf16_S512x1024_S512x1024_0_0 : (Rect.unit (s := S512x1024) ![0, 0] S512x1024.size inb_S512x1024_S512x1024_0_0).PackedRows (EltTy.packing .bf16)
  bcast_S32768_S32768x1_0 : S32768.BroadcastsInDim S32768x1 (![0] : Fin 1 → Fin S32768x1.rank)
  bcast_S8_S1x8_1 : S8.BroadcastsInDim S1x8 (![1] : Fin 1 → Fin S1x8.rank)
  bcast_S32768x1_S32768x8_0_1 : S32768x1.BroadcastsInDim S32768x8 (![0, 1] : Fin 2 → Fin S32768x8.rank)
  bcast_S1x8_S32768x8_0_1 : S1x8.BroadcastsInDim S32768x8 (![0, 1] : Fin 2 → Fin S32768x8.rank)
  natLt_1_32 : 1 < 32
  bcast_S_S_ : S_.BroadcastsInDim S_ (![] : Fin 0 → Fin S_.rank)
  reduceWindows_S32768x8_S32768x8_w32768s1p32767_0_w1s1p0_0 : S32768x8.ReduceWindows (![32768, 1] : Fin 2 → Nat) ![1, 1] ![32767, 0] ![0, 0] S32768x8
  slices_S32768x8_S1x8_32767_0 : S32768x8.Slices ![32767, 0] S1x8
  shapeCasts_S1x8_S8 : S1x8.ShapeCasts S8
  bcast_S_S32768x1 : S_.BroadcastsInDim S32768x1 (![] : Fin 0 → Fin S32768x1.rank)
  shapeCasts_S32768x1_S32768x1x1 : S32768x1.ShapeCasts S32768x1x1
  bcast_S_S32768x1x1 : S_.BroadcastsInDim S32768x1x1 (![] : Fin 0 → Fin S32768x1x1.rank)
  bcast_S1_S1x1x1_2 : S1.BroadcastsInDim S1x1x1 (![2] : Fin 1 → Fin S1x1x1.rank)
  bcast_S1x1x1_S32768x1x1_0_1_2 : S1x1x1.BroadcastsInDim S32768x1x1 (![0, 1, 2] : Fin 3 → Fin S32768x1x1.rank)
  reducesTo_S32768x1x1_S32768x1_d2 : S32768x1x1.ReducesTo [2] S32768x1
  shapeCasts_S32768x1_S32768 : S32768x1.ShapeCasts S32768
  bcast_S_S32768 : S_.BroadcastsInDim S32768 (![] : Fin 0 → Fin S32768.rank)
  bcast_S_S8 : S_.BroadcastsInDim S8 (![] : Fin 0 → Fin S8.rank)
  bcast_S_S1 : S_.BroadcastsInDim S1 (![] : Fin 0 → Fin S1.rank)
  reduceWindows_S8_S8_w8s1p7_0 : S8.ReduceWindows (![8] : Fin 1 → Nat) ![1] ![7] ![0] S8
  concatenates_S1_S8_S9_d0 : Shape.Concatenates [S1, S8] S9 0
  slices_S9_S8_0 : S9.Slices ![0] S8
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x1_S32768_d1 : S32768x1.ReducesTo [1] S32768
  bcast_S8_S8x1_0 : S8.BroadcastsInDim S8x1 (![0] : Fin 1 → Fin S8x1.rank)
  bcast_S72_S1x72_1 : S72.BroadcastsInDim S1x72 (![1] : Fin 1 → Fin S1x72.rank)
  bcast_S8x1_S8x72_0_1 : S8x1.BroadcastsInDim S8x72 (![0, 1] : Fin 2 → Fin S8x72.rank)
  bcast_S1x72_S8x72_0_1 : S1x72.BroadcastsInDim S8x72 (![0, 1] : Fin 2 → Fin S8x72.rank)
  reducesTo_S8x72_S72_d0 : S8x72.ReducesTo [0] S72
  bcast_S_S72 : S_.BroadcastsInDim S72 (![] : Fin 0 → Fin S72.rank)
  bcast_S_S36864x1024 : S_.BroadcastsInDim S36864x1024 (![] : Fin 0 → Fin S36864x1024.rank)
  numel1_S1 : S1.numel = 1
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bcast_S32768_S32768x512_0 : S32768.BroadcastsInDim S32768x512 (![0] : Fin 1 → Fin S32768x512.rank)
  bcast_S_S32768x512 : S_.BroadcastsInDim S32768x512 (![] : Fin 0 → Fin S32768x512.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S32768x128_S32768x1_0_0 : S32768x128.Slices ![0, 0] S32768x1
  dot_S512x512_S512x1024_S512x1024_1_0_0_1_n_n_wf : DotDims.WF S512x512 S512x1024 S512x1024 [1] [0] [0] [1] [] []
  gather_S32768x8_S32768x1x1_S32768x1_n_1_0_0_1_2_11_wf : GatherDims.WF S32768x8 S32768x1x1 S32768x1 [] [1] [0] [1] [0] 2 ![1, 1]
  gather_S8_S32768x1_S32768_n_0_n_n_0_1_1_wf : GatherDims.WF S8 S32768x1 S32768 [] [0] [] [0] [] 1 ![1]
  scatter_S36864x1024_S32768x1_S32768x1024_1_0_0_1_wf : ScatterDims.WF S36864x1024 S32768x1 S32768x1024 [1] [0] [0] 1
  dot_S512x1024_S1024x512_S512x512_1_0_0_1_n_n_wf : DotDims.WF S512x1024 S1024x512 S512x512 [1] [0] [0] [1] [] []
  gather_S36864x512_S32768x1_S32768x512_1_0_n_n_0_1_1512_wf : GatherDims.WF S36864x512 S32768x1 S32768x512 [1] [0] [] [0] [] 1 ![1, 512]
  dot_S512x512_S512x512_S512x512_1_0_0_1_n_n_wf : DotDims.WF S512x512 S512x512 S512x512 [1] [0] [0] [1] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S32768x1024.size a
  hwx0_2 : ∀ i : grid0.Coords, EltTy.bits .bf16 = 32 ∨ (Rect.block (s := S32768x1024) S512x1024.size (cc0_transform_2 i) (hinb0_2 i)).WholeWords (EltTy.packing .bf16)
  hrank1 : 0 < grid1.rank
  k1_off1_inb : ∀ i : grid1.Coords, ∀ a, (k1_off1 i) a + S1.size a ≤ S72.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S36864x1024.size a
  hwx1_0 : ∀ i : grid1.Coords, EltTy.bits .bf16 = 32 ∨ (Rect.block (s := S36864x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S36864x512.size a
  hwx1_2 : ∀ i : grid1.Coords, EltTy.bits .f32 = 32 ∨ (Rect.block (s := S36864x512) S512x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S32768x512.size a
  hwx2_0 : ∀ i : grid2.Coords, EltTy.bits .f32 = 32 ∨ (Rect.block (s := S32768x512) S512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S32768x512.size a
  hwx2_1 : ∀ i : grid2.Coords, EltTy.bits .f32 = 32 ∨ (Rect.block (s := S32768x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .bf16 = 32 ∨ (Rect.block (s := S512x512) S512x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S512x128.size a
  hwx2_3 : ∀ i : grid2.Coords, EltTy.bits .bf16 = 32 ∨ (Rect.block (s := S512x128) S512x128.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x128.size a ≤ S32768x128.size a
  hwx2_4 : ∀ i : grid2.Coords, EltTy.bits .f32 = 32 ∨ (Rect.block (s := S32768x128) S512x128.size (cc2_transform_4 i) (hinb2_4 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def gather_S32768x8_S32768x1x1_S32768x1_n_1_0_0_1_2_11 : GatherDims S32768x8 S32768x1x1 S32768x1 where
  offsetDims := []
  collapsedSliceDims := [1]
  operandBatchingDims := [0]
  startIndicesBatchingDims := [0]
  startIndexMap := [1]
  indexVectorDim := 2
  sliceSizes := ![1, 1]
  wf := gather_S32768x8_S32768x1x1_S32768x1_n_1_0_0_1_2_11_wf
def gather_S8_S32768x1_S32768_n_0_n_n_0_1_1 : GatherDims S8 S32768x1 S32768 where
  offsetDims := []
  collapsedSliceDims := [0]
  operandBatchingDims := []
  startIndicesBatchingDims := []
  startIndexMap := [0]
  indexVectorDim := 1
  sliceSizes := ![1]
  wf := gather_S8_S32768x1_S32768_n_0_n_n_0_1_1_wf
def scatter_S36864x1024_S32768x1_S32768x1024_1_0_0_1 : ScatterDims S36864x1024 S32768x1 S32768x1024 where
  updateWindowDims := [1]
  insertedWindowDims := [0]
  scatterDimsToOperandDims := [0]
  indexVectorDim := 1
  wf := scatter_S36864x1024_S32768x1_S32768x1024_1_0_0_1_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def gather_S36864x512_S32768x1_S32768x512_1_0_n_n_0_1_1512 : GatherDims S36864x512 S32768x1 S32768x512 where
  offsetDims := [1]
  collapsedSliceDims := [0]
  operandBatchingDims := []
  startIndicesBatchingDims := []
  startIndexMap := [0]
  indexVectorDim := 1
  sliceSizes := ![1, 512]
  wf := gather_S36864x512_S32768x1_S32768x512_1_0_n_n_0_1_1512_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev spec1_0 : Pipeline.WinSpec sig grid1.rank :=
  Pipeline.WinSpec.ofSpec (Memref.whole main_v54) S512x1024.size reads1_0 false false 2 stage1_0 sem1_0 nbuf1_0 hstage1_0

abbrev spec1_1 : Pipeline.WinSpec sig grid1.rank :=
  Pipeline.WinSpec.ofSpec (Memref.whole main_v3) S1x1024x512.size reads1_1 false false 2 stage1_1 sem1_1 nbuf1_1 hstage1_1

abbrev spec1_2 : Pipeline.WinSpec sig grid1.rank :=
  Pipeline.WinSpec.ofSpec (Memref.whole main_v55) S512x512.size reads1_2 true false 2 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 | 1 => cc1_transform_1 k1_off1_inb numel1_S1 pf | 2 => cc1_transform_2 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 pf | 2 => hreads1_2 | ⟨_ + 3, h⟩ => absurd h (Nat.not_lt.2 (Nat.le_add_left _ _))
def ok1 (pf : pre1.Contents (Elt F)) : Prop :=
  (∀ i : grid1.Coords, ∃ h : (∀ a, (cc1_transform_1 k1_off1_inb numel1_S1 pf i a + 1) * S1x1024x512.size a ≤ S8x1024x512.size a), EltTy.bits .bf16 = 32 ∨ (Rect.block (s := S8x1024x512) S1x1024x512.size (cc1_transform_1 k1_off1_inb numel1_S1 pf i) h).WholeWords (EltTy.packing .bf16))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => hinb1_0 | 1 => fun i a => (hok i).elim fun h _ => h a | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => hwx1_0 | 1 => fun i => (hok i).elim fun _ h => h | 2 => hwx1_2 | ⟨_ + 3, h⟩ => absurd h (Nat.not_lt.2 (Nat.le_add_left _ _))
abbrev win2_0 : Pipeline.Window sig grid2 :=
  Pipeline.Window.ofSpec (Memref.whole main_v0) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S512x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S512x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where
  harr1 : ∀ w, (spec1 w).arr.IsWhole

variable [Facts]
-- ==== ReferenceIdeal.lean ====
abbrev S64x512x512 : Shape := ⟨3, ![64, 512, 512]⟩
abbrev S64x512 : Shape := ⟨2, ![64, 512]⟩
abbrev S512x1024 : Shape := ⟨2, ![512, 1024]⟩
abbrev S8x1024x512 : Shape := ⟨3, ![8, 1024, 512]⟩
abbrev S512x512 : Shape := ⟨2, ![512, 512]⟩
abbrev S512x1 : Shape := ⟨2, ![512, 1]⟩
abbrev S32768x512 : Shape := ⟨2, ![32768, 512]⟩
abbrev S32768 : Shape := ⟨1, ![32768]⟩
abbrev S32768x1024 : Shape := ⟨2, ![32768, 1024]⟩
abbrev S_ : Shape := ⟨0, ![]⟩
abbrev S1x1024x512 : Shape := ⟨3, ![1, 1024, 512]⟩
abbrev S1024x512 : Shape := ⟨2, ![1024, 512]⟩
abbrev S32768x1 : Shape := ⟨2, ![32768, 1]⟩

abbrev nBuf : Space → Nat
  | .hbm => 116
  | .vmem => 0
  | .smem => 0
  | _ => 0

abbrev bufTy : (tb : Table) → Fin (tcTables nBuf tb) → BufTy
  | .hbm, ⟨0, _⟩ => ⟨S64x512x512, .f32⟩
  | .hbm, ⟨1, _⟩ => ⟨S64x512, .i32⟩
  | .hbm, ⟨2, _⟩ => ⟨S512x1024, .f32⟩
  | .hbm, ⟨3, _⟩ => ⟨S8x1024x512, .f32⟩
  | .hbm, ⟨4, _⟩ => ⟨S512x512, .f32⟩
  | .hbm, ⟨5, _⟩ => ⟨S512x1, .f32⟩
  | .hbm, ⟨6, _⟩ => ⟨S32768x512, .f32⟩
  | .hbm, ⟨7, _⟩ => ⟨S32768, .i32⟩
  | .hbm, ⟨8, _⟩ => ⟨S32768x1024, .f32⟩
  | .hbm, ⟨9, _⟩ => ⟨S_, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768x512, .f32⟩
  | .hbm, ⟨14, _⟩ => ⟨S1x1024x512, .f32⟩
  | .hbm, ⟨15, _⟩ => ⟨S1024x512, .f32⟩
  | .hbm, ⟨16, _⟩ => ⟨S32768x512, .f32⟩
  | .hbm, ⟨17, _⟩ => ⟨S_, .f32⟩
  | .hbm, ⟨18, _⟩ => ⟨S32768x512, .f32⟩
  | .hbm, ⟨19, _⟩ => ⟨S32768x512, .f32⟩
  | .hbm, ⟨20, _⟩ => ⟨S_, .i32⟩
  | .hbm, ⟨21, _⟩ => ⟨S32768, .i32⟩
  | .hbm, ⟨22, _⟩ => ⟨S32768, .i1⟩
  | .hbm, ⟨23, _⟩ => ⟨S32768x1, .i1⟩
  | .hbm, ⟨24, _⟩ => ⟨S32768x512, .i1⟩
  | .hbm, ⟨25, _⟩ => ⟨S32768x512, .f32⟩
  | .hbm, ⟨26, _⟩ => ⟨S1x1024x512, .f32⟩
  | .hbm, ⟨27, _⟩ => ⟨S1024x512, .f32⟩
  | .hbm, ⟨28, _⟩ => ⟨S32768x512, .f32⟩
  | .hbm, ⟨29, _⟩ => ⟨S_, .f32⟩
  | .hbm, ⟨30, _⟩ => ⟨S32768x512, .f32⟩
  | .hbm, ⟨31, _⟩ => ⟨S32768x512, .f32⟩
  | .hbm, ⟨32, _⟩ => ⟨S_, .i32⟩
  | .hbm, ⟨33, _⟩ => ⟨S32768, .i32⟩
  | .hbm, ⟨34, _⟩ => ⟨S32768, .i1⟩
  | .hbm, ⟨35, _⟩ => ⟨S32768x1, .i1⟩
  | .hbm, ⟨36, _⟩ => ⟨S32768x512, .i1⟩
  | .hbm, ⟨37, _⟩ => ⟨S32768x512, .f32⟩
  | .hbm, ⟨38, _⟩ => ⟨S1x1024x512, .f32⟩
  | .hbm, ⟨39, _⟩ => ⟨S1024x512, .f32⟩
  | .hbm, ⟨40, _⟩ => ⟨S32768x512, .f32⟩
  | .hbm, ⟨41, _⟩ => ⟨S_, .f32⟩
  | .hbm, ⟨42, _⟩ => ⟨S32768x512, .f32⟩
  | .hbm, ⟨43, _⟩ => ⟨S32768x512, .f32⟩
  | .hbm, ⟨44, _⟩ => ⟨S_, .i32⟩
  | .hbm, ⟨45, _⟩ => ⟨S32768, .i32⟩
  | .hbm, ⟨46, _⟩ => ⟨S32768, .i1⟩
  | .hbm, ⟨47, _⟩ => ⟨S32768x1, .i1⟩
  | .hbm, ⟨48, _⟩ => ⟨S32768x512, .i1⟩
  | .hbm, ⟨49, _⟩ => ⟨S32768x512, .f32⟩
  | .hbm, ⟨50, _⟩ => ⟨S1x1024x512, .f32⟩
  | .hbm, ⟨51, _⟩ => ⟨S1024x512, .f32⟩
  | .hbm, ⟨52, _⟩ => ⟨S32768x512, .f32⟩
  | .hbm, ⟨53, _⟩ => ⟨S_, .f32⟩
  | .hbm, ⟨54, _⟩ => ⟨S32768x512, .f32⟩
  | .hbm, ⟨55, _⟩ => ⟨S32768x512, .f32⟩
  | .hbm, ⟨56, _⟩ => ⟨S_, .i32⟩
  | .hbm, ⟨57, _⟩ => ⟨S32768, .i32⟩
  | .hbm, ⟨58, _⟩ => ⟨S32768, .i1⟩
  | .hbm, ⟨59, _⟩ => ⟨S32768x1, .i1⟩
  | .hbm, ⟨60, _⟩ => ⟨S32768x512, .i1⟩
  | .hbm, ⟨61, _⟩ => ⟨S32768x512, .f32⟩
  | .hbm, ⟨62, _⟩ => ⟨S1x1024x512, .f32⟩
  | .hbm, ⟨63, _⟩ => ⟨S1024x512, .f32⟩
  | .hbm, ⟨64, _⟩ => ⟨S32768x512, .f32⟩
  | .hbm, ⟨65, _⟩ => ⟨S_, .f32⟩
  | .hbm, ⟨66, _⟩ => ⟨S32768x512, .f32⟩
  | .hbm, ⟨67, _⟩ => ⟨S32768x512, .f32⟩
  | .hbm, ⟨68, _⟩ => ⟨S_, .i32⟩
  | .hbm, ⟨69, _⟩ => ⟨S32768, .i32⟩
  | .hbm, ⟨70, _⟩ => ⟨S32768, .i1⟩
  | .hbm, ⟨71, _⟩ => ⟨S32768x1, .i1⟩
  | .hbm, ⟨72, _⟩ => ⟨S32768x512, .i1⟩
  | .hbm, ⟨73, _⟩ => ⟨S32768x512, .f32⟩
  | .hbm, ⟨74, _⟩ => ⟨S1x1024x512, .f32⟩
  | .hbm, ⟨75, _⟩ => ⟨S1024x512, .f32⟩
  | .hbm, ⟨76, _⟩ => ⟨S32768x512, .f32⟩
  | .hbm, ⟨77, _⟩ => ⟨S_, .f32⟩
  | .hbm, ⟨78, _⟩ => ⟨S32768x512, .f32⟩
  | .hbm, ⟨79, _⟩ => ⟨S32768x512, .f32⟩
  | .hbm, ⟨80, _⟩ => ⟨S_, .i32⟩
  | .hbm, ⟨81, _⟩ => ⟨S32768, .i32⟩
  | .hbm, ⟨82, _⟩ => ⟨S32768, .i1⟩
  | .hbm, ⟨83, _⟩ => ⟨S32768x1, .i1⟩
  | .hbm, ⟨84, _⟩ => ⟨S32768x512, .i1⟩
  | .hbm, ⟨85, _⟩ => ⟨S32768x512, .f32⟩
  | .hbm, ⟨86, _⟩ => ⟨S1x1024x512, .f32⟩
  | .hbm, ⟨87, _⟩ => ⟨S1024x512, .f32⟩
  | .hbm, ⟨88, _⟩ => ⟨S32768x512, .f32⟩
  | .hbm, ⟨89, _⟩ => ⟨S_, .f32⟩
  | .hbm, ⟨90, _⟩ => ⟨S32768x512, .f32⟩
  | .hbm, ⟨91, _⟩ => ⟨S32768x512, .f32⟩
  | .hbm, ⟨92, _⟩ => ⟨S_, .i32⟩
  | .hbm, ⟨93, _⟩ => ⟨S32768, .i32⟩
  | .hbm, ⟨94, _⟩ => ⟨S32768, .i1⟩
  | .hbm, ⟨95, _⟩ => ⟨S32768x1, .i1⟩
  | .hbm, ⟨96, _⟩ => ⟨S32768x512, .i1⟩
  | .hbm, ⟨97, _⟩ => ⟨S32768x512, .f32⟩
  | .hbm, ⟨98, _⟩ => ⟨S1x1024x512, .f32⟩
  | .hbm, ⟨99, _⟩ => ⟨S1024x512, .f32⟩
  | .hbm, ⟨100, _⟩ => ⟨S32768x512, .f32⟩
  | .hbm, ⟨101, _⟩ => ⟨S_, .f32⟩
  | .hbm, ⟨102, _⟩ => ⟨S32768x512, .f32⟩
  | .hbm, ⟨103, _⟩ => ⟨S32768x512, .f32⟩
  | .hbm, ⟨104, _⟩ => ⟨S_, .i32⟩
  | .hbm, ⟨105, _⟩ => ⟨S32768, .i32⟩
  | .hbm, ⟨106, _⟩ => ⟨S32768, .i1⟩
  | .hbm, ⟨107, _⟩ => ⟨S32768x1, .i1⟩
  | .hbm, ⟨108, _⟩ => ⟨S32768x512, .i1⟩
  | .hbm, ⟨109, _⟩ => ⟨S32768x512, .f32⟩
  | .hbm, ⟨110, _⟩ => ⟨S32768x512, .f32⟩
  | .hbm, ⟨111, _⟩ => ⟨S32768x512, .f32⟩
  | .hbm, ⟨112, _⟩ => ⟨S_, .f32⟩
  | .hbm, ⟨113, _⟩ => ⟨S32768x512, .f32⟩
  | .hbm, ⟨114, _⟩ => ⟨S32768x512, .f32⟩
  | .hbm, ⟨115, _⟩ => ⟨S32768x1, .f32⟩
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call1_cst : Ref sig .tc := ⟨.hbm, 17, rfl⟩
abbrev main_call1_v0 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call2_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call3_cst : Ref sig .tc := ⟨.hbm, 29, rfl⟩
abbrev main_call3_v0 : Ref sig .tc := ⟨.hbm, 30, rfl⟩
abbrev main_v16 : Ref sig .tc := ⟨.hbm, 31, rfl⟩
abbrev main_c_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call4_v0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call5_cst : Ref sig .tc := ⟨.hbm, 41, rfl⟩
abbrev main_call5_v0 : Ref sig .tc := ⟨.hbm, 42, rfl⟩
abbrev main_v24 : Ref sig .tc := ⟨.hbm, 43, rfl⟩
abbrev main_c_1 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call6_v0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call7_cst : Ref sig .tc := ⟨.hbm, 53, rfl⟩
abbrev main_call7_v0 : Ref sig .tc := ⟨.hbm, 54, rfl⟩
abbrev main_v32 : Ref sig .tc := ⟨.hbm, 55, rfl⟩
abbrev main_c_2 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_call8_v0 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call9_cst : Ref sig .tc := ⟨.hbm, 65, rfl⟩
abbrev main_call9_v0 : Ref sig .tc := ⟨.hbm, 66, rfl⟩
abbrev main_v40 : Ref sig .tc := ⟨.hbm, 67, rfl⟩
abbrev main_c_3 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_call10_v0 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_call11_cst : Ref sig .tc := ⟨.hbm, 77, rfl⟩
abbrev main_call11_v0 : Ref sig .tc := ⟨.hbm, 78, rfl⟩
abbrev main_v48 : Ref sig .tc := ⟨.hbm, 79, rfl⟩
abbrev main_c_4 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_call12_v0 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_call13_cst : Ref sig .tc := ⟨.hbm, 89, rfl⟩
abbrev main_call13_v0 : Ref sig .tc := ⟨.hbm, 90, rfl⟩
abbrev main_v56 : Ref sig .tc := ⟨.hbm, 91, rfl⟩
abbrev main_c_5 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_call14_v0 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_call15_cst : Ref sig .tc := ⟨.hbm, 101, rfl⟩
abbrev main_call15_v0 : Ref sig .tc := ⟨.hbm, 102, rfl⟩
abbrev main_v64 : Ref sig .tc := ⟨.hbm, 103, rfl⟩
abbrev main_c_6 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_call16_v0 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_call17_cst : Ref sig .tc := ⟨.hbm, 112, rfl⟩
abbrev main_call17_v0 : Ref sig .tc := ⟨.hbm, 113, rfl⟩
abbrev main_v71 : Ref sig .tc := ⟨.hbm, 114, rfl⟩
abbrev main_v72 : Ref sig .tc := ⟨.hbm, 115, rfl⟩

abbrev nD : Nat := 1
abbrev τ : Topo := Topo.v7x

variable {F : FTy → Type} [FloatOps F]

class Facts₀ : Prop where
  shapeCasts_S64x512x512_S32768x512 : S64x512x512.ShapeCasts S32768x512
  shapeCasts_S64x512_S32768 : S64x512.ShapeCasts S32768
  bcast_S_S32768x1024 : S_.BroadcastsInDim S32768x1024 (![] : Fin 0 → Fin S32768x1024.rank)
  bcast_S_S32768x512 : S_.BroadcastsInDim S32768x512 (![] : Fin 0 → Fin S32768x512.rank)
  slices_S8x1024x512_S1x1024x512_0_0_0 : S8x1024x512.Slices ![0, 0, 0] S1x1024x512
  shapeCasts_S1x1024x512_S1024x512 : S1x1024x512.ShapeCasts S1024x512
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x512_0_1 : S32768x1.BroadcastsInDim S32768x512 (![0, 1] : Fin 2 → Fin S32768x512.rank)
  slices_S8x1024x512_S1x1024x512_1_0_0 : S8x1024x512.Slices ![1, 0, 0] S1x1024x512
  slices_S8x1024x512_S1x1024x512_2_0_0 : S8x1024x512.Slices ![2, 0, 0] S1x1024x512
  slices_S8x1024x512_S1x1024x512_3_0_0 : S8x1024x512.Slices ![3, 0, 0] S1x1024x512
  slices_S8x1024x512_S1x1024x512_4_0_0 : S8x1024x512.Slices ![4, 0, 0] S1x1024x512
  slices_S8x1024x512_S1x1024x512_5_0_0 : S8x1024x512.Slices ![5, 0, 0] S1x1024x512
  slices_S8x1024x512_S1x1024x512_6_0_0 : S8x1024x512.Slices ![6, 0, 0] S1x1024x512
  slices_S8x1024x512_S1x1024x512_7_0_0 : S8x1024x512.Slices ![7, 0, 0] S1x1024x512
  dot_S32768x512_S512x1024_S32768x1024_1_0_0_1_n_n_wf : DotDims.WF S32768x512 S512x1024 S32768x1024 [1] [0] [0] [1] [] []
  dot_S32768x1024_S1024x512_S32768x512_1_0_0_1_n_n_wf : DotDims.WF S32768x1024 S1024x512 S32768x512 [1] [0] [0] [1] [] []
  dot_S32768x512_S512x512_S32768x512_1_0_0_1_n_n_wf : DotDims.WF S32768x512 S512x512 S32768x512 [1] [0] [0] [1] [] []
  dot_S32768x512_S512x1_S32768x1_1_0_0_1_n_n_wf : DotDims.WF S32768x512 S512x1 S32768x1 [1] [0] [0] [1] [] []

variable [Facts₀]

def dot_S32768x512_S512x1024_S32768x1024_1_0_0_1_n_n : DotDims S32768x512 S512x1024 S32768x1024 where
  lhsContracting := [1]
  rhsContracting := [0]
  lhsNonContracting := [0]
  rhsNonContracting := [1]
  lhsBatch := []
  rhsBatch := []
  wf := dot_S32768x512_S512x1024_S32768x1024_1_0_0_1_n_n_wf
def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S512x1_S32768x1_1_0_0_1_n_n : DotDims S32768x512 S512x1 S32768x1 where
  lhsContracting := [1]
  rhsContracting := [0]
  lhsNonContracting := [0]
  rhsNonContracting := [1]
  lhsBatch := []
  rhsBatch := []
  wf := dot_S32768x512_S512x1_S32768x1_1_0_0_1_n_n_wf

class Facts : Prop extends Facts₀ where

variable [Facts]
-- ==== Proof.KFrame.Region0.lean ====
import proofs.«157345_j20959440404665_2_alg».proof.Proof.Gen.KernelIdeal.Launch
import proofs.«157345_j20959440404665_2_alg».proof.Proof.Gen.KernelIdeal.Skeleton
import proofs.«157345_j20959440404665_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 of the program: the first kernel call, relu of a row block times a resident matrix, at any entry contents

Everything here is stated at a parameter `V`: what the core's buffers hold when the region is entered. The run
instantiates it at the contents the host operations before the region leave. -/

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether it was fetched there or
    not (when it was not, the block index has not moved): for any proof data whose array is `V`'s and whose body
    leaves the block in place. Window 0, the row block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1, the resident matrix: fetched once, its one block the whole array. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each memref read and written whole -/

abbrev r0_a : Rect S512x512 := Rect.unit (s := S512x512) ![0, 0] S512x512.size Gen.inb_S512x512_S512x512_0_0
abbrev r0_b : Rect S512x1024 := Rect.unit (s := S512x1024) ![0, 0] S512x1024.size Gen.inb_S512x1024_S512x1024_0_0

/-! ## What the body leaves in the output window's buffer -/

/-- Window 2's staging buffer after the body, from the two input blocks: its one store, of the payload
    `k0_pay1` (the rounded relu of the product) of the blocks as loaded. -/
def out0_2 (x0 : Vec F S512x512 .f32) (x1 : Vec F S512x1024 .bf16) : Vec F S512x1024 .bf16 :=
  View.canon [⟨r0_b, k0_pay1 (View.ld x0 r0_a) (View.ld x1 r0_b)⟩]

/-- The one store covers the buffer. -/
theorem cover0_2 (p0 : Vec F S512x1024 .bf16) (y : S512x1024.Idx) :
    ∃ pc ∈ ([⟨r0_b, p0⟩] : List (View.Piece (Elt F) S512x1024 .bf16)), y ∈ pc.1.set :=
  View.cover_of_tiled [⟨r0_b, p0⟩] S512x1024.size (by rfl) y

/-! ## The body's triple -/

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords)
    (arg1 : Memref sig .tc .vmem S512x512 .f32) (harg1 : arg1.IsWhole) (arg2 : Memref sig .tc .vmem S512x1024 .bf16) (harg2 : arg2.IsWhole)
    (arg3 : Memref sig .tc .vmem S512x1024 .bf16) (harg3 : arg3.IsWhole)
    (x0 : Vec F S512x512 .f32) (x1 : Vec F S512x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__kernelA i arg1 harg1 arg2 harg2 arg3 harg3) K := by
  simp only [cc0__kernelA_eq_skeleton]; unfold cc0__kernelA_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` each
    input's buffer still at its block and the output's at `out0_2` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## What a point writes back -/

/-- What grid point `t` writes back to the output window's array: the body's result for the window, `out0_2` of the
    point's input blocks, read through the window's block. -/
theorem flushed0_2 (c : Dev nD) (t : Fin cfg0.N) :
    (dat0 V c).flushed 2 t = (cfg0.win 2).cut (grid0.coords t) (out0_2 (iblk0 V c 0 t) (iblk0 V c 1 t)) := by
  show (cfg0.win 2).cut (grid0.coords t) ((dat0 V c).after 2 t) = _
  rw [after0_2]

/-- An input window's array is never written: it ends as the region found it. -/
theorem arrAt0_in0 (c : Dev nD) (n : Nat) : (dat0 V c).arrAt 0 n = V c (Pipeline.arrRef spec0 0) :=
  ((dat0 V c).arrAt_in 0 rfl _).trans (A_eq0 V c 0)
theorem arrAt0_in1 (c : Dev nD) (n : Nat) : (dat0 V c).arrAt 1 n = V c (Pipeline.arrRef spec0 1) :=
  ((dat0 V c).arrAt_in 1 rfl _).trans (A_eq0 V c 1)

end Cert.KernelIdeal.Hand

end
-- ==== Proof.KFrame.Region1.lean ====
import proofs.«157345_j20959440404665_2_alg».proof.Proof.Gen.KernelIdeal.Launch
import proofs.«157345_j20959440404665_2_alg».proof.Proof.Gen.KernelIdeal.Skeleton
import proofs.«157345_j20959440404665_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 of the program: the middle kernel call, relu of a row block times the matrix the block's group selects,
at any entry contents and any admissible contents of the group table

The second window's block index is read from a table of 72 words held in scalar memory. Everything here is stated at
two parameters: `V`, what the core's buffers hold when the region is entered, and `a`, contents of the table that
satisfy the pipeline's side condition (every word, read as a natural number, below the 8 matrices). -/

/-! ## The side condition on the table, from a bound on its words -/

/-- The pipeline's side condition holds of any table whose every word, read unsigned, is below 8: the second
    window's block then lies inside the stack of 8 matrices, and a block of 1024 rows of 16-bit elements is whole
    words. -/
theorem ok1_of_lt (pf : pre1.Contents (Elt F))
    (h : ∀ i : grid1.Coords, cc1_transform_1 Gen.k1_off1_inb Gen.numel1_S1 pf i 0 < 8) : ok1 (F := F) pf := by
  intro i
  refine ⟨fun ax => ?_, .inr (Affine.block_words_dvd (of_decide_eq_true rfl) (by decide))⟩
  have h0 := h i
  match ax with
  | ⟨0, _⟩ => show (cc1_transform_1 Gen.k1_off1_inb Gen.numel1_S1 pf i 0 + 1) * 1 ≤ 8; omega
  | ⟨1, _⟩ => exact Nat.le_refl _
  | ⟨2, _⟩ => exact Nat.le_refl _

/-- The same from the words themselves: the index map reads word `i` of the table at grid point `i`, as a natural
    number (`BitVec.toNat`). -/
theorem ok1_of_words_lt (pf : pre1.Contents (Elt F))
    (h : ∀ j : (pre1.ref 0).ty.shape.Idx, (show BitVec 32 from pf 0 j).toNat < 8) : ok1 (F := F) pf :=
  ok1_of_lt pf fun i => h _

variable (V : (c : Dev nD) → (b : Ref sig .tc) → Buf (Elt F) ((c : Thread nD τ).loc b)) (a : (pcfg1 (F := F)).Adm)

/-! ## The windows' blocks -/

/-- Window `w`'s block at grid point `t`, read off its array as the region finds it; for the second window a function
    of the table's word at `t`. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- An input window's current staging buffer holds its block at every point, whether it was fetched there or
    not (when it was not, the block index has not moved): for any proof data whose array is `V`'s and whose body
    leaves the block in place. Window 0, the row block; -/
theorem before1_0_of {c : Dev nD} (dat : Dat τ (Elt F) Unit ℕ (UR sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- window 1, the selected matrix: fetched whenever the table's word changes. -/
theorem before1_1_of {c : Dev nD} (dat : Dat τ (Elt F) Unit ℕ (UR sig nD τ) ℕ (cfg1 a) c) (hA : dat.A 1 = V c (Pipeline.arrRef spec1 1))
    (hafter : ∀ t, dat.after 1 t = iblk1 V a c 1 t) (t : Fin (cfg1 a).N) (d) : dat.before 1 t d = iblk1 V a c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs and the body at a point -/

/-- Each window's current staging memref at point `t`, and its wholeness. -/
abbrev ms1_0 (t : Fin (cfg1 a).N) : Memref sig .tc .vmem S512x1024 .bf16 := spec1_0.stage ((cfg1 a).slots t 0)
abbrev hs1_0 (t : Fin (cfg1 a).N) : (ms1_0 a t).IsWhole := Gen.hstage1_0 (((cfg1 a).slots t 0).cast Gen.nbuf1_0)
abbrev ms1_1 (t : Fin (cfg1 a).N) : Memref sig .tc .vmem S1x1024x512 .bf16 := spec1_1.stage ((cfg1 a).slots t 1)
abbrev hs1_1 (t : Fin (cfg1 a).N) : (ms1_1 a t).IsWhole := Gen.hstage1_1 (((cfg1 a).slots t 1).cast Gen.nbuf1_1)
abbrev ms1_2 (t : Fin (cfg1 a).N) : Memref sig .tc .vmem S512x512 .f32 := spec1_2.stage ((cfg1 a).slots t 2)
abbrev hs1_2 (t : Fin (cfg1 a).N) : (ms1_2 a t).IsWhole := Gen.hstage1_2 (((cfg1 a).slots t 2).cast Gen.nbuf1_2)

/-- The kernel body at point `t`, on what the pipeline calls it with: the table's whole buffer and the current staging
    memrefs. -/
abbrev bodyAt1 (t : Fin (cfg1 a).N) : Prog (TpuEff nD τ sig (Elt F) Λ₀ .tc) PUnit :=
  cc1__kernelB (grid1.coords t) (Memref.whole main_v46) (Memref.isWhole_whole _) (ms1_0 a t) (hs1_0 a t) (ms1_1 a t) (hs1_1 a t) (ms1_2 a t) (hs1_2 a t)

/-! ## The body's accesses: each staging memref read and written whole; the table not at all -/

abbrev r1_a : Rect S512x1024 := Rect.unit (s := S512x1024) ![0, 0] S512x1024.size Gen.inb_S512x1024_S512x1024_0_0
abbrev r1_b : Rect S1x1024x512 := Rect.unit (s := S1x1024x512) ![0, 0, 0] S1x1024x512.size Gen.inb_S1x1024x512_S1x1024x512_0_0_0
abbrev r1_c : Rect S512x512 := Rect.unit (s := S512x512) ![0, 0] S512x512.size Gen.inb_S512x512_S512x512_0_0

/-! ## What the body leaves in the output window's buffer -/

/-- Window 2's staging buffer after the body, from the two input blocks: its one store, of the payload
    `k1_pay1` (the relu of the product) of the blocks as loaded. -/
def out1_2 (x0 : Vec F S512x1024 .bf16) (x1 : Vec F S1x1024x512 .bf16) : Vec F S512x512 .f32 :=
  View.canon [⟨r1_c, k1_pay1 (View.ld x0 r1_a) (View.ld x1 r1_b)⟩]

/-- The one store covers the buffer. -/
theorem cover1_2 (p0 : Vec F S512x512 .f32) (y : S512x512.Idx) :
    ∃ pc ∈ ([⟨r1_c, p0⟩] : List (View.Piece (Elt F) S512x512 .f32)), y ∈ pc.1.set :=
  View.cover_of_tiled [⟨r1_c, p0⟩] S512x512.size (by rfl) y

/-! ## The body's triple -/

set_option maxHeartbeats 1000000 in
/-- The body on whole staging memrefs, the inputs' at contents `x0`, `x1` and the output's at anything, runs to the
    continuation holding the inputs' as they were and the output's at `out1_2 x0 x1`; it never touches the table. -/
theorem sound_kernel1 (c : Dev nD) (E : Set ℕ) (i : grid1.Coords)
    (arg1 : Memref sig .tc .smem S72 .i32) (harg1 : arg1.IsWhole)
    (arg2 : Memref sig .tc .vmem S512x1024 .bf16) (harg2 : arg2.IsWhole) (arg3 : Memref sig .tc .vmem S1x1024x512 .bf16) (harg3 : arg3.IsWhole)
    (arg4 : Memref sig .tc .vmem S512x512 .f32) (harg4 : arg4.IsWhole)
    (x0 : Vec F S512x1024 .bf16) (x1 : Vec F S1x1024x512 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__kernelB i arg1 harg1 arg2 harg2 arg3 harg3 arg4 harg4) K := by
  simp only [cc1__kernelB_eq_skeleton]; unfold cc1__kernelB_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The table held whole on core `c` at the contents `a`: what the region hands the invariant at its first point
    and takes back at its last. -/
abbrev tblHeld (c : Dev nD) : sProp 𝕄 :=
  Pipeline.prefHeld (Ix := Unit) (Name := ℕ) (U := UR sig nD τ) (Lvl := ℕ) pre1 c (fun _ => fullShare) a.1

/-- The proof data of pipeline 1 on core `c`, at the table's contents `a`: the arrays as the region finds them; after
    the body at point `t` each input's buffer still at its block and the output's at `out1_2` of the input blocks; the
    invariant the scoped rest, the generator register and the table, all untouched; nothing owed; full shares. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => out1_2 (iblk1 V a c 0 t) (iblk1 V a c 1 t)
  Φ _ := iprop(Pipeline.ΦA spec1 c ∗ tblHeld a c)
  q _ := fullShare
  owed _ := 0

/-- The proof data's arrays are the region-entry contents. -/
theorem A_eq1 (c : Dev nD) (w : Fin (cfg1 a).W) : (dat1 V a c).A w = V c (Pipeline.arrRef spec1 w) := by
  dsimp only [dat1]

/-- What the body leaves, window by window. -/
theorem after1_0 (c : Dev nD) (t : Fin (cfg1 a).N) : (dat1 V a c).after 0 t = iblk1 V a c 0 t := by dsimp only [dat1]; try rfl
theorem after1_1 (c : Dev nD) (t : Fin (cfg1 a).N) : (dat1 V a c).after 1 t = iblk1 V a c 1 t := by dsimp only [dat1]; try rfl
theorem after1_2 (c : Dev nD) (t : Fin (cfg1 a).N) : (dat1 V a c).after 2 t = out1_2 (iblk1 V a c 0 t) (iblk1 V a c 1 t) := by
  dsimp only [dat1]; try rfl

/-- Each input's current staging buffer holds its block at every point. -/
theorem before1_0 (c : Dev nD) (t : Fin (cfg1 a).N) (d) : (dat1 V a c).before 0 t d = iblk1 V a c 0 t :=
  before1_0_of V a (dat1 V a c) (A_eq1 V a c 0) (after1_0 V a c) t d
theorem before1_1 (c : Dev nD) (t : Fin (cfg1 a).N) (d) : (dat1 V a c).before 1 t d = iblk1 V a c 1 t :=
  before1_1_of V a (dat1 V a c) (A_eq1 V a c 1) (after1_1 V a c) t d

/-! ## The body obligation, at a generic point -/

/-- What the body is called with at point `t`, the windows one by one, -/
def bodyPre1 (c : Dev nD) (t : Fin (cfg1 a).N) : sProp 𝕄 :=
  iprop((dat1 V a c).Φ t.castSucc ∗ (dat1 V a c).owesAt () t.castSucc
    ∗ (∃ d, owns (c : Thread nD τ) (ms1_0 a t) fullShare ((dat1 V a c).before 0 t d))
    ∗ (∃ d, owns (c : Thread nD τ) (ms1_1 a t) fullShare ((dat1 V a c).before 1 t d))
    ∗ (∃ d, owns (c : Thread nD τ) (ms1_2 a t) fullShare ((dat1 V a c).before 2 t d)))

/-- and what it returns. -/
def bodyPost1 (c : Dev nD) (t : Fin (cfg1 a).N) : sProp 𝕄 :=
  iprop((dat1 V a c).Φ t.succ ∗ (dat1 V a c).owesAt () t.succ
    ∗ owns (c : Thread nD τ) (ms1_0 a t) fullShare ((dat1 V a c).after 0 t)
    ∗ owns (c : Thread nD τ) (ms1_1 a t) fullShare ((dat1 V a c).after 1 t)
    ∗ owns (c : Thread nD τ) (ms1_2 a t) fullShare ((dat1 V a c).after 2 t))

/-- The body at any point: the inputs' memrefs hold their blocks, so the body's triple applies; the invariant (the
    table in it) and the core's dues pass through unread. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0, before1_1]
  rw [show (dat1 V a c).Φ t.succ = (dat1 V a c).Φ t.castSucc from rfl,
    show (dat1 V a c).owesAt () t.succ = (dat1 V a c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ _ _ (iblk1 V a c 0 t) (iblk1 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V a c) (defs₀ (F := F)) Variants.none () Set.univ := fun t => by
  rw [bigSep_W1, bigSep_W1]
  exact sound_body1 V a c t

/-! ## What a point writes back -/

/-- What grid point `t` writes back to the output window's array: the body's result for the window, `out1_2` of the
    point's input blocks, read through the window's block. -/
theorem flushed1_2 (c : Dev nD) (t : Fin (cfg1 a).N) :
    (dat1 V a c).flushed 2 t
      = ((cfg1 a).win 2).cut ((cfg1 a).grid.coords t) (out1_2 (iblk1 V a c 0 t) (iblk1 V a c 1 t)) := by
  show ((cfg1 a).win 2).cut ((cfg1 a).grid.coords t) ((dat1 V a c).after 2 t) = _
  rw [after1_2]

/-- An input window's array is never written: it ends as the region found it. -/
theorem arrAt1_in0 (c : Dev nD) (n : Nat) : (dat1 V a c).arrAt 0 n = V c (Pipeline.arrRef spec1 0) :=
  ((dat1 V a c).arrAt_in 0 rfl _).trans (A_eq1 V a c 0)
theorem arrAt1_in1 (c : Dev nD) (n : Nat) : (dat1 V a c).arrAt 1 n = V c (Pipeline.arrRef spec1 1) :=
  ((dat1 V a c).arrAt_in 1 rfl _).trans (A_eq1 V a c 1)

end Cert.KernelIdeal.Hand

end
-- ==== Proof.KFrame.Region2.lean ====
import proofs.«157345_j20959440404665_2_alg».proof.Proof.Gen.KernelIdeal.Launch
import proofs.«157345_j20959440404665_2_alg».proof.Proof.Gen.KernelIdeal.Skeleton
import proofs.«157345_j20959440404665_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 of the program: the last kernel call, relu of a sum of two row blocks times a resident matrix, times a
second resident matrix, at any entry contents

Everything here is stated at a parameter `V`: what the core's buffers hold when the region is entered. -/

variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether it was fetched there or
    not (when it was not, the block index has not moved): for any proof data whose array is `V`'s and whose body
    leaves the block in place. Windows 0 and 1, the two row blocks; -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- windows 2 and 3, the resident matrices: fetched once, the one block the whole array. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each memref read and written whole -/

abbrev r2_a : Rect S512x512 := Rect.unit (s := S512x512) ![0, 0] S512x512.size Gen.inb_S512x512_S512x512_0_0
abbrev r2_b : Rect S512x128 := Rect.unit (s := S512x128) ![0, 0] S512x128.size Gen.inb_S512x128_S512x128_0_0

/-! ## What the body leaves in the output window's buffer -/

/-- Window 4's staging buffer after the body, from the four input blocks: its one store, of the payload
    `k2_pay1` (the second product, of the rounded relu of the first) of the blocks as loaded. -/
def out2_4 (x0 x1 : Vec F S512x512 .f32) (x2 : Vec F S512x512 .bf16) (x3 : Vec F S512x128 .bf16) : Vec F S512x128 .f32 :=
  View.canon [⟨r2_b, k2_pay1 (View.ld x0 r2_a) (View.ld x1 r2_a) (View.ld x2 r2_a) (View.ld x3 r2_b)⟩]

/-- The one store covers the buffer. -/
theorem cover2_4 (p0 : Vec F S512x128 .f32) (y : S512x128.Idx) :
    ∃ pc ∈ ([⟨r2_b, p0⟩] : List (View.Piece (Elt F) S512x128 .f32)), y ∈ pc.1.set :=
  View.cover_of_tiled [⟨r2_b, p0⟩] S512x128.size (by rfl) y

/-! ## The body's triple -/

set_option maxHeartbeats 1000000 in
/-- The body on whole staging memrefs, the inputs' at contents `x0` … `x3` and the output's at anything, runs to the
    continuation holding the inputs' as they were and the output's at `out2_4 x0 x1 x2 x3`. -/
theorem sound_kernel2 (c : Dev nD) (E : Set ℕ) (i : grid2.Coords)
    (arg1 : Memref sig .tc .vmem S512x512 .f32) (harg1 : arg1.IsWhole) (arg2 : Memref sig .tc .vmem S512x512 .f32) (harg2 : arg2.IsWhole)
    (arg3 : Memref sig .tc .vmem S512x512 .bf16) (harg3 : arg3.IsWhole) (arg4 : Memref sig .tc .vmem S512x128 .bf16) (harg4 : arg4.IsWhole)
    (arg5 : Memref sig .tc .vmem S512x128 .f32) (harg5 : arg5.IsWhole)
    (x0 x1 : Vec F S512x512 .f32) (x2 : Vec F S512x512 .bf16) (x3 : Vec F S512x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__kernelC i arg1 harg1 arg2 harg2 arg3 harg3 arg4 harg4 arg5 harg5) K := by
  simp only [cc2__kernelC_eq_skeleton]; unfold cc2__kernelC_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them; after the body at point `t` each
    input's buffer still at its block and the output's at `out2_4` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## What a point writes back -/

/-- What grid point `t` writes back to the output window's array: the body's result for the window, `out2_4` of the
    point's input blocks, read through the window's block. -/
theorem flushed2_4 (c : Dev nD) (t : Fin cfg2.N) :
    (dat2 V c).flushed 4 t
      = (cfg2.win 4).cut (grid2.coords t) (out2_4 (iblk2 V c 0 t) (iblk2 V c 1 t) (iblk2 V c 2 t) (iblk2 V c 3 t)) := by
  show (cfg2.win 4).cut (grid2.coords t) ((dat2 V c).after 4 t) = _
  rw [after2_4]

/-- An input window's array is never written: it ends as the region found it. -/
theorem arrAt2_in0 (c : Dev nD) (n : Nat) : (dat2 V c).arrAt 0 n = V c (Pipeline.arrRef spec2 0) :=
  ((dat2 V c).arrAt_in 0 rfl _).trans (A_eq2 V c 0)
theorem arrAt2_in1 (c : Dev nD) (n : Nat) : (dat2 V c).arrAt 1 n = V c (Pipeline.arrRef spec2 1) :=
  ((dat2 V c).arrAt_in 1 rfl _).trans (A_eq2 V c 1)
theorem arrAt2_in2 (c : Dev nD) (n : Nat) : (dat2 V c).arrAt 2 n = V c (Pipeline.arrRef spec2 2) :=
  ((dat2 V c).arrAt_in 2 rfl _).trans (A_eq2 V c 2)
theorem arrAt2_in3 (c : Dev nD) (n : Nat) : (dat2 V c).arrAt 3 n = V c (Pipeline.arrRef spec2 3) :=
  ((dat2 V c).arrAt_in 3 rfl _).trans (A_eq2 V c 3)

end Cert.KernelIdeal.Hand

end
-- ==== Proof.KFrame.Data.lean ====
import proofs.«157345_j20959440404665_2_alg».proof.Proof.KFrame.Region0
import proofs.«157345_j20959440404665_2_alg».proof.Proof.KFrame.Region1
import proofs.«157345_j20959440404665_2_alg».proof.Proof.KFrame.Region2
import proofs.«157345_j20959440404665_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run's data: what each region leaves, the table, and the three pipelines' proof data

The program runs three kernel regions among stretches of host operations. Between two items core `c` holds every
unscoped buffer at a valuation written over the regions' leftovers (`Gen.V0` … `Gen.V21` over `outs`). Here the
leftovers are named, in stages so that nothing is circular:

* region 0 is entered at `Gen.V3 m`, which no leftover enters; what it leaves in its output array is `left0`;
* region 1 is entered at `Gen.V17 m` over region 0's leftover alone; its table is read off that valuation, and under
  the side condition `hOk` on the table it leaves `left1`;
* region 2 is entered at `Gen.V19 m` over the first two leftovers; it leaves `left2`. -/

variable (m : (ℓ : Loc nD τ sig) → Buf (Elt F) ℓ)

/-! ## Region 0 -/

/-- The core's buffers when region 0 is entered, read at the core's references. -/
abbrev ent0 : (c : Dev nD) → (b : Ref sig .tc) → Buf (Elt F) ((c : Thread nD τ).loc b) := fun c b => Gen.V3 m c b

/-- What region 0 leaves in its output array: the write-backs of all 64 points folded over the entry contents. -/
def left0 (c : Dev nD) : Buf (Elt F) ((c : Thread nD τ).loc main_v7) := (dat0 (ent0 m) c).arrAt 2 cfg0.N

/-- The leftovers with region 0's alone filled in. -/
def outsA : Gen.Outs (F := F) := fun _ r c => Function.update (Gen.V3 m c) main_v7 (left0 m c) r

/-! ## Region 1 and its table -/

/-- The core's buffers when region 1 is entered. -/
abbrev ent1 : (c : Dev nD) → (b : Ref sig .tc) → Buf (Elt F) ((c : Thread nD τ).loc b) := fun c b => Gen.V17 m (outsA m) c b

/-- The group table's contents when region 1 is entered, as the host operations before it leave them (there is one
    core). -/
def tbl : pre1.Contents (Elt F) := fun k => ent1 m (0 : Dev nD) (pre1.ref k)

/-- On every core the table holds those contents. -/
theorem ent1_pre (c : Dev nD) (k : Fin 1) : ent1 m c (pre1.ref k) = tbl m k := by
  obtain rfl : c = 0 := Subsingleton.elim _ _; rfl

/-- The table fact the run is stated under: the pipeline's side condition of the table's contents — by
    `ok1_of_words_lt`, every word of the table read unsigned below 8. -/
abbrev Ok : Prop := ok1 (F := F) (tbl m)

variable (hOk : Ok m)

/-- The table as admissible contents. -/
abbrev adm1 : (pcfg1 (F := F)).Adm := ⟨tbl m, hOk⟩

/-- What region 1 leaves in its output array. -/
def left1 (c : Dev nD) : Buf (Elt F) ((c : Thread nD τ).loc main_v55) :=
  (dat1 (ent1 m) (adm1 m hOk) c).arrAt 2 (cfg1 (adm1 m hOk)).N

/-- The leftovers with the first two regions' filled in. -/
def outsB : Gen.Outs (F := F) := fun J r c => match J with
  | 18 => Function.update (Gen.V17 m (outsA m) c) main_v55 (left1 m hOk c) r
  | _ => outsA m J r c

/-! ## Region 2 -/

/-- The core's buffers when region 2 is entered. -/
abbrev ent2 : (c : Dev nD) → (b : Ref sig .tc) → Buf (Elt F) ((c : Thread nD τ).loc b) := fun c b => Gen.V19 m (outsB m hOk) c b

/-- What region 2 leaves in its output array. -/
def left2 (c : Dev nD) : Buf (Elt F) ((c : Thread nD τ).loc main_v57) := (dat2 (ent2 m hOk) c).arrAt 4 cfg2.N

/-- THE LEFTOVERS: what each region leaves in the one buffer it may change. -/
def outs : Gen.Outs (F := F) := fun J r c => match J with
  | 20 => Function.update (Gen.V19 m (outsB m hOk) c) main_v57 (left2 m hOk c) r
  | _ => outsB m hOk J r c

/-! ## The defining equations -/

/-- Region 0's output array after the region is region 0's leftover, -/
theorem outs_4 (c : Dev nD) : outs m hOk 4 main_v7 c = left0 m c := by
  show Function.update (Gen.V3 m c) main_v7 (left0 m c) main_v7 = _
  exact Function.update_self ..
/-- which is the fold of its 64 write-backs over the entry contents. -/
theorem left0_eq (c : Dev nD) : left0 m c = (dat0 (ent0 m) c).arrAt 2 cfg0.N := by unfold left0; rfl
/-- Region 1's, -/
theorem outs_18 (c : Dev nD) : outs m hOk 18 main_v55 c = left1 m hOk c := by
  show Function.update (Gen.V17 m (outsA m) c) main_v55 (left1 m hOk c) main_v55 = _
  exact Function.update_self ..
theorem left1_eq (c : Dev nD) : left1 m hOk c = (dat1 (ent1 m) (adm1 m hOk) c).arrAt 2 (cfg1 (adm1 m hOk)).N := by unfold left1; rfl
/-- and region 2's. -/
theorem outs_20 (c : Dev nD) : outs m hOk 20 main_v57 c = left2 m hOk c := by
  show Function.update (Gen.V19 m (outsB m hOk) c) main_v57 (left2 m hOk c) main_v57 = _
  exact Function.update_self ..
theorem left2_eq (c : Dev nD) : left2 m hOk c = (dat2 (ent2 m hOk) c).arrAt 4 cfg2.N := by unfold left2; rfl

/-- The valuation after each region, at the region's output array, is the leftover. -/
theorem V4_out (c : Dev nD) : Gen.V4 m (outs m hOk) c main_v7 = left0 m c := by
  show Function.update (Gen.V3 m c) main_v7 (outs m hOk 4 main_v7 c) main_v7 = _
  rw [Function.update_self]; exact outs_4 m hOk c
theorem V18_out (c : Dev nD) : Gen.V18 m (outs m hOk) c main_v55 = left1 m hOk c := by
  show Function.update (Gen.V17 m (outs m hOk) c) main_v55 (outs m hOk 18 main_v55 c) main_v55 = _
  rw [Function.update_self]; exact outs_18 m hOk c
theorem V20_out (c : Dev nD) : Gen.V20 m (outs m hOk) c main_v57 = left2 m hOk c := by
  show Function.update (Gen.V19 m (outs m hOk) c) main_v57 (outs m hOk 20 main_v57 c) main_v57 = _
  rw [Function.update_self]; exact outs_20 m hOk c

/-- Each region is entered at the valuation over ALL the leftovers: the later ones are not read before their
    region. -/
theorem V17_outs (c : Dev nD) : Gen.V17 m (outs m hOk) c = Gen.V17 m (outsA m) c := rfl
theorem V19_outs (c : Dev nD) : Gen.V19 m (outs m hOk) c = Gen.V19 m (outsB m hOk) c := rfl

/-! ## The proof data family -/

/-- The tables' admissible contents: pipeline 1's is `tbl m`; the others have no table. -/
abbrev adm : (p : Fin 3) → (pcfgs (F := F) p).Adm := fun
  | ⟨0, _⟩ => cfg0.toPCfg_adm
  | ⟨1, _⟩ => adm1 m hOk
  | ⟨2, _⟩ => cfg2.toPCfg_adm

/-- Every pipeline's proof data, each at its region's entry contents. -/
def pdats : (p : Fin 3) → (c : Dev nD) → Dat τ (Elt F) Unit ℕ (UR sig nD τ) ℕ (Pipeline.pin (pcfgs (F := F)) (adm m hOk) p) c
  | ⟨0, _⟩ => fun c => dat0 (ent0 m) c
  | ⟨1, _⟩ => fun c => dat1 (ent1 m) (adm1 m hOk) c
  | ⟨2, _⟩ => fun c => dat2 (ent2 m hOk) c

/-! ## What rides beside the buffers -/

abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the core's generator register at some state (a region's invariant
    takes it in and gives it back) and its dues, at nothing. -/
abbrev Rest (c : Dev nD) : sProp 𝕄 := iprop((∃ r, prngReg c r) ∗ ∃ W, owes (c : Thread nD τ) (0 : CellTallies nD τ sig Unit) W)
/-- The same between any two regions. -/
abbrev Rests : Fin 4 → Dev nD → sProp 𝕄 := fun _ c => Rest c

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KFrame.Seg0.lean ====
import proofs.«157345_j20959440404665_2_alg».proof.Proof.KFrame.Data
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 as a segment of the program -/

variable (m : (ℓ : Loc nD τ sig) → Buf (Elt F) ℓ) (hOk : Ok m)

/-- At region 0's exit each of its arrays holds what the pipeline leaves: the two inputs as entered, the output at
    the leftover. -/
theorem hF0 (c : Dev nD) (w : Fin cfg0.W) :
    (pdats m hOk 0 c).arrAt w cfg0.N = (fun b : Ref sig .tc => Gen.V4 m (outs m hOk) c b) (Pipeline.arrRef spec0 w) :=
  match w with
  | ⟨0, _⟩ => (arrAt0_in0 (ent0 m) c _).trans (Gen.V4_of m (outs m hOk) c main_v0 (by decide)).symm
  | ⟨1, _⟩ => (arrAt0_in1 (ent0 m) c _).trans (Gen.V4_of m (outs m hOk) c main_v2 (by decide)).symm
  | ⟨2, _⟩ => ((V4_out m hOk c).trans (left0_eq m c)).symm

/-- and every other buffer what it held at entry. -/
theorem hrest0 (c : Dev nD) : ∀ b, b ∉ Finset.univ.image (Pipeline.arrRef spec0) →
    (fun b : Ref sig .tc => Gen.V4 m (outs m hOk) c b) b = ent0 m c b :=
  fun b hb => Gen.V4_of m (outs m hOk) c b fun h => hb (by
    rw [List.mem_singleton] at h; subst h
    exact Finset.mem_image.mpr ⟨2, Finset.mem_univ _, rfl⟩)

set_option backward.isDefEq.respectTransparency.types false in
/-- REGION 0 over the thread state: entered from every unscoped buffer at `Gen.V3 m`, left at `Gen.V4 m (outs m hOk)`.
    Its arrays are split out of the unscoped buffers and put back at the exit contents; the generator register goes into
    the invariant and comes out; nothing is owed; the kernel has no semaphore of its own. -/
def R0 : Pipeline.RegionSeg (pcfgs (F := F)) (adm m hOk) (pdats m hOk) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (Gen.V3 m c) ∗ Rest c)
  post c := iprop(StableHlo.held (c : Thread nD τ) (Pipeline.ucRefs τ sig) (Gen.V4 m (outs m hOk) c) ∗ Rest c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) (adm m hOk) (pdats m hOk) (launch0 (F := F)).win (launch0 (F := F)).arr_whole c
      ((pdats m hOk 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hOk 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hOk 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m hOk) (Ix := Unit) (Name := ℕ) (U := UR sig nD τ) (Lvl := ℕ)
      (launch0 (F := F)).win (launch0 (F := F)).arr_whole c (pdats m hOk) ((pdats m hOk 0 c).share_full fun _ => rfl)
      (ent0 m c) (fun b : Ref sig .tc => Gen.V4 m (outs m hOk) c b) ((pdats m hOk 0 c).arrAt · cfg0.N) (hF0 m hOk c) (hrest0 m hOk c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KFrame.Seg1.lean ====
import proofs.«157345_j20959440404665_2_alg».proof.Proof.KFrame.Data
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1, the region with the table, as a segment of the program -/

variable (m : (ℓ : Loc nD τ sig) → Buf (Elt F) ℓ) (hOk : Ok m)

/-- At region 1's exit each of its arrays holds what the pipeline leaves: the two inputs as entered, the output at
    the leftover. -/
theorem hF1 (c : Dev nD) (w : Fin (cfg1 (adm1 m hOk)).W) :
    (pdats m hOk 1 c).arrAt w (cfg1 (adm1 m hOk)).N = (fun b : Ref sig .tc => Gen.V18 m (outs m hOk) c b) (Pipeline.arrRef spec1 w) :=
  match w with
  | ⟨0, _⟩ => (arrAt1_in0 (ent1 m) (adm1 m hOk) c _).trans (Gen.V18_of m (outs m hOk) c main_v54 (by decide)).symm
  | ⟨1, _⟩ => (arrAt1_in1 (ent1 m) (adm1 m hOk) c _).trans (Gen.V18_of m (outs m hOk) c main_v3 (by decide)).symm
  | ⟨2, _⟩ => ((V18_out m hOk c).trans (left1_eq m hOk c)).symm

/-- and every other buffer what it held at entry. -/
theorem hrest1 (c : Dev nD) : ∀ b, b ∉ Finset.univ.image (Pipeline.arrRef spec1) →
    (fun b : Ref sig .tc => Gen.V18 m (outs m hOk) c b) b = ent1 m c b :=
  fun b hb => Gen.V18_of m (outs m hOk) c b fun h => hb (by
    rw [List.mem_singleton] at h; subst h
    exact Finset.mem_image.mpr ⟨2, Finset.mem_univ _, rfl⟩)

/-- The unscoped buffers that are no array of the region are the table, held whole at `tbl m`, and the rest. -/
theorem rest1_split (c : Dev nD) :
    (Pipeline.unscopedRest (Ix := Unit) (Name := ℕ) (U := UR sig nD τ) (Lvl := ℕ) spec1 c (ent1 m c) : sProp 𝕄)
      = iprop(tblHeld (adm1 m hOk) c ∗ Pipeline.unscopedRestP pre1 spec1 c (ent1 m c)) := by
  rw [Pipeline.unscopedRest_split preFacts1 c (ent1 m c)]
  rw [show (fun k => ent1 m c (pre1.ref k)) = tbl m from funext fun k => ent1_pre m c k]

set_option backward.isDefEq.respectTransparency.types false in
/-- REGION 1 over the thread state: entered from every unscoped buffer at `Gen.V17 m (outs m hOk)`, left at
    `Gen.V18 m (outs m hOk)`. Its arrays and its table are split out of the unscoped buffers and put back at the exit;
    the table and the generator register go into the invariant and come out; nothing is owed; the kernel has no
    semaphore of its own. -/
def R1 : Pipeline.RegionSeg (pcfgs (F := F)) (adm m hOk) (pdats m hOk) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (ent1 m) (adm1 m hOk) c).loose
  hwaits := Pipeline.hwaits_of_owed_zero _ _ _ _ L lv 1 fun _ _ => rfl
  pre c := iprop(StableHlo.held (c : Thread nD τ) (Pipeline.ucRefs τ sig) (Gen.V17 m (outs m hOk) c) ∗ Rest c)
  post c := iprop(StableHlo.held (c : Thread nD τ) (Pipeline.ucRefs τ sig) (Gen.V18 m (outs m hOk) c) ∗ Rest c)
  X c := iprop(∃ r, prngReg c r)
  Y c := iprop((∃ r, prngReg c r) ∗ tblHeld (adm1 m hOk) c)
  Z c := Pipeline.unscopedRestP (Ix := Unit) (Name := ℕ) (U := UR sig nD τ) (Lvl := ℕ) pre1 spec1 c (ent1 m c)
  hentry c := by
    rw [Pipeline.ownSems0_none, V17_outs m hOk c]
    have hsplit := Pipeline.arrays_of_unscopedBufs (p := 1) (pcfgs (F := F)) (adm m hOk) (pdats m hOk) (launch1 (F := F)).win (launch1 (F := F)).arr_whole c
      ((pdats m hOk 1 c).share_full fun _ => rfl) (ent1 m c) fun _ => rfl
    have hs : (Pipeline.unscopedRest (Ix := Unit) (Name := ℕ) (U := UR sig nD τ) (Lvl := ℕ) (Pipeline.pin (pcfgs (F := F)) (adm m hOk) 1).spec c (ent1 m c) : sProp 𝕄)
        = iprop(tblHeld (adm1 m hOk) c ∗ Pipeline.unscopedRestP pre1 spec1 c (ent1 m c)) := rest1_split m hOk c
    rw [Pipeline.unscopedBufs_held, hs] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hOk 1 c).Φ 0 = iprop(Pipeline.ΦA spec1 c ∗ tblHeld (adm1 m hOk) c) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m hOk 1 c).Φ (Fin.last _) = iprop(Pipeline.ΦA spec1 c ∗ tblHeld (adm1 m hOk) c) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm m hOk) (Ix := Unit) (Name := ℕ) (U := UR sig nD τ) (Lvl := ℕ)
      (launch1 (F := F)).win (launch1 (F := F)).arr_whole c (pdats m hOk) ((pdats m hOk 1 c).share_full fun _ => rfl)
      (ent1 m c) (fun b : Ref sig .tc => Gen.V18 m (outs m hOk) c b) ((pdats m hOk 1 c).arrAt · (cfg1 (adm1 m hOk)).N) (hF1 m hOk c) (hrest1 m hOk c)
    have hs : (Pipeline.unscopedRest (Ix := Unit) (Name := ℕ) (U := UR sig nD τ) (Lvl := ℕ) (Pipeline.pin (pcfgs (F := F)) (adm m hOk) 1).spec c (ent1 m c) : sProp 𝕄)
        = iprop(tblHeld (adm1 m hOk) c ∗ Pipeline.unscopedRestP pre1 spec1 c (ent1 m c)) := rest1_split m hOk c
    rw [Pipeline.unscopedBufs_held, hs] at hjoin
    iintro ⟨Ha, HO, ⟨HY, Ht⟩, Hrest⟩
    imodintro
    isplitl [Ha Ht Hrest]
    · iapply hjoin
      isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

end Cert.KernelIdeal.Hand

end
-- ==== Proof.KFrame.Seg2.lean ====
import proofs.«157345_j20959440404665_2_alg».proof.Proof.KFrame.Data
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 as a segment of the program -/

variable (m : (ℓ : Loc nD τ sig) → Buf (Elt F) ℓ) (hOk : Ok m)

/-- At region 2's exit each of its arrays holds what the pipeline leaves: the four inputs as entered, the output at
    the leftover. -/
theorem hF2 (c : Dev nD) (w : Fin cfg2.W) :
    (pdats m hOk 2 c).arrAt w cfg2.N = (fun b : Ref sig .tc => Gen.V20 m (outs m hOk) c b) (Pipeline.arrRef spec2 w) :=
  match w with
  | ⟨0, _⟩ => (arrAt2_in0 (ent2 m hOk) c _).trans (Gen.V20_of m (outs m hOk) c main_v0 (by decide)).symm
  | ⟨1, _⟩ => (arrAt2_in1 (ent2 m hOk) c _).trans (Gen.V20_of m (outs m hOk) c main_v56 (by decide)).symm
  | ⟨2, _⟩ => (arrAt2_in2 (ent2 m hOk) c _).trans (Gen.V20_of m (outs m hOk) c main_v4 (by decide)).symm
  | ⟨3, _⟩ => (arrAt2_in3 (ent2 m hOk) c _).trans (Gen.V20_of m (outs m hOk) c main_v6 (by decide)).symm
  | ⟨4, _⟩ => ((V20_out m hOk c).trans (left2_eq m hOk c)).symm

/-- and every other buffer what it held at entry. -/
theorem hrest2 (c : Dev nD) : ∀ b, b ∉ Finset.univ.image (Pipeline.arrRef spec2) →
    (fun b : Ref sig .tc => Gen.V20 m (outs m hOk) c b) b = ent2 m hOk c b :=
  fun b hb => Gen.V20_of m (outs m hOk) c b fun h => hb (by
    rw [List.mem_singleton] at h; subst h
    exact Finset.mem_image.mpr ⟨4, Finset.mem_univ _, rfl⟩)

set_option backward.isDefEq.respectTransparency.types false in
/-- REGION 2 over the thread state: entered from every unscoped buffer at `Gen.V19 m (outs m hOk)`, left at
    `Gen.V20 m (outs m hOk)`. Its arrays are split out of the unscoped buffers and put back at the exit contents; the
    generator register goes into the invariant and comes out; nothing is owed; the kernel has no semaphore of its
    own. -/
def R2 : Pipeline.RegionSeg (pcfgs (F := F)) (adm m hOk) (pdats m hOk) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (ent2 m hOk) c).loose
  hwaits := Pipeline.hwaits_of_owed_zero _ _ _ _ L lv 2 fun _ _ => rfl
  pre c := iprop(StableHlo.held (c : Thread nD τ) (Pipeline.ucRefs τ sig) (Gen.V19 m (outs m hOk) c) ∗ Rest c)
  post c := iprop(StableHlo.held (c : Thread nD τ) (Pipeline.ucRefs τ sig) (Gen.V20 m (outs m hOk) c) ∗ Rest c)
  X c := iprop(∃ r, prngReg c r)
  Y c := iprop(∃ r, prngReg c r)
  Z c := Pipeline.unscopedRest (Ix := Unit) (Name := ℕ) (U := UR sig nD τ) (Lvl := ℕ) spec2 c (ent2 m hOk c)
  hentry c := by
    rw [Pipeline.ownSems0_none, V19_outs m hOk c]
    have hsplit := Pipeline.arrays_of_unscopedBufs (p := 2) (pcfgs (F := F)) (adm m hOk) (pdats m hOk) (launch2 (F := F)).win (launch2 (F := F)).arr_whole c
      ((pdats m hOk 2 c).share_full fun _ => rfl) (ent2 m hOk c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hOk 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m hOk 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m hOk) (Ix := Unit) (Name := ℕ) (U := UR sig nD τ) (Lvl := ℕ)
      (launch2 (F := F)).win (launch2 (F := F)).arr_whole c (pdats m hOk) ((pdats m hOk 2 c).share_full fun _ => rfl)
      (ent2 m hOk c) (fun b : Ref sig .tc => Gen.V20 m (outs m hOk) c b) ((pdats m hOk 2 c).arrAt · cfg2.N) (hF2 m hOk c) (hrest2 m hOk c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KFrame.Run.lean ====
import proofs.«157345_j20959440404665_2_alg».proof.Proof.KFrame.Seg0
import proofs.«157345_j20959440404665_2_alg».proof.Proof.KFrame.Seg1
import proofs.«157345_j20959440404665_2_alg».proof.Proof.KFrame.Seg2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program, every unscoped buffer named at the end -/

variable (m : (ℓ : Loc nD τ sig) → Buf (Elt F) ℓ)

/-- The program's items as segments: the host stretches from the generated module, the three regions' records from
    here. -/
abbrev theSegs (hOk : Ok m) (c : Dev nD) := Gen.segs m (outs m hOk) 𝒱₀ L lv (Rests (F := F)) () (adm m hOk) (pdats m hOk) (R0 m hOk) (R1 m hOk) (R2 m hOk) c

/-- The launch makes the rest state on every core at once: the generator register as launched, nothing owed. -/
theorem rests_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (Rests (F := F) 0) : sProp 𝕄) :=
  Pipeline.initEach L lv fun c => by
    iintro ⟨⟨-, HO, -, Hp, -⟩, -⟩
    imodintro
    isplitl [Hp]; · iexists _; iexact Hp
    iexists ∅; iexact HO

set_option backward.isDefEq.respectTransparency.types false in
/-- THE RUN. Under the table fact `hOk`, from any memory `m` with zero counters every weakly fair execution of the
    program terminates, and in every final memory EVERY unscoped buffer of core `c` holds what the last valuation
    `Gen.V21 m (outs m hOk) c` says: the result buffer and the arguments are read off this one post. -/
theorem run_all (ρ : Dev nD → PrngReg) (hOk : Ok m) : θ_run defs (onTc (τ := τ) (main (F := F))) ⟨m, fun _ => 0, ρ⟩ (fun r => ∀ c : Dev nD,
      ∀ b ∈ Pipeline.ucRefs τ sig, r.2.mem (((c : Thread nD τ)).1, b) = Gen.V21 m (outs m hOk) c b) := by
  refine Pipeline.θ_run_regions_kit_dev (pcfgs (F := F)) (adm m hOk) (pdats m hOk) () (cellOf_inj (adm m hOk)) emb₁ defs₀ 𝒱₀ L lv m ρ main
    (theSegs m hOk)
    (fun c Q => by
      rewrite [main_chain c, Pipeline.Seg.run_eq_chain,
        show (theSegs m hOk c).map Pipeline.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          Prog.lift (.customCall (Pipeline.entry 1) ()),
          StableHlo.seq hostOps2,
          Prog.lift (.customCall (Pipeline.entry 2) ()),
          StableHlo.seq hostOps3 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hOk)) (cellOf_inj (adm m hOk)))
      (Pipeline.launchToks (Pipeline.pin (pcfgs (F := F)) (adm m hOk)) (cellOf_inj (adm m hOk))))
    (hu₀ := by
      iintro Hu; imodintro
      isplitl [Hu]
      · iapply (show (ownU (initOf (Pipeline.cells (Pipeline.pin (pcfgs (F := F)) (adm m hOk)) (cellOf_inj (adm m hOk)))
              (Pipeline.launchToks (Pipeline.pin (pcfgs (F := F)) (adm m hOk)) (cellOf_inj (adm m hOk)))) : sProp 𝕄)
            ⊢ BI.own (emb₁ (initOf (Pipeline.cells (Pipeline.pin (pcfgs (F := F)) (adm m hOk)) (cellOf_inj (adm m hOk)))
              (Pipeline.launchToks (Pipeline.pin (pcfgs (F := F)) (adm m hOk)) (cellOf_inj (adm m hOk))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rests (F := F) 0 c))
    (Tₙ := fun c => StableHlo.held (c : Thread nD τ) (Pipeline.ucRefs τ sig) (Gen.V21 m (outs m hOk) c))
    (hch := fun c => ⟨.rfl, .rfl, .rfl, .rfl, .rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := ?_)
    (QY := fun c s => ∀ b ∈ Pipeline.ucRefs τ sig, s.mem (((c : Thread nD τ)).1, b) = Gen.V21 m (outs m hOk) c b)
    (hfin := fun c s' => ?_) (hQ := fun _ h => h)
  · -- the launch: the unscoped buffers are held at the launch valuation; the rest makes the rest state on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c
          ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅
              ∗ Pipeline.launchCred (0 : Dev nD → CellTallies nD τ sig Unit) c ∗ prngReg c (ρ c) ∗ (BI.emp : sProp 𝕄)))
            : sProp 𝕄) := by
      rw [← bigSep_sep']
      exact bigSep_mono fun c _ => by
        rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (rests_init (F := F) ρ) $$ [Hr Hla] with HE
    · isplitl [Hr]; · iexact Hr
      iexact Hla
    imodintro
    rw [bigSep_sep' Finset.univ (fun c : Dev nD => StableHlo.held (c : Thread nD τ) (Pipeline.ucRefs τ sig) (Gen.V0 m c)) (Rests (F := F) 0)]
    isplitl [Hh]; · iexact Hh
    iexact HE
  · -- the end: every unscoped buffer read off the last valuation
    unfold StableHlo.held
    iintro ⟨Hh, HSI⟩
    imodintro
    iapply (pointsTo_read_all (Pipeline.ucRefs τ sig) (fun b => (((c : Thread nD τ)).1, b)) (Gen.V21 m (outs m hOk) c) s')
    isplitl [Hh] <;> iassumption

/-- THE RUN, the result buffer named: under the table fact, every weakly fair execution terminates, the result buffer
    ends at what the last valuation says of it, and every argument ends as launched. -/
theorem run (ρ : Dev nD → PrngReg) (hOk : Ok m) : θ_run defs (onTc (τ := τ) (main (F := F))) ⟨m, fun _ => 0, ρ⟩ (fun r => ∀ c : Dev nD,
      r.2.mem ((c.tc : Thread nD τ).loc main_v58) = Gen.V21 m (outs m hOk) c main_v58
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v58 (by decide)),
      (h c _ (mem_uc main_arg0 (by decide))).trans (Gen.V21_main_arg0 m (outs m hOk) c),
      (h c _ (mem_uc main_arg1 (by decide))).trans (Gen.V21_main_arg1 m (outs m hOk) c),
      (h c _ (mem_uc main_arg2 (by decide))).trans (Gen.V21_main_arg2 m (outs m hOk) c),
      (h c _ (mem_uc main_arg3 (by decide))).trans (Gen.V21_main_arg3 m (outs m hOk) c),
      (h c _ (mem_uc main_arg4 (by decide))).trans (Gen.V21_main_arg4 m (outs m hOk) c),
      (h c _ (mem_uc main_arg5 (by decide))).trans (Gen.V21_main_arg5 m (outs m hOk) c)⟩) (run_all m ρ hOk)

/-- THE FRAME: every argument ends as launched. -/
theorem frame (ρ : Dev nD → PrngReg) (hOk : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run m ρ hOk)

end Cert.KernelIdeal.Hand

end
-- ==== Proof.Bits.KFrame.Region0.lean ====
import proofs.«157345_j20959440404665_2_alg».proof.Proof.Gen.Kernel.Launch
import proofs.«157345_j20959440404665_2_alg».proof.Proof.Gen.Kernel.Skeleton
import proofs.«157345_j20959440404665_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 of the program: the first kernel call, relu of a row block times a resident matrix, at any entry contents

Everything here is stated at a parameter `V`: what the core's buffers hold when the region is entered. The run
instantiates it at the contents the host operations before the region leave. -/

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether it was fetched there or
    not (when it was not, the block index has not moved): for any proof data whose array is `V`'s and whose body
    leaves the block in place. Window 0, the row block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1, the resident matrix: fetched once, its one block the whole array. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each memref read and written whole -/

abbrev r0_a : Rect S512x512 := Rect.unit (s := S512x512) ![0, 0] S512x512.size Gen.inb_S512x512_S512x512_0_0
abbrev r0_b : Rect S512x1024 := Rect.unit (s := S512x1024) ![0, 0] S512x1024.size Gen.inb_S512x1024_S512x1024_0_0

/-! ## What the body leaves in the output window's buffer -/

/-- Window 2's staging buffer after the body, from the two input blocks: its one store, of the payload
    `k0_pay1` (the rounded relu of the product) of the blocks as loaded. -/
def out0_2 (x0 : Vec F S512x512 .f32) (x1 : Vec F S512x1024 .bf16) : Vec F S512x1024 .bf16 :=
  View.canon [⟨r0_b, k0_pay1 (View.ld x0 r0_a) (View.ld x1 r0_b)⟩]

/-- The one store covers the buffer. -/
theorem cover0_2 (p0 : Vec F S512x1024 .bf16) (y : S512x1024.Idx) :
    ∃ pc ∈ ([⟨r0_b, p0⟩] : List (View.Piece (Elt F) S512x1024 .bf16)), y ∈ pc.1.set :=
  View.cover_of_tiled [⟨r0_b, p0⟩] S512x1024.size (by rfl) y

/-! ## The body's triple -/

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords)
    (arg1 : Memref sig .tc .vmem S512x512 .f32) (harg1 : arg1.IsWhole) (arg2 : Memref sig .tc .vmem S512x1024 .bf16) (harg2 : arg2.IsWhole)
    (arg3 : Memref sig .tc .vmem S512x1024 .bf16) (harg3 : arg3.IsWhole)
    (x0 : Vec F S512x512 .f32) (x1 : Vec F S512x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__kernelA i arg1 harg1 arg2 harg2 arg3 harg3) K := by
  simp only [cc0__kernelA_eq_skeleton]; unfold cc0__kernelA_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` each
    input's buffer still at its block and the output's at `out0_2` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## What a point writes back -/

/-- What grid point `t` writes back to the output window's array: the body's result for the window, `out0_2` of the
    point's input blocks, read through the window's block. -/
theorem flushed0_2 (c : Dev nD) (t : Fin cfg0.N) :
    (dat0 V c).flushed 2 t = (cfg0.win 2).cut (grid0.coords t) (out0_2 (iblk0 V c 0 t) (iblk0 V c 1 t)) := by
  show (cfg0.win 2).cut (grid0.coords t) ((dat0 V c).after 2 t) = _
  rw [after0_2]

/-- An input window's array is never written: it ends as the region found it. -/
theorem arrAt0_in0 (c : Dev nD) (n : Nat) : (dat0 V c).arrAt 0 n = V c (Pipeline.arrRef spec0 0) :=
  ((dat0 V c).arrAt_in 0 rfl _).trans (A_eq0 V c 0)
theorem arrAt0_in1 (c : Dev nD) (n : Nat) : (dat0 V c).arrAt 1 n = V c (Pipeline.arrRef spec0 1) :=
  ((dat0 V c).arrAt_in 1 rfl _).trans (A_eq0 V c 1)

end Cert.Kernel.Hand

end
-- ==== Proof.Bits.KFrame.Region1.lean ====
import proofs.«157345_j20959440404665_2_alg».proof.Proof.Gen.Kernel.Launch
import proofs.«157345_j20959440404665_2_alg».proof.Proof.Gen.Kernel.Skeleton
import proofs.«157345_j20959440404665_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 of the program: the middle kernel call, relu of a row block times the matrix the block's group selects,
at any entry contents and any admissible contents of the group table

The second window's block index is read from a table of 72 words held in scalar memory. Everything here is stated at
two parameters: `V`, what the core's buffers hold when the region is entered, and `a`, contents of the table that
satisfy the pipeline's side condition (every word, read as a natural number, below the 8 matrices). -/

/-! ## The side condition on the table, from a bound on its words -/

/-- The pipeline's side condition holds of any table whose every word, read unsigned, is below 8: the second
    window's block then lies inside the stack of 8 matrices, and a block of 1024 rows of 16-bit elements is whole
    words. -/
theorem ok1_of_lt (pf : pre1.Contents (Elt F))
    (h : ∀ i : grid1.Coords, cc1_transform_1 Gen.k1_off1_inb Gen.numel1_S1 pf i 0 < 8) : ok1 (F := F) pf := by
  intro i
  refine ⟨fun ax => ?_, .inr (Affine.block_words_dvd (of_decide_eq_true rfl) (by decide))⟩
  have h0 := h i
  match ax with
  | ⟨0, _⟩ => show (cc1_transform_1 Gen.k1_off1_inb Gen.numel1_S1 pf i 0 + 1) * 1 ≤ 8; omega
  | ⟨1, _⟩ => exact Nat.le_refl _
  | ⟨2, _⟩ => exact Nat.le_refl _

/-- The same from the words themselves: the index map reads word `i` of the table at grid point `i`, as a natural
    number (`BitVec.toNat`). -/
theorem ok1_of_words_lt (pf : pre1.Contents (Elt F))
    (h : ∀ j : (pre1.ref 0).ty.shape.Idx, (show BitVec 32 from pf 0 j).toNat < 8) : ok1 (F := F) pf :=
  ok1_of_lt pf fun i => h _

variable (V : (c : Dev nD) → (b : Ref sig .tc) → Buf (Elt F) ((c : Thread nD τ).loc b)) (a : (pcfg1 (F := F)).Adm)

/-! ## The windows' blocks -/

/-- Window `w`'s block at grid point `t`, read off its array as the region finds it; for the second window a function
    of the table's word at `t`. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- An input window's current staging buffer holds its block at every point, whether it was fetched there or
    not (when it was not, the block index has not moved): for any proof data whose array is `V`'s and whose body
    leaves the block in place. Window 0, the row block; -/
theorem before1_0_of {c : Dev nD} (dat : Dat τ (Elt F) Unit ℕ (UR sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- window 1, the selected matrix: fetched whenever the table's word changes. -/
theorem before1_1_of {c : Dev nD} (dat : Dat τ (Elt F) Unit ℕ (UR sig nD τ) ℕ (cfg1 a) c) (hA : dat.A 1 = V c (Pipeline.arrRef spec1 1))
    (hafter : ∀ t, dat.after 1 t = iblk1 V a c 1 t) (t : Fin (cfg1 a).N) (d) : dat.before 1 t d = iblk1 V a c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs and the body at a point -/

/-- Each window's current staging memref at point `t`, and its wholeness. -/
abbrev ms1_0 (t : Fin (cfg1 a).N) : Memref sig .tc .vmem S512x1024 .bf16 := spec1_0.stage ((cfg1 a).slots t 0)
abbrev hs1_0 (t : Fin (cfg1 a).N) : (ms1_0 a t).IsWhole := Gen.hstage1_0 (((cfg1 a).slots t 0).cast Gen.nbuf1_0)
abbrev ms1_1 (t : Fin (cfg1 a).N) : Memref sig .tc .vmem S1x1024x512 .bf16 := spec1_1.stage ((cfg1 a).slots t 1)
abbrev hs1_1 (t : Fin (cfg1 a).N) : (ms1_1 a t).IsWhole := Gen.hstage1_1 (((cfg1 a).slots t 1).cast Gen.nbuf1_1)
abbrev ms1_2 (t : Fin (cfg1 a).N) : Memref sig .tc .vmem S512x512 .f32 := spec1_2.stage ((cfg1 a).slots t 2)
abbrev hs1_2 (t : Fin (cfg1 a).N) : (ms1_2 a t).IsWhole := Gen.hstage1_2 (((cfg1 a).slots t 2).cast Gen.nbuf1_2)

/-- The kernel body at point `t`, on what the pipeline calls it with: the table's whole buffer and the current staging
    memrefs. -/
abbrev bodyAt1 (t : Fin (cfg1 a).N) : Prog (TpuEff nD τ sig (Elt F) Λ₀ .tc) PUnit :=
  cc1__kernelB (grid1.coords t) (Memref.whole main_v46) (Memref.isWhole_whole _) (ms1_0 a t) (hs1_0 a t) (ms1_1 a t) (hs1_1 a t) (ms1_2 a t) (hs1_2 a t)

/-! ## The body's accesses: each staging memref read and written whole; the table not at all -/

abbrev r1_a : Rect S512x1024 := Rect.unit (s := S512x1024) ![0, 0] S512x1024.size Gen.inb_S512x1024_S512x1024_0_0
abbrev r1_b : Rect S1x1024x512 := Rect.unit (s := S1x1024x512) ![0, 0, 0] S1x1024x512.size Gen.inb_S1x1024x512_S1x1024x512_0_0_0
abbrev r1_c : Rect S512x512 := Rect.unit (s := S512x512) ![0, 0] S512x512.size Gen.inb_S512x512_S512x512_0_0

/-! ## What the body leaves in the output window's buffer -/

/-- Window 2's staging buffer after the body, from the two input blocks: its one store, of the payload
    `k1_pay1` (the relu of the product) of the blocks as loaded. -/
def out1_2 (x0 : Vec F S512x1024 .bf16) (x1 : Vec F S1x1024x512 .bf16) : Vec F S512x512 .f32 :=
  View.canon [⟨r1_c, k1_pay1 (View.ld x0 r1_a) (View.ld x1 r1_b)⟩]

/-- The one store covers the buffer. -/
theorem cover1_2 (p0 : Vec F S512x512 .f32) (y : S512x512.Idx) :
    ∃ pc ∈ ([⟨r1_c, p0⟩] : List (View.Piece (Elt F) S512x512 .f32)), y ∈ pc.1.set :=
  View.cover_of_tiled [⟨r1_c, p0⟩] S512x512.size (by rfl) y

/-! ## The body's triple -/

set_option maxHeartbeats 1000000 in
/-- The body on whole staging memrefs, the inputs' at contents `x0`, `x1` and the output's at anything, runs to the
    continuation holding the inputs' as they were and the output's at `out1_2 x0 x1`; it never touches the table. -/
theorem sound_kernel1 (c : Dev nD) (E : Set ℕ) (i : grid1.Coords)
    (arg1 : Memref sig .tc .smem S72 .i32) (harg1 : arg1.IsWhole)
    (arg2 : Memref sig .tc .vmem S512x1024 .bf16) (harg2 : arg2.IsWhole) (arg3 : Memref sig .tc .vmem S1x1024x512 .bf16) (harg3 : arg3.IsWhole)
    (arg4 : Memref sig .tc .vmem S512x512 .f32) (harg4 : arg4.IsWhole)
    (x0 : Vec F S512x1024 .bf16) (x1 : Vec F S1x1024x512 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__kernelB i arg1 harg1 arg2 harg2 arg3 harg3 arg4 harg4) K := by
  simp only [cc1__kernelB_eq_skeleton]; unfold cc1__kernelB_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The table held whole on core `c` at the contents `a`: what the region hands the invariant at its first point
    and takes back at its last. -/
abbrev tblHeld (c : Dev nD) : sProp 𝕄 :=
  Pipeline.prefHeld (Ix := Unit) (Name := ℕ) (U := UR sig nD τ) (Lvl := ℕ) pre1 c (fun _ => fullShare) a.1

/-- The proof data of pipeline 1 on core `c`, at the table's contents `a`: the arrays as the region finds them; after
    the body at point `t` each input's buffer still at its block and the output's at `out1_2` of the input blocks; the
    invariant the scoped rest, the generator register and the table, all untouched; nothing owed; full shares. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => out1_2 (iblk1 V a c 0 t) (iblk1 V a c 1 t)
  Φ _ := iprop(Pipeline.ΦA spec1 c ∗ tblHeld a c)
  q _ := fullShare
  owed _ := 0

/-- The proof data's arrays are the region-entry contents. -/
theorem A_eq1 (c : Dev nD) (w : Fin (cfg1 a).W) : (dat1 V a c).A w = V c (Pipeline.arrRef spec1 w) := by
  dsimp only [dat1]

/-- What the body leaves, window by window. -/
theorem after1_0 (c : Dev nD) (t : Fin (cfg1 a).N) : (dat1 V a c).after 0 t = iblk1 V a c 0 t := by dsimp only [dat1]; try rfl
theorem after1_1 (c : Dev nD) (t : Fin (cfg1 a).N) : (dat1 V a c).after 1 t = iblk1 V a c 1 t := by dsimp only [dat1]; try rfl
theorem after1_2 (c : Dev nD) (t : Fin (cfg1 a).N) : (dat1 V a c).after 2 t = out1_2 (iblk1 V a c 0 t) (iblk1 V a c 1 t) := by
  dsimp only [dat1]; try rfl

/-- Each input's current staging buffer holds its block at every point. -/
theorem before1_0 (c : Dev nD) (t : Fin (cfg1 a).N) (d) : (dat1 V a c).before 0 t d = iblk1 V a c 0 t :=
  before1_0_of V a (dat1 V a c) (A_eq1 V a c 0) (after1_0 V a c) t d
theorem before1_1 (c : Dev nD) (t : Fin (cfg1 a).N) (d) : (dat1 V a c).before 1 t d = iblk1 V a c 1 t :=
  before1_1_of V a (dat1 V a c) (A_eq1 V a c 1) (after1_1 V a c) t d

/-! ## The body obligation, at a generic point -/

/-- What the body is called with at point `t`, the windows one by one, -/
def bodyPre1 (c : Dev nD) (t : Fin (cfg1 a).N) : sProp 𝕄 :=
  iprop((dat1 V a c).Φ t.castSucc ∗ (dat1 V a c).owesAt () t.castSucc
    ∗ (∃ d, owns (c : Thread nD τ) (ms1_0 a t) fullShare ((dat1 V a c).before 0 t d))
    ∗ (∃ d, owns (c : Thread nD τ) (ms1_1 a t) fullShare ((dat1 V a c).before 1 t d))
    ∗ (∃ d, owns (c : Thread nD τ) (ms1_2 a t) fullShare ((dat1 V a c).before 2 t d)))

/-- and what it returns. -/
def bodyPost1 (c : Dev nD) (t : Fin (cfg1 a).N) : sProp 𝕄 :=
  iprop((dat1 V a c).Φ t.succ ∗ (dat1 V a c).owesAt () t.succ
    ∗ owns (c : Thread nD τ) (ms1_0 a t) fullShare ((dat1 V a c).after 0 t)
    ∗ owns (c : Thread nD τ) (ms1_1 a t) fullShare ((dat1 V a c).after 1 t)
    ∗ owns (c : Thread nD τ) (ms1_2 a t) fullShare ((dat1 V a c).after 2 t))

/-- The body at any point: the inputs' memrefs hold their blocks, so the body's triple applies; the invariant (the
    table in it) and the core's dues pass through unread. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0, before1_1]
  rw [show (dat1 V a c).Φ t.succ = (dat1 V a c).Φ t.castSucc from rfl,
    show (dat1 V a c).owesAt () t.succ = (dat1 V a c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ _ _ (iblk1 V a c 0 t) (iblk1 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V a c) (defs₀ (F := F)) Variants.none () Set.univ := fun t => by
  rw [bigSep_W1, bigSep_W1]
  exact sound_body1 V a c t

/-! ## What a point writes back -/

/-- What grid point `t` writes back to the output window's array: the body's result for the window, `out1_2` of the
    point's input blocks, read through the window's block. -/
theorem flushed1_2 (c : Dev nD) (t : Fin (cfg1 a).N) :
    (dat1 V a c).flushed 2 t
      = ((cfg1 a).win 2).cut ((cfg1 a).grid.coords t) (out1_2 (iblk1 V a c 0 t) (iblk1 V a c 1 t)) := by
  show ((cfg1 a).win 2).cut ((cfg1 a).grid.coords t) ((dat1 V a c).after 2 t) = _
  rw [after1_2]

/-- An input window's array is never written: it ends as the region found it. -/
theorem arrAt1_in0 (c : Dev nD) (n : Nat) : (dat1 V a c).arrAt 0 n = V c (Pipeline.arrRef spec1 0) :=
  ((dat1 V a c).arrAt_in 0 rfl _).trans (A_eq1 V a c 0)
theorem arrAt1_in1 (c : Dev nD) (n : Nat) : (dat1 V a c).arrAt 1 n = V c (Pipeline.arrRef spec1 1) :=
  ((dat1 V a c).arrAt_in 1 rfl _).trans (A_eq1 V a c 1)

end Cert.Kernel.Hand

end
-- ==== Proof.Bits.KFrame.Region2.lean ====
import proofs.«157345_j20959440404665_2_alg».proof.Proof.Gen.Kernel.Launch
import proofs.«157345_j20959440404665_2_alg».proof.Proof.Gen.Kernel.Skeleton
import proofs.«157345_j20959440404665_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 of the program: the last kernel call, relu of a sum of two row blocks times a resident matrix, times a
second resident matrix, at any entry contents

Everything here is stated at a parameter `V`: what the core's buffers hold when the region is entered. -/

variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether it was fetched there or
    not (when it was not, the block index has not moved): for any proof data whose array is `V`'s and whose body
    leaves the block in place. Windows 0 and 1, the two row blocks; -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- windows 2 and 3, the resident matrices: fetched once, the one block the whole array. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each memref read and written whole -/

abbrev r2_a : Rect S512x512 := Rect.unit (s := S512x512) ![0, 0] S512x512.size Gen.inb_S512x512_S512x512_0_0
abbrev r2_b : Rect S512x128 := Rect.unit (s := S512x128) ![0, 0] S512x128.size Gen.inb_S512x128_S512x128_0_0

/-! ## What the body leaves in the output window's buffer -/

/-- Window 4's staging buffer after the body, from the four input blocks: its one store, of the payload
    `k2_pay1` (the second product, of the rounded relu of the first) of the blocks as loaded. -/
def out2_4 (x0 x1 : Vec F S512x512 .f32) (x2 : Vec F S512x512 .bf16) (x3 : Vec F S512x128 .bf16) : Vec F S512x128 .f32 :=
  View.canon [⟨r2_b, k2_pay1 (View.ld x0 r2_a) (View.ld x1 r2_a) (View.ld x2 r2_a) (View.ld x3 r2_b)⟩]

/-- The one store covers the buffer. -/
theorem cover2_4 (p0 : Vec F S512x128 .f32) (y : S512x128.Idx) :
    ∃ pc ∈ ([⟨r2_b, p0⟩] : List (View.Piece (Elt F) S512x128 .f32)), y ∈ pc.1.set :=
  View.cover_of_tiled [⟨r2_b, p0⟩] S512x128.size (by rfl) y

/-! ## The body's triple -/

set_option maxHeartbeats 1000000 in
/-- The body on whole staging memrefs, the inputs' at contents `x0` … `x3` and the output's at anything, runs to the
    continuation holding the inputs' as they were and the output's at `out2_4 x0 x1 x2 x3`. -/
theorem sound_kernel2 (c : Dev nD) (E : Set ℕ) (i : grid2.Coords)
    (arg1 : Memref sig .tc .vmem S512x512 .f32) (harg1 : arg1.IsWhole) (arg2 : Memref sig .tc .vmem S512x512 .f32) (harg2 : arg2.IsWhole)
    (arg3 : Memref sig .tc .vmem S512x512 .bf16) (harg3 : arg3.IsWhole) (arg4 : Memref sig .tc .vmem S512x128 .bf16) (harg4 : arg4.IsWhole)
    (arg5 : Memref sig .tc .vmem S512x128 .f32) (harg5 : arg5.IsWhole)
    (x0 x1 : Vec F S512x512 .f32) (x2 : Vec F S512x512 .bf16) (x3 : Vec F S512x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__kernelC i arg1 harg1 arg2 harg2 arg3 harg3 arg4 harg4 arg5 harg5) K := by
  simp only [cc2__kernelC_eq_skeleton]; unfold cc2__kernelC_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them; after the body at point `t` each
    input's buffer still at its block and the output's at `out2_4` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## What a point writes back -/

/-- What grid point `t` writes back to the output window's array: the body's result for the window, `out2_4` of the
    point's input blocks, read through the window's block. -/
theorem flushed2_4 (c : Dev nD) (t : Fin cfg2.N) :
    (dat2 V c).flushed 4 t
      = (cfg2.win 4).cut (grid2.coords t) (out2_4 (iblk2 V c 0 t) (iblk2 V c 1 t) (iblk2 V c 2 t) (iblk2 V c 3 t)) := by
  show (cfg2.win 4).cut (grid2.coords t) ((dat2 V c).after 4 t) = _
  rw [after2_4]

/-- An input window's array is never written: it ends as the region found it. -/
theorem arrAt2_in0 (c : Dev nD) (n : Nat) : (dat2 V c).arrAt 0 n = V c (Pipeline.arrRef spec2 0) :=
  ((dat2 V c).arrAt_in 0 rfl _).trans (A_eq2 V c 0)
theorem arrAt2_in1 (c : Dev nD) (n : Nat) : (dat2 V c).arrAt 1 n = V c (Pipeline.arrRef spec2 1) :=
  ((dat2 V c).arrAt_in 1 rfl _).trans (A_eq2 V c 1)
theorem arrAt2_in2 (c : Dev nD) (n : Nat) : (dat2 V c).arrAt 2 n = V c (Pipeline.arrRef spec2 2) :=
  ((dat2 V c).arrAt_in 2 rfl _).trans (A_eq2 V c 2)
theorem arrAt2_in3 (c : Dev nD) (n : Nat) : (dat2 V c).arrAt 3 n = V c (Pipeline.arrRef spec2 3) :=
  ((dat2 V c).arrAt_in 3 rfl _).trans (A_eq2 V c 3)

end Cert.Kernel.Hand

end
-- ==== Proof.Bits.KFrame.Data.lean ====
import proofs.«157345_j20959440404665_2_alg».proof.Proof.Bits.KFrame.Region0
import proofs.«157345_j20959440404665_2_alg».proof.Proof.Bits.KFrame.Region1
import proofs.«157345_j20959440404665_2_alg».proof.Proof.Bits.KFrame.Region2
import proofs.«157345_j20959440404665_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run's data: what each region leaves, the table, and the three pipelines' proof data

The program runs three kernel regions among stretches of host operations. Between two items core `c` holds every
unscoped buffer at a valuation written over the regions' leftovers (`Gen.V0` … `Gen.V21` over `outs`). Here the
leftovers are named, in stages so that nothing is circular:

* region 0 is entered at `Gen.V3 m`, which no leftover enters; what it leaves in its output array is `left0`;
* region 1 is entered at `Gen.V17 m` over region 0's leftover alone; its table is read off that valuation, and under
  the side condition `hOk` on the table it leaves `left1`;
* region 2 is entered at `Gen.V19 m` over the first two leftovers; it leaves `left2`. -/

variable (m : (ℓ : Loc nD τ sig) → Buf (Elt F) ℓ)

/-! ## Region 0 -/

/-- The core's buffers when region 0 is entered, read at the core's references. -/
abbrev ent0 : (c : Dev nD) → (b : Ref sig .tc) → Buf (Elt F) ((c : Thread nD τ).loc b) := fun c b => Gen.V3 m c b

/-- What region 0 leaves in its output array: the write-backs of all 64 points folded over the entry contents. -/
def left0 (c : Dev nD) : Buf (Elt F) ((c : Thread nD τ).loc main_v7) := (dat0 (ent0 m) c).arrAt 2 cfg0.N

/-- The leftovers with region 0's alone filled in. -/
def outsA : Gen.Outs (F := F) := fun _ r c => Function.update (Gen.V3 m c) main_v7 (left0 m c) r

/-! ## Region 1 and its table -/

/-- The core's buffers when region 1 is entered. -/
abbrev ent1 : (c : Dev nD) → (b : Ref sig .tc) → Buf (Elt F) ((c : Thread nD τ).loc b) := fun c b => Gen.V17 m (outsA m) c b

/-- The group table's contents when region 1 is entered, as the host operations before it leave them (there is one
    core). -/
def tbl : pre1.Contents (Elt F) := fun k => ent1 m (0 : Dev nD) (pre1.ref k)

/-- On every core the table holds those contents. -/
theorem ent1_pre (c : Dev nD) (k : Fin 1) : ent1 m c (pre1.ref k) = tbl m k := by
  obtain rfl : c = 0 := Subsingleton.elim _ _; rfl

/-- The table fact the run is stated under: the pipeline's side condition of the table's contents — by
    `ok1_of_words_lt`, every word of the table read unsigned below 8. -/
abbrev Ok : Prop := ok1 (F := F) (tbl m)

variable (hOk : Ok m)

/-- The table as admissible contents. -/
abbrev adm1 : (pcfg1 (F := F)).Adm := ⟨tbl m, hOk⟩

/-- What region 1 leaves in its output array. -/
def left1 (c : Dev nD) : Buf (Elt F) ((c : Thread nD τ).loc main_v55) :=
  (dat1 (ent1 m) (adm1 m hOk) c).arrAt 2 (cfg1 (adm1 m hOk)).N

/-- The leftovers with the first two regions' filled in. -/
def outsB : Gen.Outs (F := F) := fun J r c => match J with
  | 18 => Function.update (Gen.V17 m (outsA m) c) main_v55 (left1 m hOk c) r
  | _ => outsA m J r c

/-! ## Region 2 -/

/-- The core's buffers when region 2 is entered. -/
abbrev ent2 : (c : Dev nD) → (b : Ref sig .tc) → Buf (Elt F) ((c : Thread nD τ).loc b) := fun c b => Gen.V19 m (outsB m hOk) c b

/-- What region 2 leaves in its output array. -/
def left2 (c : Dev nD) : Buf (Elt F) ((c : Thread nD τ).loc main_v57) := (dat2 (ent2 m hOk) c).arrAt 4 cfg2.N

/-- THE LEFTOVERS: what each region leaves in the one buffer it may change. -/
def outs : Gen.Outs (F := F) := fun J r c => match J with
  | 20 => Function.update (Gen.V19 m (outsB m hOk) c) main_v57 (left2 m hOk c) r
  | _ => outsB m hOk J r c

/-! ## The defining equations -/

/-- Region 0's output array after the region is region 0's leftover, -/
theorem outs_4 (c : Dev nD) : outs m hOk 4 main_v7 c = left0 m c := by
  show Function.update (Gen.V3 m c) main_v7 (left0 m c) main_v7 = _
  exact Function.update_self ..
/-- which is the fold of its 64 write-backs over the entry contents. -/
theorem left0_eq (c : Dev nD) : left0 m c = (dat0 (ent0 m) c).arrAt 2 cfg0.N := by unfold left0; rfl
/-- Region 1's, -/
theorem outs_18 (c : Dev nD) : outs m hOk 18 main_v55 c = left1 m hOk c := by
  show Function.update (Gen.V17 m (outsA m) c) main_v55 (left1 m hOk c) main_v55 = _
  exact Function.update_self ..
theorem left1_eq (c : Dev nD) : left1 m hOk c = (dat1 (ent1 m) (adm1 m hOk) c).arrAt 2 (cfg1 (adm1 m hOk)).N := by unfold left1; rfl
/-- and region 2's. -/
theorem outs_20 (c : Dev nD) : outs m hOk 20 main_v57 c = left2 m hOk c := by
  show Function.update (Gen.V19 m (outsB m hOk) c) main_v57 (left2 m hOk c) main_v57 = _
  exact Function.update_self ..
theorem left2_eq (c : Dev nD) : left2 m hOk c = (dat2 (ent2 m hOk) c).arrAt 4 cfg2.N := by unfold left2; rfl

/-- The valuation after each region, at the region's output array, is the leftover. -/
theorem V4_out (c : Dev nD) : Gen.V4 m (outs m hOk) c main_v7 = left0 m c := by
  show Function.update (Gen.V3 m c) main_v7 (outs m hOk 4 main_v7 c) main_v7 = _
  rw [Function.update_self]; exact outs_4 m hOk c
theorem V18_out (c : Dev nD) : Gen.V18 m (outs m hOk) c main_v55 = left1 m hOk c := by
  show Function.update (Gen.V17 m (outs m hOk) c) main_v55 (outs m hOk 18 main_v55 c) main_v55 = _
  rw [Function.update_self]; exact outs_18 m hOk c
theorem V20_out (c : Dev nD) : Gen.V20 m (outs m hOk) c main_v57 = left2 m hOk c := by
  show Function.update (Gen.V19 m (outs m hOk) c) main_v57 (outs m hOk 20 main_v57 c) main_v57 = _
  rw [Function.update_self]; exact outs_20 m hOk c

/-- Each region is entered at the valuation over ALL the leftovers: the later ones are not read before their
    region. -/
theorem V17_outs (c : Dev nD) : Gen.V17 m (outs m hOk) c = Gen.V17 m (outsA m) c := rfl
theorem V19_outs (c : Dev nD) : Gen.V19 m (outs m hOk) c = Gen.V19 m (outsB m hOk) c := rfl

/-! ## The proof data family -/

/-- The tables' admissible contents: pipeline 1's is `tbl m`; the others have no table. -/
abbrev adm : (p : Fin 3) → (pcfgs (F := F) p).Adm := fun
  | ⟨0, _⟩ => cfg0.toPCfg_adm
  | ⟨1, _⟩ => adm1 m hOk
  | ⟨2, _⟩ => cfg2.toPCfg_adm

/-- Every pipeline's proof data, each at its region's entry contents. -/
def pdats : (p : Fin 3) → (c : Dev nD) → Dat τ (Elt F) Unit ℕ (UR sig nD τ) ℕ (Pipeline.pin (pcfgs (F := F)) (adm m hOk) p) c
  | ⟨0, _⟩ => fun c => dat0 (ent0 m) c
  | ⟨1, _⟩ => fun c => dat1 (ent1 m) (adm1 m hOk) c
  | ⟨2, _⟩ => fun c => dat2 (ent2 m hOk) c

/-! ## What rides beside the buffers -/

abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the core's generator register at some state (a region's invariant
    takes it in and gives it back) and its dues, at nothing. -/
abbrev Rest (c : Dev nD) : sProp 𝕄 := iprop((∃ r, prngReg c r) ∗ ∃ W, owes (c : Thread nD τ) (0 : CellTallies nD τ sig Unit) W)
/-- The same between any two regions. -/
abbrev Rests : Fin 4 → Dev nD → sProp 𝕄 := fun _ c => Rest c

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.Bits.KFrame.Seg0.lean ====
import proofs.«157345_j20959440404665_2_alg».proof.Proof.Bits.KFrame.Data
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 as a segment of the program -/

variable (m : (ℓ : Loc nD τ sig) → Buf (Elt F) ℓ) (hOk : Ok m)

/-- At region 0's exit each of its arrays holds what the pipeline leaves: the two inputs as entered, the output at
    the leftover. -/
theorem hF0 (c : Dev nD) (w : Fin cfg0.W) :
    (pdats m hOk 0 c).arrAt w cfg0.N = (fun b : Ref sig .tc => Gen.V4 m (outs m hOk) c b) (Pipeline.arrRef spec0 w) :=
  match w with
  | ⟨0, _⟩ => (arrAt0_in0 (ent0 m) c _).trans (Gen.V4_of m (outs m hOk) c main_v0 (by decide)).symm
  | ⟨1, _⟩ => (arrAt0_in1 (ent0 m) c _).trans (Gen.V4_of m (outs m hOk) c main_v2 (by decide)).symm
  | ⟨2, _⟩ => ((V4_out m hOk c).trans (left0_eq m c)).symm

/-- and every other buffer what it held at entry. -/
theorem hrest0 (c : Dev nD) : ∀ b, b ∉ Finset.univ.image (Pipeline.arrRef spec0) →
    (fun b : Ref sig .tc => Gen.V4 m (outs m hOk) c b) b = ent0 m c b :=
  fun b hb => Gen.V4_of m (outs m hOk) c b fun h => hb (by
    rw [List.mem_singleton] at h; subst h
    exact Finset.mem_image.mpr ⟨2, Finset.mem_univ _, rfl⟩)

set_option backward.isDefEq.respectTransparency.types false in
/-- REGION 0 over the thread state: entered from every unscoped buffer at `Gen.V3 m`, left at `Gen.V4 m (outs m hOk)`.
    Its arrays are split out of the unscoped buffers and put back at the exit contents; the generator register goes into
    the invariant and comes out; nothing is owed; the kernel has no semaphore of its own. -/
def R0 : Pipeline.RegionSeg (pcfgs (F := F)) (adm m hOk) (pdats m hOk) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (Gen.V3 m c) ∗ Rest c)
  post c := iprop(StableHlo.held (c : Thread nD τ) (Pipeline.ucRefs τ sig) (Gen.V4 m (outs m hOk) c) ∗ Rest c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) (adm m hOk) (pdats m hOk) (launch0 (F := F)).win (launch0 (F := F)).arr_whole c
      ((pdats m hOk 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hOk 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hOk 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m hOk) (Ix := Unit) (Name := ℕ) (U := UR sig nD τ) (Lvl := ℕ)
      (launch0 (F := F)).win (launch0 (F := F)).arr_whole c (pdats m hOk) ((pdats m hOk 0 c).share_full fun _ => rfl)
      (ent0 m c) (fun b : Ref sig .tc => Gen.V4 m (outs m hOk) c b) ((pdats m hOk 0 c).arrAt · cfg0.N) (hF0 m hOk c) (hrest0 m hOk c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.KFrame.Seg1.lean ====
import proofs.«157345_j20959440404665_2_alg».proof.Proof.Bits.KFrame.Data
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1, the region with the table, as a segment of the program -/

variable (m : (ℓ : Loc nD τ sig) → Buf (Elt F) ℓ) (hOk : Ok m)

/-- At region 1's exit each of its arrays holds what the pipeline leaves: the two inputs as entered, the output at
    the leftover. -/
theorem hF1 (c : Dev nD) (w : Fin (cfg1 (adm1 m hOk)).W) :
    (pdats m hOk 1 c).arrAt w (cfg1 (adm1 m hOk)).N = (fun b : Ref sig .tc => Gen.V18 m (outs m hOk) c b) (Pipeline.arrRef spec1 w) :=
  match w with
  | ⟨0, _⟩ => (arrAt1_in0 (ent1 m) (adm1 m hOk) c _).trans (Gen.V18_of m (outs m hOk) c main_v54 (by decide)).symm
  | ⟨1, _⟩ => (arrAt1_in1 (ent1 m) (adm1 m hOk) c _).trans (Gen.V18_of m (outs m hOk) c main_v3 (by decide)).symm
  | ⟨2, _⟩ => ((V18_out m hOk c).trans (left1_eq m hOk c)).symm

/-- and every other buffer what it held at entry. -/
theorem hrest1 (c : Dev nD) : ∀ b, b ∉ Finset.univ.image (Pipeline.arrRef spec1) →
    (fun b : Ref sig .tc => Gen.V18 m (outs m hOk) c b) b = ent1 m c b :=
  fun b hb => Gen.V18_of m (outs m hOk) c b fun h => hb (by
    rw [List.mem_singleton] at h; subst h
    exact Finset.mem_image.mpr ⟨2, Finset.mem_univ _, rfl⟩)

/-- The unscoped buffers that are no array of the region are the table, held whole at `tbl m`, and the rest. -/
theorem rest1_split (c : Dev nD) :
    (Pipeline.unscopedRest (Ix := Unit) (Name := ℕ) (U := UR sig nD τ) (Lvl := ℕ) spec1 c (ent1 m c) : sProp 𝕄)
      = iprop(tblHeld (adm1 m hOk) c ∗ Pipeline.unscopedRestP pre1 spec1 c (ent1 m c)) := by
  rw [Pipeline.unscopedRest_split preFacts1 c (ent1 m c)]
  rw [show (fun k => ent1 m c (pre1.ref k)) = tbl m from funext fun k => ent1_pre m c k]

set_option backward.isDefEq.respectTransparency.types false in
/-- REGION 1 over the thread state: entered from every unscoped buffer at `Gen.V17 m (outs m hOk)`, left at
    `Gen.V18 m (outs m hOk)`. Its arrays and its table are split out of the unscoped buffers and put back at the exit;
    the table and the generator register go into the invariant and come out; nothing is owed; the kernel has no
    semaphore of its own. -/
def R1 : Pipeline.RegionSeg (pcfgs (F := F)) (adm m hOk) (pdats m hOk) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (ent1 m) (adm1 m hOk) c).loose
  hwaits := Pipeline.hwaits_of_owed_zero _ _ _ _ L lv 1 fun _ _ => rfl
  pre c := iprop(StableHlo.held (c : Thread nD τ) (Pipeline.ucRefs τ sig) (Gen.V17 m (outs m hOk) c) ∗ Rest c)
  post c := iprop(StableHlo.held (c : Thread nD τ) (Pipeline.ucRefs τ sig) (Gen.V18 m (outs m hOk) c) ∗ Rest c)
  X c := iprop(∃ r, prngReg c r)
  Y c := iprop((∃ r, prngReg c r) ∗ tblHeld (adm1 m hOk) c)
  Z c := Pipeline.unscopedRestP (Ix := Unit) (Name := ℕ) (U := UR sig nD τ) (Lvl := ℕ) pre1 spec1 c (ent1 m c)
  hentry c := by
    rw [Pipeline.ownSems0_none, V17_outs m hOk c]
    have hsplit := Pipeline.arrays_of_unscopedBufs (p := 1) (pcfgs (F := F)) (adm m hOk) (pdats m hOk) (launch1 (F := F)).win (launch1 (F := F)).arr_whole c
      ((pdats m hOk 1 c).share_full fun _ => rfl) (ent1 m c) fun _ => rfl
    have hs : (Pipeline.unscopedRest (Ix := Unit) (Name := ℕ) (U := UR sig nD τ) (Lvl := ℕ) (Pipeline.pin (pcfgs (F := F)) (adm m hOk) 1).spec c (ent1 m c) : sProp 𝕄)
        = iprop(tblHeld (adm1 m hOk) c ∗ Pipeline.unscopedRestP pre1 spec1 c (ent1 m c)) := rest1_split m hOk c
    rw [Pipeline.unscopedBufs_held, hs] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hOk 1 c).Φ 0 = iprop(Pipeline.ΦA spec1 c ∗ tblHeld (adm1 m hOk) c) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m hOk 1 c).Φ (Fin.last _) = iprop(Pipeline.ΦA spec1 c ∗ tblHeld (adm1 m hOk) c) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm m hOk) (Ix := Unit) (Name := ℕ) (U := UR sig nD τ) (Lvl := ℕ)
      (launch1 (F := F)).win (launch1 (F := F)).arr_whole c (pdats m hOk) ((pdats m hOk 1 c).share_full fun _ => rfl)
      (ent1 m c) (fun b : Ref sig .tc => Gen.V18 m (outs m hOk) c b) ((pdats m hOk 1 c).arrAt · (cfg1 (adm1 m hOk)).N) (hF1 m hOk c) (hrest1 m hOk c)
    have hs : (Pipeline.unscopedRest (Ix := Unit) (Name := ℕ) (U := UR sig nD τ) (Lvl := ℕ) (Pipeline.pin (pcfgs (F := F)) (adm m hOk) 1).spec c (ent1 m c) : sProp 𝕄)
        = iprop(tblHeld (adm1 m hOk) c ∗ Pipeline.unscopedRestP pre1 spec1 c (ent1 m c)) := rest1_split m hOk c
    rw [Pipeline.unscopedBufs_held, hs] at hjoin
    iintro ⟨Ha, HO, ⟨HY, Ht⟩, Hrest⟩
    imodintro
    isplitl [Ha Ht Hrest]
    · iapply hjoin
      isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

end Cert.Kernel.Hand

end
-- ==== Proof.Bits.KFrame.Seg2.lean ====
import proofs.«157345_j20959440404665_2_alg».proof.Proof.Bits.KFrame.Data
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 as a segment of the program -/

variable (m : (ℓ : Loc nD τ sig) → Buf (Elt F) ℓ) (hOk : Ok m)

/-- At region 2's exit each of its arrays holds what the pipeline leaves: the four inputs as entered, the output at
    the leftover. -/
theorem hF2 (c : Dev nD) (w : Fin cfg2.W) :
    (pdats m hOk 2 c).arrAt w cfg2.N = (fun b : Ref sig .tc => Gen.V20 m (outs m hOk) c b) (Pipeline.arrRef spec2 w) :=
  match w with
  | ⟨0, _⟩ => (arrAt2_in0 (ent2 m hOk) c _).trans (Gen.V20_of m (outs m hOk) c main_v0 (by decide)).symm
  | ⟨1, _⟩ => (arrAt2_in1 (ent2 m hOk) c _).trans (Gen.V20_of m (outs m hOk) c main_v56 (by decide)).symm
  | ⟨2, _⟩ => (arrAt2_in2 (ent2 m hOk) c _).trans (Gen.V20_of m (outs m hOk) c main_v4 (by decide)).symm
  | ⟨3, _⟩ => (arrAt2_in3 (ent2 m hOk) c _).trans (Gen.V20_of m (outs m hOk) c main_v6 (by decide)).symm
  | ⟨4, _⟩ => ((V20_out m hOk c).trans (left2_eq m hOk c)).symm

/-- and every other buffer what it held at entry. -/
theorem hrest2 (c : Dev nD) : ∀ b, b ∉ Finset.univ.image (Pipeline.arrRef spec2) →
    (fun b : Ref sig .tc => Gen.V20 m (outs m hOk) c b) b = ent2 m hOk c b :=
  fun b hb => Gen.V20_of m (outs m hOk) c b fun h => hb (by
    rw [List.mem_singleton] at h; subst h
    exact Finset.mem_image.mpr ⟨4, Finset.mem_univ _, rfl⟩)

set_option backward.isDefEq.respectTransparency.types false in
/-- REGION 2 over the thread state: entered from every unscoped buffer at `Gen.V19 m (outs m hOk)`, left at
    `Gen.V20 m (outs m hOk)`. Its arrays are split out of the unscoped buffers and put back at the exit contents; the
    generator register goes into the invariant and comes out; nothing is owed; the kernel has no semaphore of its
    own. -/
def R2 : Pipeline.RegionSeg (pcfgs (F := F)) (adm m hOk) (pdats m hOk) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (ent2 m hOk) c).loose
  hwaits := Pipeline.hwaits_of_owed_zero _ _ _ _ L lv 2 fun _ _ => rfl
  pre c := iprop(StableHlo.held (c : Thread nD τ) (Pipeline.ucRefs τ sig) (Gen.V19 m (outs m hOk) c) ∗ Rest c)
  post c := iprop(StableHlo.held (c : Thread nD τ) (Pipeline.ucRefs τ sig) (Gen.V20 m (outs m hOk) c) ∗ Rest c)
  X c := iprop(∃ r, prngReg c r)
  Y c := iprop(∃ r, prngReg c r)
  Z c := Pipeline.unscopedRest (Ix := Unit) (Name := ℕ) (U := UR sig nD τ) (Lvl := ℕ) spec2 c (ent2 m hOk c)
  hentry c := by
    rw [Pipeline.ownSems0_none, V19_outs m hOk c]
    have hsplit := Pipeline.arrays_of_unscopedBufs (p := 2) (pcfgs (F := F)) (adm m hOk) (pdats m hOk) (launch2 (F := F)).win (launch2 (F := F)).arr_whole c
      ((pdats m hOk 2 c).share_full fun _ => rfl) (ent2 m hOk c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hOk 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m hOk 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m hOk) (Ix := Unit) (Name := ℕ) (U := UR sig nD τ) (Lvl := ℕ)
      (launch2 (F := F)).win (launch2 (F := F)).arr_whole c (pdats m hOk) ((pdats m hOk 2 c).share_full fun _ => rfl)
      (ent2 m hOk c) (fun b : Ref sig .tc => Gen.V20 m (outs m hOk) c b) ((pdats m hOk 2 c).arrAt · cfg2.N) (hF2 m hOk c) (hrest2 m hOk c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.KFrame.Run.lean ====
import proofs.«157345_j20959440404665_2_alg».proof.Proof.Bits.KFrame.Seg0
import proofs.«157345_j20959440404665_2_alg».proof.Proof.Bits.KFrame.Seg1
import proofs.«157345_j20959440404665_2_alg».proof.Proof.Bits.KFrame.Seg2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program, every unscoped buffer named at the end -/

variable (m : (ℓ : Loc nD τ sig) → Buf (Elt F) ℓ)

/-- The program's items as segments: the host stretches from the generated module, the three regions' records from
    here. -/
abbrev theSegs (hOk : Ok m) (c : Dev nD) := Gen.segs m (outs m hOk) 𝒱₀ L lv (Rests (F := F)) () (adm m hOk) (pdats m hOk) (R0 m hOk) (R1 m hOk) (R2 m hOk) c

/-- The launch makes the rest state on every core at once: the generator register as launched, nothing owed. -/
theorem rests_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (Rests (F := F) 0) : sProp 𝕄) :=
  Pipeline.initEach L lv fun c => by
    iintro ⟨⟨-, HO, -, Hp, -⟩, -⟩
    imodintro
    isplitl [Hp]; · iexists _; iexact Hp
    iexists ∅; iexact HO

set_option backward.isDefEq.respectTransparency.types false in
/-- THE RUN. Under the table fact `hOk`, from any memory `m` with zero counters every weakly fair execution of the
    program terminates, and in every final memory EVERY unscoped buffer of core `c` holds what the last valuation
    `Gen.V21 m (outs m hOk) c` says: the result buffer and the arguments are read off this one post. -/
theorem run_all (ρ : Dev nD → PrngReg) (hOk : Ok m) : θ_run defs (onTc (τ := τ) (main (F := F))) ⟨m, fun _ => 0, ρ⟩ (fun r => ∀ c : Dev nD,
      ∀ b ∈ Pipeline.ucRefs τ sig, r.2.mem (((c : Thread nD τ)).1, b) = Gen.V21 m (outs m hOk) c b) := by
  refine Pipeline.θ_run_regions_kit_dev (pcfgs (F := F)) (adm m hOk) (pdats m hOk) () (cellOf_inj (adm m hOk)) emb₁ defs₀ 𝒱₀ L lv m ρ main
    (theSegs m hOk)
    (fun c Q => by
      rewrite [main_chain c, Pipeline.Seg.run_eq_chain,
        show (theSegs m hOk c).map Pipeline.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          Prog.lift (.customCall (Pipeline.entry 1) ()),
          StableHlo.seq hostOps2,
          Prog.lift (.customCall (Pipeline.entry 2) ()),
          StableHlo.seq hostOps3 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hOk)) (cellOf_inj (adm m hOk)))
      (Pipeline.launchToks (Pipeline.pin (pcfgs (F := F)) (adm m hOk)) (cellOf_inj (adm m hOk))))
    (hu₀ := by
      iintro Hu; imodintro
      isplitl [Hu]
      · iapply (show (ownU (initOf (Pipeline.cells (Pipeline.pin (pcfgs (F := F)) (adm m hOk)) (cellOf_inj (adm m hOk)))
              (Pipeline.launchToks (Pipeline.pin (pcfgs (F := F)) (adm m hOk)) (cellOf_inj (adm m hOk)))) : sProp 𝕄)
            ⊢ BI.own (emb₁ (initOf (Pipeline.cells (Pipeline.pin (pcfgs (F := F)) (adm m hOk)) (cellOf_inj (adm m hOk)))
              (Pipeline.launchToks (Pipeline.pin (pcfgs (F := F)) (adm m hOk)) (cellOf_inj (adm m hOk))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rests (F := F) 0 c))
    (Tₙ := fun c => StableHlo.held (c : Thread nD τ) (Pipeline.ucRefs τ sig) (Gen.V21 m (outs m hOk) c))
    (hch := fun c => ⟨.rfl, .rfl, .rfl, .rfl, .rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := ?_)
    (QY := fun c s => ∀ b ∈ Pipeline.ucRefs τ sig, s.mem (((c : Thread nD τ)).1, b) = Gen.V21 m (outs m hOk) c b)
    (hfin := fun c s' => ?_) (hQ := fun _ h => h)
  · -- the launch: the unscoped buffers are held at the launch valuation; the rest makes the rest state on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c
          ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅
              ∗ Pipeline.launchCred (0 : Dev nD → CellTallies nD τ sig Unit) c ∗ prngReg c (ρ c) ∗ (BI.emp : sProp 𝕄)))
            : sProp 𝕄) := by
      rw [← bigSep_sep']
      exact bigSep_mono fun c _ => by
        rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (rests_init (F := F) ρ) $$ [Hr Hla] with HE
    · isplitl [Hr]; · iexact Hr
      iexact Hla
    imodintro
    rw [bigSep_sep' Finset.univ (fun c : Dev nD => StableHlo.held (c : Thread nD τ) (Pipeline.ucRefs τ sig) (Gen.V0 m c)) (Rests (F := F) 0)]
    isplitl [Hh]; · iexact Hh
    iexact HE
  · -- the end: every unscoped buffer read off the last valuation
    unfold StableHlo.held
    iintro ⟨Hh, HSI⟩
    imodintro
    iapply (pointsTo_read_all (Pipeline.ucRefs τ sig) (fun b => (((c : Thread nD τ)).1, b)) (Gen.V21 m (outs m hOk) c) s')
    isplitl [Hh] <;> iassumption

/-- THE RUN, the result buffer named: under the table fact, every weakly fair execution terminates, the result buffer
    ends at what the last valuation says of it, and every argument ends as launched. -/
theorem run (ρ : Dev nD → PrngReg) (hOk : Ok m) : θ_run defs (onTc (τ := τ) (main (F := F))) ⟨m, fun _ => 0, ρ⟩ (fun r => ∀ c : Dev nD,
      r.2.mem ((c.tc : Thread nD τ).loc main_v58) = Gen.V21 m (outs m hOk) c main_v58
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v58 (by decide)),
      (h c _ (mem_uc main_arg0 (by decide))).trans (Gen.V21_main_arg0 m (outs m hOk) c),
      (h c _ (mem_uc main_arg1 (by decide))).trans (Gen.V21_main_arg1 m (outs m hOk) c),
      (h c _ (mem_uc main_arg2 (by decide))).trans (Gen.V21_main_arg2 m (outs m hOk) c),
      (h c _ (mem_uc main_arg3 (by decide))).trans (Gen.V21_main_arg3 m (outs m hOk) c),
      (h c _ (mem_uc main_arg4 (by decide))).trans (Gen.V21_main_arg4 m (outs m hOk) c),
      (h c _ (mem_uc main_arg5 (by decide))).trans (Gen.V21_main_arg5 m (outs m hOk) c)⟩) (run_all m ρ hOk)

/-- THE FRAME: every argument ends as launched. -/
theorem frame (ρ : Dev nD → PrngReg) (hOk : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run m ρ hOk)

end Cert.Kernel.Hand

end
-- ==== Proof.KFrame.TableOk.lean ====
import proofs.«157345_j20959440404665_2_alg».proof.Proof.KFrame.Data
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The table fact from a bound on the table's words -/

variable (m : (ℓ : Loc nD τ sig) → Buf (Elt F) ℓ)

/-- The table the run reads is the valuation before region 1 at the table's buffer. -/
theorem tbl_eq : tbl m 0 = Gen.V17 m (outsA m) (0 : Dev nD) main_v46 := rfl

/-- The table fact holds as soon as every word of the table, read unsigned, is below 8. -/
theorem ok_of_words_lt (h : ∀ j : (pre1.ref 0).ty.shape.Idx, BitVec.toNat (w := 32) (tbl m 0 j) < 8) : Ok m :=
  ok1_of_words_lt (tbl m) h

end Cert.KernelIdeal.Hand

end
-- ==== Proof.RoutingDefs.lean ====
/-
  The routing stages of the kernel's host program as array functions of the label column.

  From the flat label array t (one 32-bit word per token) the program computes, in integer arithmetic:
    oneHot      — the [tokens, 8] table of 0/1 words, 1 where the token's label is the column;
    runCount    — its running column sums (an inclusive prefix sum down the tokens);
    totals      — the last row: how many tokens carry each label;
    pickOwn     — for each token the running count in its own label's column (a guarded pick along the row);
    rankOf      — that count less one: the token's rank among the tokens of its label;
    padded      — each total rounded up to a multiple of 512;
    floorDiv512 — the rounding's quotient, as the printed sequence of a floor division;
    starts      — the exclusive prefix sums of the padded sizes: where each label's group begins;
    startOf     — each token's group start (a guarded pick from the table of starts);
    place       — start plus rank: the token's row in the grouped array;
    tileLabel   — for each of the 72 tiles of 512 rows, the number of groups starting at or before it, less one;
    placeCol    — the places as a column of row indices (a negative place would be wrapped by the array's extent);
    grouped     — the first layer's rows scattered to their places over a zero array;
    fetch       — the rows of a table fetched back at the places (guarded; an out-of-range place reads a quiet NaN).
  Each definition repeats the program's operations in order, so that the program's buffers are these functions of one
  another by computation.
-/
import proofs.«157345_j20959440404665_2_alg».proof.Proof.Gen.KernelIdeal

noncomputable section

namespace Cert.KernelIdeal.Routing

open Cert.KernelIdeal Idealize.ShloMosaic

variable {F : FTy → Type} [FloatOps F]

def zeroS : IVec S_ 32 := constantI S_ 32 0#32

def oneHot (t1 : IVec S32768 32) : IVec S32768x8 32 :=
  extui 32 (cmpi .eq
      (broadcastInDim S32768x8 ![0, 1] Gen.bcast_S32768x1_S32768x8_0_1 (broadcastInDim S32768x1 ![0] Gen.bcast_S32768_S32768x1_0 t1))
      (broadcastInDim S32768x8 ![0, 1] Gen.bcast_S1x8_S32768x8_0_1 (broadcastInDim S1x8 ![1] Gen.bcast_S8_S1x8_1 (iotaInDim S8 32 0))))
    Gen.natLt_1_32

def runCount (oh : IVec S32768x8 32) : IVec S32768x8 32 :=
  Host.reduceWindow IntOp.addi ![32768, 1] ![1, 1] ![32767, 0] ![0, 0] oh (broadcastInDim S_ ![] Gen.bcast_S_S_ (constantI S_ 32 0#32))
    Gen.reduceWindows_S32768x8_S32768x8_w32768s1p32767_0_w1s1p0_0 Gen.h_S_

def totals (cum : IVec S32768x8 32) : IVec S8 32 :=
  shapeCast S8 (extractStridedSlice S1x8 ![32767, 0] cum Gen.slices_S32768x8_S1x8_32767_0) Gen.shapeCasts_S1x8_S8

def labelCol (t1 : IVec S32768 32) : IVec S32768x1 32 := broadcastInDim S32768x1 ![0] Gen.bcast_S32768_S32768x1_0 t1

def pickOwn (cum : IVec S32768x8 32) (c : IVec S32768x1 32) : IVec S32768x1 32 :=
  let idx : IVec S32768x1 32 :=
    select (cmpi .slt c (broadcastInDim S32768x1 ![] Gen.bcast_S_S32768x1 (constantI S_ 32 0#32)))
      (addi c (broadcastInDim S32768x1 ![] Gen.bcast_S_S32768x1 (constantI S_ 32 8#32))) c
  let idx3 : IVec S32768x1x1 32 := shapeCast S32768x1x1 idx Gen.shapeCasts_S32768x1_S32768x1x1
  let ok : IVec S32768x1 1 :=
    Host.reduce IntOp.andi
      (andi (cmpi .sge idx3 (broadcastInDim S32768x1x1 ![] Gen.bcast_S_S32768x1x1 (constantI S_ 32 0#32)))
            (cmpi .sle idx3 (broadcastInDim S32768x1x1 ![0, 1, 2] Gen.bcast_S1x1x1_S32768x1x1_0_1_2
                              (broadcastInDim S1x1x1 ![2] Gen.bcast_S1_S1x1x1_2 (constantI S1 32 7#32)))))
      (constantI S_ 1 1#1) Gen.reducesTo_S32768x1x1_S32768x1_d2 Gen.h_S_
  select ok (Host.gather gather_S32768x8_S32768x1x1_S32768x1_n_1_0_0_1_2_11 cum idx3)
    (broadcastInDim S32768x1 ![] Gen.bcast_S_S32768x1 (constantI S_ 32 2147483648#32))

def rankOf (own : IVec S32768x1 32) : IVec S32768 32 :=
  subi (shapeCast S32768 own Gen.shapeCasts_S32768x1_S32768) (broadcastInDim S32768 ![] Gen.bcast_S_S32768 (constantI S_ 32 1#32))

def plus511 (tot : IVec S8 32) : IVec S8 32 :=
  subi (addi tot (broadcastInDim S8 ![] Gen.bcast_S_S8 (constantI S_ 32 512#32))) (broadcastInDim S8 ![] Gen.bcast_S_S8 (constantI S_ 32 1#32))

/-- The printed floor division of an [8] array by a scalar word. -/
def floorDiv (x : IVec S8 32) (d : IVec S_ 32) : IVec S8 32 :=
  let y : IVec S8 32 := broadcastInDim S8 ![] Gen.bcast_S_S8 d
  let q : IVec S8 32 := Host.divsi x y
  let ne : IVec S8 1 := cmpi .ne (signi x) (broadcastInDim S8 ![] Gen.bcast_S_S8 (signi d))
  let nz : IVec S8 1 := cmpi .ne (Host.remsi x y) (broadcastInDim S8 ![] Gen.bcast_S_S8 (constantI S_ 32 0#32))
  select (andi ne nz) (subi q (broadcastInDim S8 ![] Gen.bcast_S_S8 (constantI S_ 32 1#32))) q

def times512 (q : IVec S8 32) : IVec S8 32 := muli q (broadcastInDim S8 ![] Gen.bcast_S_S8 (constantI S_ 32 512#32))

def prefix8 (s : IVec S8 32) : IVec S8 32 :=
  Host.reduceWindow IntOp.addi ![8] ![1] ![7] ![0] s (broadcastInDim S_ ![] Gen.bcast_S_S_ (constantI S_ 32 0#32))
    Gen.reduceWindows_S8_S8_w8s1p7_0 Gen.h_S_

def starts (s : IVec S8 32) : IVec S8 32 :=
  extractStridedSlice S8 ![0]
    (concatenate S9 0 [⟨S1, broadcastInDim S1 ![] Gen.bcast_S_S1 (constantI S_ 32 0#32)⟩, ⟨S8, prefix8 s⟩] Gen.concatenates_S1_S8_S9_d0)
    Gen.slices_S9_S8_0

def startOf (st : IVec S8 32) (t1 : IVec S32768 32) : IVec S32768 32 :=
  let idx : IVec S32768 32 :=
    select (cmpi .slt t1 (broadcastInDim S32768 ![] Gen.bcast_S_S32768 (constantI S_ 32 0#32)))
      (addi t1 (broadcastInDim S32768 ![] Gen.bcast_S_S32768 (constantI S_ 32 8#32))) t1
  let c : IVec S32768x1 32 := broadcastInDim S32768x1 ![0] Gen.bcast_S32768_S32768x1_0 idx
  let ok : IVec S32768 1 :=
    Host.reduce IntOp.andi
      (andi (cmpi .sge c (broadcastInDim S32768x1 ![] Gen.bcast_S_S32768x1 (constantI S_ 32 0#32)))
            (cmpi .sle c (broadcastInDim S32768x1 ![0, 1] Gen.bcast_S1x1_S32768x1_0_1
                            (broadcastInDim S1x1 ![1] Gen.bcast_S1_S1x1_1 (constantI S1 32 7#32)))))
      (constantI S_ 1 1#1) Gen.reducesTo_S32768x1_S32768_d1 Gen.h_S_
  select ok (Host.gather gather_S8_S32768x1_S32768_n_0_n_n_0_1_1 st c)
    (broadcastInDim S32768 ![] Gen.bcast_S_S32768 (constantI S_ 32 2147483648#32))

def place (so rk : IVec S32768 32) : IVec S32768 32 := addi so rk

def tileLabel (tileStart : IVec S8 32) : IVec S72 32 :=
  subi
    (Host.reduce IntOp.addi
      (extui 32 (cmpi .sle
          (broadcastInDim S8x72 ![0, 1] Gen.bcast_S8x1_S8x72_0_1 (broadcastInDim S8x1 ![0] Gen.bcast_S8_S8x1_0 tileStart))
          (broadcastInDim S8x72 ![0, 1] Gen.bcast_S1x72_S8x72_0_1 (broadcastInDim S1x72 ![1] Gen.bcast_S72_S1x72_1 (iotaInDim S72 32 0))))
        Gen.natLt_1_32)
      (constantI S_ 32 0#32) Gen.reducesTo_S8x72_S72_d0 Gen.h_S_)
    (broadcastInDim S72 ![] Gen.bcast_S_S72 (constantI S_ 32 1#32))

def placeCol (pl : IVec S32768 32) : IVec S32768x1 32 :=
  broadcastInDim S32768x1 ![0] Gen.bcast_S32768_S32768x1_0
    (select (cmpi .slt pl (broadcastInDim S32768 ![] Gen.bcast_S_S32768 (constantI S_ 32 0#32)))
      (addi pl (broadcastInDim S32768 ![] Gen.bcast_S_S32768 (constantI S_ 32 36864#32))) pl)

def grouped (pc : IVec S32768x1 32) (rows : FVec F S32768x1024 .bf16) : FVec F S36864x1024 .bf16 :=
  Host.scatter scatter_S36864x1024_S32768x1_S32768x1024_1_0_0_1 (fun _ b => b)
    (broadcastInDim S36864x1024 ![] Gen.bcast_S_S36864x1024 (constant S_ .bf16 0x0000#16)) pc rows

def fetch (tab : FVec F S36864x512 .f32) (pl : IVec S32768 32) : FVec F S32768x512 .f32 :=
  let idx : IVec S32768 32 :=
    select (cmpi .slt pl (broadcastInDim S32768 ![] Gen.bcast_S_S32768 (constantI S_ 32 0#32)))
      (addi pl (broadcastInDim S32768 ![] Gen.bcast_S_S32768 (constantI S_ 32 36864#32))) pl
  let c : IVec S32768x1 32 := broadcastInDim S32768x1 ![0] Gen.bcast_S32768_S32768x1_0 idx
  let ok : IVec S32768 1 :=
    Host.reduce IntOp.andi
      (andi (cmpi .sge c (broadcastInDim S32768x1 ![] Gen.bcast_S_S32768x1 (constantI S_ 32 0#32)))
            (cmpi .sle c (broadcastInDim S32768x1 ![0, 1] Gen.bcast_S1x1_S32768x1_0_1
                            (broadcastInDim S1x1 ![1] Gen.bcast_S1_S1x1_1 (constantI S1 32 36863#32)))))
      (constantI S_ 1 1#1) Gen.reducesTo_S32768x1_S32768_d1 Gen.h_S_
  select (broadcastInDim S32768x512 ![0] Gen.bcast_S32768_S32768x512_0 ok)
    (Host.gather gather_S36864x512_S32768x1_S32768x512_1_0_n_n_0_1_1512 tab c)
    (broadcastInDim S32768x512 ![] Gen.bcast_S_S32768x512 (constant S_ .f32 0x7FC00000#32))

end Cert.KernelIdeal.Routing

end
-- ==== Proof.LibTypedRefs.lean ====
/-
  Typed references: contents moved to the buffer's own type and back.

  An operation of an outlined function reads and writes its buffers through references that carry the tensor type of
  the value they hold; contents cross between that type and the buffer's own type along the equation of the two
  types. Moving a value to the buffer's type and straight back gives the value, for ANY typed reference — the fact
  is about the reference as a variable, so using it never asks Lean to compare two buffer types.
-/
import Idealize.ShloMosaic.Lib.StableHlo

namespace Cert.Lib.TypedRefs

open Idealize.ShloMosaic Idealize.ShloMosaic.StableHlo

/-- Contents moved to a typed reference's buffer type and back are the contents. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

end Cert.Lib.TypedRefs
-- ==== Proof.LibAfterAppend.lean ====
/-
  The contents after two stretches of host operations run one after the other.

  The contents of a device's buffers after a list of host operations is a fold of the operations over the contents
  before. The fold over a concatenation is the fold over the second list started from the fold over the first. So a long
  stretch can be described stage by stage: each stage as a statement about an arbitrary starting valuation of which
  only the few buffers the stage reads are known, and the stages composed by this equation.
-/
import Idealize.ShloMosaic.Lib.StableHlo.Run

namespace Cert.Lib.AfterAppend

open Idealize.ShloMosaic Idealize.ShloMosaic.StableHlo

variable {τ : Topo} {sig : RefSig} {Val : EltTy → Type}

/-- The fold over a concatenation is the fold over the second list from the fold over the first. -/
theorem after_append (l₁ l₂ : List (HloOp τ sig Val)) (W : Valuation τ sig Val) :
    after (l₁ ++ l₂) W = after l₂ (after l₁ W) := by
  induction l₁ generalizing W with
  | nil => rfl
  | cons op l ih => simp only [List.cons_append, after_cons, ih]

end Cert.Lib.AfterAppend
-- ==== Proof.HostRead.lean ====
/-
  The host stretches of the kernel program read back, one stretch at a time.

  Between its three kernel regions the program runs stretches of plain array operations. Each theorem below says what
  one output buffer of one stretch holds after the stretch has run from an ARBITRARY valuation of the buffers: the
  routing function of that stage applied to the contents the stretch found in its input buffers. Nothing is assumed of
  the valuation, so the stretches compose: the valuation one stretch leaves is the valuation the next one starts from.

  Each equation is a computation: the stretch's operations are applied in order, the contents of an outlined function's
  buffers moved to the buffer's own type and back are the contents, and what is left is the routing function's own
  definition. The reductions, the windows, the gathers and the scatter stay folded throughout.
-/
import proofs.«157345_j20959440404665_2_alg».proof.Proof.Gen.KernelIdeal.Regions
import proofs.«157345_j20959440404665_2_alg».proof.Proof.RoutingDefs
import proofs.«157345_j20959440404665_2_alg».proof.Proof.LibTypedRefs
import proofs.«157345_j20959440404665_2_alg».proof.Proof.LibAfterAppend
import Idealize.ShloMosaic.Lib.StableHlo.Run

noncomputable section

namespace Cert.KernelIdeal.HostRead

open Cert.KernelIdeal Idealize.ShloMosaic Idealize.ShloMosaic.TcCoe Idealize.SL.Sem Idealize.ShloMosaic.StableHlo
open Cert.KernelIdeal.Routing

variable {F : FTy → Type} [FloatOps F]

-- The reductions, windows, gathers and scatters are read as symbols: two sides are compared by their arguments, never by
-- running a fold over thirty-two thousand rows.
attribute [local irreducible] Host.reduceWindow Host.reduce Host.gather Host.scatter

/-! ## Before the first kernel region -/

/-- The activations flattened to one row per token. -/
theorem hostOps0_v0 (X : Valuation τ sig (Elt F)) :
    (StableHlo.after (Gen.hostOps0 (F := F)) X main_v0 : (⟨S32768x512, .f32⟩ : BufTy).Contents (Elt F))
      = shapeCast S32768x512 (X main_arg0) Gen.shapeCasts_S64x512x512_S32768x512 := by
  after_results
  rfl

/-- The labels flattened to one word per token. -/
theorem hostOps0_v1 (X : Valuation τ sig (Elt F)) :
    (StableHlo.after (Gen.hostOps0 (F := F)) X main_v1 : (⟨S32768, .i32⟩ : BufTy).Contents (Elt F))
      = shapeCast S32768 (X main_arg1) Gen.shapeCasts_S64x512_S32768 := by
  after_results
  rfl

/-- The first layer's weights rounded to sixteen bits. -/
theorem hostOps0_v2 (X : Valuation τ sig (Elt F)) :
    (StableHlo.after (Gen.hostOps0 (F := F)) X main_v2 : (⟨S512x1024, .bf16⟩ : BufTy).Contents (Elt F))
      = truncf .bf16 (X main_arg2) Gen.bitsLt_bf16_f32 := by
  after_results

/-- The grouped layer's weights rounded to sixteen bits. -/
theorem hostOps0_v3 (X : Valuation τ sig (Elt F)) :
    (StableHlo.after (Gen.hostOps0 (F := F)) X main_v3 : (⟨S8x1024x512, .bf16⟩ : BufTy).Contents (Elt F))
      = truncf .bf16 (X main_arg3) Gen.bitsLt_bf16_f32 := by
  after_results

/-- The third layer's weights rounded to sixteen bits. -/
theorem hostOps0_v4 (X : Valuation τ sig (Elt F)) :
    (StableHlo.after (Gen.hostOps0 (F := F)) X main_v4 : (⟨S512x512, .bf16⟩ : BufTy).Contents (Elt F))
      = truncf .bf16 (X main_arg4) Gen.bitsLt_bf16_f32 := by
  after_results

/-- The zero word the padding reads. -/
theorem hostOps0_c (X : Valuation τ sig (Elt F)) :
    (StableHlo.after (Gen.hostOps0 (F := F)) X main_c : (⟨S_, .i32⟩ : BufTy).Contents (Elt F))
      = constantI S_ 32 0#32 := by
  after_results

/-- The last layer's column padded with zero columns to 128. -/
theorem hostOps0_1_v5 (X : Valuation τ sig (Elt F)) :
    (StableHlo.after (Gen.hostOps0_1 (F := F)) X main_v5 : (⟨S512x128, .f32⟩ : BufTy).Contents (Elt F))
      = pad S512x128 ![0, 0] ![0, 127] ![0, 0] (X main_arg5) (sitofp .f32 (X main_c))
          Gen.pads_S512x1_S512x128_000_01270 Gen.h_S_ := by
  after_results_simp
  simp only [Cert.Lib.TypedRefs.ofBuf_toBuf]
  rfl

/-- The padded last layer rounded to sixteen bits. -/
theorem hostOps0_2_v6 (X : Valuation τ sig (Elt F)) :
    (StableHlo.after (Gen.hostOps0_2 (F := F)) X main_v6 : (⟨S512x128, .bf16⟩ : BufTy).Contents (Elt F))
      = truncf .bf16 (X main_v5) Gen.bitsLt_bf16_f32 := by
  after_results

/-! ## Between the first and the second kernel region: the routing -/

/-- The 0/1 table of the labels. -/
theorem hostOps1_v14 (X : Valuation τ sig (Elt F)) :
    (StableHlo.after (Gen.hostOps1 (F := F)) X main_v14 : (⟨S32768x8, .i32⟩ : BufTy).Contents (Elt F))
      = oneHot (X main_v1) := by
  after_results
  rfl

/-- Its running column sums. -/
theorem hostOps1_1_v15 (X : Valuation τ sig (Elt F)) :
    (StableHlo.after (Gen.hostOps1_1 (F := F)) X main_v15 : (⟨S32768x8, .i32⟩ : BufTy).Contents (Elt F))
      = runCount (X main_v14) := by
  after_results_simp
  simp only [Cert.Lib.TypedRefs.ofBuf_toBuf]
  rfl

/-- The last row of the running sums: the tokens of each label. -/
theorem hostOps1_2_v17 (X : Valuation τ sig (Elt F)) :
    (StableHlo.after (Gen.hostOps1_2 (F := F)) X main_v17 : (⟨S8, .i32⟩ : BufTy).Contents (Elt F))
      = totals (X main_v15) := by
  after_results
  rfl

/-- The labels as a column. -/
theorem hostOps1_2_v18 (X : Valuation τ sig (Elt F)) :
    (StableHlo.after (Gen.hostOps1_2 (F := F)) X main_v18 : (⟨S32768x1, .i32⟩ : BufTy).Contents (Elt F))
      = labelCol (X main_v1) := by
  after_results
  rfl

/-- For each token the running count in its own label's column. -/
theorem hostOps1_3_v19 (X : Valuation τ sig (Elt F)) :
    (StableHlo.after (Gen.hostOps1_3 (F := F)) X main_v19 : (⟨S32768x1, .i32⟩ : BufTy).Contents (Elt F))
      = pickOwn (X main_v15) (X main_v18) := by
  after_results_simp
  simp only [Cert.Lib.TypedRefs.ofBuf_toBuf]
  rfl

/-- The rank of each token among the tokens of its label. -/
theorem hostOps1_4_v22 (X : Valuation τ sig (Elt F)) :
    (StableHlo.after (Gen.hostOps1_4 (F := F)) X main_v22 : (⟨S32768, .i32⟩ : BufTy).Contents (Elt F))
      = rankOf (X main_v19) := by
  after_results
  rfl

/-- Each label's total plus 511. -/
theorem hostOps1_4_v26 (X : Valuation τ sig (Elt F)) :
    (StableHlo.after (Gen.hostOps1_4 (F := F)) X main_v26 : (⟨S8, .i32⟩ : BufTy).Contents (Elt F))
      = plus511 (X main_v17) := by
  after_results
  rfl

/-- The divisor 512. -/
theorem hostOps1_4_c_3 (X : Valuation τ sig (Elt F)) :
    (StableHlo.after (Gen.hostOps1_4 (F := F)) X main_c_3 : (⟨S_, .i32⟩ : BufTy).Contents (Elt F))
      = constantI S_ 32 512#32 := by
  after_results

/-- The number of tiles of 512 rows each label's group takes. -/
theorem hostOps1_5_v27 (X : Valuation τ sig (Elt F)) :
    (StableHlo.after (Gen.hostOps1_5 (F := F)) X main_v27 : (⟨S8, .i32⟩ : BufTy).Contents (Elt F))
      = floorDiv (X main_v26) (X main_c_3) := by
  after_results_simp
  simp only [Cert.Lib.TypedRefs.ofBuf_toBuf]
  rfl

/-- The padded size of each label's group. -/
theorem hostOps1_6_v29 (X : Valuation τ sig (Elt F)) :
    (StableHlo.after (Gen.hostOps1_6 (F := F)) X main_v29 : (⟨S8, .i32⟩ : BufTy).Contents (Elt F))
      = times512 (X main_v27) := by
  after_results
  rfl

/-- The leading zero of the table of group starts. -/
theorem hostOps1_6_v30 (X : Valuation τ sig (Elt F)) :
    (StableHlo.after (Gen.hostOps1_6 (F := F)) X main_v30 : (⟨S1, .i32⟩ : BufTy).Contents (Elt F))
      = broadcastInDim S1 ![] Gen.bcast_S_S1 (constantI S_ 32 0#32) := by
  after_results

/-- The running sums of the padded sizes. -/
theorem hostOps1_7_v31 (X : Valuation τ sig (Elt F)) :
    (StableHlo.after (Gen.hostOps1_7 (F := F)) X main_v31 : (⟨S8, .i32⟩ : BufTy).Contents (Elt F))
      = prefix8 (X main_v29) := by
  after_results_simp
  simp only [Cert.Lib.TypedRefs.ofBuf_toBuf]
  rfl

/-- The table of group starts: the zero followed by the running sums, cut to eight entries. -/
theorem hostOps1_8_v33 (X : Valuation τ sig (Elt F)) :
    (StableHlo.after (Gen.hostOps1_8 (F := F)) X main_v33 : (⟨S8, .i32⟩ : BufTy).Contents (Elt F))
      = extractStridedSlice S8 ![0]
          (concatenate S9 0 [⟨S1, X main_v30⟩, ⟨S8, X main_v31⟩] Gen.concatenates_S1_S8_S9_d0) Gen.slices_S9_S8_0 := by
  after_results

/-- With the leading zero and the running sums of the two stretches before: the exclusive prefix sums. -/
theorem hostOps1_8_v33_starts (X : Valuation τ sig (Elt F)) (s : IVec S8 32)
    (h30 : (X main_v30 : (⟨S1, .i32⟩ : BufTy).Contents (Elt F)) = broadcastInDim S1 ![] Gen.bcast_S_S1 (constantI S_ 32 0#32))
    (h31 : (X main_v31 : (⟨S8, .i32⟩ : BufTy).Contents (Elt F)) = prefix8 s) :
    (StableHlo.after (Gen.hostOps1_8 (F := F)) X main_v33 : (⟨S8, .i32⟩ : BufTy).Contents (Elt F)) = starts s := by
  rw [hostOps1_8_v33, h30, h31]
  rfl

/-- Each token's group start. -/
theorem hostOps1_9_v34 (X : Valuation τ sig (Elt F)) :
    (StableHlo.after (Gen.hostOps1_9 (F := F)) X main_v34 : (⟨S32768, .i32⟩ : BufTy).Contents (Elt F))
      = startOf (X main_v33) (X main_v1) := by
  after_results_simp
  simp only [Cert.Lib.TypedRefs.ofBuf_toBuf]
  rfl

/-- Each token's row in the grouped array: its group's start plus its rank. -/
theorem hostOps1_10_v35 (X : Valuation τ sig (Elt F)) :
    (StableHlo.after (Gen.hostOps1_10 (F := F)) X main_v35 : (⟨S32768, .i32⟩ : BufTy).Contents (Elt F))
      = place (X main_v34) (X main_v22) := by
  after_results
  rfl

/-- The divisor 512. -/
theorem hostOps1_10_c_6 (X : Valuation τ sig (Elt F)) :
    (StableHlo.after (Gen.hostOps1_10 (F := F)) X main_c_6 : (⟨S_, .i32⟩ : BufTy).Contents (Elt F))
      = constantI S_ 32 512#32 := by
  after_results

/-- The first tile of each label's group. -/
theorem hostOps1_11_v36 (X : Valuation τ sig (Elt F)) :
    (StableHlo.after (Gen.hostOps1_11 (F := F)) X main_v36 : (⟨S8, .i32⟩ : BufTy).Contents (Elt F))
      = floorDiv (X main_v33) (X main_c_6) := by
  after_results_simp
  simp only [Cert.Lib.TypedRefs.ofBuf_toBuf]
  rfl

/-- The label of each of the 72 tiles. -/
theorem hostOps1_12_v46 (X : Valuation τ sig (Elt F)) :
    (StableHlo.after (Gen.hostOps1_12 (F := F)) X main_v46 : (⟨S72, .i32⟩ : BufTy).Contents (Elt F))
      = tileLabel (X main_v36) := by
  after_results
  rfl

/-- The places as a column of row indices. -/
theorem hostOps1_12_v53 (X : Valuation τ sig (Elt F)) :
    (StableHlo.after (Gen.hostOps1_12 (F := F)) X main_v53 : (⟨S32768x1, .i32⟩ : BufTy).Contents (Elt F))
      = placeCol (X main_v35) := by
  after_results
  rfl

/-- The first layer's rows scattered to their places over a zero array. -/
theorem hostOps1_12_v54 (X : Valuation τ sig (Elt F)) :
    (StableHlo.after (Gen.hostOps1_12 (F := F)) X main_v54 : (⟨S36864x1024, .bf16⟩ : BufTy).Contents (Elt F))
      = grouped (placeCol (X main_v35)) (X main_v7) := by
  after_results_simp
  rfl

/-! ## Between the second and the third kernel region -/

/-- The grouped layer's rows fetched back at the tokens' places. -/
theorem hostOps2_v56 (X : Valuation τ sig (Elt F)) :
    (StableHlo.after (Gen.hostOps2 (F := F)) X main_v56 : (⟨S32768x512, .f32⟩ : BufTy).Contents (Elt F))
      = fetch (X main_v55) (X main_v35) := by
  after_results_simp
  simp only [Cert.Lib.TypedRefs.ofBuf_toBuf]
  rfl

/-! ## After the third kernel region -/

/-- The first column of the last layer's padded output. -/
theorem hostOps3_v58 (X : Valuation τ sig (Elt F)) :
    (StableHlo.after (Gen.hostOps3 (F := F)) X main_v58 : (⟨S32768x1, .f32⟩ : BufTy).Contents (Elt F))
      = extractStridedSlice S32768x1 ![0, 0] (X main_v57) Gen.slices_S32768x128_S32768x1_0_0 := by
  after_results

end Cert.KernelIdeal.HostRead

end
-- ==== Proof.RoutingChain.lean ====
/-
  The routing stages composed: every stage as a function of the flat label array alone, and the labels as numbers.

  When every label word, read as a natural number, is below 8, token n carries the label lab n : Fin 8. The stages
  below are the program's integer pipeline from the labels to each token's place in the grouped array and to each
  tile's label.
-/
import proofs.«157345_j20959440404665_2_alg».proof.Proof.RoutingDefs
import Idealize.ShloMosaic.Lib.ValueIdx

noncomputable section

namespace Cert.KernelIdeal.Routing

open Cert.KernelIdeal Idealize.ShloMosaic Idealize.ShloMosaic.ValueIdx

/-- Every label word is a number below 8. -/
def InRange (t1 : IVec S32768 32) : Prop := ∀ n : Fin 32768, (t1 (ValueIdx.ix1 n)).toNat < 8

/-- The label of token n as a number. -/
def lab (t1 : IVec S32768 32) (h : InRange t1) (n : Fin 32768) : Fin 8 := ⟨(t1 (ValueIdx.ix1 n)).toNat, h n⟩

/-- The scalar word 512 the two floor divisions divide by. -/
abbrev w512 : IVec S_ 32 := constantI S_ 32 512#32

/-- Running counts per label. -/
abbrev cumT (t1 : IVec S32768 32) : IVec S32768x8 32 := runCount (oneHot t1)
/-- Totals per label. -/
abbrev totT (t1 : IVec S32768 32) : IVec S8 32 := totals (cumT t1)
/-- Each token's rank among the tokens of its label. -/
abbrev rankT (t1 : IVec S32768 32) : IVec S32768 32 := rankOf (pickOwn (cumT t1) (labelCol t1))
/-- Each label's group size, padded to a multiple of 512. -/
abbrev sizeT (t1 : IVec S32768 32) : IVec S8 32 := times512 (floorDiv (plus511 (totT t1)) w512)
/-- Where each label's group starts. -/
abbrev startT (t1 : IVec S32768 32) : IVec S8 32 := starts (sizeT t1)
/-- Each token's row in the grouped array. -/
abbrev placeT (t1 : IVec S32768 32) : IVec S32768 32 := place (startOf (startT t1) t1) (rankT t1)
/-- The first tile of each label's group. -/
abbrev tileStartT (t1 : IVec S32768 32) : IVec S8 32 := floorDiv (startT t1) w512
/-- Each tile's label: the table the second kernel's weight window reads. -/
abbrev tileT (t1 : IVec S32768 32) : IVec S72 32 := tileLabel (tileStartT t1)

end Cert.KernelIdeal.Routing

end
-- ==== Proof.KernelChain.lean ====
/-
  The host program's buffers as functions of the launch contents, stage by stage.

  Between the three kernel regions the program's host stretches compute each buffer from earlier ones; a stretch leaves
  every buffer it does not write as it found it. Chaining the stretches: the label column's whole integer pipeline
  (running counts, ranks, padded sizes, group starts, places, tile labels) is a function of the flattened label array
  alone; the grouped array is the first region's output scattered to the places; the second region's output is fetched
  back at the places; the result is the first column of the third region's output.
-/
import proofs.«157345_j20959440404665_2_alg».proof.Proof.HostRead
import proofs.«157345_j20959440404665_2_alg».proof.Proof.RoutingChain

set_option maxRecDepth 4096

noncomputable section

namespace Cert.KernelIdeal.Chain

open Cert.KernelIdeal Idealize.ShloMosaic Idealize.ShloMosaic.TcCoe Idealize.SL.Sem Idealize.ShloMosaic.StableHlo
open Cert.KernelIdeal.Routing

variable {F : FTy → Type} [FloatOps F]
variable (m : (ℓ : Loc nD τ sig) → Buf (Elt F) ℓ) (outs : Gen.Outs (F := F)) (c : Dev nD)

/-- The label array flattened to one word per token. -/
def flat : IVec S32768 32 := shapeCast S32768 (Gen.V0 m c main_arg1) Gen.shapeCasts_S64x512_S32768

/-! ## Buffers a run of stretches leaves alone -/

theorem v1_at4 : (Gen.V4 m outs c main_v1 : (⟨S32768, .i32⟩ : BufTy).Contents (Elt F)) = Gen.V1 m c main_v1 := by
  rw [Gen.V4_of m outs c _ (by decide),
    Gen.V3_of m c _ (by decide),
    Gen.V2_of m c _ (by decide)]

theorem v1_at6 : (Gen.V6 m outs c main_v1 : (⟨S32768, .i32⟩ : BufTy).Contents (Elt F)) = Gen.V1 m c main_v1 := by
  rw [Gen.V6_of m outs c _ (by decide),
    Gen.V5_of m outs c _ (by decide),
    Gen.V4_of m outs c _ (by decide),
    Gen.V3_of m c _ (by decide),
    Gen.V2_of m c _ (by decide)]

theorem v1_at13 : (Gen.V13 m outs c main_v1 : (⟨S32768, .i32⟩ : BufTy).Contents (Elt F)) = Gen.V1 m c main_v1 := by
  rw [Gen.V13_of m outs c _ (by decide),
    Gen.V12_of m outs c _ (by decide),
    Gen.V11_of m outs c _ (by decide),
    Gen.V10_of m outs c _ (by decide),
    Gen.V9_of m outs c _ (by decide),
    Gen.V8_of m outs c _ (by decide),
    Gen.V7_of m outs c _ (by decide),
    Gen.V6_of m outs c _ (by decide),
    Gen.V5_of m outs c _ (by decide),
    Gen.V4_of m outs c _ (by decide),
    Gen.V3_of m c _ (by decide),
    Gen.V2_of m c _ (by decide)]

theorem v0_at3 : (Gen.V3 m c main_v0 : (⟨S32768x512, .f32⟩ : BufTy).Contents (Elt F)) = Gen.V1 m c main_v0 := by
  rw [Gen.V3_of m c _ (by decide),
    Gen.V2_of m c _ (by decide)]

theorem v0_at19 : (Gen.V19 m outs c main_v0 : (⟨S32768x512, .f32⟩ : BufTy).Contents (Elt F)) = Gen.V1 m c main_v0 := by
  rw [Gen.V19_of m outs c _ (by decide),
    Gen.V18_of m outs c _ (by decide),
    Gen.V17_of m outs c _ (by decide),
    Gen.V16_of m outs c _ (by decide),
    Gen.V15_of m outs c _ (by decide),
    Gen.V14_of m outs c _ (by decide),
    Gen.V13_of m outs c _ (by decide),
    Gen.V12_of m outs c _ (by decide),
    Gen.V11_of m outs c _ (by decide),
    Gen.V10_of m outs c _ (by decide),
    Gen.V9_of m outs c _ (by decide),
    Gen.V8_of m outs c _ (by decide),
    Gen.V7_of m outs c _ (by decide),
    Gen.V6_of m outs c _ (by decide),
    Gen.V5_of m outs c _ (by decide),
    Gen.V4_of m outs c _ (by decide),
    Gen.V3_of m c _ (by decide),
    Gen.V2_of m c _ (by decide)]

theorem v2_at3 : (Gen.V3 m c main_v2 : (⟨S512x1024, .bf16⟩ : BufTy).Contents (Elt F)) = Gen.V1 m c main_v2 := by
  rw [Gen.V3_of m c _ (by decide),
    Gen.V2_of m c _ (by decide)]

theorem v3_at17 : (Gen.V17 m outs c main_v3 : (⟨S8x1024x512, .bf16⟩ : BufTy).Contents (Elt F)) = Gen.V1 m c main_v3 := by
  rw [Gen.V17_of m outs c _ (by decide),
    Gen.V16_of m outs c _ (by decide),
    Gen.V15_of m outs c _ (by decide),
    Gen.V14_of m outs c _ (by decide),
    Gen.V13_of m outs c _ (by decide),
    Gen.V12_of m outs c _ (by decide),
    Gen.V11_of m outs c _ (by decide),
    Gen.V10_of m outs c _ (by decide),
    Gen.V9_of m outs c _ (by decide),
    Gen.V8_of m outs c _ (by decide),
    Gen.V7_of m outs c _ (by decide),
    Gen.V6_of m outs c _ (by decide),
    Gen.V5_of m outs c _ (by decide),
    Gen.V4_of m outs c _ (by decide),
    Gen.V3_of m c _ (by decide),
    Gen.V2_of m c _ (by decide)]

theorem v4_at19 : (Gen.V19 m outs c main_v4 : (⟨S512x512, .bf16⟩ : BufTy).Contents (Elt F)) = Gen.V1 m c main_v4 := by
  rw [Gen.V19_of m outs c _ (by decide),
    Gen.V18_of m outs c _ (by decide),
    Gen.V17_of m outs c _ (by decide),
    Gen.V16_of m outs c _ (by decide),
    Gen.V15_of m outs c _ (by decide),
    Gen.V14_of m outs c _ (by decide),
    Gen.V13_of m outs c _ (by decide),
    Gen.V12_of m outs c _ (by decide),
    Gen.V11_of m outs c _ (by decide),
    Gen.V10_of m outs c _ (by decide),
    Gen.V9_of m outs c _ (by decide),
    Gen.V8_of m outs c _ (by decide),
    Gen.V7_of m outs c _ (by decide),
    Gen.V6_of m outs c _ (by decide),
    Gen.V5_of m outs c _ (by decide),
    Gen.V4_of m outs c _ (by decide),
    Gen.V3_of m c _ (by decide),
    Gen.V2_of m c _ (by decide)]

theorem v6_at19 : (Gen.V19 m outs c main_v6 : (⟨S512x128, .bf16⟩ : BufTy).Contents (Elt F)) = Gen.V3 m c main_v6 := by
  rw [Gen.V19_of m outs c _ (by decide),
    Gen.V18_of m outs c _ (by decide),
    Gen.V17_of m outs c _ (by decide),
    Gen.V16_of m outs c _ (by decide),
    Gen.V15_of m outs c _ (by decide),
    Gen.V14_of m outs c _ (by decide),
    Gen.V13_of m outs c _ (by decide),
    Gen.V12_of m outs c _ (by decide),
    Gen.V11_of m outs c _ (by decide),
    Gen.V10_of m outs c _ (by decide),
    Gen.V9_of m outs c _ (by decide),
    Gen.V8_of m outs c _ (by decide),
    Gen.V7_of m outs c _ (by decide),
    Gen.V6_of m outs c _ (by decide),
    Gen.V5_of m outs c _ (by decide),
    Gen.V4_of m outs c _ (by decide)]

theorem v15_at7 : (Gen.V7 m outs c main_v15 : (⟨S32768x8, .i32⟩ : BufTy).Contents (Elt F)) = Gen.V6 m outs c main_v15 := by
  rw [Gen.V7_of m outs c _ (by decide)]

theorem v17_at8 : (Gen.V8 m outs c main_v17 : (⟨S8, .i32⟩ : BufTy).Contents (Elt F)) = Gen.V7 m outs c main_v17 := by
  rw [Gen.V8_of m outs c _ (by decide)]

theorem v22_at14 : (Gen.V14 m outs c main_v22 : (⟨S32768, .i32⟩ : BufTy).Contents (Elt F)) = Gen.V9 m outs c main_v22 := by
  rw [Gen.V14_of m outs c _ (by decide),
    Gen.V13_of m outs c _ (by decide),
    Gen.V12_of m outs c _ (by decide),
    Gen.V11_of m outs c _ (by decide),
    Gen.V10_of m outs c _ (by decide)]

theorem v30_at12 : (Gen.V12 m outs c main_v30 : (⟨S1, .i32⟩ : BufTy).Contents (Elt F)) = Gen.V11 m outs c main_v30 := by
  rw [Gen.V12_of m outs c _ (by decide)]

theorem v33_at15 : (Gen.V15 m outs c main_v33 : (⟨S8, .i32⟩ : BufTy).Contents (Elt F)) = Gen.V13 m outs c main_v33 := by
  rw [Gen.V15_of m outs c _ (by decide),
    Gen.V14_of m outs c _ (by decide)]

theorem v35_at16 : (Gen.V16 m outs c main_v35 : (⟨S32768, .i32⟩ : BufTy).Contents (Elt F)) = Gen.V15 m outs c main_v35 := by
  rw [Gen.V16_of m outs c _ (by decide)]

theorem v35_at18 : (Gen.V18 m outs c main_v35 : (⟨S32768, .i32⟩ : BufTy).Contents (Elt F)) = Gen.V15 m outs c main_v35 := by
  rw [Gen.V18_of m outs c _ (by decide),
    Gen.V17_of m outs c _ (by decide),
    Gen.V16_of m outs c _ (by decide)]

theorem v7_at16 : (Gen.V16 m outs c main_v7 : (⟨S32768x1024, .bf16⟩ : BufTy).Contents (Elt F)) = Gen.V4 m outs c main_v7 := by
  rw [Gen.V16_of m outs c _ (by decide),
    Gen.V15_of m outs c _ (by decide),
    Gen.V14_of m outs c _ (by decide),
    Gen.V13_of m outs c _ (by decide),
    Gen.V12_of m outs c _ (by decide),
    Gen.V11_of m outs c _ (by decide),
    Gen.V10_of m outs c _ (by decide),
    Gen.V9_of m outs c _ (by decide),
    Gen.V8_of m outs c _ (by decide),
    Gen.V7_of m outs c _ (by decide),
    Gen.V6_of m outs c _ (by decide),
    Gen.V5_of m outs c _ (by decide)]

/-! ## The stages -/

theorem v1_eq : (Gen.V1 m c main_v1 : (⟨S32768, .i32⟩ : BufTy).Contents (Elt F)) = flat m c := HostRead.hostOps0_v1 (Gen.V0 m c)

theorem v14_eq : (Gen.V5 m outs c main_v14 : (⟨S32768x8, .i32⟩ : BufTy).Contents (Elt F)) = oneHot (flat m c) :=
  (HostRead.hostOps1_v14 (Gen.V4 m outs c)).trans (congrArg oneHot ((v1_at4 m outs c).trans (v1_eq m c)))

theorem v15_eq : (Gen.V6 m outs c main_v15 : (⟨S32768x8, .i32⟩ : BufTy).Contents (Elt F)) = cumT (flat m c) :=
  (HostRead.hostOps1_1_v15 (Gen.V5 m outs c)).trans (congrArg runCount (v14_eq m outs c))

theorem v17_eq : (Gen.V7 m outs c main_v17 : (⟨S8, .i32⟩ : BufTy).Contents (Elt F)) = totT (flat m c) :=
  (HostRead.hostOps1_2_v17 (Gen.V6 m outs c)).trans (congrArg totals (v15_eq m outs c))

theorem v18_eq : (Gen.V7 m outs c main_v18 : (⟨S32768x1, .i32⟩ : BufTy).Contents (Elt F)) = labelCol (flat m c) :=
  (HostRead.hostOps1_2_v18 (Gen.V6 m outs c)).trans (congrArg labelCol ((v1_at6 m outs c).trans (v1_eq m c)))

theorem v19_eq : (Gen.V8 m outs c main_v19 : (⟨S32768x1, .i32⟩ : BufTy).Contents (Elt F)) = pickOwn (cumT (flat m c)) (labelCol (flat m c)) :=
  (HostRead.hostOps1_3_v19 (Gen.V7 m outs c)).trans
    (congrArg₂ pickOwn ((v15_at7 m outs c).trans (v15_eq m outs c)) (v18_eq m outs c))

theorem v22_eq : (Gen.V9 m outs c main_v22 : (⟨S32768, .i32⟩ : BufTy).Contents (Elt F)) = rankT (flat m c) :=
  (HostRead.hostOps1_4_v22 (Gen.V8 m outs c)).trans (congrArg rankOf (v19_eq m outs c))

theorem v26_eq : (Gen.V9 m outs c main_v26 : (⟨S8, .i32⟩ : BufTy).Contents (Elt F)) = plus511 (totT (flat m c)) :=
  (HostRead.hostOps1_4_v26 (Gen.V8 m outs c)).trans (congrArg plus511 ((v17_at8 m outs c).trans (v17_eq m outs c)))

theorem c3_eq : (Gen.V9 m outs c main_c_3 : (⟨S_, .i32⟩ : BufTy).Contents (Elt F)) = w512 := HostRead.hostOps1_4_c_3 (Gen.V8 m outs c)

theorem v27_eq : (Gen.V10 m outs c main_v27 : (⟨S8, .i32⟩ : BufTy).Contents (Elt F)) = floorDiv (plus511 (totT (flat m c))) w512 :=
  (HostRead.hostOps1_5_v27 (Gen.V9 m outs c)).trans (congrArg₂ floorDiv (v26_eq m outs c) (c3_eq m outs c))

theorem v29_eq : (Gen.V11 m outs c main_v29 : (⟨S8, .i32⟩ : BufTy).Contents (Elt F)) = sizeT (flat m c) :=
  (HostRead.hostOps1_6_v29 (Gen.V10 m outs c)).trans (congrArg times512 (v27_eq m outs c))

theorem v30_eq : (Gen.V11 m outs c main_v30 : (⟨S1, .i32⟩ : BufTy).Contents (Elt F)) = broadcastInDim S1 ![] Gen.bcast_S_S1 (constantI S_ 32 0#32) :=
  HostRead.hostOps1_6_v30 (Gen.V10 m outs c)

theorem v31_eq : (Gen.V12 m outs c main_v31 : (⟨S8, .i32⟩ : BufTy).Contents (Elt F)) = prefix8 (sizeT (flat m c)) :=
  (HostRead.hostOps1_7_v31 (Gen.V11 m outs c)).trans (congrArg prefix8 (v29_eq m outs c))

theorem v33_eq : (Gen.V13 m outs c main_v33 : (⟨S8, .i32⟩ : BufTy).Contents (Elt F)) = startT (flat m c) :=
  HostRead.hostOps1_8_v33_starts (Gen.V12 m outs c) (sizeT (flat m c)) ((v30_at12 m outs c).trans (v30_eq m outs c)) (v31_eq m outs c)

theorem v34_eq : (Gen.V14 m outs c main_v34 : (⟨S32768, .i32⟩ : BufTy).Contents (Elt F)) = startOf (startT (flat m c)) (flat m c) :=
  (HostRead.hostOps1_9_v34 (Gen.V13 m outs c)).trans
    (congrArg₂ startOf (v33_eq m outs c) ((v1_at13 m outs c).trans (v1_eq m c)))

theorem v35_eq : (Gen.V15 m outs c main_v35 : (⟨S32768, .i32⟩ : BufTy).Contents (Elt F)) = placeT (flat m c) :=
  (HostRead.hostOps1_10_v35 (Gen.V14 m outs c)).trans
    (congrArg₂ place (v34_eq m outs c) ((v22_at14 m outs c).trans (v22_eq m outs c)))

theorem c6_eq : (Gen.V15 m outs c main_c_6 : (⟨S_, .i32⟩ : BufTy).Contents (Elt F)) = w512 := HostRead.hostOps1_10_c_6 (Gen.V14 m outs c)

theorem v36_eq : (Gen.V16 m outs c main_v36 : (⟨S8, .i32⟩ : BufTy).Contents (Elt F)) = tileStartT (flat m c) :=
  (HostRead.hostOps1_11_v36 (Gen.V15 m outs c)).trans
    (congrArg₂ floorDiv ((v33_at15 m outs c).trans (v33_eq m outs c)) (c6_eq m outs c))

/-- The table the second region's weight window reads: each tile's label, whatever the regions leave behind. -/
theorem v46_eq : (Gen.V17 m outs c main_v46 : (⟨S72, .i32⟩ : BufTy).Contents (Elt F)) = tileT (flat m c) :=
  (HostRead.hostOps1_12_v46 (Gen.V16 m outs c)).trans (congrArg tileLabel (v36_eq m outs c))

/-- What the first region leaves is what the scatter reads. -/
theorem v7_eq : (Gen.V4 m outs c main_v7 : (⟨S32768x1024, .bf16⟩ : BufTy).Contents (Elt F)) = outs 4 main_v7 c := by
  show Function.update (Gen.V3 m c) _ _ _ = _
  exact Function.update_self ..

theorem v54_eq : (Gen.V17 m outs c main_v54 : (⟨S36864x1024, .bf16⟩ : BufTy).Contents (Elt F))
    = grouped (placeCol (placeT (flat m c))) (outs 4 main_v7 c) :=
  (HostRead.hostOps1_12_v54 (Gen.V16 m outs c)).trans
    (congrArg₂ (fun p r => grouped (placeCol p) r) ((v35_at16 m outs c).trans (v35_eq m outs c))
      ((v7_at16 m outs c).trans (v7_eq m outs c)))

theorem v55_eq : (Gen.V18 m outs c main_v55 : (⟨S36864x512, .f32⟩ : BufTy).Contents (Elt F)) = outs 18 main_v55 c := by
  show Function.update (Gen.V17 m outs c) _ _ _ = _
  exact Function.update_self ..

theorem v56_eq : (Gen.V19 m outs c main_v56 : (⟨S32768x512, .f32⟩ : BufTy).Contents (Elt F)) = fetch (outs 18 main_v55 c) (placeT (flat m c)) :=
  (HostRead.hostOps2_v56 (Gen.V18 m outs c)).trans
    (congrArg₂ fetch (v55_eq m outs c) ((v35_at18 m outs c).trans (v35_eq m outs c)))

theorem v57_eq : (Gen.V20 m outs c main_v57 : (⟨S32768x128, .f32⟩ : BufTy).Contents (Elt F)) = outs 20 main_v57 c := by
  show Function.update (Gen.V19 m outs c) _ _ _ = _
  exact Function.update_self ..

theorem v58_eq : (Gen.V21 m outs c main_v58 : (⟨S32768x1, .f32⟩ : BufTy).Contents (Elt F))
    = extractStridedSlice S32768x1 ![0, 0] (outs 20 main_v57 c) Gen.slices_S32768x128_S32768x1_0_0 :=
  (HostRead.hostOps3_v58 (Gen.V20 m outs c)).trans
    (congrArg (fun z => extractStridedSlice S32768x1 ![0, 0] z Gen.slices_S32768x128_S32768x1_0_0) (v57_eq m outs c))

/-! ## The float inputs of the regions -/

theorem v0_eq : (Gen.V1 m c main_v0 : (⟨S32768x512, .f32⟩ : BufTy).Contents (Elt F)) = shapeCast S32768x512 (Gen.V0 m c main_arg0) Gen.shapeCasts_S64x512x512_S32768x512 :=
  HostRead.hostOps0_v0 (Gen.V0 m c)
theorem v2_eq : (Gen.V1 m c main_v2 : (⟨S512x1024, .bf16⟩ : BufTy).Contents (Elt F)) = truncf .bf16 (Gen.V0 m c main_arg2) Gen.bitsLt_bf16_f32 :=
  HostRead.hostOps0_v2 (Gen.V0 m c)
theorem v3_eq : (Gen.V1 m c main_v3 : (⟨S8x1024x512, .bf16⟩ : BufTy).Contents (Elt F)) = truncf .bf16 (Gen.V0 m c main_arg3) Gen.bitsLt_bf16_f32 :=
  HostRead.hostOps0_v3 (Gen.V0 m c)
theorem v4_eq : (Gen.V1 m c main_v4 : (⟨S512x512, .bf16⟩ : BufTy).Contents (Elt F)) = truncf .bf16 (Gen.V0 m c main_arg4) Gen.bitsLt_bf16_f32 :=
  HostRead.hostOps0_v4 (Gen.V0 m c)

end Cert.KernelIdeal.Chain

end
-- ==== Proof.LibGroupedPositions.lean ====
/-
  Counting-sort positions with padded groups.

  There are N items; item n carries a label lab n among K labels. The items are laid out label by label:
  first all items of label 0 in their original order, then those of label 1, and so on, except that the
  room given to each label is rounded up to a whole number of tiles of T places. The position of an item
  is the start of its label's room plus its rank among the items of its label. This file proves that the
  positions are pairwise distinct, that they stay below N + K * (T - 1), and that the tile holding an
  item's position belongs to the item's label, where a tile's label is recovered by counting the labels
  whose room starts at or before that tile.
-/
import Mathlib

namespace Cert.Lib.GroupedPositions

open Finset

variable {N K : ℕ}

/-- Inclusive running count: how many items n' ≤ n carry label k. -/
def cum (lab : Fin N → Fin K) (n : Fin N) (k : Fin K) : ℕ :=
  ((Finset.univ : Finset (Fin N)).filter fun n' => n' ≤ n ∧ lab n' = k).card

/-- How many items carry label k. -/
def cnt (lab : Fin N → Fin K) (k : Fin K) : ℕ :=
  ((Finset.univ : Finset (Fin N)).filter fun n' => lab n' = k).card

/-- The 0-based rank of item n among the items of its own label, in the original order. -/
def rank (lab : Fin N → Fin K) (n : Fin N) : ℕ :=
  cum lab n (lab n) - 1

/-- The room of label k: its count rounded up to a multiple of the tile size T. -/
def size (T : ℕ) (lab : Fin N → Fin K) (k : Fin K) : ℕ :=
  (cnt lab k + (T - 1)) / T * T

/-- Where the room of label k starts: the total room of the labels before k. -/
def off (T : ℕ) (lab : Fin N → Fin K) (k : Fin K) : ℕ :=
  ∑ k' ∈ (Finset.univ : Finset (Fin K)).filter (· < k), size T lab k'

/-- The position of item n: the start of its label's room plus its rank within the label. -/
def pos (T : ℕ) (lab : Fin N → Fin K) (n : Fin N) : ℕ :=
  off T lab (lab n) + rank lab n

/-- The tile at which the room of label k starts. -/
def toff (T : ℕ) (lab : Fin N → Fin K) (k : Fin K) : ℕ :=
  off T lab k / T

/-- The label recovered for tile τ: the number of labels whose room starts at or before tile τ, less one. -/
def gid (T : ℕ) (lab : Fin N → Fin K) (τ : ℕ) : ℕ :=
  ((Finset.univ : Finset (Fin K)).filter fun k => toff T lab k ≤ τ).card - 1

/-! ### Running counts -/

/-- Item n counts itself: the running count of its own label at n is at least one. -/
theorem cum_pos (lab : Fin N → Fin K) (n : Fin N) : 1 ≤ cum lab n (lab n) := by
  unfold cum
  exact Finset.card_pos.mpr ⟨n, by simp⟩

/-- A running count never exceeds the total count of the label. -/
theorem cum_le_cnt (lab : Fin N → Fin K) (n : Fin N) (k : Fin K) : cum lab n k ≤ cnt lab k := by
  unfold cum cnt
  apply Finset.card_le_card
  intro x hx
  simp only [Finset.mem_filter, Finset.mem_univ, true_and] at hx ⊢
  exact hx.2

/-- Running counts grow with the item index. -/
theorem cum_mono (lab : Fin N → Fin K) {n n' : Fin N} (h : n ≤ n') (k : Fin K) :
    cum lab n k ≤ cum lab n' k := by
  unfold cum
  apply Finset.card_le_card
  intro x hx
  simp only [Finset.mem_filter, Finset.mem_univ, true_and] at hx ⊢
  exact ⟨le_trans hx.1 h, hx.2⟩

/-- Between two items of the same label the running count of that label grows strictly:
the later item is counted at itself and not at the earlier one. -/
theorem cum_lt (lab : Fin N → Fin K) {n' n : Fin N} (h : n' < n) (hl : lab n' = lab n) :
    cum lab n' (lab n) < cum lab n (lab n) := by
  unfold cum
  apply Finset.card_lt_card
  rw [Finset.ssubset_iff_of_subset]
  · refine ⟨n, by simp, ?_⟩
    intro hx
    simp only [Finset.mem_filter, Finset.mem_univ, true_and] at hx
    exact absurd hx.1 (not_le.mpr h)
  · intro x hx
    simp only [Finset.mem_filter, Finset.mem_univ, true_and] at hx ⊢
    exact ⟨le_trans hx.1 h.le, hx.2⟩

/-- Within one label the rank is strictly increasing in the item index. -/
theorem rank_lt_rank (lab : Fin N → Fin K) {n' n : Fin N} (h : n' < n) (hl : lab n' = lab n) :
    rank lab n' < rank lab n := by
  have h1 := cum_lt lab h hl
  have h2 := cum_pos lab n'
  unfold rank
  rw [hl] at h2 ⊢
  omega

/-- The rank of an item is below the count of its label. -/
theorem rank_lt (lab : Fin N → Fin K) (n : Fin N) : rank lab n < cnt lab (lab n) := by
  have h1 := cum_pos lab n
  have h2 := cum_le_cnt lab n (lab n)
  unfold rank
  omega

/-- Every item carries exactly one label, so the counts add up to the number of items. -/
theorem sum_cnt (lab : Fin N → Fin K) : ∑ k, cnt lab k = N := by
  unfold cnt
  have h := Finset.card_eq_sum_card_fiberwise (s := (Finset.univ : Finset (Fin N)))
    (t := (Finset.univ : Finset (Fin K))) (f := lab) (fun _ _ => Finset.mem_univ _)
  simpa using h.symm

/-! ### Rooms -/

/-- A room is a whole number of tiles. -/
theorem dvd_size (T : ℕ) (lab : Fin N → Fin K) (k : Fin K) : T ∣ size T lab k :=
  Dvd.intro_left _ rfl

/-- A room holds all the items of its label. -/
theorem cnt_le_size {T : ℕ} (hT : 0 < T) (lab : Fin N → Fin K) (k : Fin K) :
    cnt lab k ≤ size T lab k := by
  have h := Nat.lt_div_mul_add (a := cnt lab k + (T - 1)) hT
  unfold size
  omega

/-- A room wastes less than one tile. -/
theorem size_lt {T : ℕ} (hT : 0 < T) (lab : Fin N → Fin K) (k : Fin K) :
    size T lab k < cnt lab k + T := by
  have h := Nat.div_mul_le_self (cnt lab k + (T - 1)) T
  unfold size
  omega

/-- Every room starts at a tile boundary. -/
theorem dvd_off (T : ℕ) (lab : Fin N → Fin K) (k : Fin K) : T ∣ off T lab k :=
  Finset.dvd_sum fun k' _ => dvd_size T lab k'

/-- The room of a label ends at or before the start of the room of any later label. -/
theorem off_add_size_le (T : ℕ) (lab : Fin N → Fin K) {k k' : Fin K} (h : k < k') :
    off T lab k + size T lab k ≤ off T lab k' := by
  unfold off
  have hk : k ∉ (Finset.univ : Finset (Fin K)).filter (· < k) := by simp
  rw [add_comm, ← Finset.sum_insert hk]
  apply Finset.sum_le_sum_of_subset
  intro x hx
  simp only [Finset.mem_insert, Finset.mem_filter, Finset.mem_univ, true_and] at hx ⊢
  rcases hx with rfl | hx
  · exact h
  · exact lt_trans hx h

/-- Room starts grow with the label. -/
theorem off_mono (T : ℕ) (lab : Fin N → Fin K) {k k' : Fin K} (h : k ≤ k') :
    off T lab k ≤ off T lab k' := by
  unfold off
  apply Finset.sum_le_sum_of_subset
  intro x hx
  simp only [Finset.mem_filter, Finset.mem_univ, true_and] at hx ⊢
  exact lt_of_lt_of_le hx h

/-- Every room ends within the total room. -/
theorem off_add_size_le_sum (T : ℕ) (lab : Fin N → Fin K) (k : Fin K) :
    off T lab k + size T lab k ≤ ∑ k', size T lab k' := by
  unfold off
  have hk : k ∉ (Finset.univ : Finset (Fin K)).filter (· < k) := by simp
  rw [add_comm, ← Finset.sum_insert hk]
  exact Finset.sum_le_sum_of_subset (Finset.subset_univ _)

/-- The total room is at most the number of items plus T - 1 places of padding per label. -/
theorem sum_size_le {T : ℕ} (hT : 0 < T) (lab : Fin N → Fin K) :
    ∑ k, size T lab k ≤ N + K * (T - 1) := by
  have h : ∑ k, size T lab k ≤ ∑ k : Fin K, (cnt lab k + (T - 1)) := by
    apply Finset.sum_le_sum
    intro k _
    have := size_lt hT lab k
    omega
  rw [Finset.sum_add_distrib, sum_cnt, Finset.sum_const, Finset.card_univ, Fintype.card_fin,
    smul_eq_mul] at h
  exact h

/-! ### Positions -/

/-- The room of its label starts at or before an item's position. -/
theorem off_le_pos (T : ℕ) (lab : Fin N → Fin K) (n : Fin N) : off T lab (lab n) ≤ pos T lab n :=
  Nat.le_add_right _ _

/-- An item's position lies among the first count-many places of its label's room. -/
theorem pos_lt_off_add_cnt (T : ℕ) (lab : Fin N → Fin K) (n : Fin N) :
    pos T lab n < off T lab (lab n) + cnt lab (lab n) := by
  have := rank_lt lab n
  unfold pos
  omega

/-- An item's position lies inside its label's room. -/
theorem pos_lt_off_add_size {T : ℕ} (hT : 0 < T) (lab : Fin N → Fin K) (n : Fin N) :
    pos T lab n < off T lab (lab n) + size T lab (lab n) := by
  have h1 := pos_lt_off_add_cnt T lab n
  have h2 := cnt_le_size hT lab (lab n)
  omega

/-- Every position is below the total room. -/
theorem pos_lt_sum {T : ℕ} (hT : 0 < T) (lab : Fin N → Fin K) (n : Fin N) :
    pos T lab n < ∑ k, size T lab k :=
  lt_of_lt_of_le (pos_lt_off_add_size hT lab n) (off_add_size_le_sum T lab (lab n))

/-- Every position is below N + K * (T - 1). -/
theorem pos_lt {T : ℕ} (hT : 0 < T) (lab : Fin N → Fin K) (n : Fin N) :
    pos T lab n < N + K * (T - 1) :=
  lt_of_lt_of_le (pos_lt_sum hT lab n) (sum_size_le hT lab)

/-- An item of an earlier label is placed strictly before every item of a later label. -/
theorem pos_lt_pos_of_lab_lt {T : ℕ} (hT : 0 < T) (lab : Fin N → Fin K) {n m : Fin N}
    (h : lab n < lab m) : pos T lab n < pos T lab m := by
  have h1 := pos_lt_off_add_size hT lab n
  have h2 := off_add_size_le T lab h
  have h3 := off_le_pos T lab m
  omega

/-- Distinct items get distinct positions. -/
theorem pos_inj {T : ℕ} (hT : 0 < T) (lab : Fin N → Fin K) : Function.Injective (pos T lab) := by
  intro n m hnm
  rcases lt_trichotomy (lab n) (lab m) with h | h | h
  · exact absurd hnm (ne_of_lt (pos_lt_pos_of_lab_lt hT lab h))
  · have hr : rank lab n = rank lab m := by
      unfold pos at hnm
      rw [h] at hnm
      omega
    rcases lt_trichotomy n m with h' | h' | h'
    · exact absurd hr (ne_of_lt (rank_lt_rank lab h' h))
    · exact h'
    · exact absurd hr (ne_of_gt (rank_lt_rank lab h' h.symm))
  · exact absurd hnm (ne_of_gt (pos_lt_pos_of_lab_lt hT lab h))

/-! ### Tiles -/

/-- The starting tiles grow with the label. -/
theorem toff_mono (T : ℕ) (lab : Fin N → Fin K) {k k' : Fin K} (h : k ≤ k') :
    toff T lab k ≤ toff T lab k' :=
  Nat.div_le_div_right (off_mono T lab h)

/-- The room of the first label starts at place 0. -/
theorem off_zero (T : ℕ) (lab : Fin N → Fin K) (hK : 0 < K) : off T lab ⟨0, hK⟩ = 0 := by
  unfold off
  apply Finset.sum_eq_zero
  intro x hx
  simp only [Finset.mem_filter, Finset.mem_univ, true_and] at hx
  exact absurd (Fin.lt_def.mp hx) (Nat.not_lt_zero _)

/-- The labels whose room starts at or before the tile of item n are exactly the labels up to lab n. -/
theorem filter_toff_le_pos {T : ℕ} (hT : 0 < T) (lab : Fin N → Fin K) (n : Fin N) :
    ((Finset.univ : Finset (Fin K)).filter fun k => toff T lab k ≤ pos T lab n / T)
      = Finset.Iic (lab n) := by
  ext k
  simp only [Finset.mem_filter, Finset.mem_univ, true_and, Finset.mem_Iic]
  constructor
  · intro hk
    by_contra hlt
    have hlt' : lab n < k := not_le.mp hlt
    have h1 := pos_lt_off_add_size hT lab n
    have h2 := off_add_size_le T lab hlt'
    have h3 : pos T lab n < toff T lab k * T := by
      unfold toff
      rw [Nat.div_mul_cancel (dvd_off T lab k)]
      omega
    have h4 : pos T lab n / T < toff T lab k := (Nat.div_lt_iff_lt_mul hT).mpr h3
    omega
  · intro hk
    exact le_trans (toff_mono T lab hk) (Nat.div_le_div_right (off_le_pos T lab n))

/-- The tile holding item n belongs to the label of item n. -/
theorem gid_pos {T : ℕ} (hT : 0 < T) (lab : Fin N → Fin K) (n : Fin N) :
    gid T lab (pos T lab n / T) = (lab n).val := by
  unfold gid
  rw [filter_toff_le_pos hT lab n, Fin.card_Iic]
  omega

/-- The first label's room starts at tile 0, so every tile has at least one label starting at or before it. -/
theorem one_le_card_filter_toff (T : ℕ) (lab : Fin N → Fin K) (hK : 0 < K) (τ : ℕ) :
    1 ≤ ((Finset.univ : Finset (Fin K)).filter fun k => toff T lab k ≤ τ).card := by
  apply Finset.card_pos.mpr
  refine ⟨⟨0, hK⟩, ?_⟩
  simp only [Finset.mem_filter, Finset.mem_univ, true_and]
  unfold toff
  rw [off_zero T lab hK]
  simp

/-- The label recovered for any tile is a valid label. -/
theorem gid_lt (T : ℕ) (lab : Fin N → Fin K) (hK : 0 < K) (τ : ℕ) : gid T lab τ < K := by
  have h1 := one_le_card_filter_toff T lab hK τ
  have h2 : ((Finset.univ : Finset (Fin K)).filter fun k => toff T lab k ≤ τ).card ≤ K := by
    calc _ ≤ (Finset.univ : Finset (Fin K)).card := Finset.card_le_card (Finset.filter_subset _ _)
      _ = K := by simp
  unfold gid
  omega

end Cert.Lib.GroupedPositions
-- ==== Proof.LibPrefixSum.lean ====
/-
  Prefix sums as windowed reductions.

  A cumulative sum along an axis of extent `n` can be written as a windowed reduction: the window has
  extent `n` along that axis (and 1 along every other), the stride is 1, and the operand is padded with
  `n - 1` copies of the additive identity in front. The window at output position `i` then covers the padded
  positions `i, …, i + n - 1`, i.e. operand positions `i - (n-1), …, i`, of which exactly `0, …, i` are inside the
  operand: the result at `i` is `x 0 + … + x i`.

  This file proves that reading for words (`BitVec w`, wrapping addition) at rank 1 and at rank 2 (sum along the
  leading axis), and two no-overflow corollaries about the value read as a natural number: the count of ones of a
  0/1-valued operand, and the plain sum of naturals under a bound.
-/
import Idealize.ShloMosaic.PureOps.Ideal
import Idealize.ShloMosaic.Lib.ValueIdx
import Mathlib.Data.BitVec

open scoped BigOperators

namespace Cert.Lib.PrefixSum

open Idealize.ShloMosaic Idealize.ShloMosaic.ValueIdx

/-! ## A left fold of addition is a sum -/

/-- Folding `r ↦ r + g a` from `z` over a list adds to `z` the sum of `g` over the list
    (in a commutative monoid; only associativity is used). -/
theorem foldl_add_eq_sum {M ι : Type*} [AddCommMonoid M] (g : ι → M) (l : List ι) (z : M) :
    l.foldl (fun r a => r + g a) z = z + (l.map g).sum := by
  induction l generalizing z with
  | nil => simp
  | cons a l ih => simp [ih, add_assoc]

/-- Folding `r ↦ r + g a` from `z` over all of `Fin m` in order gives `z + ∑ a, g a`. -/
theorem foldl_add_finRange {M : Type*} [AddCommMonoid M] (m : Nat) (g : Fin m → M) (z : M) :
    (List.finRange m).foldl (fun r a => r + g a) z = z + ∑ a, g a := by
  rw [foldl_add_eq_sum, Fin.sum_univ_def]

/-- The same for words, with the addition spelt as the integer operation `addi` (which is `+` on `BitVec w`). -/
theorem foldl_addi_finRange {w : Nat} (m : Nat) (g : Fin m → BitVec w) (z : BitVec w) :
    (List.finRange m).foldl (fun r a => IntOp.addi r (g a)) z = z + ∑ a, g a :=
  foldl_add_finRange m g z

/-! ## A windowed reduction by addition from zero is a sum over the window -/

/-- A windowed reduction by word addition whose initial value is the zero word, at any rank, window, strides and
    padding: the result at `j` is the sum, over the window's multi-indices `c`, of the operand at
    `j * stride + c - lo` where that position lies inside the operand, and of zero where it is padding. -/
theorem reduceWindow_addi_eq_sum {s t u : Shape} {w : Nat} (window strides lo hi : Fin s.rank → Nat)
    (x : IVec s w) (init : IVec u w) (h : s.ReduceWindows window strides lo hi t) (hu : 0 < u.numel)
    (hinit : init (Shape.Idx.first hu) = 0#w) (j : t.Idx) :
    Host.reduceWindow IntOp.addi window strides lo hi x init h hu j
      = ∑ c : (⟨s.rank, window⟩ : Shape).Idx,
          if hin : ∀ a, lo a ≤ (j (a.cast h.1.symm)).val * strides a + (c a).val
              ∧ (j (a.cast h.1.symm)).val * strides a + (c a).val - lo a < s.size a
          then x (fun a => ⟨(j (a.cast h.1.symm)).val * strides a + (c a).val - lo a, (hin a).2⟩) else 0#w := by
  unfold Host.reduceWindow
  dsimp only
  rw [hinit, foldl_addi_finRange]
  exact (zero_add _).trans (Fintype.sum_equiv (Shape.rowMajor ⟨s.rank, window⟩).symm _ _ (fun _ => rfl))

/-! ## Re-indexing the window -/

/-- With `m = n - 1` positions of padding in front and `i < n`: as the window coordinate `a` runs over `0 … n-1`,
    the positions `i + a` that reach the operand (`m ≤ i + a`) hit the operand coordinates `i + a - m = 0 … i`,
    each once. So the sum over the window of "`f` at `i + a - m` when inside, else zero" is the sum of `f` over `0 … i`. -/
theorem sum_window_shift {M : Type*} [AddCommMonoid M] {n m i : Nat} (hm : m + 1 = n) (hi : i < n) (f : Nat → M) :
    ∑ a : Fin n, (if m ≤ i + a.val then f (i + a.val - m) else 0)
      = ∑ i' : Fin n, if i'.val ≤ i then f i'.val else 0 := by
  rw [Fin.sum_univ_eq_sum_range (fun a => if m ≤ i + a then f (i + a - m) else 0) n,
      Fin.sum_univ_eq_sum_range (fun b => if b ≤ i then f b else 0) n,
      ← Finset.sum_filter, ← Finset.sum_filter]
  refine Finset.sum_nbij' (fun a => i + a - m) (fun b => b + m - i) ?_ ?_ ?_ ?_ ?_
  · intro a ha; simp only [Finset.mem_filter, Finset.mem_range] at ha ⊢; omega
  · intro b hb; simp only [Finset.mem_filter, Finset.mem_range] at hb ⊢; omega
  · intro a ha; simp only [Finset.mem_filter, Finset.mem_range] at ha; beta_reduce; omega
  · intro b hb; simp only [Finset.mem_filter, Finset.mem_range] at hb; beta_reduce; omega
  · intro a _; rfl

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  Fintype.sum_equiv idxEquiv1 _ _ fun i => congrArg f (eq_ix1 i)

/-! ## The cumulative sum, rank 2 (along the leading axis) and rank 1 -/

/-- Rank 2, padding written as `m` with `m + 1 = n`: the windowed reduction by addition with window `[n, 1]`,
    strides `[1, 1]`, low padding `[m, 0]`, no high padding and zero initial value is the prefix sum down each
    column: the result at `(i, j)` is `∑_{i' ≤ i} x (i', j)` (wrapping, in `BitVec w`). -/
theorem cumsum2_lo_apply {n k m w : Nat} {u : Shape} (hm : m + 1 = n) (x : IVec ⟨2, ![n, k]⟩ w) (init : IVec u w)
    (h : (⟨2, ![n, k]⟩ : Shape).ReduceWindows (![n, 1] : Fin 2 → Nat) ![1, 1] ![m, 0] ![0, 0] ⟨2, ![n, k]⟩)
    (hu : 0 < u.numel) (hinit : init (Shape.Idx.first hu) = 0#w) (i : Fin n) (j : Fin k) :
    Host.reduceWindow IntOp.addi ![n, 1] ![1, 1] ![m, 0] ![0, 0] x init h hu (ix2 i j)
      = ∑ i' : Fin n, if i'.val ≤ i.val then x (ix2 i' j) else 0#w := by
  rw [reduceWindow_addi_eq_sum _ _ _ _ x init h hu hinit]
  refine (sum_idx2 (n0 := n) (n1 := 1) _).trans ?_
  simp only [Fin.sum_univ_one]
  have hs := sum_window_shift hm i.isLt (fun r => if hr : r < n then x (ix2 ⟨r, hr⟩ j) else 0#w)
  refine Eq.trans ?_ (hs.trans ?_)
  · refine Finset.sum_congr rfl fun a _ => ?_
    by_cases hc : m ≤ i.val + a.val
    · have hlt : i.val + a.val - m < n := by omega
      rw [if_pos hc]; beta_reduce; rw [dif_pos hlt]
      split
      · congr 1; funext a'
        match a' with
        | ⟨0, _⟩ => exact Fin.ext (show i.val * 1 + a.val - m = i.val + a.val - m by rw [Nat.mul_one])
        | ⟨1, _⟩ => exact Fin.ext (show j.val * 1 + 0 - 0 = j.val by omega)
      · next hnin =>
        exfalso; apply hnin; intro a'
        match a' with
        | ⟨0, _⟩ => show m ≤ i.val * 1 + a.val ∧ i.val * 1 + a.val - m < n; omega
        | ⟨1, _⟩ => show 0 ≤ j.val * 1 + 0 ∧ j.val * 1 + 0 - 0 < k; have := j.isLt; omega
    · rw [if_neg hc]; split
      · next hin =>
        have h0 : m ≤ i.val * 1 + a.val := (hin 0).1
        exfalso; omega
      · rfl
  · refine Finset.sum_congr rfl fun i' _ => ?_
    beta_reduce; rw [dif_pos i'.isLt]; rfl

/-- Rank 1, padding written as `m` with `m + 1 = n`: the windowed reduction by addition with window `[n]`, stride 1,
    low padding `[m]`, no high padding and zero initial value is the prefix sum: the result at `i` is
    `∑_{i' ≤ i} x i'` (wrapping, in `BitVec w`). -/
theorem cumsum1_lo_apply {n m w : Nat} {u : Shape} (hm : m + 1 = n) (x : IVec ⟨1, ![n]⟩ w) (init : IVec u w)
    (h : (⟨1, ![n]⟩ : Shape).ReduceWindows (![n] : Fin 1 → Nat) ![1] ![m] ![0] ⟨1, ![n]⟩)
    (hu : 0 < u.numel) (hinit : init (Shape.Idx.first hu) = 0#w) (i : Fin n) :
    Host.reduceWindow IntOp.addi ![n] ![1] ![m] ![0] x init h hu (ix1 i)
      = ∑ i' : Fin n, if i'.val ≤ i.val then x (ix1 i') else 0#w := by
  rw [reduceWindow_addi_eq_sum _ _ _ _ x init h hu hinit]
  refine (sum_idx1 (n := n) _).trans ?_
  have hs := sum_window_shift hm i.isLt (fun r => if hr : r < n then x (ix1 ⟨r, hr⟩) else 0#w)
  refine Eq.trans ?_ (hs.trans ?_)
  · refine Finset.sum_congr rfl fun a _ => ?_
    by_cases hc : m ≤ i.val + a.val
    · have hlt : i.val + a.val - m < n := by omega
      rw [if_pos hc]; beta_reduce; rw [dif_pos hlt]
      split
      · congr 1; funext a'
        match a' with
        | ⟨0, _⟩ => exact Fin.ext (show i.val * 1 + a.val - m = i.val + a.val - m by rw [Nat.mul_one])
      · next hnin =>
        exfalso; apply hnin; intro a'
        match a' with
        | ⟨0, _⟩ => show m ≤ i.val * 1 + a.val ∧ i.val * 1 + a.val - m < n; omega
    · rw [if_neg hc]; split
      · next hin =>
        have h0 : m ≤ i.val * 1 + a.val := (hin 0).1
        exfalso; omega
      · rfl
  · refine Finset.sum_congr rfl fun i' _ => ?_
    beta_reduce; rw [dif_pos i'.isLt]; rfl

/-- Rank 2 with the padding written `n - 1` (`0 < n`): the result at `(i, j)` is `∑_{i' ≤ i} x (i', j)`. -/
theorem cumsum2_apply {n k w : Nat} {u : Shape} (hn : 0 < n) (x : IVec ⟨2, ![n, k]⟩ w) (init : IVec u w)
    (h : (⟨2, ![n, k]⟩ : Shape).ReduceWindows (![n, 1] : Fin 2 → Nat) ![1, 1] ![n - 1, 0] ![0, 0] ⟨2, ![n, k]⟩)
    (hu : 0 < u.numel) (hinit : init (Shape.Idx.first hu) = 0#w) (i : Fin n) (j : Fin k) :
    Host.reduceWindow IntOp.addi ![n, 1] ![1, 1] ![n - 1, 0] ![0, 0] x init h hu (ix2 i j)
      = ∑ i' : Fin n, if i'.val ≤ i.val then x (ix2 i' j) else 0#w :=
  cumsum2_lo_apply (Nat.sub_add_cancel hn) x init h hu hinit i j

/-- Rank 1 with the padding written `n - 1` (`0 < n`): the result at `i` is `∑_{i' ≤ i} x i'`. -/
theorem cumsum1_apply {n w : Nat} {u : Shape} (hn : 0 < n) (x : IVec ⟨1, ![n]⟩ w) (init : IVec u w)
    (h : (⟨1, ![n]⟩ : Shape).ReduceWindows (![n] : Fin 1 → Nat) ![1] ![n - 1] ![0] ⟨1, ![n]⟩)
    (hu : 0 < u.numel) (hinit : init (Shape.Idx.first hu) = 0#w) (i : Fin n) :
    Host.reduceWindow IntOp.addi ![n] ![1] ![n - 1] ![0] x init h hu (ix1 i)
      = ∑ i' : Fin n, if i'.val ≤ i.val then x (ix1 i') else 0#w :=
  cumsum1_lo_apply (Nat.sub_add_cancel hn) x init h hu hinit i

/-- Rank 2, the prefix sum written as a sum over the set `{i' | i' ≤ i}`. -/
theorem cumsum2_lo_apply_filter {n k m w : Nat} {u : Shape} (hm : m + 1 = n) (x : IVec ⟨2, ![n, k]⟩ w) (init : IVec u w)
    (h : (⟨2, ![n, k]⟩ : Shape).ReduceWindows (![n, 1] : Fin 2 → Nat) ![1, 1] ![m, 0] ![0, 0] ⟨2, ![n, k]⟩)
    (hu : 0 < u.numel) (hinit : init (Shape.Idx.first hu) = 0#w) (i : Fin n) (j : Fin k) :
    Host.reduceWindow IntOp.addi ![n, 1] ![1, 1] ![m, 0] ![0, 0] x init h hu (ix2 i j)
      = ∑ i' ∈ Finset.univ.filter (fun i' : Fin n => i'.val ≤ i.val), x (ix2 i' j) := by
  rw [cumsum2_lo_apply hm x init h hu hinit, Finset.sum_filter]; rfl

/-- Rank 1, the prefix sum written as a sum over the set `{i' | i' ≤ i}`. -/
theorem cumsum1_lo_apply_filter {n m w : Nat} {u : Shape} (hm : m + 1 = n) (x : IVec ⟨1, ![n]⟩ w) (init : IVec u w)
    (h : (⟨1, ![n]⟩ : Shape).ReduceWindows (![n] : Fin 1 → Nat) ![1] ![m] ![0] ⟨1, ![n]⟩)
    (hu : 0 < u.numel) (hinit : init (Shape.Idx.first hu) = 0#w) (i : Fin n) :
    Host.reduceWindow IntOp.addi ![n] ![1] ![m] ![0] x init h hu (ix1 i)
      = ∑ i' ∈ Finset.univ.filter (fun i' : Fin n => i'.val ≤ i.val), x (ix1 i') := by
  rw [cumsum1_lo_apply hm x init h hu hinit, Finset.sum_filter]; rfl

/-! ## Reading a sum of words as a natural number -/

/-- The value of a sum of `w`-bit words is the sum of the values, modulo `2 ^ w`. -/
theorem toNat_sum_mod {w : Nat} {ι : Type*} (S : Finset ι) (f : ι → BitVec w) :
    (∑ a ∈ S, f a).toNat = (∑ a ∈ S, (f a).toNat) % 2 ^ w := by
  classical
  induction S using Finset.induction_on with
  | empty => simp
  | insert a S ha ih => rw [Finset.sum_insert ha, Finset.sum_insert ha, BitVec.toNat_add, ih, Nat.add_mod_mod]

/-- A sum of fewer than `2 ^ 32` words each `0` or `1` counts the ones: no wrap-around occurs. -/
theorem toNat_sum_zero_one {ι : Type*} (S : Finset ι) (f : ι → BitVec 32)
    (h01 : ∀ a ∈ S, f a = 0#32 ∨ f a = 1#32) (hS : S.card < 2 ^ 32) :
    (∑ a ∈ S, f a).toNat = (S.filter fun a => f a = 1#32).card := by
  have hsum : ∑ a ∈ S, (f a).toNat = ∑ a ∈ S, if f a = 1#32 then 1 else 0 := by
    refine Finset.sum_congr rfl fun a ha => ?_
    rcases h01 a ha with h | h <;> rw [h] <;> decide
  rw [toNat_sum_mod, hsum, ← Finset.card_filter, Nat.mod_eq_of_lt]
  exact lt_of_le_of_lt (Finset.card_filter_le _ _) hS

/-- If every term's value is at most `B` and `|S| * B < 2 ^ w`, the value of the sum of words is the sum of the
    values: no wrap-around occurs. -/
theorem toNat_sum_of_bound {w : Nat} {ι : Type*} (S : Finset ι) (f : ι → BitVec w) (B : Nat)
    (hB : ∀ a ∈ S, (f a).toNat ≤ B) (hS : S.card * B < 2 ^ w) :
    (∑ a ∈ S, f a).toNat = ∑ a ∈ S, (f a).toNat := by
  rw [toNat_sum_mod, Nat.mod_eq_of_lt]
  calc ∑ a ∈ S, (f a).toNat ≤ ∑ _a ∈ S, B := Finset.sum_le_sum hB
    _ = S.card * B := by rw [Finset.sum_const, smul_eq_mul]
    _ < 2 ^ w := hS

/-- A subset of `Fin n` cut out by a predicate has at most `n` elements. -/
theorem card_filter_fin_le {n : Nat} (p : Fin n → Prop) [DecidablePred p] :
    (Finset.univ.filter p).card ≤ n :=
  (Finset.card_filter_le _ _).trans_eq (Finset.card_fin n)

/-! ## No-overflow corollaries for the cumulative sum -/

/-- Rank 2, 32-bit words, operand entries all `0` or `1`, `n < 2 ^ 32`: the value at `(i, j)` is the NUMBER of rows
    `i' ≤ i` whose entry in column `j` is `1`. -/
theorem cumsum2_lo_count {n k m : Nat} {u : Shape} (hm : m + 1 = n) (x : IVec ⟨2, ![n, k]⟩ 32) (init : IVec u 32)
    (h : (⟨2, ![n, k]⟩ : Shape).ReduceWindows (![n, 1] : Fin 2 → Nat) ![1, 1] ![m, 0] ![0, 0] ⟨2, ![n, k]⟩)
    (hu : 0 < u.numel) (hinit : init (Shape.Idx.first hu) = 0#32)
    (h01 : ∀ idx, x idx = 0#32 ∨ x idx = 1#32) (hn : n < 2 ^ 32) (i : Fin n) (j : Fin k) :
    (Host.reduceWindow IntOp.addi ![n, 1] ![1, 1] ![m, 0] ![0, 0] x init h hu (ix2 i j)).toNat
      = (Finset.univ.filter fun i' : Fin n => i'.val ≤ i.val ∧ x (ix2 i' j) = 1#32).card := by
  rw [cumsum2_lo_apply_filter hm x init h hu hinit,
    toNat_sum_zero_one _ _ (fun a _ => h01 _) (lt_of_le_of_lt (card_filter_fin_le _) hn), Finset.filter_filter]

/-- Rank 1, 32-bit words, operand entries all `0` or `1`, `n < 2 ^ 32`: the value at `i` is the NUMBER of positions
    `i' ≤ i` whose entry is `1`. -/
theorem cumsum1_lo_count {n m : Nat} {u : Shape} (hm : m + 1 = n) (x : IVec ⟨1, ![n]⟩ 32) (init : IVec u 32)
    (h : (⟨1, ![n]⟩ : Shape).ReduceWindows (![n] : Fin 1 → Nat) ![1] ![m] ![0] ⟨1, ![n]⟩)
    (hu : 0 < u.numel) (hinit : init (Shape.Idx.first hu) = 0#32)
    (h01 : ∀ idx, x idx = 0#32 ∨ x idx = 1#32) (hn : n < 2 ^ 32) (i : Fin n) :
    (Host.reduceWindow IntOp.addi ![n] ![1] ![m] ![0] x init h hu (ix1 i)).toNat
      = (Finset.univ.filter fun i' : Fin n => i'.val ≤ i.val ∧ x (ix1 i') = 1#32).card := by
  rw [cumsum1_lo_apply_filter hm x init h hu hinit,
    toNat_sum_zero_one _ _ (fun a _ => h01 _) (lt_of_le_of_lt (card_filter_fin_le _) hn), Finset.filter_filter]

/-- Rank 2, every operand entry's value at most `B` with `n * B < 2 ^ w`: the value at `(i, j)` is the sum of the
    values of the entries `(i', j)`, `i' ≤ i`, as natural numbers. -/
theorem cumsum2_lo_toNat {n k m w : Nat} {u : Shape} (hm : m + 1 = n) (x : IVec ⟨2, ![n, k]⟩ w) (init : IVec u w)
    (h : (⟨2, ![n, k]⟩ : Shape).ReduceWindows (![n, 1] : Fin 2 → Nat) ![1, 1] ![m, 0] ![0, 0] ⟨2, ![n, k]⟩)
    (hu : 0 < u.numel) (hinit : init (Shape.Idx.first hu) = 0#w)
    (B : Nat) (hB : ∀ idx, (x idx).toNat ≤ B) (hnB : n * B < 2 ^ w) (i : Fin n) (j : Fin k) :
    (Host.reduceWindow IntOp.addi ![n, 1] ![1, 1] ![m, 0] ![0, 0] x init h hu (ix2 i j)).toNat
      = ∑ i' ∈ Finset.univ.filter (fun i' : Fin n => i'.val ≤ i.val), (x (ix2 i' j)).toNat := by
  rw [cumsum2_lo_apply_filter hm x init h hu hinit]
  exact toNat_sum_of_bound _ _ B (fun a _ => hB _)
    (lt_of_le_of_lt (Nat.mul_le_mul_right B (card_filter_fin_le _)) hnB)

/-- Rank 1, every operand entry's value at most `B` with `n * B < 2 ^ w`: the value at `i` is the sum of the values
    of the entries `i' ≤ i`, as natural numbers. -/
theorem cumsum1_lo_toNat {n m w : Nat} {u : Shape} (hm : m + 1 = n) (x : IVec ⟨1, ![n]⟩ w) (init : IVec u w)
    (h : (⟨1, ![n]⟩ : Shape).ReduceWindows (![n] : Fin 1 → Nat) ![1] ![m] ![0] ⟨1, ![n]⟩)
    (hu : 0 < u.numel) (hinit : init (Shape.Idx.first hu) = 0#w)
    (B : Nat) (hB : ∀ idx, (x idx).toNat ≤ B) (hnB : n * B < 2 ^ w) (i : Fin n) :
    (Host.reduceWindow IntOp.addi ![n] ![1] ![m] ![0] x init h hu (ix1 i)).toNat
      = ∑ i' ∈ Finset.univ.filter (fun i' : Fin n => i'.val ≤ i.val), (x (ix1 i')).toNat := by
  rw [cumsum1_lo_apply_filter hm x init h hu hinit]
  exact toNat_sum_of_bound _ _ B (fun a _ => hB _)
    (lt_of_le_of_lt (Nat.mul_le_mul_right B (card_filter_fin_le _)) hnB)

end Cert.Lib.PrefixSum
-- ==== Proof.LibPickColumn.lean ====
/-
  One entry of each row picked by data: a gather along the second axis, read at an index.

  `take_along_axis(x, idx, axis=1)` over an `[N, K]` table with ONE index word per row (the words carried as an `[N, 1, 1]`
  array, the result an `[N, 1]` column) reads row `n` of the table at column `min (toNat idx_n) (K - 1)`: the row is the
  batching coordinate, shared by the table and the words; the column is the word read signed and CLAMPED into `[0, K - 1]`.
  A word already inside `[0, K)` is its own column.
-/
import Idealize.ShloMosaic.PureOps.Ideal
import Idealize.ShloMosaic.Lib.ValueIdx

namespace Cert.Lib.PickColumn

open Idealize.ShloMosaic Idealize.ShloMosaic.ValueIdx

/-- A gather of one entry per row of an `[N, K]` table: the row axis batching (table axis 0 with the words' axis 0), the
    column named by an `[N, 1, 1]` array of words, both table axes of the unit slice dropped from the `[N, 1]` result. -/
abbrev pickColumn (N K : Nat)
    (wf : GatherDims.WF ⟨2, ![N, K]⟩ ⟨3, ![N, 1, 1]⟩ ⟨2, ![N, 1]⟩ [] [1] [0] [1] [0] 2 ![1, 1]) :
    GatherDims ⟨2, ![N, K]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

variable {N K w : Nat} {α : Type}
  (wf : GatherDims.WF ⟨2, ![N, K]⟩ ⟨3, ![N, 1, 1]⟩ ⟨2, ![N, 1]⟩ [] [1] [0] [1] [0] 2 ![1, 1])
  (x : (⟨2, ![N, K]⟩ : Shape).Idx → α) (idx : IVec ⟨3, ![N, 1, 1]⟩ w)

/-- THE PICK READ AT ROW `n`, any word: the table at row `n`, column the word read signed and clamped into `[0, K - 1]`. -/
theorem pickColumn_apply_clamped (hK : 0 < K) (n : Fin N) :
    Host.gather (pickColumn N K wf) x idx (ix2 n (0 : Fin 1))
      = x (ix2 n ⟨min (idx (ix3 n (0 : Fin 1) (0 : Fin 1))).toInt.toNat (K - 1), by omega⟩) := by
  unfold Host.gather
  congr 1
  funext a
  refine Fin.ext ?_
  match a with
  | ⟨0, _⟩ =>
    show (pickColumn N K wf).start (ix2 n (0 : Fin 1)) idx 0 + (pickColumn N K wf).batchCoord (ix2 n (0 : Fin 1)) 0
      + (pickColumn N K wf).offCoord (ix2 n (0 : Fin 1)) 0 = n.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (pickColumn N K wf).operandBatchingDims from List.mem_singleton.mpr rfl)]
    rfl
  | ⟨1, _⟩ =>
    show (pickColumn N K wf).start (ix2 n (0 : Fin 1)) idx 1 + (pickColumn N K wf).batchCoord (ix2 n (0 : Fin 1)) 1
      + (pickColumn N K wf).offCoord (ix2 n (0 : Fin 1)) 1 = min (idx (ix3 n (0 : Fin 1) (0 : Fin 1))).toInt.toNat (K - 1)
    rw [GatherDims.batchCoord_eq_zero _ _ _ (by decide : ¬ (1 : Fin 2) ∈ ([0] : List (Fin 2))),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (pickColumn N K wf).startIndexMap from List.mem_singleton.mpr rfl)]
    have hsi : (pickColumn N K wf).siIdx (ix2 n (0 : Fin 1)) ⟨List.idxOf (1 : Fin 2) (pickColumn N K wf).startIndexMap,
        List.idxOf_lt_length_iff.2 (List.mem_singleton.mpr rfl)⟩ = ix3 n (0 : Fin 1) (0 : Fin 1) := by
      funext b; refine Fin.ext ?_
      match b with
      | ⟨0, _⟩ => rfl
      | ⟨1, _⟩ => rfl
      | ⟨2, _⟩ => rfl
    rw [hsi]
    rfl

/-- THE PICK READ AT ROW `n`, a word that, read signed, is inside `[0, K)`: the table at row `n`, column that word. -/
theorem pickColumn_apply_toInt (n : Fin N) (h0 : 0 ≤ (idx (ix3 n (0 : Fin 1) (0 : Fin 1))).toInt)
    (h1 : (idx (ix3 n (0 : Fin 1) (0 : Fin 1))).toInt < (K : ℤ)) :
    Host.gather (pickColumn N K wf) x idx (ix2 n (0 : Fin 1))
      = x (ix2 n ⟨(idx (ix3 n (0 : Fin 1) (0 : Fin 1))).toInt.toNat, by omega⟩) := by
  rw [pickColumn_apply_clamped wf x idx (by omega : 0 < K) n]
  refine congrArg x (congrArg (ix2 n) (Fin.ext ?_))
  show min (idx (ix3 n (0 : Fin 1) (0 : Fin 1))).toInt.toNat (K - 1) = (idx (ix3 n (0 : Fin 1) (0 : Fin 1))).toInt.toNat
  omega

/-- THE PICK READ AT ROW `n`, a word whose unsigned value is below `K`, where `K` is at most half the words' range (so that
    the signed and the unsigned reading of such a word agree): the table at row `n`, column that word. -/
theorem pickColumn_apply (hK : 2 * K ≤ 2 ^ w) (n : Fin N) (h : (idx (ix3 n (0 : Fin 1) (0 : Fin 1))).toNat < K) :
    Host.gather (pickColumn N K wf) x idx (ix2 n (0 : Fin 1))
      = x (ix2 n ⟨(idx (ix3 n (0 : Fin 1) (0 : Fin 1))).toNat, h⟩) := by
  have hi : (idx (ix3 n (0 : Fin 1) (0 : Fin 1))).toInt = ((idx (ix3 n (0 : Fin 1) (0 : Fin 1))).toNat : ℤ) :=
    BitVec.toInt_eq_toNat_of_lt (by omega)
  rw [pickColumn_apply_clamped wf x idx (by omega : 0 < K) n]
  refine congrArg x (congrArg (ix2 n) (Fin.ext ?_))
  show min (idx (ix3 n (0 : Fin 1) (0 : Fin 1))).toInt.toNat (K - 1) = (idx (ix3 n (0 : Fin 1) (0 : Fin 1))).toNat
  omega

end Cert.Lib.PickColumn
-- ==== Proof.LibSmallWords.lean ====
/-
  Small signed words, and a reduction by `and`.

  A 32-bit word whose signed reading lies in `[0, 16)` is its unsigned reading, so the word `16 * x + y` of two such
  words reads signed as `16 * x + y` with no wrap-around. A word that is not negative is left alone by the
  normalisation "add the extent if negative" that precedes an indexed update. Two position words `0, 1, …` are equal only
  at equal positions. A `stablehlo.reduce` by `and` over one-bit words is 1 exactly when its initial value is 1 and every
  operand element reducing into it is 1.
-/
import Idealize.ShloMosaic.Lib.ReduceAll
import Idealize.ShloMosaic.PureOps.Ideal

namespace Cert.Lib.SmallWords

open Idealize.ShloMosaic

theorem two_pow_32 : (2 : ℕ) ^ 32 = 4294967296 := by norm_num

/-- A word that reads signed as a non-negative number reads unsigned as the same number, below `2^31`. -/
theorem toNat_of_nonneg {w : BitVec 32} (h0 : 0 ≤ w.toInt) : w.toInt = (w.toNat : ℤ) ∧ w.toNat < 2147483648 := by
  have hlt := w.isLt
  rw [two_pow_32] at hlt
  rw [BitVec.toInt_eq_toNat_cond, two_pow_32] at h0 ⊢
  split at h0
  · rename_i h; rw [if_pos h]; exact ⟨rfl, by omega⟩
  · exfalso; omega

/-- A word made from a natural number below `2^31` reads back, signed, as that number. -/
theorem toInt_ofNat_small {j : ℕ} (hj : j < 2147483648) : (BitVec.ofNat 32 j).toInt = (j : ℤ) := by
  rw [BitVec.toInt_eq_toNat_cond, BitVec.toNat_ofNat, two_pow_32, Nat.mod_eq_of_lt (by omega), if_pos (by omega)]

/-- Position words are equal only at equal positions. -/
theorem ofNat_inj_small {a b : ℕ} (ha : a < 2147483648) (hb : b < 2147483648) :
    BitVec.ofNat 32 a = BitVec.ofNat 32 b ↔ a = b := by
  constructor
  · intro h
    have := congrArg BitVec.toInt h
    rw [toInt_ofNat_small ha, toInt_ofNat_small hb] at this
    exact_mod_cast this
  · intro h; rw [h]

/-- The word `16 * x + y` of two words in `[0, 16)` reads signed as `16 * x + y`. -/
theorem toInt_mul16_add {x y : BitVec 32} (hx0 : 0 ≤ x.toInt) (hx1 : x.toInt < 16) (hy0 : 0 ≤ y.toInt) (hy1 : y.toInt < 16) :
    (IntOp.addi (IntOp.muli x 16#32) y).toInt = x.toInt * 16 + y.toInt := by
  obtain ⟨ex, _⟩ := toNat_of_nonneg hx0
  obtain ⟨ey, _⟩ := toNat_of_nonneg hy0
  have hxn : x.toNat < 16 := by omega
  have hyn : y.toNat < 16 := by omega
  have h16 : (16#32 : BitVec 32).toNat = 16 := by decide
  have hn : (IntOp.addi (IntOp.muli x 16#32) y).toNat = x.toNat * 16 + y.toNat := by
    show (x * 16#32 + y).toNat = _
    rw [BitVec.toNat_add, BitVec.toNat_mul, h16, two_pow_32]
    omega
  rw [BitVec.toInt_eq_toNat_cond, hn, two_pow_32, if_pos (by omega), ex, ey]
  push_cast
  ring

/-- "Add the extent if negative" leaves a word that is not negative alone. -/
theorem normalize_nonneg (w n : BitVec 32) (h : 0 ≤ w.toInt) :
    Scalar.select (IntOp.cmpi .slt w 0#32) (IntOp.addi w n) w = w := by
  unfold Scalar.select
  rw [if_neg]
  show ¬ IntOp.cmpi .slt w 0#32 = 1#1
  rw [IntOp.cmpi_slt]
  have h0 : (0#32 : BitVec 32).toInt = 0 := by decide
  omega

/-- A left fold by `and` over one-bit words is 1 exactly when it started at 1 and met only 1s. -/
theorem foldl_andi_iff {ι : Type} (f : ι → BitVec 1) :
    ∀ (l : List ι) (init : BitVec 1),
      l.foldl (fun r n => IntOp.andi r (f n)) init = 1#1 ↔ init = 1#1 ∧ ∀ n ∈ l, f n = 1#1
  | [], init => by simp
  | a :: l, init => by
    rw [List.foldl_cons, foldl_andi_iff f l, IntOp.andi_eq_one]
    constructor
    · rintro ⟨⟨hi, ha⟩, hl⟩
      exact ⟨hi, fun n hn => by rcases List.mem_cons.1 hn with rfl | hn; exacts [ha, hl n hn]⟩
    · rintro ⟨hi, hl⟩
      exact ⟨⟨hi, hl a (List.mem_cons_self ..)⟩, fun n hn => hl n (List.mem_cons_of_mem _ hn)⟩

/-- A `stablehlo.reduce` by `and` is 1 at `j` exactly when its initial value is 1 and the operand is 1 at every index
    that reduces into `j`. -/
theorem reduce_andi_iff {s t u : Shape} {axes : List (Fin s.rank)} (x : s.Idx → BitVec 1) (init : u.Idx → BitVec 1)
    (h : s.ReducesTo axes t) (hu : 0 < u.numel) (j : t.Idx) :
    Host.reduce IntOp.andi x init h hu j = 1#1
      ↔ init (Shape.Idx.first hu) = 1#1 ∧ ∀ i : s.Idx, h.drop i = j → x i = 1#1 := by
  rw [Host.reduce_eq_foldl, foldl_andi_iff]
  refine and_congr Iff.rfl ⟨fun H i hi => H i ?_, fun H i hi => H i ?_⟩
  · rw [List.mem_filter]
    exact ⟨List.mem_map.2 ⟨s.rowMajor i, List.mem_finRange _, Equiv.symm_apply_apply _ _⟩, by simp [hi]⟩
  · rw [List.mem_filter] at hi
    simpa using hi.2

end Cert.Lib.SmallWords
-- ==== Proof.RoutingCounts.lean ====
/-
  The counting half of the routing facts: the program's integer stages, read as numbers.

  When every label word is a number below 8, the one-hot table holds 1 exactly where a token's label is the column; its
  running column sums count the tokens of each label up to each token; the last row counts all of them; the guarded pick
  along each row reads the running count in the token's own column; and that count less one is the token's rank among the
  tokens of its label. The counts are the running count, the total and the rank of the counting-sort layout
  (LibGroupedPositions) at 32768 items and 8 labels. None of the words wraps: every one stays at most 32768.
-/
import proofs.«157345_j20959440404665_2_alg».proof.Proof.RoutingChain
import proofs.«157345_j20959440404665_2_alg».proof.Proof.LibGroupedPositions
import proofs.«157345_j20959440404665_2_alg».proof.Proof.LibPrefixSum
import proofs.«157345_j20959440404665_2_alg».proof.Proof.LibPickColumn
import proofs.«157345_j20959440404665_2_alg».proof.Proof.LibSmallWords
import Idealize.ShloMosaic.Lib.Pipeline.Value
import Idealize.ShloMosaic.Lib.ValueLayout

noncomputable section

namespace Cert.KernelIdeal.Routing

open Cert.KernelIdeal Idealize.ShloMosaic Idealize.ShloMosaic.ValueIdx

variable (t1 : IVec S32768 32)

/-! ## Reading the broadcasts -/

/-- The label column at row n is the n-th label word. -/
theorem labelCol_apply (n : Fin 32768) (c : Fin 1) : labelCol t1 (ix2 n c) = t1 (ValueIdx.ix1 n) :=
  broadcastInDim_apply _ _ t1 (ix2 n c) (ValueIdx.ix1 n) (fun a => match a with | ⟨0, _⟩ => rfl)

/-- The one-hot table at (n, k): the comparison of the n-th label word with the word k, widened. -/
theorem oneHot_apply (n : Fin 32768) (k : Fin 8) :
    oneHot t1 (ix2 n k) = (IntOp.cmpi .eq (t1 (ValueIdx.ix1 n)) (BitVec.ofNat 32 k.val)).setWidth 32 := by
  have hA : broadcastInDim S32768x8 ![0, 1] Gen.bcast_S32768x1_S32768x8_0_1
      (broadcastInDim S32768x1 ![0] Gen.bcast_S32768_S32768x1_0 t1) (ix2 n k) = t1 (ValueIdx.ix1 n) :=
    (broadcastInDim_apply _ _ _ (ix2 n k) (ix2 n (0 : Fin 1)) (fun a => match a with | ⟨0, _⟩ => rfl | ⟨1, _⟩ => rfl)).trans
      (labelCol_apply t1 n 0)
  show (IntOp.cmpi .eq (broadcastInDim S32768x8 ![0, 1] Gen.bcast_S32768x1_S32768x8_0_1
      (broadcastInDim S32768x1 ![0] Gen.bcast_S32768_S32768x1_0 t1) (ix2 n k)) (BitVec.ofNat 32 k.val)).setWidth 32 = _
  rw [hA]

/-- Token n carries label k exactly when its label word is the word k. -/
theorem lab_eq_iff (h : InRange t1) (n : Fin 32768) (k : Fin 8) : lab t1 h n = k ↔ t1 (ValueIdx.ix1 n) = BitVec.ofNat 32 k.val := by
  have hk := k.isLt
  constructor
  · intro e
    have : (t1 (ValueIdx.ix1 n)).toNat = k.val := congrArg Fin.val e
    apply BitVec.eq_of_toNat_eq
    rw [this, BitVec.toNat_ofNat, Nat.mod_eq_of_lt (by omega)]
  · intro e
    refine Fin.ext ?_
    show (t1 (ValueIdx.ix1 n)).toNat = k.val
    rw [e, BitVec.toNat_ofNat, Nat.mod_eq_of_lt (by omega)]

/-- The one-hot table holds 1 where the token's label is the column and 0 elsewhere. -/
theorem oneHot_at (h : InRange t1) (n : Fin 32768) (k : Fin 8) : oneHot t1 (ix2 n k) = if lab t1 h n = k then 1#32 else 0#32 := by
  rw [oneHot_apply]
  by_cases e : lab t1 h n = k
  · rw [if_pos e, IntOp.cmpi_eq.2 ((lab_eq_iff t1 h n k).1 e)]; rfl
  · rw [if_neg e, eq_zero_of_ne_one (fun hc => e ((lab_eq_iff t1 h n k).2 (IntOp.cmpi_eq.1 hc)))]; rfl

/-! ## The running counts and the totals -/

/-- Every entry of the one-hot table is 0 or 1. -/
theorem oneHot_zero_or_one (h : InRange t1) (idx : S32768x8.Idx) : oneHot t1 idx = 0#32 ∨ oneHot t1 idx = 1#32 := by
  obtain ⟨n, k, rfl⟩ : ∃ (n : Fin 32768) (k : Fin 8), idx = ix2 n k := ⟨idx 0, idx 1, eq_ix2 idx⟩
  rw [oneHot_at t1 h]
  split
  · exact Or.inr rfl
  · exact Or.inl rfl

/-- The one-hot table holds 1 at (n, k) exactly when token n carries label k. -/
theorem oneHot_eq_one_iff (h : InRange t1) (n : Fin 32768) (k : Fin 8) : oneHot t1 (ix2 n k) = 1#32 ↔ lab t1 h n = k := by
  rw [oneHot_at t1 h]
  constructor
  · intro e
    by_contra hne
    rw [if_neg hne] at e
    exact absurd e (by decide)
  · intro e
    rw [if_pos e]

/-- The running count at (n, k), read as a number, is the number of tokens up to n that carry label k. -/
theorem cumT_toNat (h : InRange t1) (n : Fin 32768) (k : Fin 8) :
    (cumT t1 (ix2 n k)).toNat = Cert.Lib.GroupedPositions.cum (lab t1 h) n k := by
  have hc := Cert.Lib.PrefixSum.cumsum2_lo_count (n := 32768) (k := 8) (m := 32767) rfl (oneHot t1)
    (broadcastInDim S_ ![] Gen.bcast_S_S_ (constantI S_ 32 0#32))
    Gen.reduceWindows_S32768x8_S32768x8_w32768s1p32767_0_w1s1p0_0 Gen.h_S_ rfl (oneHot_zero_or_one t1 h) (by norm_num) n k
  refine hc.trans ?_
  unfold Cert.Lib.GroupedPositions.cum
  refine congrArg Finset.card (Finset.ext fun i' => ?_)
  simp only [Finset.mem_filter, Finset.mem_univ, true_and]
  rw [oneHot_eq_one_iff t1 h]
  exact Iff.rfl

/-- A running count is at most the number of tokens. -/
theorem cumT_le (h : InRange t1) (n : Fin 32768) (k : Fin 8) : (cumT t1 (ix2 n k)).toNat ≤ 32768 := by
  rw [cumT_toNat t1 h]
  exact Cert.Lib.PrefixSum.card_filter_fin_le _

/-- The running count at the last item counts every item of the label. -/
theorem cum_last {N K : ℕ} (lab : Fin (N + 1) → Fin K) (k : Fin K) :
    Cert.Lib.GroupedPositions.cum lab (Fin.last N) k = Cert.Lib.GroupedPositions.cnt lab k := by
  unfold Cert.Lib.GroupedPositions.cum Cert.Lib.GroupedPositions.cnt
  refine congrArg Finset.card (Finset.ext fun n' => ?_)
  simp only [Finset.mem_filter, Finset.mem_univ, true_and]
  exact ⟨fun e => e.2, fun e => ⟨Fin.le_last n', e⟩⟩

/-- The totals are the last row of the running counts. -/
theorem totT_apply (k : Fin 8) : totT t1 (ValueIdx.ix1 k) = cumT t1 (ix2 (Fin.last 32767) k) := by
  show shapeCast S8 (extractStridedSlice S1x8 ![32767, 0] (cumT t1) Gen.slices_S32768x8_S1x8_32767_0) Gen.shapeCasts_S1x8_S8
    (ValueIdx.ix1 k) = _
  rw [shapeCast_apply _ _ (ValueIdx.ix1 k) (ix2 (0 : Fin 1) k) (by
    rw [Shape.rowMajor_val_two, Shape.rowMajor_val_one]
    show 0 * 8 + k.val = k.val
    omega)]
  exact extractStridedSlice_apply _ _ _ _ (ix2 (Fin.last 32767) k) (fun a => match a with
    | ⟨0, _⟩ => rfl
    | ⟨1, _⟩ => by show k.val = 0 + k.val; omega)

/-- The total for label k, read as a number, is the number of tokens that carry label k. -/
theorem totT_toNat (h : InRange t1) (k : Fin 8) : (totT t1 (ValueIdx.ix1 k)).toNat = Cert.Lib.GroupedPositions.cnt (lab t1 h) k := by
  rw [totT_apply, cumT_toNat t1 h]
  exact cum_last (lab t1 h) k

/-- A total is at most the number of tokens. -/
theorem totT_le (h : InRange t1) (k : Fin 8) : (totT t1 (ValueIdx.ix1 k)).toNat ≤ 32768 := by
  rw [totT_apply]
  exact cumT_le t1 h _ k

/-! ## The pick of a token's own count

The pick's three intermediate arrays, named: the index column (a negative word moved up by 8), the same as an
[N, 1, 1] array, and the guard (every index component inside [0, 7]). -/

/-- The index column the pick reads. -/
def ownIdx (c : IVec S32768x1 32) : IVec S32768x1 32 :=
  select (cmpi .slt c (broadcastInDim S32768x1 ![] Gen.bcast_S_S32768x1 (constantI S_ 32 0#32)))
    (addi c (broadcastInDim S32768x1 ![] Gen.bcast_S_S32768x1 (constantI S_ 32 8#32))) c

/-- The index column as an [N, 1, 1] array. -/
def ownIdx3 (c : IVec S32768x1 32) : IVec S32768x1x1 32 :=
  shapeCast S32768x1x1 (ownIdx c) Gen.shapeCasts_S32768x1_S32768x1x1

/-- The guard: 1 where the index component lies in [0, 7]. -/
def ownOk (c : IVec S32768x1 32) : IVec S32768x1 1 :=
  Host.reduce IntOp.andi
    (andi (cmpi .sge (ownIdx3 c) (broadcastInDim S32768x1x1 ![] Gen.bcast_S_S32768x1x1 (constantI S_ 32 0#32)))
          (cmpi .sle (ownIdx3 c) (broadcastInDim S32768x1x1 ![0, 1, 2] Gen.bcast_S1x1x1_S32768x1x1_0_1_2
                            (broadcastInDim S1x1x1 ![2] Gen.bcast_S1_S1x1x1_2 (constantI S1 32 7#32)))))
    (constantI S_ 1 1#1) Gen.reducesTo_S32768x1x1_S32768x1_d2 Gen.h_S_

/-- The pick, spelt with the three arrays above. -/
theorem pickOwn_eq (cum : IVec S32768x8 32) (c : IVec S32768x1 32) :
    pickOwn cum c = select (ownOk c) (Host.gather gather_S32768x8_S32768x1x1_S32768x1_n_1_0_0_1_2_11 cum (ownIdx3 c))
      (broadcastInDim S32768x1 ![] Gen.bcast_S_S32768x1 (constantI S_ 32 2147483648#32)) := rfl

/-- A label word reads signed as it reads unsigned: it is below 8. -/
theorem label_toInt (h : InRange t1) (n : Fin 32768) :
    (t1 (ValueIdx.ix1 n)).toInt = ((t1 (ValueIdx.ix1 n)).toNat : ℤ) :=
  BitVec.toInt_eq_toNat_of_lt (by have := h n; omega)

/-- On the label column the index column is the label column: no label word is negative. -/
theorem ownIdx_labelCol (h : InRange t1) (n : Fin 32768) (c : Fin 1) :
    ownIdx (labelCol t1) (ix2 n c) = t1 (ValueIdx.ix1 n) := by
  have hc : labelCol t1 (ix2 n c) = t1 (ValueIdx.ix1 n) := labelCol_apply t1 n c
  show Scalar.select (IntOp.cmpi .slt (labelCol t1 (ix2 n c)) 0#32) (IntOp.addi (labelCol t1 (ix2 n c)) 8#32)
    (labelCol t1 (ix2 n c)) = _
  rw [Cert.Lib.SmallWords.normalize_nonneg _ _ (by rw [hc, label_toInt t1 h]; exact Int.natCast_nonneg _), hc]

/-- Every entry of the [N, 1, 1] index array is some label word. -/
theorem ownIdx3_labelCol (h : InRange t1) (i : S32768x1x1.Idx) : ∃ m : Fin 32768, ownIdx3 (labelCol t1) i = t1 (ValueIdx.ix1 m) := by
  obtain ⟨n, c, e⟩ : ∃ (n : Fin 32768) (c : Fin 1), Shape.reshapeEquiv Gen.shapeCasts_S32768x1_S32768x1x1 i = ix2 n c :=
    ⟨_, _, eq_ix2 _⟩
  refine ⟨n, ?_⟩
  show ownIdx (labelCol t1) (Shape.reshapeEquiv Gen.shapeCasts_S32768x1_S32768x1x1 i) = _
  rw [e]
  exact ownIdx_labelCol t1 h n c

/-- The [N, 1, 1] index array at (n, 0, 0) is the n-th label word. -/
theorem ownIdx3_at (h : InRange t1) (n : Fin 32768) :
    ownIdx3 (labelCol t1) (ix3 n (0 : Fin 1) (0 : Fin 1)) = t1 (ValueIdx.ix1 n) := by
  unfold ownIdx3
  rw [shapeCast_apply _ _ (ix3 n (0 : Fin 1) (0 : Fin 1)) (ix2 n (0 : Fin 1)) (by
    rw [Shape.rowMajor_val_two, Shape.rowMajor_val_three]
    show n.val * 1 + 0 = (n.val * 1 + 0) * 1 + 0
    omega)]
  exact ownIdx_labelCol t1 h n 0

/-- On the label column the guard is 1 everywhere: every label word lies in [0, 7]. -/
theorem ownOk_labelCol (h : InRange t1) (j : S32768x1.Idx) : ownOk (labelCol t1) j = 1#1 := by
  unfold ownOk
  rw [Cert.Lib.SmallWords.reduce_andi_iff]
  refine ⟨rfl, fun i _ => ?_⟩
  show IntOp.andi (IntOp.cmpi .sge (ownIdx3 (labelCol t1) i) 0#32) (IntOp.cmpi .sle (ownIdx3 (labelCol t1) i) 7#32) = 1#1
  obtain ⟨m, e⟩ := ownIdx3_labelCol t1 h i
  rw [IntOp.andi_eq_one, IntOp.cmpi_sge, IntOp.cmpi_sle, e, label_toInt t1 h]
  have hm := h m
  have h0 : (0#32 : BitVec 32).toInt = 0 := by decide
  have h7 : (7#32 : BitVec 32).toInt = 7 := by decide
  rw [h0, h7]
  omega

/-- THE PICK: each token reads the running count in its own label's column. -/
theorem pickOwn_at (h : InRange t1) (n : Fin 32768) :
    pickOwn (cumT t1) (labelCol t1) (ix2 n (0 : Fin 1)) = cumT t1 (ix2 n (lab t1 h n)) := by
  rw [pickOwn_eq]
  show Scalar.select (ownOk (labelCol t1) (ix2 n (0 : Fin 1)))
    (Host.gather gather_S32768x8_S32768x1x1_S32768x1_n_1_0_0_1_2_11 (cumT t1) (ownIdx3 (labelCol t1)) (ix2 n (0 : Fin 1)))
    2147483648#32 = _
  rw [ownOk_labelCol t1 h, select_one]
  have e := ownIdx3_at t1 h n
  have hlt : (ownIdx3 (labelCol t1) (ix3 n (0 : Fin 1) (0 : Fin 1))).toNat < 8 := by rw [e]; exact h n
  refine (Cert.Lib.PickColumn.pickColumn_apply gather_S32768x8_S32768x1x1_S32768x1_n_1_0_0_1_2_11.wf (cumT t1)
    (ownIdx3 (labelCol t1)) (by norm_num) n hlt).trans ?_
  have hcol : (⟨(ownIdx3 (labelCol t1) (ix3 n (0 : Fin 1) (0 : Fin 1))).toNat, hlt⟩ : Fin 8) = lab t1 h n :=
    Fin.ext (show (ownIdx3 (labelCol t1) (ix3 n (0 : Fin 1) (0 : Fin 1))).toNat = (t1 (ValueIdx.ix1 n)).toNat from
      congrArg BitVec.toNat e)
  rw [hcol]

/-! ## The rank -/

/-- The rank word is the token's own running count less one, as words. -/
theorem rankT_apply (n : Fin 32768) :
    rankT t1 (ValueIdx.ix1 n) = IntOp.subi (pickOwn (cumT t1) (labelCol t1) (ix2 n (0 : Fin 1))) 1#32 := by
  show IntOp.subi (shapeCast S32768 (pickOwn (cumT t1) (labelCol t1)) Gen.shapeCasts_S32768x1_S32768 (ValueIdx.ix1 n)) 1#32 = _
  rw [shapeCast_apply _ _ (ValueIdx.ix1 n) (ix2 n (0 : Fin 1)) (by
    rw [Shape.rowMajor_val_two, Shape.rowMajor_val_one]
    show n.val * 1 + 0 = n.val
    omega)]

/-- The rank word, read as a number, is the token's rank among the tokens of its label: its own running count is at
    least one, so the subtraction of one does not wrap. -/
theorem rankT_toNat (h : InRange t1) (n : Fin 32768) :
    (rankT t1 (ValueIdx.ix1 n)).toNat = Cert.Lib.GroupedPositions.rank (lab t1 h) n := by
  rw [rankT_apply, pickOwn_at t1 h]
  have h1 := cumT_toNat t1 h n (lab t1 h n)
  have h2 := Cert.Lib.GroupedPositions.cum_pos (lab t1 h) n
  have h3 := cumT_le t1 h n (lab t1 h n)
  unfold Cert.Lib.GroupedPositions.rank
  show (cumT t1 (ix2 n (lab t1 h n)) - 1#32).toNat = _
  have one : (1#32 : BitVec 32).toNat = 1 := by decide
  rw [BitVec.toNat_sub, one, Cert.Lib.SmallWords.two_pow_32, ← h1]
  omega

/-- A rank is below the number of tokens. -/
theorem rankT_lt (h : InRange t1) (n : Fin 32768) : (rankT t1 (ValueIdx.ix1 n)).toNat < 32768 := by
  rw [rankT_toNat t1 h]
  have h1 := Cert.Lib.GroupedPositions.rank_lt (lab t1 h) n
  have h2 : Cert.Lib.GroupedPositions.cnt (lab t1 h) (lab t1 h n) ≤ 32768 := Cert.Lib.PrefixSum.card_filter_fin_le _
  omega

end Cert.KernelIdeal.Routing

end
-- ==== Proof.LibFloorDivWords.lean ====
/-
  Floor division of 32-bit words, for a nonnegative dividend and a positive divisor.

  The floor quotient of two signed words is computed from the truncating quotient: it is the truncating
  quotient, less one exactly when the signs of dividend and divisor differ and the remainder is not zero.
  For a dividend that is nonnegative as a signed word and a divisor d with 0 < d < 2^31 the correction never
  fires: the sign of the dividend is 0 or 1 and the sign of the divisor is 1, so the signs differ only when
  the dividend is zero, and then the remainder is zero. And on nonnegative words the truncating quotient is
  the quotient of the natural numbers the words stand for. Also here: addition, subtraction and
  multiplication of words read as natural numbers when nothing wraps around.
-/
import Idealize.ShloMosaic.PureOps.Ideal
import Idealize.ShloMosaic.Lib.ValueIdx
import Mathlib.Data.BitVec

namespace Cert.Lib.FloorDivWords

open Idealize.ShloMosaic

/-! ### Words read as natural numbers, without wrap-around -/

/-- A sum of words that does not wrap is the sum of the numbers. -/
theorem toNat_addi {w : ℕ} (x y : BitVec w) (h : x.toNat + y.toNat < 2 ^ w) :
    (IntOp.addi x y).toNat = x.toNat + y.toNat := by
  unfold IntOp.addi
  rw [BitVec.toNat_add, Nat.mod_eq_of_lt h]

/-- A difference of words with the smaller subtracted from the larger is the difference of the numbers. -/
theorem toNat_subi {w : ℕ} (x y : BitVec w) (h : y.toNat ≤ x.toNat) :
    (IntOp.subi x y).toNat = x.toNat - y.toNat := by
  unfold IntOp.subi
  exact BitVec.toNat_sub_of_le (BitVec.le_def.mpr h)

/-- A product of words that does not wrap is the product of the numbers. -/
theorem toNat_muli {w : ℕ} (x y : BitVec w) (h : x.toNat * y.toNat < 2 ^ w) :
    (IntOp.muli x y).toNat = x.toNat * y.toNat := by
  unfold IntOp.muli
  rw [BitVec.toNat_mul, Nat.mod_eq_of_lt h]

/-- A number below 2^32 made into a word reads back as itself. -/
theorem toNat_ofNat32 {d : ℕ} (h : d < 2 ^ 32) : (BitVec.ofNat 32 d).toNat = d := by
  rw [BitVec.toNat_ofNat, Nat.mod_eq_of_lt h]

/-! ### The sign of a word -/

/-- The sign of a word as a signed integer: 0, -1 or 1. -/
def sgn (x : BitVec 32) : BitVec 32 := if x = 0 then 0 else if x.msb then -1 else 1

/-- A word below 2^31 has its top bit clear. -/
theorem msb_eq_false_of_lt {x : BitVec 32} (h : x.toNat < 2 ^ 31) : x.msb = false := by
  rw [BitVec.msb_eq_false_iff_two_mul_lt]; omega

/-- The sign of a nonzero word below 2^31 is one. -/
theorem sgn_of_pos {x : BitVec 32} (h0 : x ≠ 0) (h : x.toNat < 2 ^ 31) : sgn x = 1#32 := by
  unfold sgn
  rw [if_neg h0, msb_eq_false_of_lt h]; rfl

/-! ### The truncating quotient and remainder on nonnegative words -/

section
variable {x y : BitVec 32} {d : ℕ}

/-- A positive divisor below 2^31 is not at the corner of signed division. -/
theorem not_corner (hy : y = BitVec.ofNat 32 d) (hd0 : 0 < d) (hd : d < 2 ^ 31) : ¬ IntOp.SDivCorner x y := by
  have hyN : y.toNat = d := by rw [hy]; exact toNat_ofNat32 (by omega)
  unfold IntOp.SDivCorner
  rintro (h | ⟨_, h⟩)
  · rw [h] at hyN; simp at hyN; omega
  · rw [h] at hyN; simp at hyN; omega

/-- For a nonnegative dividend and a positive divisor the signed quotient is the unsigned one. -/
theorem divsi_eq_udiv (u : ArithUnit) (hx : x.toNat < 2 ^ 31) (hy : y = BitVec.ofNat 32 d) (hd0 : 0 < d)
    (hd : d < 2 ^ 31) : IntOp.divsi u x y = x / y := by
  have hyN : y.toNat = d := by rw [hy]; exact toNat_ofNat32 (by omega)
  unfold IntOp.divsi
  rw [if_neg (not_corner hy hd0 hd), BitVec.sdiv_eq, msb_eq_false_of_lt hx, msb_eq_false_of_lt (by omega)]
  rfl

/-- For a nonnegative dividend and a positive divisor the signed remainder is the unsigned one. -/
theorem remsi_eq_umod (u : ArithUnit) (hx : x.toNat < 2 ^ 31) (hy : y = BitVec.ofNat 32 d) (hd0 : 0 < d)
    (hd : d < 2 ^ 31) : IntOp.remsi u x y = x % y := by
  have hyN : y.toNat = d := by rw [hy]; exact toNat_ofNat32 (by omega)
  unfold IntOp.remsi
  rw [if_neg (not_corner hy hd0 hd), BitVec.srem_eq, msb_eq_false_of_lt hx, msb_eq_false_of_lt (by omega)]

end

/-! ### The floor quotient, word by word -/

/-- The floor quotient as it is computed from the truncating one: the quotient, less one when the sign
word of the dividend differs from sy (the sign word of the divisor) and the remainder differs from z (zero);
o is the word one. -/
def floorDivWord (u : ArithUnit) (x y sy z o : BitVec 32) : BitVec 32 :=
  Scalar.select
    (IntOp.andi (IntOp.cmpi .ne (sgn x) sy) (IntOp.cmpi .ne (IntOp.remsi u x y) z))
    (IntOp.subi (IntOp.divsi u x y) o) (IntOp.divsi u x y)

/-- For a nonnegative dividend and a positive divisor the correction never fires: the floor quotient
is the unsigned quotient of the words. -/
theorem floorDivWord_eq_udiv (u : ArithUnit) {x y sy z o : BitVec 32} {d : ℕ} (hx : x.toNat < 2 ^ 31)
    (hy : y = BitVec.ofNat 32 d) (hd0 : 0 < d) (hd : d < 2 ^ 31) (hsy : sy = 1#32) (hz : z = 0#32) :
    floorDivWord u x y sy z o = x / y := by
  unfold floorDivWord
  rw [divsi_eq_udiv u hx hy hd0 hd, remsi_eq_umod u hx hy hd0 hd, hsy, hz]
  by_cases h0 : x = 0
  · subst h0
    simp [Scalar.select, IntOp.andi, IntOp.cmpi, sgn]
  · rw [sgn_of_pos h0 hx]
    simp [Scalar.select, IntOp.andi, IntOp.cmpi]

/-- The floor quotient of a nonnegative word by a positive d, read as a natural number, is the quotient of
the numbers; it is again nonnegative as a signed word. -/
theorem floorDivWord_nonneg (u : ArithUnit) {x y sy z o : BitVec 32} {d : ℕ} (hx : x.toNat < 2 ^ 31)
    (hy : y = BitVec.ofNat 32 d) (hd0 : 0 < d) (hd : d < 2 ^ 31) (hsy : sy = 1#32) (hz : z = 0#32) :
    (floorDivWord u x y sy z o).toNat = x.toNat / d ∧ (floorDivWord u x y sy z o).toNat < 2 ^ 31 := by
  have hyN : y.toNat = d := by rw [hy]; exact toNat_ofNat32 (by omega)
  rw [floorDivWord_eq_udiv u hx hy hd0 hd hsy hz, BitVec.toNat_udiv, hyN]
  exact ⟨rfl, lt_of_le_of_lt (Nat.div_le_self _ _) hx⟩

/-! ### The floor quotient on arrays -/

section
variable {s : Shape}

/-- The floor quotient of arrays of words, operation by operation: x the dividends, y the divisors, sy the
sign words of the divisors, z an array of zeros, o an array of ones. -/
def floorDivPrinted5 (x y sy z o : IVec s 32) : IVec s 32 :=
  select (andi (cmpi .ne (signi x) sy) (cmpi .ne (Host.remsi x y) z)) (subi (Host.divsi x y) o) (Host.divsi x y)

/-- The floor quotient of arrays of words, with the signs of the divisors, the zeros and the ones filled in. -/
def floorDivPrinted (x y : IVec s 32) : IVec s 32 :=
  floorDivPrinted5 x y (signi y) (constantI s 32 0#32) (constantI s 32 1#32)

/-- At each index the array form is the word form. -/
theorem floorDivPrinted5_apply (x y sy z o : IVec s 32) (i : s.Idx) :
    floorDivPrinted5 x y sy z o i = floorDivWord .host (x i) (y i) (sy i) (z i) (o i) := rfl

/-- Floor division at an index: a nonnegative dividend, the divisor the word of d with 0 < d < 2^31, the
divisor's sign word one and the zero word zero there. -/
theorem floorDiv5_nonneg {x y sy z o : IVec s 32} {i : s.Idx} {d : ℕ} (hx : (x i).toNat < 2 ^ 31)
    (hy : y i = BitVec.ofNat 32 d) (hd0 : 0 < d) (hd : d < 2 ^ 31) (hsy : sy i = 1#32) (hz : z i = 0#32) :
    (floorDivPrinted5 x y sy z o i).toNat = (x i).toNat / d ∧ (floorDivPrinted5 x y sy z o i).toNat < 2 ^ 31 := by
  rw [floorDivPrinted5_apply]
  exact floorDivWord_nonneg .host hx hy hd0 hd hsy hz

/-- Floor division at an index: for a nonnegative dividend and the divisor the word of d with 0 < d < 2^31
the result is the quotient of the numbers, and nonnegative as a signed word. -/
theorem floorDiv_nonneg {x y : IVec s 32} {i : s.Idx} {d : ℕ} (hx : (x i).toNat < 2 ^ 31)
    (hy : y i = BitVec.ofNat 32 d) (hd0 : 0 < d) (hd : d < 2 ^ 31) :
    (floorDivPrinted x y i).toNat = (x i).toNat / d ∧ (floorDivPrinted x y i).toNat < 2 ^ 31 := by
  have hyN : (y i).toNat = d := by rw [hy]; exact toNat_ofNat32 (by omega)
  have hy0 : y i ≠ 0 := by
    intro h; rw [h] at hyN; simp at hyN; omega
  refine floorDiv5_nonneg hx hy hd0 hd ?_ rfl
  show sgn (y i) = 1#32
  exact sgn_of_pos hy0 (by omega)

/-- Array forms of the no-wrap readings. -/
theorem toNat_addi_apply (x y : IVec s 32) (i : s.Idx) (h : (x i).toNat + (y i).toNat < 2 ^ 32) :
    (addi x y i).toNat = (x i).toNat + (y i).toNat := toNat_addi _ _ h

theorem toNat_subi_apply (x y : IVec s 32) (i : s.Idx) (h : (y i).toNat ≤ (x i).toNat) :
    (subi x y i).toNat = (x i).toNat - (y i).toNat := toNat_subi _ _ h

theorem toNat_muli_apply (x y : IVec s 32) (i : s.Idx) (h : (x i).toNat * (y i).toNat < 2 ^ 32) :
    (muli x y i).toNat = (x i).toNat * (y i).toNat := toNat_muli _ _ h

end

end Cert.Lib.FloorDivWords
-- ==== Proof.LibRowIndex.lean ====
/-
  Rows indexed by data: a scatter-add of rows and a gather of rows, read at an index.

  `x.at[idx].add(upd)` over the rows of an `[R, C]` table (one row index per update row, carried as an `[N, 1]` array of
  words) is, at the ideal values, the table's entry plus the sum of the update rows whose index IS that row: the index
  word is read signed and NOT clamped, so a word outside `[0, R)` names no row and its update is dropped. The same
  for a flat `[R]` table of scalars. `x[idx]` over the rows of an `[R, C]` table reads row `min (toNat idx) (R - 1)`: the
  word read signed and CLAMPED into `[0, R - 1]`. The two meet where it matters: a word that names a row for the
  scatter names the same row for the gather (`clampRow_of_eq`).
-/
import Idealize.ShloMosaic.PureOps.Ideal
import Idealize.ShloMosaic.Lib.ValueIdx

noncomputable section

open scoped BigOperators

namespace Cert.RowIndex

open Idealize.ShloMosaic Idealize.ShloMosaic.ValueIdx

/-! ## The dimension numbers -/

/-- A scatter of `[N, C]` update rows into the rows of an `[R, C]` table, the row named by an `[N, 1]` array of words. -/
abbrev rowScatter (R C N : Nat) (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ where
  updateWindowDims := [1]
  insertedWindowDims := [0]
  scatterDimsToOperandDims := [0]
  indexVectorDim := 1
  wf := wf

variable {R C N w : Nat}

section Scatter
variable (wf : ScatterDims.WF ⟨2, ![R, C]⟩ ⟨2, ![N, 1]⟩ ⟨2, ![N, C]⟩ [1] [0] [0] 1)
  (j : (⟨2, ![N, C]⟩ : Shape).Idx) (idx : IVec ⟨2, ![N, 1]⟩ w)

theorem rowScatter_start0 : (rowScatter R C N wf).start j idx 0 = (idx (ix2 (j 0) (0 : Fin 1))).toInt := by
  unfold ScatterDims.start
  rw [dif_pos (show (0 : Fin 2) ∈ (rowScatter R C N wf).scatterDimsToOperandDims from List.mem_singleton.mpr rfl)]
  have hsi : (rowScatter R C N wf).siIdx j ⟨List.idxOf (0 : Fin 2) (rowScatter R C N wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowScatter_start1 : (rowScatter R C N wf).start j idx 1 = 0 := by
  unfold ScatterDims.start
  rw [dif_neg (show ¬ (1 : Fin 2) ∈ (rowScatter R C N wf).scatterDimsToOperandDims from
    (by decide : ¬ (1 : Fin 2) ∈ ([0] : List (Fin 2))))]

theorem rowScatter_window0 : (rowScatter R C N wf).window j 0 = 0 := by
  unfold ScatterDims.window
  rw [dif_neg (show ¬ (0 : Fin 2) ∈ (rowScatter R C N wf).sKept from
    (by decide : ¬ (0 : Fin 2) ∈ ([1] : List (Fin 2))))]

theorem rowScatter_window1 : (rowScatter R C N wf).window j 1 = (j 1).val := by
  unfold ScatterDims.window
  rw [dif_pos (show (1 : Fin 2) ∈ (rowScatter R C N wf).sKept from
    (by decide : (1 : Fin 2) ∈ ([1] : List (Fin 2))))]
  rfl

/-- An update row lands on the table row its index word names, column for column; a word outside `[0, R)` lands nowhere. -/
theorem rowScatter_resultIdx?_eq_some_iff (i : (⟨2, ![R, C]⟩ : Shape).Idx) :
    (rowScatter R C N wf).resultIdx? j idx = some i
      ↔ (idx (ix2 (j 0) (0 : Fin 1))).toInt = ((i 0).val : ℤ) ∧ (j 1).val = (i 1).val := by
  have hs0 := rowScatter_start0 wf j idx
  have hs1 := rowScatter_start1 wf j idx
  have hw0 := rowScatter_window0 wf j
  have hw1 := rowScatter_window1 wf j
  have hi0 := idx2_lt0 i
  have hi1 := idx2_lt1 i
  have hj1 := idx2_lt1 j
  unfold ScatterDims.resultIdx?
  split
  · rename_i h
    rw [Option.some.injEq]
    constructor
    · intro e
      have e0 : ((rowScatter R C N wf).start j idx 0 + ((rowScatter R C N wf).window j 0 : ℤ)).toNat = (i 0).val :=
        congrArg (fun f : (⟨2, ![R, C]⟩ : Shape).Idx => (f 0).val) e
      have e1 : ((rowScatter R C N wf).start j idx 1 + ((rowScatter R C N wf).window j 1 : ℤ)).toNat = (i 1).val :=
        congrArg (fun f : (⟨2, ![R, C]⟩ : Shape).Idx => (f 1).val) e
      have h0 := (h 0).1
      rw [hs0, hw0] at e0 h0
      rw [hs1, hw1] at e1
      constructor <;> omega
    · rintro ⟨e0, e1⟩
      funext a
      refine Fin.ext ?_
      match a with
      | ⟨0, _⟩ =>
        show ((rowScatter R C N wf).start j idx 0 + ((rowScatter R C N wf).window j 0 : ℤ)).toNat = (i 0).val
        rw [hs0, hw0]; omega
      | ⟨1, _⟩ =>
        show ((rowScatter R C N wf).start j idx 1 + ((rowScatter R C N wf).window j 1 : ℤ)).toNat = (i 1).val
        rw [hs1, hw1]; omega
  · rename_i h
    constructor
    · intro e; cases e
    · rintro ⟨e0, e1⟩
      exfalso; apply h
      intro a
      match a with
      | ⟨0, _⟩ =>
        show 0 ≤ (rowScatter R C N wf).start j idx 0 + ((rowScatter R C N wf).window j 0 : ℤ)
          ∧ (rowScatter R C N wf).start j idx 0 + ((rowScatter R C N wf).window j 0 : ℤ) < (R : ℤ)
        rw [hs0, hw0]; omega
      | ⟨1, _⟩ =>
        show 0 ≤ (rowScatter R C N wf).start j idx 1 + ((rowScatter R C N wf).window j 1 : ℤ)
          ∧ (rowScatter R C N wf).start j idx 1 + ((rowScatter R C N wf).window j 1 : ℤ) < (C : ℤ)
        rw [hs1, hw1]; omega

/-- THE ROW SCATTER-ADD READ AT `(g, c)`, at the ideal values: the table's entry plus the sum, over the update rows whose
    index word is `g`, of their entry in column `c`. -/
theorem rowScatterAdd_apply (x : FVec Ideal ⟨2, ![R, C]⟩ .f32) (upd : FVec Ideal ⟨2, ![N, C]⟩ .f32) (g : Fin R) (c : Fin C) :
    Host.scatterAdd (F := Ideal) (rowScatter R C N wf) x idx upd (ix2 g c)
      = x (ix2 g c) + ∑ n ∈ Finset.univ.filter (fun n : Fin N => (idx (ix2 n (0 : Fin 1))).toInt = (g.val : ℤ)), upd (ix2 n c) := by
  show x (ix2 g c) + ∑ j ∈ Finset.univ.filter (fun j => (rowScatter R C N wf).resultIdx? j idx = some (ix2 g c)), upd j = _
  congr 1
  rw [Finset.sum_filter, sum_idx2, Finset.sum_filter]
  refine Finset.sum_congr rfl fun n _ => ?_
  by_cases hn : (idx (ix2 n (0 : Fin 1))).toInt = (g.val : ℤ)
  · rw [if_pos hn]
    rw [Finset.sum_eq_single c]
    · rw [if_pos ((rowScatter_resultIdx?_eq_some_iff wf (ix2 n c) idx (ix2 g c)).2 ⟨hn, rfl⟩)]
    · intro b _ hb
      rw [if_neg]
      intro h
      exact hb (Fin.ext ((rowScatter_resultIdx?_eq_some_iff wf (ix2 n b) idx (ix2 g c)).1 h).2)
    · intro h; exact absurd (Finset.mem_univ c) h
  · rw [if_neg hn]
    refine Finset.sum_eq_zero fun b _ => ?_
    rw [if_neg]
    intro h
    exact hn ((rowScatter_resultIdx?_eq_some_iff wf (ix2 n b) idx (ix2 g c)).1 h).1

end Scatter

/-! ## The flat table: one scalar per row -/

/-- A scatter of `[N]` scalars into an `[R]` table, the entry named by an `[N, 1]` array of words. -/
abbrev flatScatter (R N : Nat) (wf : ScatterDims.WF ⟨1, ![R]⟩ ⟨2, ![N, 1]⟩ ⟨1, ![N]⟩ [] [0] [0] 1) :
    ScatterDims ⟨1, ![R]⟩ ⟨2, ![N, 1]⟩ ⟨1, ![N]⟩ where
  updateWindowDims := []
  insertedWindowDims := [0]
  scatterDimsToOperandDims := [0]
  indexVectorDim := 1
  wf := wf

section Flat
variable (wf : ScatterDims.WF ⟨1, ![R]⟩ ⟨2, ![N, 1]⟩ ⟨1, ![N]⟩ [] [0] [0] 1)
  (j : (⟨1, ![N]⟩ : Shape).Idx) (idx : IVec ⟨2, ![N, 1]⟩ w)

theorem flatScatter_start0 : (flatScatter R N wf).start j idx 0 = (idx (ix2 (j 0) (0 : Fin 1))).toInt := by
  unfold ScatterDims.start
  rw [dif_pos (show (0 : Fin 1) ∈ (flatScatter R N wf).scatterDimsToOperandDims from List.mem_singleton.mpr rfl)]
  have hsi : (flatScatter R N wf).siIdx j ⟨List.idxOf (0 : Fin 1) (flatScatter R N wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem flatScatter_window0 : (flatScatter R N wf).window j 0 = 0 := by
  unfold ScatterDims.window
  rw [dif_neg (show ¬ (0 : Fin 1) ∈ (flatScatter R N wf).sKept from
    (by decide : ¬ (0 : Fin 1) ∈ ([] : List (Fin 1))))]

/-- A scalar update lands on the entry its index word names; a word outside `[0, R)` lands nowhere. -/
theorem flatScatter_resultIdx?_eq_some_iff (i : (⟨1, ![R]⟩ : Shape).Idx) :
    (flatScatter R N wf).resultIdx? j idx = some i ↔ (idx (ix2 (j 0) (0 : Fin 1))).toInt = ((i 0).val : ℤ) := by
  have hs0 := flatScatter_start0 wf j idx
  have hw0 := flatScatter_window0 wf j
  have hi0 : (i 0).val < R := (i 0).isLt
  unfold ScatterDims.resultIdx?
  split
  · rename_i h
    rw [Option.some.injEq]
    constructor
    · intro e
      have e0 : ((flatScatter R N wf).start j idx 0 + ((flatScatter R N wf).window j 0 : ℤ)).toNat = (i 0).val :=
        congrArg (fun f : (⟨1, ![R]⟩ : Shape).Idx => (f 0).val) e
      have h0 := (h 0).1
      rw [hs0, hw0] at e0 h0
      omega
    · intro e0
      funext a
      refine Fin.ext ?_
      match a with
      | ⟨0, _⟩ =>
        show ((flatScatter R N wf).start j idx 0 + ((flatScatter R N wf).window j 0 : ℤ)).toNat = (i 0).val
        rw [hs0, hw0]; omega
  · rename_i h
    constructor
    · intro e; cases e
    · intro e0
      exfalso; apply h
      intro a
      match a with
      | ⟨0, _⟩ =>
        show 0 ≤ (flatScatter R N wf).start j idx 0 + ((flatScatter R N wf).window j 0 : ℤ)
          ∧ (flatScatter R N wf).start j idx 0 + ((flatScatter R N wf).window j 0 : ℤ) < (R : ℤ)
        rw [hs0, hw0]; omega

/-- THE FLAT SCATTER-ADD READ AT `g`, at the ideal values: the table's entry plus the sum of the updates whose index word is `g`. -/
theorem flatScatterAdd_apply (x : FVec Ideal ⟨1, ![R]⟩ .f32) (upd : FVec Ideal ⟨1, ![N]⟩ .f32) (g : Fin R) :
    Host.scatterAdd (F := Ideal) (flatScatter R N wf) x idx upd (ix1 g)
      = x (ix1 g) + ∑ n ∈ Finset.univ.filter (fun n : Fin N => (idx (ix2 n (0 : Fin 1))).toInt = (g.val : ℤ)), upd (ix1 n) := by
  show x (ix1 g) + ∑ j ∈ Finset.univ.filter (fun j => (flatScatter R N wf).resultIdx? j idx = some (ix1 g)), upd j = _
  congr 1
  refine Finset.sum_bij (fun (j : (⟨1, ![N]⟩ : Shape).Idx) _ => (j 0 : Fin N)) ?_ ?_ ?_ ?_
  · intro j hj
    exact Finset.mem_filter.2 ⟨Finset.mem_univ _,
      (flatScatter_resultIdx?_eq_some_iff wf j idx (ix1 g)).1 (Finset.mem_filter.1 hj).2⟩
  · intro a _ b _ hab
    rw [eq_ix1 a, eq_ix1 b]
    exact congrArg ix1 hab
  · intro n hn
    exact ⟨ix1 n, Finset.mem_filter.2 ⟨Finset.mem_univ _,
      (flatScatter_resultIdx?_eq_some_iff wf (ix1 n) idx (ix1 g)).2 (Finset.mem_filter.1 hn).2⟩, rfl⟩
  · intro j _
    exact congrArg upd (eq_ix1 j)

end Flat

/-! ## The row gather -/

/-- A gather of whole rows of an `[R, C]` table, the row named by an `[N, 1]` array of words. -/
abbrev rowGather (R C N : Nat) (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- The row a word names for a gather from `R` rows: read signed, clamped into `[0, R - 1]`. -/
def clampRow (R : Nat) (hR : 0 < R) {w : Nat} (b : BitVec w) : Fin R := ⟨min b.toInt.toNat (R - 1), by omega⟩

/-- A word that names a row for the scatter (its signed value IS the row) names the same row for the gather. -/
theorem clampRow_of_eq (hR : 0 < R) (b : BitVec w) (g : Fin R) (h : b.toInt = (g.val : ℤ)) : clampRow R hR b = g := by
  refine Fin.ext ?_
  show min b.toInt.toNat (R - 1) = g.val
  have := g.isLt
  omega

/-- THE ROW GATHER READ AT `(n, c)`: the table at row `clampRow` of the `n`-th index word, column `c`. -/
theorem rowGather_apply {α : Type} (hR : 0 < R)
    (wf : GatherDims.WF ⟨2, ![R, C]⟩ ⟨2, ![N, 1]⟩ ⟨2, ![N, C]⟩ [1] [0] [] [0] [] 1 ![1, C])
    (x : (⟨2, ![R, C]⟩ : Shape).Idx → α) (idx : IVec ⟨2, ![N, 1]⟩ w) (n : Fin N) (c : Fin C) :
    Host.gather (rowGather R C N wf) x idx (ix2 n c) = x (ix2 (clampRow R hR (idx (ix2 n (0 : Fin 1)))) c) := by
  unfold Host.gather
  congr 1
  funext a
  refine Fin.ext ?_
  match a with
  | ⟨0, _⟩ =>
    show (rowGather R C N wf).start (ix2 n c) idx 0 + (rowGather R C N wf).batchCoord (ix2 n c) 0
      + (rowGather R C N wf).offCoord (ix2 n c) 0 = min (idx (ix2 n (0 : Fin 1))).toInt.toNat (R - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather R C N wf).startIndexMap from List.mem_singleton.mpr rfl)]
    have hsi : (rowGather R C N wf).siIdx (ix2 n c) ⟨List.idxOf (0 : Fin 2) (rowGather R C N wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show (rowGather R C N wf).start (ix2 n c) idx 1 + (rowGather R C N wf).batchCoord (ix2 n c) 1
      + (rowGather R C N wf).offCoord (ix2 n c) 1 = c.val
    rw [GatherDims.batchCoord_eq_zero _ _ _ List.not_mem_nil]
    unfold GatherDims.start
    rw [dif_neg (show ¬ (1 : Fin 2) ∈ (rowGather R C N wf).startIndexMap from
      (by decide : ¬ (1 : Fin 2) ∈ ([0] : List (Fin 2))))]
    unfold GatherDims.offCoord
    rw [dif_pos (show (1 : Fin 2) ∈ (rowGather R C N wf).sKept from
      (by decide : (1 : Fin 2) ∈ ([1] : List (Fin 2))))]
    simp only [Nat.zero_add, Nat.add_zero]
    rfl

/-! ## Counting on the extended reals -/

/-- A sum of copies of one extended real is the count times it — at the infinities too, and for the empty sum (`0 · v = 0`):
    a product by a nonnegative factor distributes over a sum of nonnegative terms, which is all the induction needs. -/
theorem sum_const_eq_card_mul {ι : Type} [DecidableEq ι] (s : Finset ι) (v : EReal) :
    ∑ _n ∈ s, v = (∑ _n ∈ s, (1 : EReal)) * v := by
  induction s using Finset.induction_on with
  | empty => simp
  | insert a s ha ih =>
    rw [Finset.sum_insert ha, Finset.sum_insert ha, ih,
      EReal.right_distrib_of_nonneg zero_le_one (Finset.sum_nonneg fun _ _ => zero_le_one), one_mul]

end Cert.RowIndex

end
-- ==== Proof.LibFlatGather.lean ====
/-
  A gather of scalars indexed by data, read at an index.

  `x[idx]` over an `[R]` table of scalars (one index per result entry, carried as an `[N, 1]` array of words) reads the
  table at `min (toNat idx) (R - 1)`: the word read signed and CLAMPED into `[0, R - 1]` — the same row `clampRow` names
  for the gather of whole rows.
-/
import proofs.«157345_j20959440404665_2_alg».proof.Proof.LibRowIndex

noncomputable section

namespace Cert.RowIndex

open Idealize.ShloMosaic Idealize.ShloMosaic.ValueIdx

/-- A gather of scalars from an `[R]` table, the entry named by an `[N, 1]` array of words. -/
abbrev flatGather (R N : Nat) (wf : GatherDims.WF ⟨1, ![R]⟩ ⟨2, ![N, 1]⟩ ⟨1, ![N]⟩ [] [0] [] [0] [] 1 ![1]) :
    GatherDims ⟨1, ![R]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

variable {R N w : Nat}

/-- THE FLAT GATHER READ AT `n`: the table at entry `clampRow` of the `n`-th index word. -/
theorem flatGather_apply {α : Type} (hR : 0 < R)
    (wf : GatherDims.WF ⟨1, ![R]⟩ ⟨2, ![N, 1]⟩ ⟨1, ![N]⟩ [] [0] [] [0] [] 1 ![1])
    (x : (⟨1, ![R]⟩ : Shape).Idx → α) (idx : IVec ⟨2, ![N, 1]⟩ w) (n : Fin N) :
    Host.gather (flatGather R N wf) x idx (ix1 n) = x (ix1 (clampRow R hR (idx (ix2 n (0 : Fin 1))))) := by
  unfold Host.gather
  congr 1
  funext a
  refine Fin.ext ?_
  match a with
  | ⟨0, _⟩ =>
    show (flatGather R N wf).start (ix1 n) idx 0 + (flatGather R N wf).batchCoord (ix1 n) 0
      + (flatGather R N wf).offCoord (ix1 n) 0 = min (idx (ix2 n (0 : Fin 1))).toInt.toNat (R - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (flatGather R N wf).startIndexMap from List.mem_singleton.mpr rfl)]
    have hsi : (flatGather R N wf).siIdx (ix1 n) ⟨List.idxOf (0 : Fin 1) (flatGather R N wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl

end Cert.RowIndex

end
-- ==== Proof.LibCountWords.lean ====
/-
  Column counts: the sum of a table of words over its leading axis, and the count it is when the words are 0 or 1.

  A reduction by word addition over axis 0 of a `[K, T]` table, from an initial word `v₀`, is at column `τ` the word
  `v₀ + ∑ k, x (k, τ)` (addition is commutative and associative, so the order of the fold is immaterial). When `v₀ = 0`,
  every entry is `0` or `1` and `K < 2 ^ 32`, no wrap-around occurs and the value is the NUMBER of rows `k` whose entry
  in column `τ` is `1`.

  Also: a one-bit word widened to 32 bits is `1` or `0` as the bit is, and the integer comparisons as statements
  about the two words (equality) or their signed values (`BitVec.toInt`).
-/
import Idealize.ShloMosaic.PureOps.Ideal
import Idealize.ShloMosaic.PureOps.Reduce
import Idealize.ShloMosaic.Lib.ValueIdx
import Mathlib.Data.BitVec

open scoped BigOperators

namespace Cert.Lib.CountWords

open Idealize.ShloMosaic Idealize.ShloMosaic.ValueIdx

/-! ## A fold of word addition over a finite set is the initial word plus the sum -/

/-- Folding word addition over a finite set from `b` gives `b` plus the sum over the set. -/
theorem fold_addi_eq_add_sum {w : Nat} {ι : Type*} (S : Finset ι) (f : ι → BitVec w) (b : BitVec w) :
    Finset.fold IntOp.addi b f S = b + ∑ a ∈ S, f a := by
  classical
  induction S using Finset.induction_on with
  | empty => simp
  | insert a S ha ih =>
    rw [Finset.fold_insert ha, ih, Finset.sum_insert ha]
    show f a + (b + _) = b + (f a + _)
    rw [add_left_comm]

/-! ## The sum over the leading axis of a rank-2 table -/

/-- The reduction by word addition over axis 0 of a `[K, T]` table, from the initial word `v₀`, is at column `τ`
    the word `v₀ + ∑ k, x (k, τ)` (wrapping, in `BitVec w`). -/
theorem reduceAddCols_apply {K T w : Nat} {u : Shape} (x : IVec ⟨2, ![K, T]⟩ w) (v : IVec u w)
    (h : (⟨2, ![K, T]⟩ : Shape).ReducesTo [0] ⟨1, ![T]⟩) (hu : 0 < u.numel) (τ : Fin T) :
    Host.reduce IntOp.addi x v h hu (ix1 τ) = v (Shape.Idx.first hu) + ∑ k : Fin K, x (ix2 k τ) := by
  have hR : (⟨2, ![K, T]⟩ : Shape).Reduces [0] ⟨1, ![T]⟩ := ⟨h.1, Nat.one_pos, h.2⟩
  rw [Host.reduce_eq_fold_single IntOp.addi x v h hR hu, fold_addi_eq_add_sum]
  congr 1
  refine Finset.sum_congr rfl fun k _ => ?_
  show x (hR.lift (ix1 τ) k) = _
  congr 1
  funext c
  apply Fin.ext
  rw [hR.lift_val]
  unfold Shape.Reduces.liftVal
  match c with
  | ⟨0, _⟩ => exact dif_pos rfl
  | ⟨1, _⟩ => simp

/-! ## Reading the sum as a natural number -/

/-- The value of a sum of `w`-bit words is the sum of the values, modulo `2 ^ w`. -/
theorem toNat_sum_mod {w : Nat} {ι : Type*} (S : Finset ι) (f : ι → BitVec w) :
    (∑ a ∈ S, f a).toNat = (∑ a ∈ S, (f a).toNat) % 2 ^ w := by
  classical
  induction S using Finset.induction_on with
  | empty => simp
  | insert a S ha ih => rw [Finset.sum_insert ha, Finset.sum_insert ha, BitVec.toNat_add, ih, Nat.add_mod_mod]

/-- A sum of fewer than `2 ^ 32` words each `0` or `1` counts the ones: no wrap-around occurs. -/
theorem toNat_sum_zero_one {ι : Type*} (S : Finset ι) (f : ι → BitVec 32)
    (h01 : ∀ a ∈ S, f a = 0#32 ∨ f a = 1#32) (hS : S.card < 2 ^ 32) :
    (∑ a ∈ S, f a).toNat = (S.filter fun a => f a = 1#32).card := by
  have hsum : ∑ a ∈ S, (f a).toNat = ∑ a ∈ S, if f a = 1#32 then 1 else 0 := by
    refine Finset.sum_congr rfl fun a ha => ?_
    rcases h01 a ha with h | h <;> rw [h] <;> decide
  rw [toNat_sum_mod, hsum, ← Finset.card_filter, Nat.mod_eq_of_lt]
  exact lt_of_le_of_lt (Finset.card_filter_le _ _) hS

/-- Column counts: with zero initial word, every entry of column `τ` equal to `0` or `1`, and `K < 2 ^ 32`, the value
    of the column's sum is the NUMBER of rows `k` with `x (k, τ) = 1`. -/
theorem reduceAddCols_count {K T : Nat} {u : Shape} (x : IVec ⟨2, ![K, T]⟩ 32) (v : IVec u 32)
    (h : (⟨2, ![K, T]⟩ : Shape).ReducesTo [0] ⟨1, ![T]⟩) (hu : 0 < u.numel)
    (hv : v (Shape.Idx.first hu) = 0#32) (τ : Fin T)
    (h01 : ∀ k : Fin K, x (ix2 k τ) = 0#32 ∨ x (ix2 k τ) = 1#32) (hK : K < 2 ^ 32) :
    (Host.reduce IntOp.addi x v h hu (ix1 τ)).toNat
      = (Finset.univ.filter fun k : Fin K => x (ix2 k τ) = 1#32).card := by
  have hz : (0#32 : BitVec 32) + ∑ k : Fin K, x (ix2 k τ) = ∑ k : Fin K, x (ix2 k τ) := zero_add _
  rw [reduceAddCols_apply, hv, hz,
    toNat_sum_zero_one _ _ (fun k _ => h01 k) (by rw [Finset.card_fin]; exact hK)]

/-! ## A one-bit word widened to 32 bits -/

/-- Widening the bit `1` gives the word `1`. -/
theorem extui32_of_one {s : Shape} (c : IVec s 1) (h : 1 < 32) (i : s.Idx) (hc : c i = 1#1) :
    extui 32 c h i = 1#32 := by
  rw [extui_apply, hc]; rfl

/-- Widening the bit `0` gives the word `0`. -/
theorem extui32_of_zero {s : Shape} (c : IVec s 1) (h : 1 < 32) (i : s.Idx) (hc : c i = 0#1) :
    extui 32 c h i = 0#32 := by
  rw [extui_apply, hc]; rfl

/-- A widened bit is the word `0` or the word `1`. -/
theorem extui32_zero_or_one {s : Shape} (c : IVec s 1) (h : 1 < 32) (i : s.Idx) :
    extui 32 c h i = 0#32 ∨ extui 32 c h i = 1#32 := by
  by_cases hc : c i = 1#1
  · exact Or.inr (extui32_of_one c h i hc)
  · exact Or.inl (extui32_of_zero c h i (eq_zero_of_ne_one hc))

/-- A widened bit is the word `1` exactly when the bit is `1`. -/
theorem extui32_eq_one_iff {s : Shape} (c : IVec s 1) (h : 1 < 32) (i : s.Idx) :
    extui 32 c h i = 1#32 ↔ c i = 1#1 := by
  constructor
  · intro he
    by_contra hc
    rw [extui32_of_zero c h i (eq_zero_of_ne_one hc)] at he
    exact absurd he (by decide)
  · exact extui32_of_one c h i

/-! ## Integer comparisons -/

/-- The bit of a Boolean is `1` exactly when it is `true`. -/
theorem ofBool_eq_one_iff (b : Bool) : BitVec.ofBool b = 1#1 ↔ b = true := by cases b <;> decide

/-- The bit of a Boolean is `0` exactly when it is `false`. -/
theorem ofBool_eq_zero_iff (b : Bool) : BitVec.ofBool b = 0#1 ↔ b = false := by cases b <;> decide

/-- A comparison's bit that is not `1` is `0`, and conversely: it is `0` exactly when it is not `1`. -/
theorem bit_eq_zero_iff_ne_one (b : BitVec 1) : b = 0#1 ↔ ¬ b = 1#1 :=
  ⟨fun h => by rw [h]; decide, eq_zero_of_ne_one⟩

/-- `eq`: the bit is `1` exactly when the two words are equal. -/
theorem cmpi_eq_one_iff {w : Nat} (a b : BitVec w) : IntOp.cmpi .eq a b = 1#1 ↔ a = b := by
  unfold IntOp.cmpi; rw [ofBool_eq_one_iff]; exact beq_iff_eq

/-- `eq`: the bit is `0` exactly when the two words differ. -/
theorem cmpi_eq_zero_iff {w : Nat} (a b : BitVec w) : IntOp.cmpi .eq a b = 0#1 ↔ a ≠ b := by
  rw [bit_eq_zero_iff_ne_one, cmpi_eq_one_iff]

/-- `sle`: the bit is `1` exactly when `a ≤ b` as signed integers. -/
theorem cmpi_sle_one_iff {w : Nat} (a b : BitVec w) : IntOp.cmpi .sle a b = 1#1 ↔ a.toInt ≤ b.toInt := by
  unfold IntOp.cmpi; rw [ofBool_eq_one_iff]; exact BitVec.sle_iff_toInt_le

/-- `sle`: the bit is `0` exactly when `b < a` as signed integers. -/
theorem cmpi_sle_zero_iff {w : Nat} (a b : BitVec w) : IntOp.cmpi .sle a b = 0#1 ↔ b.toInt < a.toInt := by
  rw [bit_eq_zero_iff_ne_one, cmpi_sle_one_iff, not_le]

/-- `slt`: the bit is `1` exactly when `a < b` as signed integers. -/
theorem cmpi_slt_one_iff {w : Nat} (a b : BitVec w) : IntOp.cmpi .slt a b = 1#1 ↔ a.toInt < b.toInt := by
  unfold IntOp.cmpi; rw [ofBool_eq_one_iff]; exact BitVec.slt_iff_toInt_lt

/-- `slt`: the bit is `0` exactly when `b ≤ a` as signed integers. -/
theorem cmpi_slt_zero_iff {w : Nat} (a b : BitVec w) : IntOp.cmpi .slt a b = 0#1 ↔ b.toInt ≤ a.toInt := by
  rw [bit_eq_zero_iff_ne_one, cmpi_slt_one_iff, not_lt]

/-- `sge`: the bit is `1` exactly when `b ≤ a` as signed integers. -/
theorem cmpi_sge_one_iff {w : Nat} (a b : BitVec w) : IntOp.cmpi .sge a b = 1#1 ↔ b.toInt ≤ a.toInt := by
  unfold IntOp.cmpi; rw [ofBool_eq_one_iff]; exact BitVec.sle_iff_toInt_le

/-- `sge`: the bit is `0` exactly when `a < b` as signed integers. -/
theorem cmpi_sge_zero_iff {w : Nat} (a b : BitVec w) : IntOp.cmpi .sge a b = 0#1 ↔ a.toInt < b.toInt := by
  rw [bit_eq_zero_iff_ne_one, cmpi_sge_one_iff, not_le]

/-- `sgt`: the bit is `1` exactly when `b < a` as signed integers. -/
theorem cmpi_sgt_one_iff {w : Nat} (a b : BitVec w) : IntOp.cmpi .sgt a b = 1#1 ↔ b.toInt < a.toInt := by
  unfold IntOp.cmpi; rw [ofBool_eq_one_iff]; exact BitVec.slt_iff_toInt_lt

/-- `sgt`: the bit is `0` exactly when `a ≤ b` as signed integers. -/
theorem cmpi_sgt_zero_iff {w : Nat} (a b : BitVec w) : IntOp.cmpi .sgt a b = 0#1 ↔ a.toInt ≤ b.toInt := by
  rw [bit_eq_zero_iff_ne_one, cmpi_sgt_one_iff, not_lt]

/-- The comparisons as `if`s. -/
theorem cmpi_eq_ite {w : Nat} (a b : BitVec w) : IntOp.cmpi .eq a b = if a = b then 1#1 else 0#1 := by
  split
  · next h => exact (cmpi_eq_one_iff a b).2 h
  · next h => exact (cmpi_eq_zero_iff a b).2 h

theorem cmpi_sle_ite {w : Nat} (a b : BitVec w) :
    IntOp.cmpi .sle a b = if a.toInt ≤ b.toInt then 1#1 else 0#1 := by
  split
  · next h => exact (cmpi_sle_one_iff a b).2 h
  · next h => exact (cmpi_sle_zero_iff a b).2 (not_le.1 h)

theorem cmpi_slt_ite {w : Nat} (a b : BitVec w) :
    IntOp.cmpi .slt a b = if a.toInt < b.toInt then 1#1 else 0#1 := by
  split
  · next h => exact (cmpi_slt_one_iff a b).2 h
  · next h => exact (cmpi_slt_zero_iff a b).2 (not_lt.1 h)

theorem cmpi_sge_ite {w : Nat} (a b : BitVec w) :
    IntOp.cmpi .sge a b = if b.toInt ≤ a.toInt then 1#1 else 0#1 := by
  split
  · next h => exact (cmpi_sge_one_iff a b).2 h
  · next h => exact (cmpi_sge_zero_iff a b).2 (not_le.1 h)

end Cert.Lib.CountWords
-- ==== Proof.RoutingPlaces.lean ====
/-
  The routing stages read as numbers: group sizes, group starts, each token's place and each tile's label.

  Given that the totals and the ranks computed by the program are the counts and ranks of the labels, the
  later stages are the counting-sort positions with groups padded to multiples of 512: the padded size of
  a group, the start of a group (the sum of the padded sizes before it), the start of a token's own group,
  the token's place, the first tile of a group and, for every tile, the label whose group holds it.
-/
import proofs.«157345_j20959440404665_2_alg».proof.Proof.RoutingCounts
import proofs.«157345_j20959440404665_2_alg».proof.Proof.LibGroupedPositions
import proofs.«157345_j20959440404665_2_alg».proof.Proof.LibPrefixSum
import proofs.«157345_j20959440404665_2_alg».proof.Proof.LibFloorDivWords
import proofs.«157345_j20959440404665_2_alg».proof.Proof.LibFlatGather
import proofs.«157345_j20959440404665_2_alg».proof.Proof.LibSmallWords
import proofs.«157345_j20959440404665_2_alg».proof.Proof.LibCountWords
import Idealize.ShloMosaic.Lib.Pipeline.Value
import Idealize.ShloMosaic.Lib.ValueLayout

noncomputable section

namespace Cert.KernelIdeal.Routing

open Cert.KernelIdeal Idealize.ShloMosaic Idealize.ShloMosaic.ValueIdx
open Cert.Lib

/-! ### Word facts used below -/

private theorem toNat_512 : (512#32 : BitVec 32).toNat = 512 := by decide
private theorem toNat_1 : (1#32 : BitVec 32).toNat = 1 := by decide

/-- A label has at most as many tokens as there are tokens. -/
theorem cnt_le_tokens (l : Fin 32768 → Fin 8) (k : Fin 8) : GroupedPositions.cnt l k ≤ 32768 := by
  unfold GroupedPositions.cnt
  exact (Finset.card_le_univ _).trans (by simp)

/-- Adding 512 and taking 1 away, on a word at most 32768, adds 511. -/
theorem plus511_toNat (tot : IVec S8 32) (k : Fin 8) (hc : (tot (ValueIdx.ix1 k)).toNat ≤ 32768) :
    (plus511 tot (ValueIdx.ix1 k)).toNat = (tot (ValueIdx.ix1 k)).toNat + 511 := by
  show (IntOp.subi (IntOp.addi (tot (ValueIdx.ix1 k)) 512#32) 1#32).toNat = _
  have h1 : (IntOp.addi (tot (ValueIdx.ix1 k)) 512#32).toNat = (tot (ValueIdx.ix1 k)).toNat + 512 := by
    rw [FloorDivWords.toNat_addi _ _ (by rw [toNat_512]; omega), toNat_512]
  rw [FloorDivWords.toNat_subi _ _ (by rw [h1, toNat_1]; omega), h1, toNat_1]
  omega

/-- The floor division by the word 512 of a word that is nonnegative as a signed number. -/
theorem floorDiv512_toNat (x : IVec S8 32) (k : Fin 8) (hx : (x (ValueIdx.ix1 k)).toNat < 2 ^ 31) :
    (floorDiv x w512 (ValueIdx.ix1 k)).toNat = (x (ValueIdx.ix1 k)).toNat / 512 ∧ (floorDiv x w512 (ValueIdx.ix1 k)).toNat < 2 ^ 31 :=
  FloorDivWords.floorDiv_nonneg (x := x) (y := broadcastInDim S8 ![] Gen.bcast_S_S8 w512) (i := ValueIdx.ix1 k) (d := 512)
    hx rfl (by norm_num) (by norm_num)

/-- Multiplying by the word 512 without wrap-around. -/
theorem times512_toNat (q : IVec S8 32) (k : Fin 8) (hq : (q (ValueIdx.ix1 k)).toNat * 512 < 2 ^ 32) :
    (times512 q (ValueIdx.ix1 k)).toNat = (q (ValueIdx.ix1 k)).toNat * 512 := by
  show (IntOp.muli (q (ValueIdx.ix1 k)) 512#32).toNat = _
  rw [FloorDivWords.toNat_muli _ _ (by rw [toNat_512]; exact hq), toNat_512]

section
variable (t1 : IVec S32768 32) (h : InRange t1)

include h in
/-- The padded group sizes. -/
theorem sizeT_toNat (k : Fin 8) : (sizeT t1 (ValueIdx.ix1 k)).toNat = GroupedPositions.size 512 (lab t1 h) k := by
  have hc := cnt_le_tokens (lab t1 h) k
  have h1 : (plus511 (totT t1) (ValueIdx.ix1 k)).toNat = GroupedPositions.cnt (lab t1 h) k + 511 := by
    rw [plus511_toNat _ _ (by rw [totT_toNat t1 h]; exact hc), totT_toNat t1 h]
  have h2 := (floorDiv512_toNat (plus511 (totT t1)) k (by rw [h1]; omega)).1
  rw [h1] at h2
  have h3 : (GroupedPositions.cnt (lab t1 h) k + 511) / 512 ≤ 65 := by omega
  show (times512 (floorDiv (plus511 (totT t1)) w512) (ValueIdx.ix1 k)).toNat = _
  rw [times512_toNat _ _ (by rw [h2]; omega), h2]
  rfl

/-- A padded group size is at most 33280. -/
theorem size_le_33280 (l : Fin 32768 → Fin 8) (k : Fin 8) : GroupedPositions.size 512 l k ≤ 33280 := by
  have h1 := GroupedPositions.size_lt (T := 512) (by norm_num) l k
  have h2 := cnt_le_tokens l k
  omega

/-! ### Group starts -/

/-- The inclusive prefix sums, read as numbers, when every entry is at most 33280. -/
theorem prefix8_toNat (s : IVec S8 32) (hs : ∀ idx, (s idx).toNat ≤ 33280) (i : Fin 8) :
    (prefix8 s (ValueIdx.ix1 i)).toNat
      = ∑ i' ∈ Finset.univ.filter (fun i' : Fin 8 => i'.val ≤ i.val), (s (ValueIdx.ix1 i')).toNat :=
  PrefixSum.cumsum1_lo_toNat (n := 8) (m := 7) rfl s _ Gen.reduceWindows_S8_S8_w8s1p7_0 Gen.h_S_ rfl 33280 hs
    (by norm_num) i

/-- The first start is zero. -/
theorem starts_zero (s : IVec S8 32) : starts s (ValueIdx.ix1 (0 : Fin 8)) = 0#32 := by
  unfold starts
  refine (extractStridedSlice_apply ![0] _ Gen.slices_S9_S8_0 (ValueIdx.ix1 (0 : Fin 8)) (ValueIdx.ix1 (0 : Fin 9)) (by
    intro a; match a with | ⟨0, _⟩ => rfl)).trans ?_
  exact concatenate_pair_apply_left (t := S9) (s₁ := S1) (s₂ := S8) (0 : Fin 1) _ _
    Gen.concatenates_S1_S8_S9_d0 _ rfl (ValueIdx.ix1 (0 : Fin 1)) (by
      intro b; match b with | ⟨0, _⟩ => rfl)

/-- Every later start is the inclusive prefix sum one entry before. -/
theorem starts_succ (s : IVec S8 32) (k0 : ℕ) (hk : k0 + 1 < 8) :
    starts s (ValueIdx.ix1 (⟨k0 + 1, hk⟩ : Fin 8)) = prefix8 s (ValueIdx.ix1 (⟨k0, by omega⟩ : Fin 8)) := by
  unfold starts
  refine (extractStridedSlice_apply ![0] _ Gen.slices_S9_S8_0 (ValueIdx.ix1 (⟨k0 + 1, hk⟩ : Fin 8))
    (ValueIdx.ix1 (⟨k0 + 1, by omega⟩ : Fin 9)) (by
      intro a; match a with | ⟨0, _⟩ => show k0 + 1 = 0 + (k0 + 1); omega)).trans ?_
  exact concatenate_pair_apply_right (t := S9) (s₁ := S1) (s₂ := S8) (0 : Fin 1) _ _
    Gen.concatenates_S1_S8_S9_d0 _ rfl rfl (ValueIdx.ix1 (⟨k0, by omega⟩ : Fin 8))
    (by intro b hb; match b with | ⟨0, _⟩ => exact absurd rfl hb)
    (by show k0 + 1 = k0 + 1; rfl)

include h in
/-- Where each label's group starts: the sum of the padded sizes of the labels before it. -/
theorem startT_toNat (k : Fin 8) : (startT t1 (ValueIdx.ix1 k)).toNat = GroupedPositions.off 512 (lab t1 h) k := by
  have hs : ∀ idx, (sizeT t1 idx).toNat ≤ 33280 := by
    intro idx
    obtain ⟨k', rfl⟩ : ∃ k', idx = ValueIdx.ix1 k' := ⟨idx 0, eq_ix1 idx⟩
    rw [sizeT_toNat t1 h]; exact size_le_33280 _ _
  rcases k with ⟨_ | k0, hk⟩
  · show (starts (sizeT t1) (ValueIdx.ix1 (0 : Fin 8))).toNat = _
    rw [starts_zero]
    exact (GroupedPositions.off_zero 512 (lab t1 h) (by norm_num)).symm
  · show (starts (sizeT t1) (ValueIdx.ix1 (⟨k0 + 1, hk⟩ : Fin 8))).toNat = _
    rw [starts_succ _ k0 hk, prefix8_toNat _ hs]
    unfold GroupedPositions.off
    refine Finset.sum_congr ?_ (fun k' _ => sizeT_toNat t1 h k')
    ext k'
    simp only [Finset.mem_filter, Finset.mem_univ, true_and]
    rw [Fin.lt_def]
    show k'.val ≤ k0 ↔ k'.val < k0 + 1
    omega

include h in
/-- Every group starts below 36856. -/
theorem startT_le (k : Fin 8) : (startT t1 (ValueIdx.ix1 k)).toNat ≤ 36856 := by
  rw [startT_toNat t1 h]
  have h1 := GroupedPositions.off_add_size_le_sum 512 (lab t1 h) k
  have h2 := GroupedPositions.sum_size_le (T := 512) (by norm_num) (lab t1 h)
  omega

include h in
/-- The first tile of each label's group. -/
theorem tileStartT_toNat (k : Fin 8) :
    (tileStartT t1 (ValueIdx.ix1 k)).toNat = GroupedPositions.toff 512 (lab t1 h) k := by
  have hle := startT_le t1 h k
  have h2 := (floorDiv512_toNat (startT t1) k (by omega)).1
  show (floorDiv (startT t1) w512 (ValueIdx.ix1 k)).toNat = _
  rw [h2, startT_toNat t1 h]
  rfl

/-! ### Each token's group start and place -/

/-- The index word a pick is made with: the label word, plus 8 if it is negative. -/
def normIdx (t : IVec S32768 32) : IVec S32768 32 :=
  select (cmpi .slt t (broadcastInDim S32768 ![] Gen.bcast_S_S32768 (constantI S_ 32 0#32)))
    (addi t (broadcastInDim S32768 ![] Gen.bcast_S_S32768 (constantI S_ 32 8#32))) t

include h in
/-- Labels are not negative, so the index word is the label word. -/
theorem normIdx_eq : normIdx t1 = t1 := by
  funext j
  obtain ⟨n, rfl⟩ : ∃ n, j = ValueIdx.ix1 n := ⟨j 0, eq_ix1 j⟩
  exact SmallWords.normalize_nonneg (t1 (ValueIdx.ix1 n)) 8#32 (by rw [label_toInt t1 h n]; exact Int.natCast_nonneg _)

/-- The guard of a pick from a table of 8 entries: the index word lies in [0, 7]. -/
def guard8 (c : IVec S32768x1 32) : IVec S32768 1 :=
  Host.reduce IntOp.andi
    (andi (cmpi .sge c (broadcastInDim S32768x1 ![] Gen.bcast_S_S32768x1 (constantI S_ 32 0#32)))
          (cmpi .sle c (broadcastInDim S32768x1 ![0, 1] Gen.bcast_S1x1_S32768x1_0_1
                          (broadcastInDim S1x1 ![1] Gen.bcast_S1_S1x1_1 (constantI S1 32 7#32)))))
    (constantI S_ 1 1#1) Gen.reducesTo_S32768x1_S32768_d1 Gen.h_S_

/-- The pick of a token's group start, in its three parts: index, guard, gather. -/
theorem startOf_eq (st : IVec S8 32) (t : IVec S32768 32) :
    startOf st t = select (guard8 (labelCol (normIdx t)))
      (Host.gather gather_S8_S32768x1_S32768_n_0_n_n_0_1_1 st (labelCol (normIdx t)))
      (broadcastInDim S32768 ![] Gen.bcast_S_S32768 (constantI S_ 32 2147483648#32)) := rfl

/-- The guard is 1 when every index word lies in [0, 7]. -/
theorem guard8_one (c : IVec S32768x1 32) (hc : ∀ i, 0 ≤ (c i).toInt ∧ (c i).toInt ≤ 7) (j : S32768.Idx) :
    guard8 c j = 1#1 := by
  unfold guard8
  rw [SmallWords.reduce_andi_iff]
  refine ⟨rfl, fun i _ => ?_⟩
  show IntOp.andi (IntOp.cmpi .sge (c i) 0#32) (IntOp.cmpi .sle (c i) 7#32) = 1#1
  rw [IntOp.andi_eq_one, IntOp.cmpi_sge, IntOp.cmpi_sle]
  have h0 : (0#32 : BitVec 32).toInt = 0 := by decide
  have h7 : (7#32 : BitVec 32).toInt = 7 := by decide
  rw [h0, h7]
  exact hc i

/-- Each token's group start is the start of its label's group. -/
theorem startOf_at (st : IVec S8 32) (n : Fin 32768) :
    startOf st t1 (ValueIdx.ix1 n) = st (ValueIdx.ix1 (lab t1 h n)) := by
  rw [startOf_eq, normIdx_eq t1 h]
  have hc : ∀ i, 0 ≤ (labelCol t1 i).toInt ∧ (labelCol t1 i).toInt ≤ 7 := by
    intro i
    obtain ⟨n', z, rfl⟩ : ∃ (n' : Fin 32768) (z : Fin 1), i = ix2 n' z := ⟨i 0, i 1, eq_ix2 i⟩
    rw [labelCol_apply, label_toInt t1 h]
    have := h n'
    constructor
    · exact Int.natCast_nonneg _
    · omega
  show Scalar.select (guard8 (labelCol t1) (ValueIdx.ix1 n))
    (Host.gather gather_S8_S32768x1_S32768_n_0_n_n_0_1_1 st (labelCol t1) (ValueIdx.ix1 n)) _ = _
  rw [guard8_one _ hc]
  unfold Scalar.select
  have h11 : (1#1 : BitVec 1) = 1 := rfl
  rw [if_pos h11]
  have hg : (labelCol t1 (ix2 n (0 : Fin 1))).toInt = ((lab t1 h n).val : ℤ) := by
    rw [labelCol_apply]; exact label_toInt t1 h n
  rw [← Cert.RowIndex.clampRow_of_eq (by norm_num) (labelCol t1 (ix2 n (0 : Fin 1))) (lab t1 h n) hg]
  exact Cert.RowIndex.flatGather_apply (by norm_num) gather_S8_S32768x1_S32768_n_0_n_n_0_1_1.wf st (labelCol t1) n

include h in
/-- Each token's place: the start of its label's group plus its rank. -/
theorem placeT_toNat (n : Fin 32768) :
    (placeT t1 (ValueIdx.ix1 n)).toNat = GroupedPositions.pos 512 (lab t1 h) n := by
  show (IntOp.addi (startOf (startT t1) t1 (ValueIdx.ix1 n)) (rankT t1 (ValueIdx.ix1 n))).toNat = _
  rw [startOf_at t1 h]
  have h1 := startT_toNat t1 h (lab t1 h n)
  have h2 := rankT_toNat t1 h n
  have h3 := GroupedPositions.pos_lt (T := 512) (by norm_num) (lab t1 h) n
  unfold GroupedPositions.pos at h3 ⊢
  rw [FloorDivWords.toNat_addi _ _ (by rw [h1, h2]; omega), h1, h2]

include h in
/-- Every place is a row of the grouped array. -/
theorem placeT_lt (n : Fin 32768) : (placeT t1 (ValueIdx.ix1 n)).toNat < 36864 := by
  rw [placeT_toNat t1 h]
  have h3 := GroupedPositions.pos_lt (T := 512) (by norm_num) (lab t1 h) n
  omega

/-! ### Tile labels -/

/-- The table compared: entry (k, τ) is the bit of "group k starts at or before tile τ", widened to a word. -/
def startsBefore (ts : IVec S8 32) : IVec S8x72 32 :=
  extui 32 (cmpi .sle
      (broadcastInDim S8x72 ![0, 1] Gen.bcast_S8x1_S8x72_0_1 (broadcastInDim S8x1 ![0] Gen.bcast_S8_S8x1_0 ts))
      (broadcastInDim S8x72 ![0, 1] Gen.bcast_S1x72_S8x72_0_1
        (broadcastInDim S1x72 ![1] Gen.bcast_S72_S1x72_1 (iotaInDim S72 32 0))))
    Gen.natLt_1_32

/-- A tile's label is the column sum of that table, less one. -/
theorem tileLabel_eq (ts : IVec S8 32) :
    tileLabel ts = subi (Host.reduce IntOp.addi (startsBefore ts) (constantI S_ 32 0#32)
        Gen.reducesTo_S8x72_S72_d0 Gen.h_S_)
      (broadcastInDim S72 ![] Gen.bcast_S_S72 (constantI S_ 32 1#32)) := rfl

/-- A word below 2^31 read signed is the number. -/
private theorem toInt_of_lt {x : BitVec 32} (hx : x.toNat < 2 ^ 31) : x.toInt = (x.toNat : ℤ) := by
  rw [BitVec.toInt_eq_toNat_cond, if_pos (by omega)]

/-- Entry (k, τ) of the table is 1 exactly when the k-th start, as a number, is at most τ. -/
theorem startsBefore_eq_one_iff (ts : IVec S8 32) (hts : ∀ k, (ts (ValueIdx.ix1 k)).toNat < 2 ^ 31) (k : Fin 8)
    (τ : Fin 72) : startsBefore ts (ix2 k τ) = 1#32 ↔ (ts (ValueIdx.ix1 k)).toNat ≤ τ.val := by
  have hA : (broadcastInDim S8x72 ![0, 1] Gen.bcast_S8x1_S8x72_0_1
      (broadcastInDim S8x1 ![0] Gen.bcast_S8_S8x1_0 ts)) (ix2 k τ) = ts (ValueIdx.ix1 k) := by
    refine (broadcastInDim_apply _ _ _ (ix2 k τ) (ix2 k (0 : Fin 1)) (by
      intro a; match a with | ⟨0, _⟩ => rfl | ⟨1, _⟩ => rfl)).trans ?_
    exact broadcastInDim_apply _ _ ts (ix2 k (0 : Fin 1)) (ValueIdx.ix1 k) (by
      intro a; match a with | ⟨0, _⟩ => rfl)
  have hB : (broadcastInDim S8x72 ![0, 1] Gen.bcast_S1x72_S8x72_0_1
      (broadcastInDim S1x72 ![1] Gen.bcast_S72_S1x72_1 (iotaInDim S72 32 0))) (ix2 k τ)
        = BitVec.ofNat 32 τ.val := by
    refine (broadcastInDim_apply _ _ _ (ix2 k τ) (ix2 (0 : Fin 1) τ) (by
      intro a; match a with | ⟨0, _⟩ => rfl | ⟨1, _⟩ => rfl)).trans ?_
    exact broadcastInDim_apply _ _ (iotaInDim S72 32 0) (ix2 (0 : Fin 1) τ) (ValueIdx.ix1 τ) (by
      intro a; match a with | ⟨0, _⟩ => rfl)
  unfold startsBefore
  rw [CountWords.extui32_eq_one_iff]
  show IntOp.cmpi .sle _ _ = 1#1 ↔ _
  rw [IntOp.cmpi_sle, hA, hB, toInt_of_lt (hts k), SmallWords.toInt_ofNat_small (by have := τ.isLt; omega)]
  omega

include h in
/-- The column sum at tile τ counts the groups starting at or before it. -/
theorem tileT_card (τ : Fin 72) :
    (Host.reduce IntOp.addi (startsBefore (tileStartT t1)) (constantI S_ 32 0#32)
        Gen.reducesTo_S8x72_S72_d0 Gen.h_S_ (ValueIdx.ix1 τ)).toNat
      = ((Finset.univ : Finset (Fin 8)).filter fun k => GroupedPositions.toff 512 (lab t1 h) k ≤ τ.val).card := by
  have hts : ∀ k, (tileStartT t1 (ValueIdx.ix1 k)).toNat < 2 ^ 31 := fun k =>
    (floorDiv512_toNat (startT t1) k (by have := startT_le t1 h k; omega)).2
  have hcount := CountWords.reduceAddCols_count (K := 8) (T := 72) (startsBefore (tileStartT t1))
    (constantI S_ 32 0#32) Gen.reducesTo_S8x72_S72_d0 Gen.h_S_ rfl τ
    (fun k => CountWords.extui32_zero_or_one _ Gen.natLt_1_32 (ix2 k τ)) (by norm_num)
  rw [hcount]
  congr 1
  ext k
  simp only [Finset.mem_filter, Finset.mem_univ, true_and]
  rw [startsBefore_eq_one_iff _ hts, tileStartT_toNat t1 h]

include h in
/-- Each tile's label: the number of groups starting at or before the tile, less one. -/
theorem tileT_toNat (τ : Fin 72) : (tileT t1 (ValueIdx.ix1 τ)).toNat = GroupedPositions.gid 512 (lab t1 h) τ.val := by
  have hc := tileT_card t1 h τ
  have h1 := GroupedPositions.one_le_card_filter_toff 512 (lab t1 h) (by norm_num) τ.val
  show (IntOp.subi (Host.reduce IntOp.addi (startsBefore (tileStartT t1)) (constantI S_ 32 0#32)
    Gen.reducesTo_S8x72_S72_d0 Gen.h_S_ (ValueIdx.ix1 τ)) 1#32).toNat = _
  rw [FloorDivWords.toNat_subi _ _ (by rw [hc, toNat_1]; exact h1), hc, toNat_1]
  rfl

include h in
/-- Every tile's label is a label. -/
theorem tileT_lt (τ : Fin 72) : (tileT t1 (ValueIdx.ix1 τ)).toNat < 8 := by
  rw [tileT_toNat t1 h]
  exact GroupedPositions.gid_lt 512 (lab t1 h) (by norm_num) τ.val

/-- The tile holding a token's place is one of the 72 tiles. -/
theorem place_tile_lt (n : Fin 32768) : GroupedPositions.pos 512 (lab t1 h) n / 512 < 72 := by
  have := GroupedPositions.pos_lt (T := 512) (by norm_num) (lab t1 h) n
  omega

include h in
/-- The tile holding a token's place carries the token's label. -/
theorem tile_of_place (n : Fin 32768) :
    (tileT t1 (ValueIdx.ix1 ⟨GroupedPositions.pos 512 (lab t1 h) n / 512, place_tile_lt t1 h n⟩)).toNat
      = (lab t1 h n).val := by
  rw [tileT_toNat t1 h]
  exact GroupedPositions.gid_pos (T := 512) (by norm_num) (lab t1 h) n

end

end Cert.KernelIdeal.Routing

end
-- ==== Proof.Spec.lean ====
/-
  The routed feed-forward network as ONE function of the six argument arrays, entry by entry, on the extended reals.

  For token n (row n of x viewed as [32768, 512]; n = 512·b + s names entry (b, s) of the [64, 512] label array):
    pre n f    = max (Σ_d x n d · W_pre d f) 0                      the shared first layer
    typed k n j = max (Σ_f pre n f · W_types k f j) 0                the branch of type k
    hid n c    = max (Σ_d (x n d + typed (type of n) n d) · W_c1 d c) 0
    out n      = Σ_c hid n c · W_c2 c 0
  Every token is sent through the ONE branch its label names: the label is read as a natural number below 8.
-/
import Idealize.ShloMosaic.PureOps.Ideal
import Idealize.ShloMosaic.Lib.ValueIdx

open scoped BigOperators

noncomputable section

namespace Cert.Routed

open Idealize.ShloMosaic Idealize.ShloMosaic.ValueIdx

/-- Row and column of token n in the [64, 512] label array. -/
def tokB (n : Fin 32768) : Fin 64 := ⟨n.val / 512, by have := n.isLt; omega⟩
def tokS (n : Fin 32768) : Fin 512 := ⟨n.val % 512, Nat.mod_lt _ (by norm_num)⟩

/-- x viewed as [32768, 512]. -/
def xrow (x : (⟨3, ![64, 512, 512]⟩ : Shape).Idx → EReal) (n : Fin 32768) (d : Fin 512) : EReal :=
  x (ix3 (tokB n) (tokS n) d)

/-- The label word of token n. -/
def label (t : (⟨2, ![64, 512]⟩ : Shape).Idx → BitVec 32) (n : Fin 32768) : BitVec 32 := t (ix2 (tokB n) (tokS n))

/-- The shared first layer. -/
def pre (x : (⟨3, ![64, 512, 512]⟩ : Shape).Idx → EReal) (wpre : (⟨2, ![512, 1024]⟩ : Shape).Idx → EReal)
    (n : Fin 32768) (f : Fin 1024) : EReal :=
  max (∑ d : Fin 512, xrow x n d * wpre (ix2 d f)) 0

/-- The branch of type k. -/
def typed (x : (⟨3, ![64, 512, 512]⟩ : Shape).Idx → EReal) (wpre : (⟨2, ![512, 1024]⟩ : Shape).Idx → EReal)
    (wt : (⟨3, ![8, 1024, 512]⟩ : Shape).Idx → EReal) (k : Fin 8) (n : Fin 32768) (j : Fin 512) : EReal :=
  max (∑ f : Fin 1024, pre x wpre n f * wt (ix3 k f j)) 0

/-- The branch a label word selects: the word read as a natural number, when below 8; nothing is added otherwise. -/
def routed (x : (⟨3, ![64, 512, 512]⟩ : Shape).Idx → EReal) (wpre : (⟨2, ![512, 1024]⟩ : Shape).Idx → EReal)
    (wt : (⟨3, ![8, 1024, 512]⟩ : Shape).Idx → EReal) (w : BitVec 32) (n : Fin 32768) (j : Fin 512) : EReal :=
  if h : w.toNat < 8 then typed x wpre wt ⟨w.toNat, h⟩ n j else 0

/-- The hidden layer after the residual sum. -/
def hid (x : (⟨3, ![64, 512, 512]⟩ : Shape).Idx → EReal) (t : (⟨2, ![64, 512]⟩ : Shape).Idx → BitVec 32)
    (wpre : (⟨2, ![512, 1024]⟩ : Shape).Idx → EReal) (wt : (⟨3, ![8, 1024, 512]⟩ : Shape).Idx → EReal)
    (wc1 : (⟨2, ![512, 512]⟩ : Shape).Idx → EReal) (n : Fin 32768) (c : Fin 512) : EReal :=
  max (∑ d : Fin 512, (xrow x n d + routed x wpre wt (label t n) n d) * wc1 (ix2 d c)) 0

/-- The network's output, a [32768, 1] column. -/
def G (x : (⟨3, ![64, 512, 512]⟩ : Shape).Idx → EReal) (t : (⟨2, ![64, 512]⟩ : Shape).Idx → BitVec 32)
    (wpre : (⟨2, ![512, 1024]⟩ : Shape).Idx → EReal) (wt : (⟨3, ![8, 1024, 512]⟩ : Shape).Idx → EReal)
    (wc1 : (⟨2, ![512, 512]⟩ : Shape).Idx → EReal) (wc2 : (⟨2, ![512, 1]⟩ : Shape).Idx → EReal) :
    (⟨2, ![32768, 1]⟩ : Shape).Idx → EReal :=
  fun i => ∑ c : Fin 512, hid x t wpre wt wc1 (i 0) c * wc2 (ix2 c 0)

end Cert.Routed

end
-- ==== Proof.PreLabels.lean ====
/-
  The precondition read back: every label word is a number below 8.

  The printed precondition is a conjunction (a chain of one-bit `and`s) whose last two conjuncts are
  "every label is ≥ 0" and "every label is < 8", signed, each an `and`-reduction over the whole [64, 512] label
  array of a comparison against a constant. When the conjunction is the bit 1, both reductions are 1, so both
  comparisons are 1 at every entry; a 32-bit word whose signed value lies in [0, 8) has unsigned value below 8.
  The flat [32768] view of the label array holds, at position n, the entry (n / 512, n % 512): same row-major position.
-/
import proofs.«157345_j20959440404665_2_alg».proof.Pre_finite_inputs
import proofs.«157345_j20959440404665_2_alg».proof.Proof.Gen.Pre_finite_inputs
import proofs.«157345_j20959440404665_2_alg».proof.Proof.Gen.KernelIdeal
import proofs.«157345_j20959440404665_2_alg».proof.Proof.Spec
import proofs.«157345_j20959440404665_2_alg».proof.Proof.RoutingChain
import Idealize.ShloMosaic.Lib.ReduceAll
import Idealize.ShloMosaic.Lib.Pipeline.Value
import Idealize.ShloMosaic.Lib.ValueIdx

namespace Cert.PreLabels

open Idealize.ShloMosaic Idealize.ShloMosaic.ValueIdx

/-- A 32-bit word whose signed value is at least 0 and below `n` has unsigned value below `n`. -/
theorem toNat_lt_of_toInt (w : BitVec 32) (n : Nat) (h0 : (0 : Int) ≤ w.toInt) (hn : w.toInt < (n : Int)) :
    w.toNat < n := by
  have hlt := w.isLt
  rw [BitVec.toInt_eq_toNat_cond] at h0 hn
  split at h0 <;> omega

/-- The rank-0 shape has one index. -/
instance : Subsingleton Cert.Pre_finite_inputs.S_.Idx := ⟨fun _ _ => funext fun d => d.elim0⟩

/-- When the printed precondition holds, every label word, read unsigned, is below 8. -/
theorem labels_lt {F : FTy → Type} [FloatOps F] [Cert.Pre_finite_inputs.Facts]
    (a0 : FVec F Cert.Pre_finite_inputs.S64x512x512 .f32) (a1 : IVec Cert.Pre_finite_inputs.S64x512 32)
    (a2 : FVec F Cert.Pre_finite_inputs.S512x1024 .f32) (a3 : FVec F Cert.Pre_finite_inputs.S8x1024x512 .f32)
    (a4 : FVec F Cert.Pre_finite_inputs.S512x512 .f32) (a5 : FVec F Cert.Pre_finite_inputs.S512x1 .f32)
    (h : Cert.Pre_finite_inputs.fn (F := F) a0 a1 a2 a3 a4 a5 = fun _ => 1#1)
    (i : Cert.Pre_finite_inputs.S64x512.Idx) : (a1 i).toNat < 8 := by
  have e := congrFun h ix0
  unfold Cert.Pre_finite_inputs.fn Cert.Pre_finite_inputs.fn_part1 at e
  dsimp only at e
  simp only [andi] at e
  rw [IntOp.andi_eq_one, IntOp.andi_eq_one] at e
  obtain ⟨⟨-, hge⟩, hlt⟩ := e
  have hge' : IntOp.cmpi .sge (a1 i) 0#32 = 1#1 := Host.reduce_andi_all _ _ _ _ _ hge i
  have hlt' : IntOp.cmpi .slt (a1 i) 8#32 = 1#1 := Host.reduce_andi_all _ _ _ _ _ hlt i
  exact toNat_lt_of_toInt (a1 i) 8 (IntOp.cmpi_sge.1 hge') (IntOp.cmpi_slt.1 hlt')

/-- Position `n` of the flat [32768] view of the label array is the entry (n / 512, n % 512). -/
theorem flat_label (a1 : IVec Cert.KernelIdeal.S64x512 32) (n : Fin 32768) :
    shapeCast Cert.KernelIdeal.S32768 a1 Cert.KernelIdeal.Gen.shapeCasts_S64x512_S32768 (ix1 n)
      = Cert.Routed.label a1 n := by
  unfold Cert.Routed.label
  refine shapeCast_apply a1 _ (ix1 n) (ix2 (Cert.Routed.tokB n) (Cert.Routed.tokS n)) ?_
  rw [Shape.rowMajor_val_two, Shape.rowMajor_val_one]
  show (n.val / 512) * 512 + n.val % 512 = n.val
  omega

/-- When every entry of the label array is below 8, so is every entry of its flat view. -/
theorem inRange_flat (a1 : IVec Cert.KernelIdeal.S64x512 32) (h : ∀ i, (a1 i).toNat < 8) :
    Cert.KernelIdeal.Routing.InRange
      (shapeCast Cert.KernelIdeal.S32768 a1 Cert.KernelIdeal.Gen.shapeCasts_S64x512_S32768) := by
  intro n
  rw [flat_label]
  exact h _

end Cert.PreLabels
-- ==== Proof.TableOk.lean ====
/-
  The tile-label table is admissible whenever the printed precondition holds.

  The precondition bounds every label word below 8. The flattened label array is then in range, so every
  entry of the table of tile labels computed from it, the number of groups starting at or before the tile
  less one, is again a label below 8. That is what the second region asks of the table its weight window
  is indexed by.
-/
import proofs.«157345_j20959440404665_2_alg».proof.Proof.KFrame.TableOk
import proofs.«157345_j20959440404665_2_alg».proof.Proof.KernelChain
import proofs.«157345_j20959440404665_2_alg».proof.Proof.RoutingPlaces
import proofs.«157345_j20959440404665_2_alg».proof.Proof.PreLabels

noncomputable section

namespace Cert.KernelIdeal.TableOk

open Cert.KernelIdeal Idealize.ShloMosaic Idealize.ShloMosaic.TcCoe Idealize.SL.Sem
open Cert.KernelIdeal.Routing

variable {F : FTy → Type} [FloatOps F]

/-- The printed precondition on a launch memory, at any float instance: on every core the predicate of the six
argument arrays is all ones. -/
abbrev PreAt [Cert.Pre_finite_inputs.Facts] (m : (ℓ : Loc nD τ sig) → Buf (Elt F) ℓ) : Prop :=
  ∀ c : Dev nD,
    Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) = fun _ => 1#1

/-- Under the precondition every word of the flattened label array is a label below 8. -/
theorem inRange_of_pre [Cert.Pre_finite_inputs.Facts] (m : (ℓ : Loc nD τ sig) → Buf (Elt F) ℓ) (hpre : PreAt m)
    (c : Dev nD) : InRange (Chain.flat m c) :=
  Cert.PreLabels.inRange_flat (Gen.V0 m c main_arg1) fun i =>
    Cert.PreLabels.labels_lt (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) (hpre c) i

/-- Under the precondition every word of the table of tile labels, as the host operations before the second
region leave it, is a label below 8. -/
theorem tbl_word_lt [Cert.Pre_finite_inputs.Facts] (m : (ℓ : Loc nD τ sig) → Buf (Elt F) ℓ) (hpre : PreAt m)
    (j : S72.Idx) :
    BitVec.toNat (w := 32)
      ((Gen.V17 m (Hand.outsA m) (0 : Dev nD) main_v46 : (⟨S72, .i32⟩ : BufTy).Contents (Elt F)) j) < 8 := by
  rw [Chain.v46_eq m (Hand.outsA m) 0]
  obtain ⟨τ', rfl⟩ : ∃ τ' : Fin 72, j = ValueIdx.ix1 τ' := ⟨j 0, ValueIdx.eq_ix1 j⟩
  exact tileT_lt (Chain.flat m 0) (inRange_of_pre m hpre 0) τ'

/-- Under the precondition the table is admissible. -/
theorem ok_of_pre [Cert.Pre_finite_inputs.Facts] (m : (ℓ : Loc nD τ sig) → Buf (Elt F) ℓ) (hpre : PreAt m) :
    Hand.Ok m :=
  Hand.ok_of_words_lt m fun j => tbl_word_lt m hpre j

end Cert.KernelIdeal.TableOk

end
-- ==== Proof.Bits.KFrame.TableOk.lean ====
import proofs.«157345_j20959440404665_2_alg».proof.Proof.Bits.KFrame.Data
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The table fact from a bound on the table's words -/

variable (m : (ℓ : Loc nD τ sig) → Buf (Elt F) ℓ)

/-- The table the run reads is the valuation before region 1 at the table's buffer. -/
theorem tbl_eq : tbl m 0 = Gen.V17 m (outsA m) (0 : Dev nD) main_v46 := rfl

/-- The table fact holds as soon as every word of the table, read unsigned, is below 8. -/
theorem ok_of_words_lt (h : ∀ j : (pre1.ref 0).ty.shape.Idx, BitVec.toNat (w := 32) (tbl m 0 j) < 8) : Ok m :=
  ok1_of_words_lt (tbl m) h

end Cert.Kernel.Hand

end
-- ==== Proof.Bits.RoutingDefs.lean ====
/-
  The routing stages of the kernel's host program as array functions of the label column.

  From the flat label array t (one 32-bit word per token) the program computes, in integer arithmetic:
    oneHot      — the [tokens, 8] table of 0/1 words, 1 where the token's label is the column;
    runCount    — its running column sums (an inclusive prefix sum down the tokens);
    totals      — the last row: how many tokens carry each label;
    pickOwn     — for each token the running count in its own label's column (a guarded pick along the row);
    rankOf      — that count less one: the token's rank among the tokens of its label;
    padded      — each total rounded up to a multiple of 512;
    floorDiv512 — the rounding's quotient, as the printed sequence of a floor division;
    starts      — the exclusive prefix sums of the padded sizes: where each label's group begins;
    startOf     — each token's group start (a guarded pick from the table of starts);
    place       — start plus rank: the token's row in the grouped array;
    tileLabel   — for each of the 72 tiles of 512 rows, the number of groups starting at or before it, less one;
    placeCol    — the places as a column of row indices (a negative place would be wrapped by the array's extent);
    grouped     — the first layer's rows scattered to their places over a zero array;
    fetch       — the rows of a table fetched back at the places (guarded; an out-of-range place reads a quiet NaN).
  Each definition repeats the program's operations in order, so that the program's buffers are these functions of one
  another by computation.
-/
import proofs.«157345_j20959440404665_2_alg».proof.Proof.Gen.Kernel

noncomputable section

namespace Cert.Kernel.Routing

open Cert.Kernel Idealize.ShloMosaic

variable {F : FTy → Type} [FloatOps F]

def zeroS : IVec S_ 32 := constantI S_ 32 0#32

def oneHot (t1 : IVec S32768 32) : IVec S32768x8 32 :=
  extui 32 (cmpi .eq
      (broadcastInDim S32768x8 ![0, 1] Gen.bcast_S32768x1_S32768x8_0_1 (broadcastInDim S32768x1 ![0] Gen.bcast_S32768_S32768x1_0 t1))
      (broadcastInDim S32768x8 ![0, 1] Gen.bcast_S1x8_S32768x8_0_1 (broadcastInDim S1x8 ![1] Gen.bcast_S8_S1x8_1 (iotaInDim S8 32 0))))
    Gen.natLt_1_32

def runCount (oh : IVec S32768x8 32) : IVec S32768x8 32 :=
  Host.reduceWindow IntOp.addi ![32768, 1] ![1, 1] ![32767, 0] ![0, 0] oh (broadcastInDim S_ ![] Gen.bcast_S_S_ (constantI S_ 32 0#32))
    Gen.reduceWindows_S32768x8_S32768x8_w32768s1p32767_0_w1s1p0_0 Gen.h_S_

def totals (cum : IVec S32768x8 32) : IVec S8 32 :=
  shapeCast S8 (extractStridedSlice S1x8 ![32767, 0] cum Gen.slices_S32768x8_S1x8_32767_0) Gen.shapeCasts_S1x8_S8

def labelCol (t1 : IVec S32768 32) : IVec S32768x1 32 := broadcastInDim S32768x1 ![0] Gen.bcast_S32768_S32768x1_0 t1

def pickOwn (cum : IVec S32768x8 32) (c : IVec S32768x1 32) : IVec S32768x1 32 :=
  let idx : IVec S32768x1 32 :=
    select (cmpi .slt c (broadcastInDim S32768x1 ![] Gen.bcast_S_S32768x1 (constantI S_ 32 0#32)))
      (addi c (broadcastInDim S32768x1 ![] Gen.bcast_S_S32768x1 (constantI S_ 32 8#32))) c
  let idx3 : IVec S32768x1x1 32 := shapeCast S32768x1x1 idx Gen.shapeCasts_S32768x1_S32768x1x1
  let ok : IVec S32768x1 1 :=
    Host.reduce IntOp.andi
      (andi (cmpi .sge idx3 (broadcastInDim S32768x1x1 ![] Gen.bcast_S_S32768x1x1 (constantI S_ 32 0#32)))
            (cmpi .sle idx3 (broadcastInDim S32768x1x1 ![0, 1, 2] Gen.bcast_S1x1x1_S32768x1x1_0_1_2
                              (broadcastInDim S1x1x1 ![2] Gen.bcast_S1_S1x1x1_2 (constantI S1 32 7#32)))))
      (constantI S_ 1 1#1) Gen.reducesTo_S32768x1x1_S32768x1_d2 Gen.h_S_
  select ok (Host.gather gather_S32768x8_S32768x1x1_S32768x1_n_1_0_0_1_2_11 cum idx3)
    (broadcastInDim S32768x1 ![] Gen.bcast_S_S32768x1 (constantI S_ 32 2147483648#32))

def rankOf (own : IVec S32768x1 32) : IVec S32768 32 :=
  subi (shapeCast S32768 own Gen.shapeCasts_S32768x1_S32768) (broadcastInDim S32768 ![] Gen.bcast_S_S32768 (constantI S_ 32 1#32))

def plus511 (tot : IVec S8 32) : IVec S8 32 :=
  subi (addi tot (broadcastInDim S8 ![] Gen.bcast_S_S8 (constantI S_ 32 512#32))) (broadcastInDim S8 ![] Gen.bcast_S_S8 (constantI S_ 32 1#32))

/-- The printed floor division of an [8] array by a scalar word. -/
def floorDiv (x : IVec S8 32) (d : IVec S_ 32) : IVec S8 32 :=
  let y : IVec S8 32 := broadcastInDim S8 ![] Gen.bcast_S_S8 d
  let q : IVec S8 32 := Host.divsi x y
  let ne : IVec S8 1 := cmpi .ne (signi x) (broadcastInDim S8 ![] Gen.bcast_S_S8 (signi d))
  let nz : IVec S8 1 := cmpi .ne (Host.remsi x y) (broadcastInDim S8 ![] Gen.bcast_S_S8 (constantI S_ 32 0#32))
  select (andi ne nz) (subi q (broadcastInDim S8 ![] Gen.bcast_S_S8 (constantI S_ 32 1#32))) q

def times512 (q : IVec S8 32) : IVec S8 32 := muli q (broadcastInDim S8 ![] Gen.bcast_S_S8 (constantI S_ 32 512#32))

def prefix8 (s : IVec S8 32) : IVec S8 32 :=
  Host.reduceWindow IntOp.addi ![8] ![1] ![7] ![0] s (broadcastInDim S_ ![] Gen.bcast_S_S_ (constantI S_ 32 0#32))
    Gen.reduceWindows_S8_S8_w8s1p7_0 Gen.h_S_

def starts (s : IVec S8 32) : IVec S8 32 :=
  extractStridedSlice S8 ![0]
    (concatenate S9 0 [⟨S1, broadcastInDim S1 ![] Gen.bcast_S_S1 (constantI S_ 32 0#32)⟩, ⟨S8, prefix8 s⟩] Gen.concatenates_S1_S8_S9_d0)
    Gen.slices_S9_S8_0

def startOf (st : IVec S8 32) (t1 : IVec S32768 32) : IVec S32768 32 :=
  let idx : IVec S32768 32 :=
    select (cmpi .slt t1 (broadcastInDim S32768 ![] Gen.bcast_S_S32768 (constantI S_ 32 0#32)))
      (addi t1 (broadcastInDim S32768 ![] Gen.bcast_S_S32768 (constantI S_ 32 8#32))) t1
  let c : IVec S32768x1 32 := broadcastInDim S32768x1 ![0] Gen.bcast_S32768_S32768x1_0 idx
  let ok : IVec S32768 1 :=
    Host.reduce IntOp.andi
      (andi (cmpi .sge c (broadcastInDim S32768x1 ![] Gen.bcast_S_S32768x1 (constantI S_ 32 0#32)))
            (cmpi .sle c (broadcastInDim S32768x1 ![0, 1] Gen.bcast_S1x1_S32768x1_0_1
                            (broadcastInDim S1x1 ![1] Gen.bcast_S1_S1x1_1 (constantI S1 32 7#32)))))
      (constantI S_ 1 1#1) Gen.reducesTo_S32768x1_S32768_d1 Gen.h_S_
  select ok (Host.gather gather_S8_S32768x1_S32768_n_0_n_n_0_1_1 st c)
    (broadcastInDim S32768 ![] Gen.bcast_S_S32768 (constantI S_ 32 2147483648#32))

def place (so rk : IVec S32768 32) : IVec S32768 32 := addi so rk

def tileLabel (tileStart : IVec S8 32) : IVec S72 32 :=
  subi
    (Host.reduce IntOp.addi
      (extui 32 (cmpi .sle
          (broadcastInDim S8x72 ![0, 1] Gen.bcast_S8x1_S8x72_0_1 (broadcastInDim S8x1 ![0] Gen.bcast_S8_S8x1_0 tileStart))
          (broadcastInDim S8x72 ![0, 1] Gen.bcast_S1x72_S8x72_0_1 (broadcastInDim S1x72 ![1] Gen.bcast_S72_S1x72_1 (iotaInDim S72 32 0))))
        Gen.natLt_1_32)
      (constantI S_ 32 0#32) Gen.reducesTo_S8x72_S72_d0 Gen.h_S_)
    (broadcastInDim S72 ![] Gen.bcast_S_S72 (constantI S_ 32 1#32))

def placeCol (pl : IVec S32768 32) : IVec S32768x1 32 :=
  broadcastInDim S32768x1 ![0] Gen.bcast_S32768_S32768x1_0
    (select (cmpi .slt pl (broadcastInDim S32768 ![] Gen.bcast_S_S32768 (constantI S_ 32 0#32)))
      (addi pl (broadcastInDim S32768 ![] Gen.bcast_S_S32768 (constantI S_ 32 36864#32))) pl)

def grouped (pc : IVec S32768x1 32) (rows : FVec F S32768x1024 .bf16) : FVec F S36864x1024 .bf16 :=
  Host.scatter scatter_S36864x1024_S32768x1_S32768x1024_1_0_0_1 (fun _ b => b)
    (broadcastInDim S36864x1024 ![] Gen.bcast_S_S36864x1024 (constant S_ .bf16 0x0000#16)) pc rows

def fetch (tab : FVec F S36864x512 .f32) (pl : IVec S32768 32) : FVec F S32768x512 .f32 :=
  let idx : IVec S32768 32 :=
    select (cmpi .slt pl (broadcastInDim S32768 ![] Gen.bcast_S_S32768 (constantI S_ 32 0#32)))
      (addi pl (broadcastInDim S32768 ![] Gen.bcast_S_S32768 (constantI S_ 32 36864#32))) pl
  let c : IVec S32768x1 32 := broadcastInDim S32768x1 ![0] Gen.bcast_S32768_S32768x1_0 idx
  let ok : IVec S32768 1 :=
    Host.reduce IntOp.andi
      (andi (cmpi .sge c (broadcastInDim S32768x1 ![] Gen.bcast_S_S32768x1 (constantI S_ 32 0#32)))
            (cmpi .sle c (broadcastInDim S32768x1 ![0, 1] Gen.bcast_S1x1_S32768x1_0_1
                            (broadcastInDim S1x1 ![1] Gen.bcast_S1_S1x1_1 (constantI S1 32 36863#32)))))
      (constantI S_ 1 1#1) Gen.reducesTo_S32768x1_S32768_d1 Gen.h_S_
  select (broadcastInDim S32768x512 ![0] Gen.bcast_S32768_S32768x512_0 ok)
    (Host.gather gather_S36864x512_S32768x1_S32768x512_1_0_n_n_0_1_1512 tab c)
    (broadcastInDim S32768x512 ![] Gen.bcast_S_S32768x512 (constant S_ .f32 0x7FC00000#32))

end Cert.Kernel.Routing

end
-- ==== Proof.Bits.HostRead.lean ====
/-
  The host stretches of the kernel program read back, one stretch at a time.

  Between its three kernel regions the program runs stretches of plain array operations. Each theorem below says what
  one output buffer of one stretch holds after the stretch has run from an ARBITRARY valuation of the buffers: the
  routing function of that stage applied to the contents the stretch found in its input buffers. Nothing is assumed of
  the valuation, so the stretches compose: the valuation one stretch leaves is the valuation the next one starts from.

  Each equation is a computation: the stretch's operations are applied in order, the contents of an outlined function's
  buffers moved to the buffer's own type and back are the contents, and what is left is the routing function's own
  definition. The reductions, the windows, the gathers and the scatter stay folded throughout.
-/
import proofs.«157345_j20959440404665_2_alg».proof.Proof.Gen.Kernel.Regions
import proofs.«157345_j20959440404665_2_alg».proof.Proof.Bits.RoutingDefs
import proofs.«157345_j20959440404665_2_alg».proof.Proof.LibTypedRefs
import proofs.«157345_j20959440404665_2_alg».proof.Proof.LibAfterAppend
import Idealize.ShloMosaic.Lib.StableHlo.Run

noncomputable section

namespace Cert.Kernel.HostRead

open Cert.Kernel Idealize.ShloMosaic Idealize.ShloMosaic.TcCoe Idealize.SL.Sem Idealize.ShloMosaic.StableHlo
open Cert.Kernel.Routing

variable {F : FTy → Type} [FloatOps F]

-- The reductions, windows, gathers and scatters are read as symbols: two sides are compared by their arguments, never by
-- running a fold over thirty-two thousand rows.
attribute [local irreducible] Host.reduceWindow Host.reduce Host.gather Host.scatter

/-! ## Before the first kernel region -/

/-- The activations flattened to one row per token. -/
theorem hostOps0_v0 (X : Valuation τ sig (Elt F)) :
    (StableHlo.after (Gen.hostOps0 (F := F)) X main_v0 : (⟨S32768x512, .f32⟩ : BufTy).Contents (Elt F))
      = shapeCast S32768x512 (X main_arg0) Gen.shapeCasts_S64x512x512_S32768x512 := by
  after_results
  rfl

/-- The labels flattened to one word per token. -/
theorem hostOps0_v1 (X : Valuation τ sig (Elt F)) :
    (StableHlo.after (Gen.hostOps0 (F := F)) X main_v1 : (⟨S32768, .i32⟩ : BufTy).Contents (Elt F))
      = shapeCast S32768 (X main_arg1) Gen.shapeCasts_S64x512_S32768 := by
  after_results
  rfl

/-- The first layer's weights rounded to sixteen bits. -/
theorem hostOps0_v2 (X : Valuation τ sig (Elt F)) :
    (StableHlo.after (Gen.hostOps0 (F := F)) X main_v2 : (⟨S512x1024, .bf16⟩ : BufTy).Contents (Elt F))
      = truncf .bf16 (X main_arg2) Gen.bitsLt_bf16_f32 := by
  after_results

/-- The grouped layer's weights rounded to sixteen bits. -/
theorem hostOps0_v3 (X : Valuation τ sig (Elt F)) :
    (StableHlo.after (Gen.hostOps0 (F := F)) X main_v3 : (⟨S8x1024x512, .bf16⟩ : BufTy).Contents (Elt F))
      = truncf .bf16 (X main_arg3) Gen.bitsLt_bf16_f32 := by
  after_results

/-- The third layer's weights rounded to sixteen bits. -/
theorem hostOps0_v4 (X : Valuation τ sig (Elt F)) :
    (StableHlo.after (Gen.hostOps0 (F := F)) X main_v4 : (⟨S512x512, .bf16⟩ : BufTy).Contents (Elt F))
      = truncf .bf16 (X main_arg4) Gen.bitsLt_bf16_f32 := by
  after_results

/-- The zero word the padding reads. -/
theorem hostOps0_c (X : Valuation τ sig (Elt F)) :
    (StableHlo.after (Gen.hostOps0 (F := F)) X main_c : (⟨S_, .i32⟩ : BufTy).Contents (Elt F))
      = constantI S_ 32 0#32 := by
  after_results

/-- The last layer's column padded with zero columns to 128. -/
theorem hostOps0_1_v5 (X : Valuation τ sig (Elt F)) :
    (StableHlo.after (Gen.hostOps0_1 (F := F)) X main_v5 : (⟨S512x128, .f32⟩ : BufTy).Contents (Elt F))
      = pad S512x128 ![0, 0] ![0, 127] ![0, 0] (X main_arg5) (sitofp .f32 (X main_c))
          Gen.pads_S512x1_S512x128_000_01270 Gen.h_S_ := by
  after_results_simp
  simp only [Cert.Lib.TypedRefs.ofBuf_toBuf]
  rfl

/-- The padded last layer rounded to sixteen bits. -/
theorem hostOps0_2_v6 (X : Valuation τ sig (Elt F)) :
    (StableHlo.after (Gen.hostOps0_2 (F := F)) X main_v6 : (⟨S512x128, .bf16⟩ : BufTy).Contents (Elt F))
      = truncf .bf16 (X main_v5) Gen.bitsLt_bf16_f32 := by
  after_results

/-! ## Between the first and the second kernel region: the routing -/

/-- The 0/1 table of the labels. -/
theorem hostOps1_v14 (X : Valuation τ sig (Elt F)) :
    (StableHlo.after (Gen.hostOps1 (F := F)) X main_v14 : (⟨S32768x8, .i32⟩ : BufTy).Contents (Elt F))
      = oneHot (X main_v1) := by
  after_results
  rfl

/-- Its running column sums. -/
theorem hostOps1_1_v15 (X : Valuation τ sig (Elt F)) :
    (StableHlo.after (Gen.hostOps1_1 (F := F)) X main_v15 : (⟨S32768x8, .i32⟩ : BufTy).Contents (Elt F))
      = runCount (X main_v14) := by
  after_results_simp
  simp only [Cert.Lib.TypedRefs.ofBuf_toBuf]
  rfl

/-- The last row of the running sums: the tokens of each label. -/
theorem hostOps1_2_v17 (X : Valuation τ sig (Elt F)) :
    (StableHlo.after (Gen.hostOps1_2 (F := F)) X main_v17 : (⟨S8, .i32⟩ : BufTy).Contents (Elt F))
      = totals (X main_v15) := by
  after_results
  rfl

/-- The labels as a column. -/
theorem hostOps1_2_v18 (X : Valuation τ sig (Elt F)) :
    (StableHlo.after (Gen.hostOps1_2 (F := F)) X main_v18 : (⟨S32768x1, .i32⟩ : BufTy).Contents (Elt F))
      = labelCol (X main_v1) := by
  after_results
  rfl

/-- For each token the running count in its own label's column. -/
theorem hostOps1_3_v19 (X : Valuation τ sig (Elt F)) :
    (StableHlo.after (Gen.hostOps1_3 (F := F)) X main_v19 : (⟨S32768x1, .i32⟩ : BufTy).Contents (Elt F))
      = pickOwn (X main_v15) (X main_v18) := by
  after_results_simp
  simp only [Cert.Lib.TypedRefs.ofBuf_toBuf]
  rfl

/-- The rank of each token among the tokens of its label. -/
theorem hostOps1_4_v22 (X : Valuation τ sig (Elt F)) :
    (StableHlo.after (Gen.hostOps1_4 (F := F)) X main_v22 : (⟨S32768, .i32⟩ : BufTy).Contents (Elt F))
      = rankOf (X main_v19) := by
  after_results
  rfl

/-- Each label's total plus 511. -/
theorem hostOps1_4_v26 (X : Valuation τ sig (Elt F)) :
    (StableHlo.after (Gen.hostOps1_4 (F := F)) X main_v26 : (⟨S8, .i32⟩ : BufTy).Contents (Elt F))
      = plus511 (X main_v17) := by
  after_results
  rfl

/-- The divisor 512. -/
theorem hostOps1_4_c_3 (X : Valuation τ sig (Elt F)) :
    (StableHlo.after (Gen.hostOps1_4 (F := F)) X main_c_3 : (⟨S_, .i32⟩ : BufTy).Contents (Elt F))
      = constantI S_ 32 512#32 := by
  after_results

/-- The number of tiles of 512 rows each label's group takes. -/
theorem hostOps1_5_v27 (X : Valuation τ sig (Elt F)) :
    (StableHlo.after (Gen.hostOps1_5 (F := F)) X main_v27 : (⟨S8, .i32⟩ : BufTy).Contents (Elt F))
      = floorDiv (X main_v26) (X main_c_3) := by
  after_results_simp
  simp only [Cert.Lib.TypedRefs.ofBuf_toBuf]
  rfl

/-- The padded size of each label's group. -/
theorem hostOps1_6_v29 (X : Valuation τ sig (Elt F)) :
    (StableHlo.after (Gen.hostOps1_6 (F := F)) X main_v29 : (⟨S8, .i32⟩ : BufTy).Contents (Elt F))
      = times512 (X main_v27) := by
  after_results
  rfl

/-- The leading zero of the table of group starts. -/
theorem hostOps1_6_v30 (X : Valuation τ sig (Elt F)) :
    (StableHlo.after (Gen.hostOps1_6 (F := F)) X main_v30 : (⟨S1, .i32⟩ : BufTy).Contents (Elt F))
      = broadcastInDim S1 ![] Gen.bcast_S_S1 (constantI S_ 32 0#32) := by
  after_results

/-- The running sums of the padded sizes. -/
theorem hostOps1_7_v31 (X : Valuation τ sig (Elt F)) :
    (StableHlo.after (Gen.hostOps1_7 (F := F)) X main_v31 : (⟨S8, .i32⟩ : BufTy).Contents (Elt F))
      = prefix8 (X main_v29) := by
  after_results_simp
  simp only [Cert.Lib.TypedRefs.ofBuf_toBuf]
  rfl

/-- The table of group starts: the zero followed by the running sums, cut to eight entries. -/
theorem hostOps1_8_v33 (X : Valuation τ sig (Elt F)) :
    (StableHlo.after (Gen.hostOps1_8 (F := F)) X main_v33 : (⟨S8, .i32⟩ : BufTy).Contents (Elt F))
      = extractStridedSlice S8 ![0]
          (concatenate S9 0 [⟨S1, X main_v30⟩, ⟨S8, X main_v31⟩] Gen.concatenates_S1_S8_S9_d0) Gen.slices_S9_S8_0 := by
  after_results

/-- With the leading zero and the running sums of the two stretches before: the exclusive prefix sums. -/
theorem hostOps1_8_v33_starts (X : Valuation τ sig (Elt F)) (s : IVec S8 32)
    (h30 : (X main_v30 : (⟨S1, .i32⟩ : BufTy).Contents (Elt F)) = broadcastInDim S1 ![] Gen.bcast_S_S1 (constantI S_ 32 0#32))
    (h31 : (X main_v31 : (⟨S8, .i32⟩ : BufTy).Contents (Elt F)) = prefix8 s) :
    (StableHlo.after (Gen.hostOps1_8 (F := F)) X main_v33 : (⟨S8, .i32⟩ : BufTy).Contents (Elt F)) = starts s := by
  rw [hostOps1_8_v33, h30, h31]
  rfl

/-- Each token's group start. -/
theorem hostOps1_9_v34 (X : Valuation τ sig (Elt F)) :
    (StableHlo.after (Gen.hostOps1_9 (F := F)) X main_v34 : (⟨S32768, .i32⟩ : BufTy).Contents (Elt F))
      = startOf (X main_v33) (X main_v1) := by
  after_results_simp
  simp only [Cert.Lib.TypedRefs.ofBuf_toBuf]
  rfl

/-- Each token's row in the grouped array: its group's start plus its rank. -/
theorem hostOps1_10_v35 (X : Valuation τ sig (Elt F)) :
    (StableHlo.after (Gen.hostOps1_10 (F := F)) X main_v35 : (⟨S32768, .i32⟩ : BufTy).Contents (Elt F))
      = place (X main_v34) (X main_v22) := by
  after_results
  rfl

/-- The divisor 512. -/
theorem hostOps1_10_c_6 (X : Valuation τ sig (Elt F)) :
    (StableHlo.after (Gen.hostOps1_10 (F := F)) X main_c_6 : (⟨S_, .i32⟩ : BufTy).Contents (Elt F))
      = constantI S_ 32 512#32 := by
  after_results

/-- The first tile of each label's group. -/
theorem hostOps1_11_v36 (X : Valuation τ sig (Elt F)) :
    (StableHlo.after (Gen.hostOps1_11 (F := F)) X main_v36 : (⟨S8, .i32⟩ : BufTy).Contents (Elt F))
      = floorDiv (X main_v33) (X main_c_6) := by
  after_results_simp
  simp only [Cert.Lib.TypedRefs.ofBuf_toBuf]
  rfl

/-- The label of each of the 72 tiles. -/
theorem hostOps1_12_v46 (X : Valuation τ sig (Elt F)) :
    (StableHlo.after (Gen.hostOps1_12 (F := F)) X main_v46 : (⟨S72, .i32⟩ : BufTy).Contents (Elt F))
      = tileLabel (X main_v36) := by
  after_results
  rfl

/-- The places as a column of row indices. -/
theorem hostOps1_12_v53 (X : Valuation τ sig (Elt F)) :
    (StableHlo.after (Gen.hostOps1_12 (F := F)) X main_v53 : (⟨S32768x1, .i32⟩ : BufTy).Contents (Elt F))
      = placeCol (X main_v35) := by
  after_results
  rfl

/-- The first layer's rows scattered to their places over a zero array. -/
theorem hostOps1_12_v54 (X : Valuation τ sig (Elt F)) :
    (StableHlo.after (Gen.hostOps1_12 (F := F)) X main_v54 : (⟨S36864x1024, .bf16⟩ : BufTy).Contents (Elt F))
      = grouped (placeCol (X main_v35)) (X main_v7) := by
  after_results_simp
  rfl

/-! ## Between the second and the third kernel region -/

/-- The grouped layer's rows fetched back at the tokens' places. -/
theorem hostOps2_v56 (X : Valuation τ sig (Elt F)) :
    (StableHlo.after (Gen.hostOps2 (F := F)) X main_v56 : (⟨S32768x512, .f32⟩ : BufTy).Contents (Elt F))
      = fetch (X main_v55) (X main_v35) := by
  after_results_simp
  simp only [Cert.Lib.TypedRefs.ofBuf_toBuf]
  rfl

/-! ## After the third kernel region -/

/-- The first column of the last layer's padded output. -/
theorem hostOps3_v58 (X : Valuation τ sig (Elt F)) :
    (StableHlo.after (Gen.hostOps3 (F := F)) X main_v58 : (⟨S32768x1, .f32⟩ : BufTy).Contents (Elt F))
      = extractStridedSlice S32768x1 ![0, 0] (X main_v57) Gen.slices_S32768x128_S32768x1_0_0 := by
  after_results

end Cert.Kernel.HostRead

end
-- ==== Proof.Bits.RoutingChain.lean ====
/-
  The routing stages composed: every stage as a function of the flat label array alone, and the labels as numbers.

  When every label word, read as a natural number, is below 8, token n carries the label lab n : Fin 8. The stages
  below are the program's integer pipeline from the labels to each token's place in the grouped array and to each
  tile's label.
-/
import proofs.«157345_j20959440404665_2_alg».proof.Proof.Bits.RoutingDefs
import Idealize.ShloMosaic.Lib.ValueIdx

noncomputable section

namespace Cert.Kernel.Routing

open Cert.Kernel Idealize.ShloMosaic Idealize.ShloMosaic.ValueIdx

/-- Every label word is a number below 8. -/
def InRange (t1 : IVec S32768 32) : Prop := ∀ n : Fin 32768, (t1 (ValueIdx.ix1 n)).toNat < 8

/-- The label of token n as a number. -/
def lab (t1 : IVec S32768 32) (h : InRange t1) (n : Fin 32768) : Fin 8 := ⟨(t1 (ValueIdx.ix1 n)).toNat, h n⟩

/-- The scalar word 512 the two floor divisions divide by. -/
abbrev w512 : IVec S_ 32 := constantI S_ 32 512#32

/-- Running counts per label. -/
abbrev cumT (t1 : IVec S32768 32) : IVec S32768x8 32 := runCount (oneHot t1)
/-- Totals per label. -/
abbrev totT (t1 : IVec S32768 32) : IVec S8 32 := totals (cumT t1)
/-- Each token's rank among the tokens of its label. -/
abbrev rankT (t1 : IVec S32768 32) : IVec S32768 32 := rankOf (pickOwn (cumT t1) (labelCol t1))
/-- Each label's group size, padded to a multiple of 512. -/
abbrev sizeT (t1 : IVec S32768 32) : IVec S8 32 := times512 (floorDiv (plus511 (totT t1)) w512)
/-- Where each label's group starts. -/
abbrev startT (t1 : IVec S32768 32) : IVec S8 32 := starts (sizeT t1)
/-- Each token's row in the grouped array. -/
abbrev placeT (t1 : IVec S32768 32) : IVec S32768 32 := place (startOf (startT t1) t1) (rankT t1)
/-- The first tile of each label's group. -/
abbrev tileStartT (t1 : IVec S32768 32) : IVec S8 32 := floorDiv (startT t1) w512
/-- Each tile's label: the table the second kernel's weight window reads. -/
abbrev tileT (t1 : IVec S32768 32) : IVec S72 32 := tileLabel (tileStartT t1)

end Cert.Kernel.Routing

end
-- ==== Proof.Bits.KernelChain.lean ====
/-
  The host program's buffers as functions of the launch contents, stage by stage.

  Between the three kernel regions the program's host stretches compute each buffer from earlier ones; a stretch leaves
  every buffer it does not write as it found it. Chaining the stretches: the label column's whole integer pipeline
  (running counts, ranks, padded sizes, group starts, places, tile labels) is a function of the flattened label array
  alone; the grouped array is the first region's output scattered to the places; the second region's output is fetched
  back at the places; the result is the first column of the third region's output.
-/
import proofs.«157345_j20959440404665_2_alg».proof.Proof.Bits.HostRead
import proofs.«157345_j20959440404665_2_alg».proof.Proof.Bits.RoutingChain

set_option maxRecDepth 4096

noncomputable section

namespace Cert.Kernel.Chain

open Cert.Kernel Idealize.ShloMosaic Idealize.ShloMosaic.TcCoe Idealize.SL.Sem Idealize.ShloMosaic.StableHlo
open Cert.Kernel.Routing

variable {F : FTy → Type} [FloatOps F]
variable (m : (ℓ : Loc nD τ sig) → Buf (Elt F) ℓ) (outs : Gen.Outs (F := F)) (c : Dev nD)

/-- The label array flattened to one word per token. -/
def flat : IVec S32768 32 := shapeCast S32768 (Gen.V0 m c main_arg1) Gen.shapeCasts_S64x512_S32768

/-! ## Buffers a run of stretches leaves alone -/

theorem v1_at4 : (Gen.V4 m outs c main_v1 : (⟨S32768, .i32⟩ : BufTy).Contents (Elt F)) = Gen.V1 m c main_v1 := by
  rw [Gen.V4_of m outs c _ (by decide),
    Gen.V3_of m c _ (by decide),
    Gen.V2_of m c _ (by decide)]

theorem v1_at6 : (Gen.V6 m outs c main_v1 : (⟨S32768, .i32⟩ : BufTy).Contents (Elt F)) = Gen.V1 m c main_v1 := by
  rw [Gen.V6_of m outs c _ (by decide),
    Gen.V5_of m outs c _ (by decide),
    Gen.V4_of m outs c _ (by decide),
    Gen.V3_of m c _ (by decide),
    Gen.V2_of m c _ (by decide)]

theorem v1_at13 : (Gen.V13 m outs c main_v1 : (⟨S32768, .i32⟩ : BufTy).Contents (Elt F)) = Gen.V1 m c main_v1 := by
  rw [Gen.V13_of m outs c _ (by decide),
    Gen.V12_of m outs c _ (by decide),
    Gen.V11_of m outs c _ (by decide),
    Gen.V10_of m outs c _ (by decide),
    Gen.V9_of m outs c _ (by decide),
    Gen.V8_of m outs c _ (by decide),
    Gen.V7_of m outs c _ (by decide),
    Gen.V6_of m outs c _ (by decide),
    Gen.V5_of m outs c _ (by decide),
    Gen.V4_of m outs c _ (by decide),
    Gen.V3_of m c _ (by decide),
    Gen.V2_of m c _ (by decide)]

theorem v0_at3 : (Gen.V3 m c main_v0 : (⟨S32768x512, .f32⟩ : BufTy).Contents (Elt F)) = Gen.V1 m c main_v0 := by
  rw [Gen.V3_of m c _ (by decide),
    Gen.V2_of m c _ (by decide)]

theorem v0_at19 : (Gen.V19 m outs c main_v0 : (⟨S32768x512, .f32⟩ : BufTy).Contents (Elt F)) = Gen.V1 m c main_v0 := by
  rw [Gen.V19_of m outs c _ (by decide),
    Gen.V18_of m outs c _ (by decide),
    Gen.V17_of m outs c _ (by decide),
    Gen.V16_of m outs c _ (by decide),
    Gen.V15_of m outs c _ (by decide),
    Gen.V14_of m outs c _ (by decide),
    Gen.V13_of m outs c _ (by decide),
    Gen.V12_of m outs c _ (by decide),
    Gen.V11_of m outs c _ (by decide),
    Gen.V10_of m outs c _ (by decide),
    Gen.V9_of m outs c _ (by decide),
    Gen.V8_of m outs c _ (by decide),
    Gen.V7_of m outs c _ (by decide),
    Gen.V6_of m outs c _ (by decide),
    Gen.V5_of m outs c _ (by decide),
    Gen.V4_of m outs c _ (by decide),
    Gen.V3_of m c _ (by decide),
    Gen.V2_of m c _ (by decide)]

theorem v2_at3 : (Gen.V3 m c main_v2 : (⟨S512x1024, .bf16⟩ : BufTy).Contents (Elt F)) = Gen.V1 m c main_v2 := by
  rw [Gen.V3_of m c _ (by decide),
    Gen.V2_of m c _ (by decide)]

theorem v3_at17 : (Gen.V17 m outs c main_v3 : (⟨S8x1024x512, .bf16⟩ : BufTy).Contents (Elt F)) = Gen.V1 m c main_v3 := by
  rw [Gen.V17_of m outs c _ (by decide),
    Gen.V16_of m outs c _ (by decide),
    Gen.V15_of m outs c _ (by decide),
    Gen.V14_of m outs c _ (by decide),
    Gen.V13_of m outs c _ (by decide),
    Gen.V12_of m outs c _ (by decide),
    Gen.V11_of m outs c _ (by decide),
    Gen.V10_of m outs c _ (by decide),
    Gen.V9_of m outs c _ (by decide),
    Gen.V8_of m outs c _ (by decide),
    Gen.V7_of m outs c _ (by decide),
    Gen.V6_of m outs c _ (by decide),
    Gen.V5_of m outs c _ (by decide),
    Gen.V4_of m outs c _ (by decide),
    Gen.V3_of m c _ (by decide),
    Gen.V2_of m c _ (by decide)]

theorem v4_at19 : (Gen.V19 m outs c main_v4 : (⟨S512x512, .bf16⟩ : BufTy).Contents (Elt F)) = Gen.V1 m c main_v4 := by
  rw [Gen.V19_of m outs c _ (by decide),
    Gen.V18_of m outs c _ (by decide),
    Gen.V17_of m outs c _ (by decide),
    Gen.V16_of m outs c _ (by decide),
    Gen.V15_of m outs c _ (by decide),
    Gen.V14_of m outs c _ (by decide),
    Gen.V13_of m outs c _ (by decide),
    Gen.V12_of m outs c _ (by decide),
    Gen.V11_of m outs c _ (by decide),
    Gen.V10_of m outs c _ (by decide),
    Gen.V9_of m outs c _ (by decide),
    Gen.V8_of m outs c _ (by decide),
    Gen.V7_of m outs c _ (by decide),
    Gen.V6_of m outs c _ (by decide),
    Gen.V5_of m outs c _ (by decide),
    Gen.V4_of m outs c _ (by decide),
    Gen.V3_of m c _ (by decide),
    Gen.V2_of m c _ (by decide)]

theorem v6_at19 : (Gen.V19 m outs c main_v6 : (⟨S512x128, .bf16⟩ : BufTy).Contents (Elt F)) = Gen.V3 m c main_v6 := by
  rw [Gen.V19_of m outs c _ (by decide),
    Gen.V18_of m outs c _ (by decide),
    Gen.V17_of m outs c _ (by decide),
    Gen.V16_of m outs c _ (by decide),
    Gen.V15_of m outs c _ (by decide),
    Gen.V14_of m outs c _ (by decide),
    Gen.V13_of m outs c _ (by decide),
    Gen.V12_of m outs c _ (by decide),
    Gen.V11_of m outs c _ (by decide),
    Gen.V10_of m outs c _ (by decide),
    Gen.V9_of m outs c _ (by decide),
    Gen.V8_of m outs c _ (by decide),
    Gen.V7_of m outs c _ (by decide),
    Gen.V6_of m outs c _ (by decide),
    Gen.V5_of m outs c _ (by decide),
    Gen.V4_of m outs c _ (by decide)]

theorem v15_at7 : (Gen.V7 m outs c main_v15 : (⟨S32768x8, .i32⟩ : BufTy).Contents (Elt F)) = Gen.V6 m outs c main_v15 := by
  rw [Gen.V7_of m outs c _ (by decide)]

theorem v17_at8 : (Gen.V8 m outs c main_v17 : (⟨S8, .i32⟩ : BufTy).Contents (Elt F)) = Gen.V7 m outs c main_v17 := by
  rw [Gen.V8_of m outs c _ (by decide)]

theorem v22_at14 : (Gen.V14 m outs c main_v22 : (⟨S32768, .i32⟩ : BufTy).Contents (Elt F)) = Gen.V9 m outs c main_v22 := by
  rw [Gen.V14_of m outs c _ (by decide),
    Gen.V13_of m outs c _ (by decide),
    Gen.V12_of m outs c _ (by decide),
    Gen.V11_of m outs c _ (by decide),
    Gen.V10_of m outs c _ (by decide)]

theorem v30_at12 : (Gen.V12 m outs c main_v30 : (⟨S1, .i32⟩ : BufTy).Contents (Elt F)) = Gen.V11 m outs c main_v30 := by
  rw [Gen.V12_of m outs c _ (by decide)]

theorem v33_at15 : (Gen.V15 m outs c main_v33 : (⟨S8, .i32⟩ : BufTy).Contents (Elt F)) = Gen.V13 m outs c main_v33 := by
  rw [Gen.V15_of m outs c _ (by decide),
    Gen.V14_of m outs c _ (by decide)]

theorem v35_at16 : (Gen.V16 m outs c main_v35 : (⟨S32768, .i32⟩ : BufTy).Contents (Elt F)) = Gen.V15 m outs c main_v35 := by
  rw [Gen.V16_of m outs c _ (by decide)]

theorem v35_at18 : (Gen.V18 m outs c main_v35 : (⟨S32768, .i32⟩ : BufTy).Contents (Elt F)) = Gen.V15 m outs c main_v35 := by
  rw [Gen.V18_of m outs c _ (by decide),
    Gen.V17_of m outs c _ (by decide),
    Gen.V16_of m outs c _ (by decide)]

theorem v7_at16 : (Gen.V16 m outs c main_v7 : (⟨S32768x1024, .bf16⟩ : BufTy).Contents (Elt F)) = Gen.V4 m outs c main_v7 := by
  rw [Gen.V16_of m outs c _ (by decide),
    Gen.V15_of m outs c _ (by decide),
    Gen.V14_of m outs c _ (by decide),
    Gen.V13_of m outs c _ (by decide),
    Gen.V12_of m outs c _ (by decide),
    Gen.V11_of m outs c _ (by decide),
    Gen.V10_of m outs c _ (by decide),
    Gen.V9_of m outs c _ (by decide),
    Gen.V8_of m outs c _ (by decide),
    Gen.V7_of m outs c _ (by decide),
    Gen.V6_of m outs c _ (by decide),
    Gen.V5_of m outs c _ (by decide)]

/-! ## The stages -/

theorem v1_eq : (Gen.V1 m c main_v1 : (⟨S32768, .i32⟩ : BufTy).Contents (Elt F)) = flat m c := HostRead.hostOps0_v1 (Gen.V0 m c)

theorem v14_eq : (Gen.V5 m outs c main_v14 : (⟨S32768x8, .i32⟩ : BufTy).Contents (Elt F)) = oneHot (flat m c) :=
  (HostRead.hostOps1_v14 (Gen.V4 m outs c)).trans (congrArg oneHot ((v1_at4 m outs c).trans (v1_eq m c)))

theorem v15_eq : (Gen.V6 m outs c main_v15 : (⟨S32768x8, .i32⟩ : BufTy).Contents (Elt F)) = cumT (flat m c) :=
  (HostRead.hostOps1_1_v15 (Gen.V5 m outs c)).trans (congrArg runCount (v14_eq m outs c))

theorem v17_eq : (Gen.V7 m outs c main_v17 : (⟨S8, .i32⟩ : BufTy).Contents (Elt F)) = totT (flat m c) :=
  (HostRead.hostOps1_2_v17 (Gen.V6 m outs c)).trans (congrArg totals (v15_eq m outs c))

theorem v18_eq : (Gen.V7 m outs c main_v18 : (⟨S32768x1, .i32⟩ : BufTy).Contents (Elt F)) = labelCol (flat m c) :=
  (HostRead.hostOps1_2_v18 (Gen.V6 m outs c)).trans (congrArg labelCol ((v1_at6 m outs c).trans (v1_eq m c)))

theorem v19_eq : (Gen.V8 m outs c main_v19 : (⟨S32768x1, .i32⟩ : BufTy).Contents (Elt F)) = pickOwn (cumT (flat m c)) (labelCol (flat m c)) :=
  (HostRead.hostOps1_3_v19 (Gen.V7 m outs c)).trans
    (congrArg₂ pickOwn ((v15_at7 m outs c).trans (v15_eq m outs c)) (v18_eq m outs c))

theorem v22_eq : (Gen.V9 m outs c main_v22 : (⟨S32768, .i32⟩ : BufTy).Contents (Elt F)) = rankT (flat m c) :=
  (HostRead.hostOps1_4_v22 (Gen.V8 m outs c)).trans (congrArg rankOf (v19_eq m outs c))

theorem v26_eq : (Gen.V9 m outs c main_v26 : (⟨S8, .i32⟩ : BufTy).Contents (Elt F)) = plus511 (totT (flat m c)) :=
  (HostRead.hostOps1_4_v26 (Gen.V8 m outs c)).trans (congrArg plus511 ((v17_at8 m outs c).trans (v17_eq m outs c)))

theorem c3_eq : (Gen.V9 m outs c main_c_3 : (⟨S_, .i32⟩ : BufTy).Contents (Elt F)) = w512 := HostRead.hostOps1_4_c_3 (Gen.V8 m outs c)

theorem v27_eq : (Gen.V10 m outs c main_v27 : (⟨S8, .i32⟩ : BufTy).Contents (Elt F)) = floorDiv (plus511 (totT (flat m c))) w512 :=
  (HostRead.hostOps1_5_v27 (Gen.V9 m outs c)).trans (congrArg₂ floorDiv (v26_eq m outs c) (c3_eq m outs c))

theorem v29_eq : (Gen.V11 m outs c main_v29 : (⟨S8, .i32⟩ : BufTy).Contents (Elt F)) = sizeT (flat m c) :=
  (HostRead.hostOps1_6_v29 (Gen.V10 m outs c)).trans (congrArg times512 (v27_eq m outs c))

theorem v30_eq : (Gen.V11 m outs c main_v30 : (⟨S1, .i32⟩ : BufTy).Contents (Elt F)) = broadcastInDim S1 ![] Gen.bcast_S_S1 (constantI S_ 32 0#32) :=
  HostRead.hostOps1_6_v30 (Gen.V10 m outs c)

theorem v31_eq : (Gen.V12 m outs c main_v31 : (⟨S8, .i32⟩ : BufTy).Contents (Elt F)) = prefix8 (sizeT (flat m c)) :=
  (HostRead.hostOps1_7_v31 (Gen.V11 m outs c)).trans (congrArg prefix8 (v29_eq m outs c))

theorem v33_eq : (Gen.V13 m outs c main_v33 : (⟨S8, .i32⟩ : BufTy).Contents (Elt F)) = startT (flat m c) :=
  HostRead.hostOps1_8_v33_starts (Gen.V12 m outs c) (sizeT (flat m c)) ((v30_at12 m outs c).trans (v30_eq m outs c)) (v31_eq m outs c)

theorem v34_eq : (Gen.V14 m outs c main_v34 : (⟨S32768, .i32⟩ : BufTy).Contents (Elt F)) = startOf (startT (flat m c)) (flat m c) :=
  (HostRead.hostOps1_9_v34 (Gen.V13 m outs c)).trans
    (congrArg₂ startOf (v33_eq m outs c) ((v1_at13 m outs c).trans (v1_eq m c)))

theorem v35_eq : (Gen.V15 m outs c main_v35 : (⟨S32768, .i32⟩ : BufTy).Contents (Elt F)) = placeT (flat m c) :=
  (HostRead.hostOps1_10_v35 (Gen.V14 m outs c)).trans
    (congrArg₂ place (v34_eq m outs c) ((v22_at14 m outs c).trans (v22_eq m outs c)))

theorem c6_eq : (Gen.V15 m outs c main_c_6 : (⟨S_, .i32⟩ : BufTy).Contents (Elt F)) = w512 := HostRead.hostOps1_10_c_6 (Gen.V14 m outs c)

theorem v36_eq : (Gen.V16 m outs c main_v36 : (⟨S8, .i32⟩ : BufTy).Contents (Elt F)) = tileStartT (flat m c) :=
  (HostRead.hostOps1_11_v36 (Gen.V15 m outs c)).trans
    (congrArg₂ floorDiv ((v33_at15 m outs c).trans (v33_eq m outs c)) (c6_eq m outs c))

/-- The table the second region's weight window reads: each tile's label, whatever the regions leave behind. -/
theorem v46_eq : (Gen.V17 m outs c main_v46 : (⟨S72, .i32⟩ : BufTy).Contents (Elt F)) = tileT (flat m c) :=
  (HostRead.hostOps1_12_v46 (Gen.V16 m outs c)).trans (congrArg tileLabel (v36_eq m outs c))

/-- What the first region leaves is what the scatter reads. -/
theorem v7_eq : (Gen.V4 m outs c main_v7 : (⟨S32768x1024, .bf16⟩ : BufTy).Contents (Elt F)) = outs 4 main_v7 c := by
  show Function.update (Gen.V3 m c) _ _ _ = _
  exact Function.update_self ..

theorem v54_eq : (Gen.V17 m outs c main_v54 : (⟨S36864x1024, .bf16⟩ : BufTy).Contents (Elt F))
    = grouped (placeCol (placeT (flat m c))) (outs 4 main_v7 c) :=
  (HostRead.hostOps1_12_v54 (Gen.V16 m outs c)).trans
    (congrArg₂ (fun p r => grouped (placeCol p) r) ((v35_at16 m outs c).trans (v35_eq m outs c))
      ((v7_at16 m outs c).trans (v7_eq m outs c)))

theorem v55_eq : (Gen.V18 m outs c main_v55 : (⟨S36864x512, .f32⟩ : BufTy).Contents (Elt F)) = outs 18 main_v55 c := by
  show Function.update (Gen.V17 m outs c) _ _ _ = _
  exact Function.update_self ..

theorem v56_eq : (Gen.V19 m outs c main_v56 : (⟨S32768x512, .f32⟩ : BufTy).Contents (Elt F)) = fetch (outs 18 main_v55 c) (placeT (flat m c)) :=
  (HostRead.hostOps2_v56 (Gen.V18 m outs c)).trans
    (congrArg₂ fetch (v55_eq m outs c) ((v35_at18 m outs c).trans (v35_eq m outs c)))

theorem v57_eq : (Gen.V20 m outs c main_v57 : (⟨S32768x128, .f32⟩ : BufTy).Contents (Elt F)) = outs 20 main_v57 c := by
  show Function.update (Gen.V19 m outs c) _ _ _ = _
  exact Function.update_self ..

theorem v58_eq : (Gen.V21 m outs c main_v58 : (⟨S32768x1, .f32⟩ : BufTy).Contents (Elt F))
    = extractStridedSlice S32768x1 ![0, 0] (outs 20 main_v57 c) Gen.slices_S32768x128_S32768x1_0_0 :=
  (HostRead.hostOps3_v58 (Gen.V20 m outs c)).trans
    (congrArg (fun z => extractStridedSlice S32768x1 ![0, 0] z Gen.slices_S32768x128_S32768x1_0_0) (v57_eq m outs c))

/-! ## The float inputs of the regions -/

theorem v0_eq : (Gen.V1 m c main_v0 : (⟨S32768x512, .f32⟩ : BufTy).Contents (Elt F)) = shapeCast S32768x512 (Gen.V0 m c main_arg0) Gen.shapeCasts_S64x512x512_S32768x512 :=
  HostRead.hostOps0_v0 (Gen.V0 m c)
theorem v2_eq : (Gen.V1 m c main_v2 : (⟨S512x1024, .bf16⟩ : BufTy).Contents (Elt F)) = truncf .bf16 (Gen.V0 m c main_arg2) Gen.bitsLt_bf16_f32 :=
  HostRead.hostOps0_v2 (Gen.V0 m c)
theorem v3_eq : (Gen.V1 m c main_v3 : (⟨S8x1024x512, .bf16⟩ : BufTy).Contents (Elt F)) = truncf .bf16 (Gen.V0 m c main_arg3) Gen.bitsLt_bf16_f32 :=
  HostRead.hostOps0_v3 (Gen.V0 m c)
theorem v4_eq : (Gen.V1 m c main_v4 : (⟨S512x512, .bf16⟩ : BufTy).Contents (Elt F)) = truncf .bf16 (Gen.V0 m c main_arg4) Gen.bitsLt_bf16_f32 :=
  HostRead.hostOps0_v4 (Gen.V0 m c)

end Cert.Kernel.Chain

end
-- ==== Proof.Bits.RoutingCounts.lean ====
/-
  The counting half of the routing facts: the program's integer stages, read as numbers.

  When every label word is a number below 8, the one-hot table holds 1 exactly where a token's label is the column; its
  running column sums count the tokens of each label up to each token; the last row counts all of them; the guarded pick
  along each row reads the running count in the token's own column; and that count less one is the token's rank among the
  tokens of its label. The counts are the running count, the total and the rank of the counting-sort layout
  (LibGroupedPositions) at 32768 items and 8 labels. None of the words wraps: every one stays at most 32768.
-/
import proofs.«157345_j20959440404665_2_alg».proof.Proof.Bits.RoutingChain
import proofs.«157345_j20959440404665_2_alg».proof.Proof.LibGroupedPositions
import proofs.«157345_j20959440404665_2_alg».proof.Proof.LibPrefixSum
import proofs.«157345_j20959440404665_2_alg».proof.Proof.LibPickColumn
import proofs.«157345_j20959440404665_2_alg».proof.Proof.LibSmallWords
import Idealize.ShloMosaic.Lib.Pipeline.Value
import Idealize.ShloMosaic.Lib.ValueLayout

noncomputable section

namespace Cert.Kernel.Routing

open Cert.Kernel Idealize.ShloMosaic Idealize.ShloMosaic.ValueIdx

variable (t1 : IVec S32768 32)

/-! ## Reading the broadcasts -/

/-- The label column at row n is the n-th label word. -/
theorem labelCol_apply (n : Fin 32768) (c : Fin 1) : labelCol t1 (ix2 n c) = t1 (ValueIdx.ix1 n) :=
  broadcastInDim_apply _ _ t1 (ix2 n c) (ValueIdx.ix1 n) (fun a => match a with | ⟨0, _⟩ => rfl)

/-- The one-hot table at (n, k): the comparison of the n-th label word with the word k, widened. -/
theorem oneHot_apply (n : Fin 32768) (k : Fin 8) :
    oneHot t1 (ix2 n k) = (IntOp.cmpi .eq (t1 (ValueIdx.ix1 n)) (BitVec.ofNat 32 k.val)).setWidth 32 := by
  have hA : broadcastInDim S32768x8 ![0, 1] Gen.bcast_S32768x1_S32768x8_0_1
      (broadcastInDim S32768x1 ![0] Gen.bcast_S32768_S32768x1_0 t1) (ix2 n k) = t1 (ValueIdx.ix1 n) :=
    (broadcastInDim_apply _ _ _ (ix2 n k) (ix2 n (0 : Fin 1)) (fun a => match a with | ⟨0, _⟩ => rfl | ⟨1, _⟩ => rfl)).trans
      (labelCol_apply t1 n 0)
  show (IntOp.cmpi .eq (broadcastInDim S32768x8 ![0, 1] Gen.bcast_S32768x1_S32768x8_0_1
      (broadcastInDim S32768x1 ![0] Gen.bcast_S32768_S32768x1_0 t1) (ix2 n k)) (BitVec.ofNat 32 k.val)).setWidth 32 = _
  rw [hA]

/-- Token n carries label k exactly when its label word is the word k. -/
theorem lab_eq_iff (h : InRange t1) (n : Fin 32768) (k : Fin 8) : lab t1 h n = k ↔ t1 (ValueIdx.ix1 n) = BitVec.ofNat 32 k.val := by
  have hk := k.isLt
  constructor
  · intro e
    have : (t1 (ValueIdx.ix1 n)).toNat = k.val := congrArg Fin.val e
    apply BitVec.eq_of_toNat_eq
    rw [this, BitVec.toNat_ofNat, Nat.mod_eq_of_lt (by omega)]
  · intro e
    refine Fin.ext ?_
    show (t1 (ValueIdx.ix1 n)).toNat = k.val
    rw [e, BitVec.toNat_ofNat, Nat.mod_eq_of_lt (by omega)]

/-- The one-hot table holds 1 where the token's label is the column and 0 elsewhere. -/
theorem oneHot_at (h : InRange t1) (n : Fin 32768) (k : Fin 8) : oneHot t1 (ix2 n k) = if lab t1 h n = k then 1#32 else 0#32 := by
  rw [oneHot_apply]
  by_cases e : lab t1 h n = k
  · rw [if_pos e, IntOp.cmpi_eq.2 ((lab_eq_iff t1 h n k).1 e)]; rfl
  · rw [if_neg e, eq_zero_of_ne_one (fun hc => e ((lab_eq_iff t1 h n k).2 (IntOp.cmpi_eq.1 hc)))]; rfl

/-! ## The running counts and the totals -/

/-- Every entry of the one-hot table is 0 or 1. -/
theorem oneHot_zero_or_one (h : InRange t1) (idx : S32768x8.Idx) : oneHot t1 idx = 0#32 ∨ oneHot t1 idx = 1#32 := by
  obtain ⟨n, k, rfl⟩ : ∃ (n : Fin 32768) (k : Fin 8), idx = ix2 n k := ⟨idx 0, idx 1, eq_ix2 idx⟩
  rw [oneHot_at t1 h]
  split
  · exact Or.inr rfl
  · exact Or.inl rfl

/-- The one-hot table holds 1 at (n, k) exactly when token n carries label k. -/
theorem oneHot_eq_one_iff (h : InRange t1) (n : Fin 32768) (k : Fin 8) : oneHot t1 (ix2 n k) = 1#32 ↔ lab t1 h n = k := by
  rw [oneHot_at t1 h]
  constructor
  · intro e
    by_contra hne
    rw [if_neg hne] at e
    exact absurd e (by decide)
  · intro e
    rw [if_pos e]

/-- The running count at (n, k), read as a number, is the number of tokens up to n that carry label k. -/
theorem cumT_toNat (h : InRange t1) (n : Fin 32768) (k : Fin 8) :
    (cumT t1 (ix2 n k)).toNat = Cert.Lib.GroupedPositions.cum (lab t1 h) n k := by
  have hc := Cert.Lib.PrefixSum.cumsum2_lo_count (n := 32768) (k := 8) (m := 32767) rfl (oneHot t1)
    (broadcastInDim S_ ![] Gen.bcast_S_S_ (constantI S_ 32 0#32))
    Gen.reduceWindows_S32768x8_S32768x8_w32768s1p32767_0_w1s1p0_0 Gen.h_S_ rfl (oneHot_zero_or_one t1 h) (by norm_num) n k
  refine hc.trans ?_
  unfold Cert.Lib.GroupedPositions.cum
  refine congrArg Finset.card (Finset.ext fun i' => ?_)
  simp only [Finset.mem_filter, Finset.mem_univ, true_and]
  rw [oneHot_eq_one_iff t1 h]
  exact Iff.rfl

/-- A running count is at most the number of tokens. -/
theorem cumT_le (h : InRange t1) (n : Fin 32768) (k : Fin 8) : (cumT t1 (ix2 n k)).toNat ≤ 32768 := by
  rw [cumT_toNat t1 h]
  exact Cert.Lib.PrefixSum.card_filter_fin_le _

/-- The running count at the last item counts every item of the label. -/
theorem cum_last {N K : ℕ} (lab : Fin (N + 1) → Fin K) (k : Fin K) :
    Cert.Lib.GroupedPositions.cum lab (Fin.last N) k = Cert.Lib.GroupedPositions.cnt lab k := by
  unfold Cert.Lib.GroupedPositions.cum Cert.Lib.GroupedPositions.cnt
  refine congrArg Finset.card (Finset.ext fun n' => ?_)
  simp only [Finset.mem_filter, Finset.mem_univ, true_and]
  exact ⟨fun e => e.2, fun e => ⟨Fin.le_last n', e⟩⟩

/-- The totals are the last row of the running counts. -/
theorem totT_apply (k : Fin 8) : totT t1 (ValueIdx.ix1 k) = cumT t1 (ix2 (Fin.last 32767) k) := by
  show shapeCast S8 (extractStridedSlice S1x8 ![32767, 0] (cumT t1) Gen.slices_S32768x8_S1x8_32767_0) Gen.shapeCasts_S1x8_S8
    (ValueIdx.ix1 k) = _
  rw [shapeCast_apply _ _ (ValueIdx.ix1 k) (ix2 (0 : Fin 1) k) (by
    rw [Shape.rowMajor_val_two, Shape.rowMajor_val_one]
    show 0 * 8 + k.val = k.val
    omega)]
  exact extractStridedSlice_apply _ _ _ _ (ix2 (Fin.last 32767) k) (fun a => match a with
    | ⟨0, _⟩ => rfl
    | ⟨1, _⟩ => by show k.val = 0 + k.val; omega)

/-- The total for label k, read as a number, is the number of tokens that carry label k. -/
theorem totT_toNat (h : InRange t1) (k : Fin 8) : (totT t1 (ValueIdx.ix1 k)).toNat = Cert.Lib.GroupedPositions.cnt (lab t1 h) k := by
  rw [totT_apply, cumT_toNat t1 h]
  exact cum_last (lab t1 h) k

/-- A total is at most the number of tokens. -/
theorem totT_le (h : InRange t1) (k : Fin 8) : (totT t1 (ValueIdx.ix1 k)).toNat ≤ 32768 := by
  rw [totT_apply]
  exact cumT_le t1 h _ k

/-! ## The pick of a token's own count

The pick's three intermediate arrays, named: the index column (a negative word moved up by 8), the same as an
[N, 1, 1] array, and the guard (every index component inside [0, 7]). -/

/-- The index column the pick reads. -/
def ownIdx (c : IVec S32768x1 32) : IVec S32768x1 32 :=
  select (cmpi .slt c (broadcastInDim S32768x1 ![] Gen.bcast_S_S32768x1 (constantI S_ 32 0#32)))
    (addi c (broadcastInDim S32768x1 ![] Gen.bcast_S_S32768x1 (constantI S_ 32 8#32))) c

/-- The index column as an [N, 1, 1] array. -/
def ownIdx3 (c : IVec S32768x1 32) : IVec S32768x1x1 32 :=
  shapeCast S32768x1x1 (ownIdx c) Gen.shapeCasts_S32768x1_S32768x1x1

/-- The guard: 1 where the index component lies in [0, 7]. -/
def ownOk (c : IVec S32768x1 32) : IVec S32768x1 1 :=
  Host.reduce IntOp.andi
    (andi (cmpi .sge (ownIdx3 c) (broadcastInDim S32768x1x1 ![] Gen.bcast_S_S32768x1x1 (constantI S_ 32 0#32)))
          (cmpi .sle (ownIdx3 c) (broadcastInDim S32768x1x1 ![0, 1, 2] Gen.bcast_S1x1x1_S32768x1x1_0_1_2
                            (broadcastInDim S1x1x1 ![2] Gen.bcast_S1_S1x1x1_2 (constantI S1 32 7#32)))))
    (constantI S_ 1 1#1) Gen.reducesTo_S32768x1x1_S32768x1_d2 Gen.h_S_

/-- The pick, spelt with the three arrays above. -/
theorem pickOwn_eq (cum : IVec S32768x8 32) (c : IVec S32768x1 32) :
    pickOwn cum c = select (ownOk c) (Host.gather gather_S32768x8_S32768x1x1_S32768x1_n_1_0_0_1_2_11 cum (ownIdx3 c))
      (broadcastInDim S32768x1 ![] Gen.bcast_S_S32768x1 (constantI S_ 32 2147483648#32)) := rfl

/-- A label word reads signed as it reads unsigned: it is below 8. -/
theorem label_toInt (h : InRange t1) (n : Fin 32768) :
    (t1 (ValueIdx.ix1 n)).toInt = ((t1 (ValueIdx.ix1 n)).toNat : ℤ) :=
  BitVec.toInt_eq_toNat_of_lt (by have := h n; omega)

/-- On the label column the index column is the label column: no label word is negative. -/
theorem ownIdx_labelCol (h : InRange t1) (n : Fin 32768) (c : Fin 1) :
    ownIdx (labelCol t1) (ix2 n c) = t1 (ValueIdx.ix1 n) := by
  have hc : labelCol t1 (ix2 n c) = t1 (ValueIdx.ix1 n) := labelCol_apply t1 n c
  show Scalar.select (IntOp.cmpi .slt (labelCol t1 (ix2 n c)) 0#32) (IntOp.addi (labelCol t1 (ix2 n c)) 8#32)
    (labelCol t1 (ix2 n c)) = _
  rw [Cert.Lib.SmallWords.normalize_nonneg _ _ (by rw [hc, label_toInt t1 h]; exact Int.natCast_nonneg _), hc]

/-- Every entry of the [N, 1, 1] index array is some label word. -/
theorem ownIdx3_labelCol (h : InRange t1) (i : S32768x1x1.Idx) : ∃ m : Fin 32768, ownIdx3 (labelCol t1) i = t1 (ValueIdx.ix1 m) := by
  obtain ⟨n, c, e⟩ : ∃ (n : Fin 32768) (c : Fin 1), Shape.reshapeEquiv Gen.shapeCasts_S32768x1_S32768x1x1 i = ix2 n c :=
    ⟨_, _, eq_ix2 _⟩
  refine ⟨n, ?_⟩
  show ownIdx (labelCol t1) (Shape.reshapeEquiv Gen.shapeCasts_S32768x1_S32768x1x1 i) = _
  rw [e]
  exact ownIdx_labelCol t1 h n c

/-- The [N, 1, 1] index array at (n, 0, 0) is the n-th label word. -/
theorem ownIdx3_at (h : InRange t1) (n : Fin 32768) :
    ownIdx3 (labelCol t1) (ix3 n (0 : Fin 1) (0 : Fin 1)) = t1 (ValueIdx.ix1 n) := by
  unfold ownIdx3
  rw [shapeCast_apply _ _ (ix3 n (0 : Fin 1) (0 : Fin 1)) (ix2 n (0 : Fin 1)) (by
    rw [Shape.rowMajor_val_two, Shape.rowMajor_val_three]
    show n.val * 1 + 0 = (n.val * 1 + 0) * 1 + 0
    omega)]
  exact ownIdx_labelCol t1 h n 0

/-- On the label column the guard is 1 everywhere: every label word lies in [0, 7]. -/
theorem ownOk_labelCol (h : InRange t1) (j : S32768x1.Idx) : ownOk (labelCol t1) j = 1#1 := by
  unfold ownOk
  rw [Cert.Lib.SmallWords.reduce_andi_iff]
  refine ⟨rfl, fun i _ => ?_⟩
  show IntOp.andi (IntOp.cmpi .sge (ownIdx3 (labelCol t1) i) 0#32) (IntOp.cmpi .sle (ownIdx3 (labelCol t1) i) 7#32) = 1#1
  obtain ⟨m, e⟩ := ownIdx3_labelCol t1 h i
  rw [IntOp.andi_eq_one, IntOp.cmpi_sge, IntOp.cmpi_sle, e, label_toInt t1 h]
  have hm := h m
  have h0 : (0#32 : BitVec 32).toInt = 0 := by decide
  have h7 : (7#32 : BitVec 32).toInt = 7 := by decide
  rw [h0, h7]
  omega

/-- THE PICK: each token reads the running count in its own label's column. -/
theorem pickOwn_at (h : InRange t1) (n : Fin 32768) :
    pickOwn (cumT t1) (labelCol t1) (ix2 n (0 : Fin 1)) = cumT t1 (ix2 n (lab t1 h n)) := by
  rw [pickOwn_eq]
  show Scalar.select (ownOk (labelCol t1) (ix2 n (0 : Fin 1)))
    (Host.gather gather_S32768x8_S32768x1x1_S32768x1_n_1_0_0_1_2_11 (cumT t1) (ownIdx3 (labelCol t1)) (ix2 n (0 : Fin 1)))
    2147483648#32 = _
  rw [ownOk_labelCol t1 h, select_one]
  have e := ownIdx3_at t1 h n
  have hlt : (ownIdx3 (labelCol t1) (ix3 n (0 : Fin 1) (0 : Fin 1))).toNat < 8 := by rw [e]; exact h n
  refine (Cert.Lib.PickColumn.pickColumn_apply gather_S32768x8_S32768x1x1_S32768x1_n_1_0_0_1_2_11.wf (cumT t1)
    (ownIdx3 (labelCol t1)) (by norm_num) n hlt).trans ?_
  have hcol : (⟨(ownIdx3 (labelCol t1) (ix3 n (0 : Fin 1) (0 : Fin 1))).toNat, hlt⟩ : Fin 8) = lab t1 h n :=
    Fin.ext (show (ownIdx3 (labelCol t1) (ix3 n (0 : Fin 1) (0 : Fin 1))).toNat = (t1 (ValueIdx.ix1 n)).toNat from
      congrArg BitVec.toNat e)
  rw [hcol]

/-! ## The rank -/

/-- The rank word is the token's own running count less one, as words. -/
theorem rankT_apply (n : Fin 32768) :
    rankT t1 (ValueIdx.ix1 n) = IntOp.subi (pickOwn (cumT t1) (labelCol t1) (ix2 n (0 : Fin 1))) 1#32 := by
  show IntOp.subi (shapeCast S32768 (pickOwn (cumT t1) (labelCol t1)) Gen.shapeCasts_S32768x1_S32768 (ValueIdx.ix1 n)) 1#32 = _
  rw [shapeCast_apply _ _ (ValueIdx.ix1 n) (ix2 n (0 : Fin 1)) (by
    rw [Shape.rowMajor_val_two, Shape.rowMajor_val_one]
    show n.val * 1 + 0 = n.val
    omega)]

/-- The rank word, read as a number, is the token's rank among the tokens of its label: its own running count is at
    least one, so the subtraction of one does not wrap. -/
theorem rankT_toNat (h : InRange t1) (n : Fin 32768) :
    (rankT t1 (ValueIdx.ix1 n)).toNat = Cert.Lib.GroupedPositions.rank (lab t1 h) n := by
  rw [rankT_apply, pickOwn_at t1 h]
  have h1 := cumT_toNat t1 h n (lab t1 h n)
  have h2 := Cert.Lib.GroupedPositions.cum_pos (lab t1 h) n
  have h3 := cumT_le t1 h n (lab t1 h n)
  unfold Cert.Lib.GroupedPositions.rank
  show (cumT t1 (ix2 n (lab t1 h n)) - 1#32).toNat = _
  have one : (1#32 : BitVec 32).toNat = 1 := by decide
  rw [BitVec.toNat_sub, one, Cert.Lib.SmallWords.two_pow_32, ← h1]
  omega

/-- A rank is below the number of tokens. -/
theorem rankT_lt (h : InRange t1) (n : Fin 32768) : (rankT t1 (ValueIdx.ix1 n)).toNat < 32768 := by
  rw [rankT_toNat t1 h]
  have h1 := Cert.Lib.GroupedPositions.rank_lt (lab t1 h) n
  have h2 : Cert.Lib.GroupedPositions.cnt (lab t1 h) (lab t1 h n) ≤ 32768 := Cert.Lib.PrefixSum.card_filter_fin_le _
  omega

end Cert.Kernel.Routing

end
-- ==== Proof.Bits.RoutingPlaces.lean ====
/-
  The routing stages read as numbers: group sizes, group starts, each token's place and each tile's label.

  Given that the totals and the ranks computed by the program are the counts and ranks of the labels, the
  later stages are the counting-sort positions with groups padded to multiples of 512: the padded size of
  a group, the start of a group (the sum of the padded sizes before it), the start of a token's own group,
  the token's place, the first tile of a group and, for every tile, the label whose group holds it.
-/
import proofs.«157345_j20959440404665_2_alg».proof.Proof.Bits.RoutingCounts
import proofs.«157345_j20959440404665_2_alg».proof.Proof.LibGroupedPositions
import proofs.«157345_j20959440404665_2_alg».proof.Proof.LibPrefixSum
import proofs.«157345_j20959440404665_2_alg».proof.Proof.LibFloorDivWords
import proofs.«157345_j20959440404665_2_alg».proof.Proof.LibFlatGather
import proofs.«157345_j20959440404665_2_alg».proof.Proof.LibSmallWords
import proofs.«157345_j20959440404665_2_alg».proof.Proof.LibCountWords
import Idealize.ShloMosaic.Lib.Pipeline.Value
import Idealize.ShloMosaic.Lib.ValueLayout

noncomputable section

namespace Cert.Kernel.Routing

open Cert.Kernel Idealize.ShloMosaic Idealize.ShloMosaic.ValueIdx
open Cert.Lib

/-! ### Word facts used below -/

private theorem toNat_512 : (512#32 : BitVec 32).toNat = 512 := by decide
private theorem toNat_1 : (1#32 : BitVec 32).toNat = 1 := by decide

/-- A label has at most as many tokens as there are tokens. -/
theorem cnt_le_tokens (l : Fin 32768 → Fin 8) (k : Fin 8) : GroupedPositions.cnt l k ≤ 32768 := by
  unfold GroupedPositions.cnt
  exact (Finset.card_le_univ _).trans (by simp)

/-- Adding 512 and taking 1 away, on a word at most 32768, adds 511. -/
theorem plus511_toNat (tot : IVec S8 32) (k : Fin 8) (hc : (tot (ValueIdx.ix1 k)).toNat ≤ 32768) :
    (plus511 tot (ValueIdx.ix1 k)).toNat = (tot (ValueIdx.ix1 k)).toNat + 511 := by
  show (IntOp.subi (IntOp.addi (tot (ValueIdx.ix1 k)) 512#32) 1#32).toNat = _
  have h1 : (IntOp.addi (tot (ValueIdx.ix1 k)) 512#32).toNat = (tot (ValueIdx.ix1 k)).toNat + 512 := by
    rw [FloorDivWords.toNat_addi _ _ (by rw [toNat_512]; omega), toNat_512]
  rw [FloorDivWords.toNat_subi _ _ (by rw [h1, toNat_1]; omega), h1, toNat_1]
  omega

/-- The floor division by the word 512 of a word that is nonnegative as a signed number. -/
theorem floorDiv512_toNat (x : IVec S8 32) (k : Fin 8) (hx : (x (ValueIdx.ix1 k)).toNat < 2 ^ 31) :
    (floorDiv x w512 (ValueIdx.ix1 k)).toNat = (x (ValueIdx.ix1 k)).toNat / 512 ∧ (floorDiv x w512 (ValueIdx.ix1 k)).toNat < 2 ^ 31 :=
  FloorDivWords.floorDiv_nonneg (x := x) (y := broadcastInDim S8 ![] Gen.bcast_S_S8 w512) (i := ValueIdx.ix1 k) (d := 512)
    hx rfl (by norm_num) (by norm_num)

/-- Multiplying by the word 512 without wrap-around. -/
theorem times512_toNat (q : IVec S8 32) (k : Fin 8) (hq : (q (ValueIdx.ix1 k)).toNat * 512 < 2 ^ 32) :
    (times512 q (ValueIdx.ix1 k)).toNat = (q (ValueIdx.ix1 k)).toNat * 512 := by
  show (IntOp.muli (q (ValueIdx.ix1 k)) 512#32).toNat = _
  rw [FloorDivWords.toNat_muli _ _ (by rw [toNat_512]; exact hq), toNat_512]

section
variable (t1 : IVec S32768 32) (h : InRange t1)

include h in
/-- The padded group sizes. -/
theorem sizeT_toNat (k : Fin 8) : (sizeT t1 (ValueIdx.ix1 k)).toNat = GroupedPositions.size 512 (lab t1 h) k := by
  have hc := cnt_le_tokens (lab t1 h) k
  have h1 : (plus511 (totT t1) (ValueIdx.ix1 k)).toNat = GroupedPositions.cnt (lab t1 h) k + 511 := by
    rw [plus511_toNat _ _ (by rw [totT_toNat t1 h]; exact hc), totT_toNat t1 h]
  have h2 := (floorDiv512_toNat (plus511 (totT t1)) k (by rw [h1]; omega)).1
  rw [h1] at h2
  have h3 : (GroupedPositions.cnt (lab t1 h) k + 511) / 512 ≤ 65 := by omega
  show (times512 (floorDiv (plus511 (totT t1)) w512) (ValueIdx.ix1 k)).toNat = _
  rw [times512_toNat _ _ (by rw [h2]; omega), h2]
  rfl

/-- A padded group size is at most 33280. -/
theorem size_le_33280 (l : Fin 32768 → Fin 8) (k : Fin 8) : GroupedPositions.size 512 l k ≤ 33280 := by
  have h1 := GroupedPositions.size_lt (T := 512) (by norm_num) l k
  have h2 := cnt_le_tokens l k
  omega

/-! ### Group starts -/

/-- The inclusive prefix sums, read as numbers, when every entry is at most 33280. -/
theorem prefix8_toNat (s : IVec S8 32) (hs : ∀ idx, (s idx).toNat ≤ 33280) (i : Fin 8) :
    (prefix8 s (ValueIdx.ix1 i)).toNat
      = ∑ i' ∈ Finset.univ.filter (fun i' : Fin 8 => i'.val ≤ i.val), (s (ValueIdx.ix1 i')).toNat :=
  PrefixSum.cumsum1_lo_toNat (n := 8) (m := 7) rfl s _ Gen.reduceWindows_S8_S8_w8s1p7_0 Gen.h_S_ rfl 33280 hs
    (by norm_num) i

/-- The first start is zero. -/
theorem starts_zero (s : IVec S8 32) : starts s (ValueIdx.ix1 (0 : Fin 8)) = 0#32 := by
  unfold starts
  refine (extractStridedSlice_apply ![0] _ Gen.slices_S9_S8_0 (ValueIdx.ix1 (0 : Fin 8)) (ValueIdx.ix1 (0 : Fin 9)) (by
    intro a; match a with | ⟨0, _⟩ => rfl)).trans ?_
  exact concatenate_pair_apply_left (t := S9) (s₁ := S1) (s₂ := S8) (0 : Fin 1) _ _
    Gen.concatenates_S1_S8_S9_d0 _ rfl (ValueIdx.ix1 (0 : Fin 1)) (by
      intro b; match b with | ⟨0, _⟩ => rfl)

/-- Every later start is the inclusive prefix sum one entry before. -/
theorem starts_succ (s : IVec S8 32) (k0 : ℕ) (hk : k0 + 1 < 8) :
    starts s (ValueIdx.ix1 (⟨k0 + 1, hk⟩ : Fin 8)) = prefix8 s (ValueIdx.ix1 (⟨k0, by omega⟩ : Fin 8)) := by
  unfold starts
  refine (extractStridedSlice_apply ![0] _ Gen.slices_S9_S8_0 (ValueIdx.ix1 (⟨k0 + 1, hk⟩ : Fin 8))
    (ValueIdx.ix1 (⟨k0 + 1, by omega⟩ : Fin 9)) (by
      intro a; match a with | ⟨0, _⟩ => show k0 + 1 = 0 + (k0 + 1); omega)).trans ?_
  exact concatenate_pair_apply_right (t := S9) (s₁ := S1) (s₂ := S8) (0 : Fin 1) _ _
    Gen.concatenates_S1_S8_S9_d0 _ rfl rfl (ValueIdx.ix1 (⟨k0, by omega⟩ : Fin 8))
    (by intro b hb; match b with | ⟨0, _⟩ => exact absurd rfl hb)
    (by show k0 + 1 = k0 + 1; rfl)

include h in
/-- Where each label's group starts: the sum of the padded sizes of the labels before it. -/
theorem startT_toNat (k : Fin 8) : (startT t1 (ValueIdx.ix1 k)).toNat = GroupedPositions.off 512 (lab t1 h) k := by
  have hs : ∀ idx, (sizeT t1 idx).toNat ≤ 33280 := by
    intro idx
    obtain ⟨k', rfl⟩ : ∃ k', idx = ValueIdx.ix1 k' := ⟨idx 0, eq_ix1 idx⟩
    rw [sizeT_toNat t1 h]; exact size_le_33280 _ _
  rcases k with ⟨_ | k0, hk⟩
  · show (starts (sizeT t1) (ValueIdx.ix1 (0 : Fin 8))).toNat = _
    rw [starts_zero]
    exact (GroupedPositions.off_zero 512 (lab t1 h) (by norm_num)).symm
  · show (starts (sizeT t1) (ValueIdx.ix1 (⟨k0 + 1, hk⟩ : Fin 8))).toNat = _
    rw [starts_succ _ k0 hk, prefix8_toNat _ hs]
    unfold GroupedPositions.off
    refine Finset.sum_congr ?_ (fun k' _ => sizeT_toNat t1 h k')
    ext k'
    simp only [Finset.mem_filter, Finset.mem_univ, true_and]
    rw [Fin.lt_def]
    show k'.val ≤ k0 ↔ k'.val < k0 + 1
    omega

include h in
/-- Every group starts below 36856. -/
theorem startT_le (k : Fin 8) : (startT t1 (ValueIdx.ix1 k)).toNat ≤ 36856 := by
  rw [startT_toNat t1 h]
  have h1 := GroupedPositions.off_add_size_le_sum 512 (lab t1 h) k
  have h2 := GroupedPositions.sum_size_le (T := 512) (by norm_num) (lab t1 h)
  omega

include h in
/-- The first tile of each label's group. -/
theorem tileStartT_toNat (k : Fin 8) :
    (tileStartT t1 (ValueIdx.ix1 k)).toNat = GroupedPositions.toff 512 (lab t1 h) k := by
  have hle := startT_le t1 h k
  have h2 := (floorDiv512_toNat (startT t1) k (by omega)).1
  show (floorDiv (startT t1) w512 (ValueIdx.ix1 k)).toNat = _
  rw [h2, startT_toNat t1 h]
  rfl

/-! ### Each token's group start and place -/

/-- The index word a pick is made with: the label word, plus 8 if it is negative. -/
def normIdx (t : IVec S32768 32) : IVec S32768 32 :=
  select (cmpi .slt t (broadcastInDim S32768 ![] Gen.bcast_S_S32768 (constantI S_ 32 0#32)))
    (addi t (broadcastInDim S32768 ![] Gen.bcast_S_S32768 (constantI S_ 32 8#32))) t

include h in
/-- Labels are not negative, so the index word is the label word. -/
theorem normIdx_eq : normIdx t1 = t1 := by
  funext j
  obtain ⟨n, rfl⟩ : ∃ n, j = ValueIdx.ix1 n := ⟨j 0, eq_ix1 j⟩
  exact SmallWords.normalize_nonneg (t1 (ValueIdx.ix1 n)) 8#32 (by rw [label_toInt t1 h n]; exact Int.natCast_nonneg _)

/-- The guard of a pick from a table of 8 entries: the index word lies in [0, 7]. -/
def guard8 (c : IVec S32768x1 32) : IVec S32768 1 :=
  Host.reduce IntOp.andi
    (andi (cmpi .sge c (broadcastInDim S32768x1 ![] Gen.bcast_S_S32768x1 (constantI S_ 32 0#32)))
          (cmpi .sle c (broadcastInDim S32768x1 ![0, 1] Gen.bcast_S1x1_S32768x1_0_1
                          (broadcastInDim S1x1 ![1] Gen.bcast_S1_S1x1_1 (constantI S1 32 7#32)))))
    (constantI S_ 1 1#1) Gen.reducesTo_S32768x1_S32768_d1 Gen.h_S_

/-- The pick of a token's group start, in its three parts: index, guard, gather. -/
theorem startOf_eq (st : IVec S8 32) (t : IVec S32768 32) :
    startOf st t = select (guard8 (labelCol (normIdx t)))
      (Host.gather gather_S8_S32768x1_S32768_n_0_n_n_0_1_1 st (labelCol (normIdx t)))
      (broadcastInDim S32768 ![] Gen.bcast_S_S32768 (constantI S_ 32 2147483648#32)) := rfl

/-- The guard is 1 when every index word lies in [0, 7]. -/
theorem guard8_one (c : IVec S32768x1 32) (hc : ∀ i, 0 ≤ (c i).toInt ∧ (c i).toInt ≤ 7) (j : S32768.Idx) :
    guard8 c j = 1#1 := by
  unfold guard8
  rw [SmallWords.reduce_andi_iff]
  refine ⟨rfl, fun i _ => ?_⟩
  show IntOp.andi (IntOp.cmpi .sge (c i) 0#32) (IntOp.cmpi .sle (c i) 7#32) = 1#1
  rw [IntOp.andi_eq_one, IntOp.cmpi_sge, IntOp.cmpi_sle]
  have h0 : (0#32 : BitVec 32).toInt = 0 := by decide
  have h7 : (7#32 : BitVec 32).toInt = 7 := by decide
  rw [h0, h7]
  exact hc i

/-- Each token's group start is the start of its label's group. -/
theorem startOf_at (st : IVec S8 32) (n : Fin 32768) :
    startOf st t1 (ValueIdx.ix1 n) = st (ValueIdx.ix1 (lab t1 h n)) := by
  rw [startOf_eq, normIdx_eq t1 h]
  have hc : ∀ i, 0 ≤ (labelCol t1 i).toInt ∧ (labelCol t1 i).toInt ≤ 7 := by
    intro i
    obtain ⟨n', z, rfl⟩ : ∃ (n' : Fin 32768) (z : Fin 1), i = ix2 n' z := ⟨i 0, i 1, eq_ix2 i⟩
    rw [labelCol_apply, label_toInt t1 h]
    have := h n'
    constructor
    · exact Int.natCast_nonneg _
    · omega
  show Scalar.select (guard8 (labelCol t1) (ValueIdx.ix1 n))
    (Host.gather gather_S8_S32768x1_S32768_n_0_n_n_0_1_1 st (labelCol t1) (ValueIdx.ix1 n)) _ = _
  rw [guard8_one _ hc]
  unfold Scalar.select
  have h11 : (1#1 : BitVec 1) = 1 := rfl
  rw [if_pos h11]
  have hg : (labelCol t1 (ix2 n (0 : Fin 1))).toInt = ((lab t1 h n).val : ℤ) := by
    rw [labelCol_apply]; exact label_toInt t1 h n
  rw [← Cert.RowIndex.clampRow_of_eq (by norm_num) (labelCol t1 (ix2 n (0 : Fin 1))) (lab t1 h n) hg]
  exact Cert.RowIndex.flatGather_apply (by norm_num) gather_S8_S32768x1_S32768_n_0_n_n_0_1_1.wf st (labelCol t1) n

include h in
/-- Each token's place: the start of its label's group plus its rank. -/
theorem placeT_toNat (n : Fin 32768) :
    (placeT t1 (ValueIdx.ix1 n)).toNat = GroupedPositions.pos 512 (lab t1 h) n := by
  show (IntOp.addi (startOf (startT t1) t1 (ValueIdx.ix1 n)) (rankT t1 (ValueIdx.ix1 n))).toNat = _
  rw [startOf_at t1 h]
  have h1 := startT_toNat t1 h (lab t1 h n)
  have h2 := rankT_toNat t1 h n
  have h3 := GroupedPositions.pos_lt (T := 512) (by norm_num) (lab t1 h) n
  unfold GroupedPositions.pos at h3 ⊢
  rw [FloorDivWords.toNat_addi _ _ (by rw [h1, h2]; omega), h1, h2]

include h in
/-- Every place is a row of the grouped array. -/
theorem placeT_lt (n : Fin 32768) : (placeT t1 (ValueIdx.ix1 n)).toNat < 36864 := by
  rw [placeT_toNat t1 h]
  have h3 := GroupedPositions.pos_lt (T := 512) (by norm_num) (lab t1 h) n
  omega

/-! ### Tile labels -/

/-- The table compared: entry (k, τ) is the bit of "group k starts at or before tile τ", widened to a word. -/
def startsBefore (ts : IVec S8 32) : IVec S8x72 32 :=
  extui 32 (cmpi .sle
      (broadcastInDim S8x72 ![0, 1] Gen.bcast_S8x1_S8x72_0_1 (broadcastInDim S8x1 ![0] Gen.bcast_S8_S8x1_0 ts))
      (broadcastInDim S8x72 ![0, 1] Gen.bcast_S1x72_S8x72_0_1
        (broadcastInDim S1x72 ![1] Gen.bcast_S72_S1x72_1 (iotaInDim S72 32 0))))
    Gen.natLt_1_32

/-- A tile's label is the column sum of that table, less one. -/
theorem tileLabel_eq (ts : IVec S8 32) :
    tileLabel ts = subi (Host.reduce IntOp.addi (startsBefore ts) (constantI S_ 32 0#32)
        Gen.reducesTo_S8x72_S72_d0 Gen.h_S_)
      (broadcastInDim S72 ![] Gen.bcast_S_S72 (constantI S_ 32 1#32)) := rfl

/-- A word below 2^31 read signed is the number. -/
private theorem toInt_of_lt {x : BitVec 32} (hx : x.toNat < 2 ^ 31) : x.toInt = (x.toNat : ℤ) := by
  rw [BitVec.toInt_eq_toNat_cond, if_pos (by omega)]

/-- Entry (k, τ) of the table is 1 exactly when the k-th start, as a number, is at most τ. -/
theorem startsBefore_eq_one_iff (ts : IVec S8 32) (hts : ∀ k, (ts (ValueIdx.ix1 k)).toNat < 2 ^ 31) (k : Fin 8)
    (τ : Fin 72) : startsBefore ts (ix2 k τ) = 1#32 ↔ (ts (ValueIdx.ix1 k)).toNat ≤ τ.val := by
  have hA : (broadcastInDim S8x72 ![0, 1] Gen.bcast_S8x1_S8x72_0_1
      (broadcastInDim S8x1 ![0] Gen.bcast_S8_S8x1_0 ts)) (ix2 k τ) = ts (ValueIdx.ix1 k) := by
    refine (broadcastInDim_apply _ _ _ (ix2 k τ) (ix2 k (0 : Fin 1)) (by
      intro a; match a with | ⟨0, _⟩ => rfl | ⟨1, _⟩ => rfl)).trans ?_
    exact broadcastInDim_apply _ _ ts (ix2 k (0 : Fin 1)) (ValueIdx.ix1 k) (by
      intro a; match a with | ⟨0, _⟩ => rfl)
  have hB : (broadcastInDim S8x72 ![0, 1] Gen.bcast_S1x72_S8x72_0_1
      (broadcastInDim S1x72 ![1] Gen.bcast_S72_S1x72_1 (iotaInDim S72 32 0))) (ix2 k τ)
        = BitVec.ofNat 32 τ.val := by
    refine (broadcastInDim_apply _ _ _ (ix2 k τ) (ix2 (0 : Fin 1) τ) (by
      intro a; match a with | ⟨0, _⟩ => rfl | ⟨1, _⟩ => rfl)).trans ?_
    exact broadcastInDim_apply _ _ (iotaInDim S72 32 0) (ix2 (0 : Fin 1) τ) (ValueIdx.ix1 τ) (by
      intro a; match a with | ⟨0, _⟩ => rfl)
  unfold startsBefore
  rw [CountWords.extui32_eq_one_iff]
  show IntOp.cmpi .sle _ _ = 1#1 ↔ _
  rw [IntOp.cmpi_sle, hA, hB, toInt_of_lt (hts k), SmallWords.toInt_ofNat_small (by have := τ.isLt; omega)]
  omega

include h in
/-- The column sum at tile τ counts the groups starting at or before it. -/
theorem tileT_card (τ : Fin 72) :
    (Host.reduce IntOp.addi (startsBefore (tileStartT t1)) (constantI S_ 32 0#32)
        Gen.reducesTo_S8x72_S72_d0 Gen.h_S_ (ValueIdx.ix1 τ)).toNat
      = ((Finset.univ : Finset (Fin 8)).filter fun k => GroupedPositions.toff 512 (lab t1 h) k ≤ τ.val).card := by
  have hts : ∀ k, (tileStartT t1 (ValueIdx.ix1 k)).toNat < 2 ^ 31 := fun k =>
    (floorDiv512_toNat (startT t1) k (by have := startT_le t1 h k; omega)).2
  have hcount := CountWords.reduceAddCols_count (K := 8) (T := 72) (startsBefore (tileStartT t1))
    (constantI S_ 32 0#32) Gen.reducesTo_S8x72_S72_d0 Gen.h_S_ rfl τ
    (fun k => CountWords.extui32_zero_or_one _ Gen.natLt_1_32 (ix2 k τ)) (by norm_num)
  rw [hcount]
  congr 1
  ext k
  simp only [Finset.mem_filter, Finset.mem_univ, true_and]
  rw [startsBefore_eq_one_iff _ hts, tileStartT_toNat t1 h]

include h in
/-- Each tile's label: the number of groups starting at or before the tile, less one. -/
theorem tileT_toNat (τ : Fin 72) : (tileT t1 (ValueIdx.ix1 τ)).toNat = GroupedPositions.gid 512 (lab t1 h) τ.val := by
  have hc := tileT_card t1 h τ
  have h1 := GroupedPositions.one_le_card_filter_toff 512 (lab t1 h) (by norm_num) τ.val
  show (IntOp.subi (Host.reduce IntOp.addi (startsBefore (tileStartT t1)) (constantI S_ 32 0#32)
    Gen.reducesTo_S8x72_S72_d0 Gen.h_S_ (ValueIdx.ix1 τ)) 1#32).toNat = _
  rw [FloorDivWords.toNat_subi _ _ (by rw [hc, toNat_1]; exact h1), hc, toNat_1]
  rfl

include h in
/-- Every tile's label is a label. -/
theorem tileT_lt (τ : Fin 72) : (tileT t1 (ValueIdx.ix1 τ)).toNat < 8 := by
  rw [tileT_toNat t1 h]
  exact GroupedPositions.gid_lt 512 (lab t1 h) (by norm_num) τ.val

/-- The tile holding a token's place is one of the 72 tiles. -/
theorem place_tile_lt (n : Fin 32768) : GroupedPositions.pos 512 (lab t1 h) n / 512 < 72 := by
  have := GroupedPositions.pos_lt (T := 512) (by norm_num) (lab t1 h) n
  omega

include h in
/-- The tile holding a token's place carries the token's label. -/
theorem tile_of_place (n : Fin 32768) :
    (tileT t1 (ValueIdx.ix1 ⟨GroupedPositions.pos 512 (lab t1 h) n / 512, place_tile_lt t1 h n⟩)).toNat
      = (lab t1 h n).val := by
  rw [tileT_toNat t1 h]
  exact GroupedPositions.gid_pos (T := 512) (by norm_num) (lab t1 h) n

end

end Cert.Kernel.Routing

end
-- ==== Proof.Bits.PreLabels.lean ====
/-
  The flat view of the label array is in range, at the word-level program's shapes.

  The precondition gives every label word below 8 (read unsigned) in the [64, 512] array; the flat [32768] view holds
  the same words in row-major order, so every entry of the flat view is below 8 as well.
-/
import proofs.«157345_j20959440404665_2_alg».proof.Proof.PreLabels
import proofs.«157345_j20959440404665_2_alg».proof.Proof.Bits.RoutingChain
import proofs.«157345_j20959440404665_2_alg».proof.Proof.Gen.Kernel
import Idealize.ShloMosaic.Lib.ValueIdx

namespace Cert.PreLabelsBits

open Idealize.ShloMosaic Idealize.ShloMosaic.ValueIdx

/-- When every entry of the label array is below 8, so is every entry of its flat view: each flat entry IS an
    entry of the array. -/
theorem inRange_flat (a1 : IVec Cert.Kernel.S64x512 32) (h : ∀ i, (a1 i).toNat < 8) :
    Cert.Kernel.Routing.InRange
      (shapeCast Cert.Kernel.S32768 a1 Cert.Kernel.Gen.shapeCasts_S64x512_S32768) := by
  intro n
  unfold shapeCast
  exact h _

end Cert.PreLabelsBits
-- ==== Proof.Bits.TableOk.lean ====
/-
  The tile-label table is admissible whenever the printed precondition holds.

  The precondition bounds every label word below 8. The flattened label array is then in range, so every
  entry of the table of tile labels computed from it, the number of groups starting at or before the tile
  less one, is again a label below 8. That is what the second region asks of the table its weight window
  is indexed by.
-/
import proofs.«157345_j20959440404665_2_alg».proof.Proof.Bits.KFrame.TableOk
import proofs.«157345_j20959440404665_2_alg».proof.Proof.Bits.KernelChain
import proofs.«157345_j20959440404665_2_alg».proof.Proof.Bits.RoutingPlaces
import proofs.«157345_j20959440404665_2_alg».proof.Proof.Bits.PreLabels

noncomputable section

namespace Cert.Kernel.TableOk

open Cert.Kernel Idealize.ShloMosaic Idealize.ShloMosaic.TcCoe Idealize.SL.Sem
open Cert.Kernel.Routing

variable {F : FTy → Type} [FloatOps F]

/-- The printed precondition on a launch memory, at any float instance: on every core the predicate of the six
argument arrays is all ones. -/
abbrev PreAt [Cert.Pre_finite_inputs.Facts] (m : (ℓ : Loc nD τ sig) → Buf (Elt F) ℓ) : Prop :=
  ∀ c : Dev nD,
    Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) = fun _ => 1#1

/-- Under the precondition every word of the flattened label array is a label below 8. -/
theorem inRange_of_pre [Cert.Pre_finite_inputs.Facts] (m : (ℓ : Loc nD τ sig) → Buf (Elt F) ℓ) (hpre : PreAt m)
    (c : Dev nD) : InRange (Chain.flat m c) :=
  Cert.PreLabelsBits.inRange_flat (Gen.V0 m c main_arg1) fun i =>
    Cert.PreLabels.labels_lt (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) (hpre c) i

/-- Under the precondition every word of the table of tile labels, as the host operations before the second
region leave it, is a label below 8. -/
theorem tbl_word_lt [Cert.Pre_finite_inputs.Facts] (m : (ℓ : Loc nD τ sig) → Buf (Elt F) ℓ) (hpre : PreAt m)
    (j : S72.Idx) :
    BitVec.toNat (w := 32)
      ((Gen.V17 m (Hand.outsA m) (0 : Dev nD) main_v46 : (⟨S72, .i32⟩ : BufTy).Contents (Elt F)) j) < 8 := by
  rw [Chain.v46_eq m (Hand.outsA m) 0]
  obtain ⟨τ', rfl⟩ : ∃ τ' : Fin 72, j = ValueIdx.ix1 τ' := ⟨j 0, ValueIdx.eq_ix1 j⟩
  exact tileT_lt (Chain.flat m 0) (inRange_of_pre m hpre 0) τ'

/-- Under the precondition the table is admissible. -/
theorem ok_of_pre [Cert.Pre_finite_inputs.Facts] (m : (ℓ : Loc nD τ sig) → Buf (Elt F) ℓ) (hpre : PreAt m) :
    Hand.Ok m :=
  Hand.ok_of_words_lt m fun j => tbl_word_lt m hpre j

end Cert.Kernel.TableOk

end
-- ==== Proof.LibPlainDot.lean ====
/-
  A plain matrix product read at an index, over the extended reals.

  For dimension numbers that contract the left operand's axis 1 with the right operand's axis 0 and keep
  (left axis 0, right axis 1) as the result's axes, the contraction at result index `(a, b)` is
  `Σ_{k < K} l(a, k) · r(k, b)`: the same plain sum for a `tpu.matmul` into a zero accumulator and for the host's
  `dot_general`, whatever the rows' extent. The dimension record enters through four coordinate facts about how it
  reads its operands (for a printed record each holds by computation), so the lemmas serve every extent.
-/
import Idealize.ShloMosaic.Lib.ValueIdx
import Idealize.ShloMosaic.PureOps.Ideal.Laws

noncomputable section

namespace Cert.Lib.PlainDot

open Idealize.ShloMosaic Idealize.ShloMosaic.ValueIdx

variable {R K C : Nat} {φ₁ φ₂ : FTy}

/-- How a rows×inner by inner×cols dimension record reads its operands: one contracted axis of extent `K`; at result
    index `i` and contraction position `q` the left operand is read at `(i 0, q)` and the right at `(q, i 1)`. -/
structure Reads (d : DotDims (⟨2, ![R, K]⟩ : Shape) (⟨2, ![K, C]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (q ⟨0, by omega⟩).val
  rhs1 : ∀ (i : (⟨2, ![R, C]⟩ : Shape).Idx) (q : d.contr.Idx), (d.rhsIdx i q 1).val = (i 1).val

variable {d : DotDims (⟨2, ![R, K]⟩ : Shape) (⟨2, ![K, C]⟩ : Shape) (⟨2, ![R, C]⟩ : Shape)}

/-- The sum over the record's contraction index is the sum over the inner axis' coordinate. -/
theorem sum_contr (h : Reads d) (l : FVec Ideal (⟨2, ![R, K]⟩ : Shape) φ₁) (r : FVec Ideal (⟨2, ![K, C]⟩ : Shape) φ₂)
    (a : Fin R) (b : Fin C) :
    ∑ q : d.contr.Idx, l (d.lhsIdx (ix2 a b) q) * r (d.rhsIdx (ix2 a b) q) = ∑ k : Fin K, l (ix2 a k) * r (ix2 k b) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 k b := funext fun x => Fin.ext (by
    match x with
    | ⟨0, _⟩ => exact (h.rhs0 _ _).trans hk
    | ⟨1, _⟩ => exact h.rhs1 _ _)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![K, C]⟩ : Shape) φ₂) (a : Fin R) (b : Fin C) :
    FloatOps.matmul d prec l r (constant (⟨2, ![R, C]⟩ : Shape) .f32 0x00000000#32) (ix2 a b)
      = ∑ k : Fin K, l (ix2 a k) * r (ix2 k b) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![K, C]⟩ : Shape) φ₂) (a : Fin R) (b : Fin C) :
    FloatOps.dotGeneral d prec sched l r (ix2 a b) = ∑ k : Fin K, l (ix2 a k) * r (ix2 k b) :=
  (Ideal.dotGeneral_apply d prec sched l r (ix2 a b)).trans (sum_contr h l r a b)

end Cert.Lib.PlainDot

end
-- ==== Proof.Payloads.lean ====
/-
  The three kernel bodies' stored values, read at one entry, over the extended reals.

  Each body multiplies its row block by a weight matrix into a zero accumulator, so an entry of the product is the
  plain sum over the inner axis; a relu is the maximum with zero; a change of float format is the identity on the
  extended reals, and so is a cast of a block to its own shape. The second body's weight block carries a leading unit
  axis, dropped by a cast: entry (f, j) of the matrix is entry (0, f, j) of the block. The third body adds its two row
  blocks first, and feeds the relu of the first product to a second product.
-/
import proofs.«157345_j20959440404665_2_alg».proof.Proof.Gen.KernelIdeal.Skeleton
import proofs.«157345_j20959440404665_2_alg».proof.Proof.LibPlainDot
import Idealize.ShloMosaic.Lib.Pipeline.Value
import Idealize.ShloMosaic.Lib.ValueLayout

open scoped BigOperators

noncomputable section

namespace Cert.KernelIdeal.Payloads

open Cert.KernelIdeal Idealize.ShloMosaic Idealize.ShloMosaic.ValueIdx
open Facts₀ Facts

/-! ### How the four products read their operands -/

theorem reads0 : Cert.Lib.PlainDot.Reads (R := 512) (K := 512) (C := 1024) dot_S512x512_S512x1024_S512x1024_1_0_0_1_n_n :=
  ⟨rfl, rfl, fun _ _ => rfl, fun _ _ => rfl, fun _ _ => rfl, fun _ _ => rfl⟩

theorem reads1 : Cert.Lib.PlainDot.Reads (R := 512) (K := 1024) (C := 512) dot_S512x1024_S1024x512_S512x512_1_0_0_1_n_n :=
  ⟨rfl, rfl, fun _ _ => rfl, fun _ _ => rfl, fun _ _ => rfl, fun _ _ => rfl⟩

theorem reads2 : Cert.Lib.PlainDot.Reads (R := 512) (K := 512) (C := 512) dot_S512x512_S512x512_S512x512_1_0_0_1_n_n :=
  ⟨rfl, rfl, fun _ _ => rfl, fun _ _ => rfl, fun _ _ => rfl, fun _ _ => rfl⟩

theorem reads3 : Cert.Lib.PlainDot.Reads (R := 512) (K := 512) (C := 128) dot_S512x512_S512x128_S512x128_1_0_0_1_n_n :=
  ⟨rfl, rfl, fun _ _ => rfl, fun _ _ => rfl, fun _ _ => rfl, fun _ _ => rfl⟩

/-! ### The three stored values at an entry -/

/-- The first body: the relu of (row block) · (first-layer weights), at row p, feature f. -/
theorem pay0_at (v0 : Vec Ideal S512x512 .f32) (v3 : Vec Ideal S512x1024 .bf16) (p : Fin 512) (f : Fin 1024) :
    Gen.k0_pay1 (F := Ideal) v0 v3 (ix2 p f) = max (∑ d : Fin 512, v0 (ix2 p d) * v3 (ix2 d f)) 0 := by
  unfold Gen.k0_pay1
  refine (congrArg (fun z => max z _) (Cert.Lib.PlainDot.matmul_zero_apply reads0 none _ _ p f)).trans ?_
  refine congrArg₂ max (Finset.sum_congr rfl fun d _ => ?_) Ideal.ofBits_zero_f32
  exact congrArg₂ (· * ·) (congrFun (shapeCast_self v0 _) (ix2 p d)) (congrFun (shapeCast_self v3 _) (ix2 d f))

/-- The second body: the relu of (row block) · (the weight matrix of the block's type), at row p, column j. -/
theorem pay1_at (v0 : Vec Ideal S512x1024 .bf16) (v2 : Vec Ideal S1x1024x512 .bf16) (p : Fin 512) (j : Fin 512) :
    Gen.k1_pay1 (F := Ideal) v0 v2 (ix2 p j) = max (∑ f : Fin 1024, v0 (ix2 p f) * v2 (ix3 0 f j)) 0 := by
  unfold Gen.k1_pay1
  refine (congrArg (fun z => max z _) (Cert.Lib.PlainDot.matmul_zero_apply reads1 none _ _ p j)).trans ?_
  refine congrArg₂ max (Finset.sum_congr rfl fun f _ => ?_) Ideal.ofBits_zero_f32
  exact congrArg₂ (· * ·) (congrFun (shapeCast_self v0 _) (ix2 p f)) (shapeCast_1ab_ab_apply v2 _ f j)

/-- The third body: (relu of (sum of the two row blocks) · (hidden weights)) · (output weights), at row p, lane l. -/
theorem pay2_at (v0 : Vec Ideal S512x512 .f32) (v2 : Vec Ideal S512x512 .f32) (v6 : Vec Ideal S512x512 .bf16)
    (v12 : Vec Ideal S512x128 .bf16) (p : Fin 512) (l : Fin 128) :
    Gen.k2_pay1 (F := Ideal) v0 v2 v6 v12 (ix2 p l)
      = ∑ k : Fin 512, max (∑ d : Fin 512, (v0 (ix2 p d) + v2 (ix2 p d)) * v6 (ix2 d k)) 0 * v12 (ix2 k l) := by
  unfold Gen.k2_pay1
  refine (Cert.Lib.PlainDot.matmul_zero_apply reads3 none _ _ p l).trans ?_
  refine Finset.sum_congr rfl fun k _ => ?_
  refine congrArg₂ (· * ·) ?_ (congrFun (shapeCast_self v12 _) (ix2 k l))
  refine (congrArg (fun z => max z _) (Cert.Lib.PlainDot.matmul_zero_apply reads2 none _ _ p k)).trans ?_
  refine congrArg₂ max (Finset.sum_congr rfl fun d _ => ?_) Ideal.ofBits_zero_f32
  refine congrArg₂ (· * ·) ?_ (congrFun (shapeCast_self v6 _) (ix2 d k))
  exact congrArg₂ (· + ·) (congrFun (shapeCast_self v0 _) (ix2 p d)) (congrFun (shapeCast_self v2 _) (ix2 p d))

end Cert.KernelIdeal.Payloads

end
-- ==== Proof.KValue.Region0.lean ====
/-
  The first region's result array, over the extended reals, as one function of the arrays the region finds.

  The grid has 64 points; point t reads rows 512·t … 512·t + 511 of the token array and the whole first-layer weight
  matrix, and writes the same rows of the result. An entry of the block a point writes depends on one row of its row
  block only, so the block is the restriction of one whole-array function — relu of (row i₀ of the tokens) · (column
  i₁ of the weights) — and the 64 row blocks tile the result: row r is written by point r / 512.
-/
import proofs.«157345_j20959440404665_2_alg».proof.Proof.KFrame.Region0
import proofs.«157345_j20959440404665_2_alg».proof.Proof.Payloads
import Idealize.ShloMosaic.Lib.Pipeline.Value

open scoped BigOperators

noncomputable section

namespace Cert.KernelIdeal.HandValue

open Cert.KernelIdeal
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The first region's result array as one function of the two arrays it reads: row i₀ of the first times the
    second, then the relu. -/
abbrev G0 (a0 : S32768x512.Idx → EReal) (a2 : S512x1024.Idx → EReal) : S32768x1024.Idx → EReal :=
  fun i => max (∑ d : Fin 512, a0 (ix2 (i 0) d) * a2 (ix2 d (i 1))) 0

/-- The block indices over the grid: the row windows are at block t, the resident matrix at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row window's block at point t is rows 512·t … 512·t + 511 of its array. -/
theorem iblk0_0_apply (c : Dev nD) (t : Fin cfg0.N) (x : S512x512.Idx) (k : S32768x512.Idx)
    (hk0 : (k 0).val = 512 * t.val + (x 0).val) (hk1 : (k 1).val = (x 1).val) :
    (Hand.iblk0 V c 0 t : Vec Ideal S512x512 .f32) x = (V c main_v0 : S32768x512.Idx → Elt Ideal .f32) k := by
  obtain ⟨e0, e1, -⟩ := idx_facts0 t
  unfold Hand.iblk0
  rw [View.read_apply]
  show V c main_v0 _ = V c main_v0 _
  congr 1
  funext a
  apply Fin.ext
  match a with
  | ⟨0, _⟩ => show win0_0.index t 0 * 512 + 1 * (x 0).val = (k 0).val; rw [e0, hk0]; omega
  | ⟨1, _⟩ => show win0_0.index t 1 * 512 + 1 * (x 1).val = (k 1).val; rw [e1, hk1]; omega

/-- The resident matrix's one block is the whole array. -/
theorem iblk0_1_apply (c : Dev nD) (t : Fin cfg0.N) (x : S512x1024.Idx) (k : S512x1024.Idx)
    (hk0 : (k 0).val = (x 0).val) (hk1 : (k 1).val = (x 1).val) :
    (Hand.iblk0 V c 1 t : Vec Ideal S512x1024 .bf16) x = (V c main_v2 : S512x1024.Idx → Elt Ideal .bf16) k := by
  obtain ⟨-, -, e0, e1, -⟩ := idx_facts0 t
  unfold Hand.iblk0
  rw [View.read_apply]
  show V c main_v2 _ = V c main_v2 _
  congr 1
  funext a
  apply Fin.ext
  match a with
  | ⟨0, _⟩ => show win0_1.index t 0 * 512 + 1 * (x 0).val = (k 0).val; rw [e0, hk0]; omega
  | ⟨1, _⟩ => show win0_1.index t 1 * 1024 + 1 * (x 1).val = (k 1).val; rw [e1, hk1]; omega

/-- One entry of what a point stores, from blocks that are rows 512·q … of the first array and the whole second. -/
theorem point0 (a0 : S32768x512.Idx → EReal) (a2 : S512x1024.Idx → EReal)
    (x0 : Vec Ideal S512x512 .f32) (x1 : Vec Ideal S512x1024 .bf16) (q : Nat)
    (h0 : ∀ (x : S512x512.Idx) (k : S32768x512.Idx), (k 0).val = 512 * q + (x 0).val → (k 1).val = (x 1).val → x0 x = a0 k)
    (h1 : ∀ (x k : S512x1024.Idx), (k 0).val = (x 0).val → (k 1).val = (x 1).val → x1 x = a2 k)
    (j : S512x1024.Idx) (i : S32768x1024.Idx) (hi0 : (i 0).val = 512 * q + (j 0).val) (hi1 : (i 1).val = (j 1).val) :
    Gen.k0_pay1 (F := Ideal) x0 x1 j = G0 a0 a2 i := by
  obtain ⟨p, f, rfl⟩ : ∃ (p : Fin 512) (f : Fin 1024), j = ix2 p f := ⟨j 0, j 1, eq_ix2 j⟩
  refine (Payloads.pay0_at x0 x1 p f).trans ?_
  show max (∑ d : Fin 512, x0 (ix2 p d) * x1 (ix2 d f)) 0 = max (∑ d : Fin 512, a0 (ix2 (i 0) d) * a2 (ix2 d (i 1))) 0
  refine congrArg (fun z => max z 0) (Finset.sum_congr rfl fun d _ => ?_)
  rw [h0 (ix2 p d) (ix2 (i 0) d) hi0 rfl, h1 (ix2 d f) (ix2 d (i 1)) rfl hi1]

/-- What point t writes back is block t of G0 of the arrays as the region finds them. -/
theorem flushed_eq0 (c : Dev nD) (t : Fin cfg0.N) :
    (Hand.dat0 V c).flushed 2 t = ((cfg0.win 2).blk t).view.read (Elt Ideal) (G0 (V c main_v0) (V c main_v2)) := by
  rw [Hand.flushed0_2]
  unfold Hand.out0_2
  rw [View.canon_unit_zero hz]
  simp only [View.ld_unit_zero (S := S512x512) hz, View.ld_unit_zero (S := S512x1024) hz]
  obtain ⟨-, -, -, -, e0, e1⟩ := idx_facts0 t
  funext j
  refine point0 (V c main_v0) (V c main_v2) (Hand.iblk0 V c 0 t) (Hand.iblk0 V c 1 t) t.val
    (fun x k hk0 hk1 => iblk0_0_apply V c t x k hk0 hk1) (fun x k hk0 hk1 => iblk0_1_apply V c t x k hk0 hk1)
    ((cfg0.win 2).xinj (grid0.coords t) j) (((cfg0.win 2).blk t).view.emb j) ?_ ?_
  · show win0_2.index t 0 * 512 + 1 * (j 0).val = 512 * t.val + (j 0).val; rw [e0]; omega
  · show win0_2.index t 1 * 1024 + 1 * (j 1).val = (j 1).val; rw [e1]; omega

/-- An index of the result array is in point t's block iff each coordinate is in the block's range. -/
theorem mem_blk0 (t : Fin cfg0.N) (i : S32768x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v7).slice (win0_2.rect t)).set ↔ _
  rw [View.set_slice_whole, Rect.mem_set_unit]
  exact Iff.rfl

/-- The result array after the region. -/
theorem final0 (c : Dev nD) : (Hand.dat0 V c).arrAt 2 cfg0.N = G0 (V c main_v0) (V c main_v2) :=
  (Hand.dat0 V c).arrAt_eq_of_cover 2 (G0 (V c main_v0) (V c main_v2)) (fun t _ => flushed_eq0 V c t) fun i => by
    have hi0 : (i 0).val < 32768 := (i 0).isLt
    have hi1 : (i 1).val < 1024 := (i 1).isLt
    have hN : cfg0.N = 64 := Gen.N_0
    refine ⟨⟨(i 0).val / 512, by rw [hN]; omega⟩, Gen.flush0_2 _, ?_⟩
    rw [mem_blk0]
    obtain ⟨-, -, -, -, e0, e1⟩ := idx_facts0 ⟨(i 0).val / 512, by rw [hN]; omega⟩
    intro a
    match a with
    | ⟨0, _⟩ => show win0_2.index _ 0 * 512 ≤ (i 0).val ∧ (i 0).val < win0_2.index _ 0 * 512 + 512; rw [e0]; show (i 0).val / 512 * 512 ≤ (i 0).val ∧ (i 0).val < (i 0).val / 512 * 512 + 512; omega
    | ⟨1, _⟩ => show win0_2.index _ 1 * 1024 ≤ (i 1).val ∧ (i 1).val < win0_2.index _ 1 * 1024 + 1024; rw [e1]; omega

end Cert.KernelIdeal.HandValue

end
-- ==== Proof.KValue.Region1.lean ====
/-
  The middle region's result array, over the extended reals, as one function of the arrays the region finds and of
  the table of groups.

  The tokens arrive sorted by type and padded, 72 blocks of 512 rows; a table of 72 words names the type of each block.
  Point t reads rows 512·t … 512·t + 511 of the padded token array and the ONE weight matrix the table names for block
  t, and writes the same rows of the result. An entry of the block a point writes depends on one row of its row block
  only, so the block is the restriction of one whole-array function — relu of (row i₀) · (column i₁ of the matrix
  of the type of row block i₀ / 512) — and the 72 row blocks tile the result: row r is written by point r / 512.
-/
import proofs.«157345_j20959440404665_2_alg».proof.Proof.KFrame.Region1
import proofs.«157345_j20959440404665_2_alg».proof.Proof.Payloads
import Idealize.ShloMosaic.Lib.Pipeline.Value

open scoped BigOperators

noncomputable section

namespace Cert.KernelIdeal.HandValue

open Cert.KernelIdeal
open Idealize.ShloMosaic Idealize.ShloMosaic.TcCoe Idealize.ShloMosaic.ValueIdx Idealize.SL.Sem
open Idealize.ShloMosaic.Pipeline (Dat)

theorem hz1 : (![0, 0] : Fin 2 → Nat) = fun _ => 0 := funext fun a => by fin_cases a <;> rfl
theorem hz1' : (![0, 0, 0] : Fin 3 → Nat) = fun _ => 0 := funext fun a => by fin_cases a <;> rfl

/-- The row block a row of the padded arrays lies in. -/
abbrev rowBlock (n : Fin 36864) : Fin 72 := ⟨n.val / 512, by have := n.isLt; omega⟩

/-- The middle region's result array as one function of the two arrays it reads, at a choice g of a type for each
    row block. -/
abbrev G1 (a0 : S36864x1024.Idx → EReal) (a3 : S8x1024x512.Idx → EReal) (g : Fin 72 → Fin 8) : S36864x512.Idx → EReal :=
  fun i => max (∑ f : Fin 1024, a0 (ix2 (i 0) f) * a3 (ix3 (g (rowBlock (i 0))) f (i 1))) 0

/-- The table-free part of the index maps over the grid: the row windows are at block t, and the grid coordinate,
    as the 32-bit word the second window's map reads the table at, is t. -/
theorem idx_facts1 : ∀ t : Fin grid1.N, cc1_transform_0 (grid1.coords t) (0 : Fin 2) = t.val
    ∧ cc1_transform_0 (grid1.coords t) (1 : Fin 2) = 0
    ∧ cc1_transform_2 (grid1.coords t) (0 : Fin 2) = t.val ∧ cc1_transform_2 (grid1.coords t) (1 : Fin 2) = 0
    ∧ (BitVec.ofNat 32 (grid1.coords t 0).val).toNat = t.val := by decide +kernel

/-- The result window's block index moves at every point, so every point writes back. -/
theorem flush_fact1 : ∀ t : Fin grid1.N, (decide (t.val + 1 = grid1.N)
    || decide (∃ h : t.val + 1 < grid1.N, cc1_transform_2 (grid1.coords ⟨t.val + 1, h⟩) ≠ cc1_transform_2 (grid1.coords t))) = true := by
  decide +kernel

variable (V : (c : Dev nD) → (b : Ref sig .tc) → Buf (Elt Ideal) ((c : Thread nD τ).loc b)) (a : (pcfg1 (F := Ideal)).Adm)

theorem N1 : (cfg1 a).N = 72 := Gen.N_1

theorem flush1_2 (t : Fin (cfg1 a).N) : ((cfg1 a).win 2).flush t = true := flush_fact1 t

/-- The second window's block index on its first axis at point t is the table's word t, read as a natural number. -/
theorem tbl_at (t : Fin (cfg1 a).N) (q : Fin 72) (hq : q.val = t.val) :
    cc1_transform_1 Gen.k1_off1_inb Gen.numel1_S1 a.1 (grid1.coords t) (0 : Fin 3)
      = (show BitVec 32 from a.1 0 (ValueIdx.ix1 q)).toNat := by
  have e := (idx_facts1 t).2.2.2.2
  show (show BitVec 32 from a.1 0 _).toNat = _
  refine congrArg (fun j => (show BitVec 32 from a.1 0 j).toNat) (funext fun ax => Fin.ext ?_)
  match ax with
  | ⟨0, _⟩ => show (BitVec.ofNat 32 (grid1.coords t 0).val).toNat + 1 * 0 = q.val; rw [e, hq]; omega

/-- The row window's block at point t is rows 512·t … 512·t + 511 of its array. -/
theorem iblk1_0_apply (c : Dev nD) (t : Fin (cfg1 a).N) (x : S512x1024.Idx) (k : S36864x1024.Idx)
    (hk0 : (k 0).val = 512 * t.val + (x 0).val) (hk1 : (k 1).val = (x 1).val) :
    (Hand.iblk1 V a c 0 t : Vec Ideal S512x1024 .bf16) x = (V c main_v54 : S36864x1024.Idx → Elt Ideal .bf16) k := by
  obtain ⟨e0, e1, -⟩ := idx_facts1 t
  show (V c main_v54 : S36864x1024.Idx → Elt Ideal .bf16) ((((cfg1 a).win 0).blk t).view.emb x) = _
  refine congrArg (V c main_v54 : S36864x1024.Idx → Elt Ideal .bf16) (funext fun ax => Fin.ext ?_)
  match ax with
  | ⟨0, _⟩ => show cc1_transform_0 (grid1.coords t) 0 * 512 + 1 * (x 0).val = (k 0).val; rw [e0, hk0]; omega
  | ⟨1, _⟩ => show cc1_transform_0 (grid1.coords t) 1 * 1024 + 1 * (x 1).val = (k 1).val; rw [e1, hk1]; omega

/-- The weight window's block at point t is the matrix the table's word t names. -/
theorem iblk1_1_apply (c : Dev nD) (t : Fin (cfg1 a).N) (q : Fin 72) (hq : q.val = t.val)
    (x : S1x1024x512.Idx) (k : S8x1024x512.Idx)
    (hk0 : (k 0).val = (show BitVec 32 from a.1 0 (ValueIdx.ix1 q)).toNat) (hk1 : (k 1).val = (x 1).val) (hk2 : (k 2).val = (x 2).val) :
    (Hand.iblk1 V a c 1 t : Vec Ideal S1x1024x512 .bf16) x = (V c main_v3 : S8x1024x512.Idx → Elt Ideal .bf16) k := by
  have e := tbl_at a t q hq
  have hx : (x 0).val < 1 := (x 0).isLt
  show (V c main_v3 : S8x1024x512.Idx → Elt Ideal .bf16) ((((cfg1 a).win 1).blk t).view.emb x) = _
  refine congrArg (V c main_v3 : S8x1024x512.Idx → Elt Ideal .bf16) (funext fun ax => Fin.ext ?_)
  match ax with
  | ⟨0, _⟩ => show cc1_transform_1 Gen.k1_off1_inb Gen.numel1_S1 a.1 (grid1.coords t) 0 * 1 + 1 * (x 0).val = (k 0).val; rw [e, hk0]; omega
  | ⟨1, _⟩ => show cc1_transform_1 Gen.k1_off1_inb Gen.numel1_S1 a.1 (grid1.coords t) 1 * 1024 + 1 * (x 1).val = (k 1).val; rw [hk1]; show 0 * 1024 + 1 * (x 1).val = (x 1).val; omega
  | ⟨2, _⟩ => show cc1_transform_1 Gen.k1_off1_inb Gen.numel1_S1 a.1 (grid1.coords t) 2 * 512 + 1 * (x 2).val = (k 2).val; rw [hk2]; show 0 * 512 + 1 * (x 2).val = (x 2).val; omega

/-- One entry of what a point stores, from a row block that is rows 512·q … of the first array and a weight block
    that is matrix gq of the second, where g names gq for the row block of the entry's row. -/
theorem point1 (a0 : S36864x1024.Idx → EReal) (a3 : S8x1024x512.Idx → EReal)
    (x0 : Vec Ideal S512x1024 .bf16) (x1 : Vec Ideal S1x1024x512 .bf16) (q : Nat) (gq : Fin 8)
    (h0 : ∀ (x : S512x1024.Idx) (k : S36864x1024.Idx), (k 0).val = 512 * q + (x 0).val → (k 1).val = (x 1).val → x0 x = a0 k)
    (h1 : ∀ (x : S1x1024x512.Idx) (k : S8x1024x512.Idx), (k 0).val = gq.val → (k 1).val = (x 1).val → (k 2).val = (x 2).val → x1 x = a3 k)
    (j : S512x512.Idx) (i : S36864x512.Idx) (hi0 : (i 0).val = 512 * q + (j 0).val) (hi1 : (i 1).val = (j 1).val)
    (g : Fin 72 → Fin 8) (hg : g (rowBlock (i 0)) = gq) :
    Gen.k1_pay1 (F := Ideal) x0 x1 j = G1 a0 a3 g i := by
  obtain ⟨p, l, rfl⟩ : ∃ (p : Fin 512) (l : Fin 512), j = ix2 p l := ⟨j 0, j 1, eq_ix2 j⟩
  refine (Payloads.pay1_at x0 x1 p l).trans ?_
  show max (∑ f : Fin 1024, x0 (ix2 p f) * x1 (ix3 0 f l)) 0
    = max (∑ f : Fin 1024, a0 (ix2 (i 0) f) * a3 (ix3 (g (rowBlock (i 0))) f (i 1))) 0
  refine congrArg (fun z => max z 0) (Finset.sum_congr rfl fun f _ => ?_)
  rw [h0 (ix2 p f) (ix2 (i 0) f) hi0 rfl,
    h1 (ix3 0 f l) (ix3 (g (rowBlock (i 0))) f (i 1)) (congrArg Fin.val hg) rfl hi1]

/-- The result window's staging buffer after the body holds the stored value: its one store covers it, and the loads
    read the whole input buffers. -/
theorem out1_2_eq (x0 : Vec Ideal S512x1024 .bf16) (x1 : Vec Ideal S1x1024x512 .bf16) :
    Hand.out1_2 x0 x1 = Gen.k1_pay1 (F := Ideal) x0 x1 := by
  unfold Hand.out1_2
  rw [View.canon_unit_zero hz1, View.ld_unit_zero (S := S512x1024) hz1, View.ld_unit_zero (S := S1x1024x512) hz1']

/-- What point t writes back is block t of G1 of the arrays as the region finds them, for any g that reads the
    table. -/
theorem flushed_eq1 (g : Fin 72 → Fin 8) (hg : ∀ q : Fin 72, (show BitVec 32 from a.1 0 (ValueIdx.ix1 q)).toNat = (g q).val)
    (c : Dev nD) (t : Fin (cfg1 a).N) :
    (Hand.dat1 V a c).flushed 2 t
      = (((cfg1 a).win 2).blk t).view.read (Elt Ideal) (G1 (V c main_v54) (V c main_v3) g) := by
  refine (Hand.flushed1_2 V a c t).trans ?_
  refine (congrArg (((cfg1 a).win 2).cut ((cfg1 a).grid.coords t))
    (out1_2_eq (Hand.iblk1 V a c 0 t) (Hand.iblk1 V a c 1 t))).trans ?_
  obtain ⟨-, -, e0, e1, -⟩ := idx_facts1 t
  have ht : t.val < 72 := lt_of_lt_of_eq t.isLt (N1 a)
  refine funext fun (j : S512x512.Idx) => ?_
  have hj : (j 0).val < 512 := (j 0).isLt
  show Gen.k1_pay1 (F := Ideal) (Hand.iblk1 V a c 0 t) (Hand.iblk1 V a c 1 t) j
    = G1 (V c main_v54) (V c main_v3) g ((((cfg1 a).win 2).blk t).view.emb j)
  refine point1 (V c main_v54) (V c main_v3) (Hand.iblk1 V a c 0 t) (Hand.iblk1 V a c 1 t) t.val (g ⟨t.val, ht⟩)
    (fun x k hk0 hk1 => iblk1_0_apply V a c t x k hk0 hk1)
    (fun x k hk0 hk1 hk2 => iblk1_1_apply V a c t ⟨t.val, ht⟩ rfl x k (hk0.trans (hg _).symm) hk1 hk2)
    j ((((cfg1 a).win 2).blk t).view.emb j) ?_ ?_ g ?_
  · show cc1_transform_2 (grid1.coords t) 0 * 512 + 1 * (j 0).val = 512 * t.val + (j 0).val; rw [e0]; omega
  · show cc1_transform_2 (grid1.coords t) 1 * 512 + 1 * (j 1).val = (j 1).val; rw [e1]; omega
  · refine congrArg g (Fin.ext ?_)
    show (cc1_transform_2 (grid1.coords t) 0 * 512 + 1 * (j 0).val) / 512 = t.val
    rw [e0]; omega

/-- The result array after the region, for any g that reads the table: row r lies in the block of point r / 512, at
    row r % 512 of it. -/
theorem final1 (g : Fin 72 → Fin 8) (hg : ∀ q : Fin 72, (show BitVec 32 from a.1 0 (ValueIdx.ix1 q)).toNat = (g q).val) (c : Dev nD) :
    (Hand.dat1 V a c).arrAt 2 (cfg1 a).N = G1 (V c main_v54) (V c main_v3) g :=
  (Hand.dat1 V a c).arrAt_eq_of_cover 2 (G1 (V c main_v54) (V c main_v3) g) (fun t _ => flushed_eq1 V a g hg c t)
    fun (i : S36864x512.Idx) => by
    have hi0 : (i 0).val < 36864 := (i 0).isLt
    have hi1 : (i 1).val < 512 := (i 1).isLt
    have hN : (cfg1 a).N = 72 := N1 a
    have hq : (i 0).val / 512 < (cfg1 a).N := by rw [hN]; omega
    refine ⟨⟨(i 0).val / 512, hq⟩, flush1_2 a _, ?_⟩
    obtain ⟨-, -, e0, e1, -⟩ := idx_facts1 ⟨(i 0).val / 512, hq⟩
    have key : (((cfg1 a).win 2).blk ⟨(i 0).val / 512, hq⟩).view.emb
        (ix2 (⟨(i 0).val % 512, Nat.mod_lt _ (by decide)⟩ : Fin 512) (i 1) : S512x512.Idx) = i :=
      funext fun ax => Fin.ext (by
        match ax with
        | ⟨0, _⟩ => show cc1_transform_2 (grid1.coords ⟨(i 0).val / 512, hq⟩) 0 * 512 + 1 * ((i 0).val % 512) = (i 0).val; rw [e0]; show (i 0).val / 512 * 512 + 1 * ((i 0).val % 512) = (i 0).val; omega
        | ⟨1, _⟩ => show cc1_transform_2 (grid1.coords ⟨(i 0).val / 512, hq⟩) 1 * 512 + 1 * (i 1).val = (i 1).val; rw [e1]; omega)
    exact (congrArg (· ∈ (((cfg1 a).win 2).blk ⟨(i 0).val / 512, hq⟩).view.set) key).mp (View.emb_mem_set _ _)

end Cert.KernelIdeal.HandValue

end
-- ==== Proof.KValue.Region2.lean ====
/-
  The last region's result array, over the extended reals, as one function of the arrays the region finds.

  The grid has 64 points; point t reads rows 512·t … 512·t + 511 of the token array and of the routed-branch array, and
  the two whole weight matrices, and writes the same rows of the result. An entry of the block a point writes depends
  on one row of each row block only, so the block is the restriction of one whole-array function — (relu of (the sum
  of the two rows i₀) · (hidden weights)) · (column i₁ of the output weights) — and the 64 row blocks tile the
  result: row r is written by point r / 512.
-/
import proofs.«157345_j20959440404665_2_alg».proof.Proof.KFrame.Region2
import proofs.«157345_j20959440404665_2_alg».proof.Proof.Payloads
import Idealize.ShloMosaic.Lib.Pipeline.Value

open scoped BigOperators

noncomputable section

namespace Cert.KernelIdeal.HandValue

open Cert.KernelIdeal
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The last region's result array as one function of the four arrays it reads. -/
abbrev G2 (a0 a1 : S32768x512.Idx → EReal) (a2 : S512x512.Idx → EReal) (a3 : S512x128.Idx → EReal) :
    S32768x128.Idx → EReal :=
  fun i => ∑ k : Fin 512, max (∑ d : Fin 512, (a0 (ix2 (i 0) d) + a1 (ix2 (i 0) d)) * a2 (ix2 d k)) 0 * a3 (ix2 k (i 1))

/-- The block indices over the grid: the row windows are at block t, the resident matrices at block 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The token window's block at point t is rows 512·t … 512·t + 511 of its array. -/
theorem iblk2_0_apply (c : Dev nD) (t : Fin cfg2.N) (x : S512x512.Idx) (k : S32768x512.Idx)
    (hk0 : (k 0).val = 512 * t.val + (x 0).val) (hk1 : (k 1).val = (x 1).val) :
    (Hand.iblk2 V c 0 t : Vec Ideal S512x512 .f32) x = (V c main_v0 : S32768x512.Idx → Elt Ideal .f32) k := by
  obtain ⟨e0, e1, -⟩ := idx_facts2 t
  unfold Hand.iblk2
  rw [View.read_apply]
  show V c main_v0 _ = V c main_v0 _
  congr 1
  funext a
  apply Fin.ext
  match a with
  | ⟨0, _⟩ => show win2_0.index t 0 * 512 + 1 * (x 0).val = (k 0).val; rw [e0, hk0]; omega
  | ⟨1, _⟩ => show win2_0.index t 1 * 512 + 1 * (x 1).val = (k 1).val; rw [e1, hk1]; omega

/-- The routed-branch window's block at point t is the same rows of its array. -/
theorem iblk2_1_apply (c : Dev nD) (t : Fin cfg2.N) (x : S512x512.Idx) (k : S32768x512.Idx)
    (hk0 : (k 0).val = 512 * t.val + (x 0).val) (hk1 : (k 1).val = (x 1).val) :
    (Hand.iblk2 V c 1 t : Vec Ideal S512x512 .f32) x = (V c main_v56 : S32768x512.Idx → Elt Ideal .f32) k := by
  obtain ⟨-, -, e0, e1, -⟩ := idx_facts2 t
  unfold Hand.iblk2
  rw [View.read_apply]
  show V c main_v56 _ = V c main_v56 _
  congr 1
  funext a
  apply Fin.ext
  match a with
  | ⟨0, _⟩ => show win2_1.index t 0 * 512 + 1 * (x 0).val = (k 0).val; rw [e0, hk0]; omega
  | ⟨1, _⟩ => show win2_1.index t 1 * 512 + 1 * (x 1).val = (k 1).val; rw [e1, hk1]; omega

/-- The hidden weights' one block is the whole array. -/
theorem iblk2_2_apply (c : Dev nD) (t : Fin cfg2.N) (x : S512x512.Idx) (k : S512x512.Idx)
    (hk0 : (k 0).val = (x 0).val) (hk1 : (k 1).val = (x 1).val) :
    (Hand.iblk2 V c 2 t : Vec Ideal S512x512 .bf16) x = (V c main_v4 : S512x512.Idx → Elt Ideal .bf16) k := by
  obtain ⟨-, -, -, -, e0, e1, -⟩ := idx_facts2 t
  unfold Hand.iblk2
  rw [View.read_apply]
  show V c main_v4 _ = V c main_v4 _
  congr 1
  funext a
  apply Fin.ext
  match a with
  | ⟨0, _⟩ => show win2_2.index t 0 * 512 + 1 * (x 0).val = (k 0).val; rw [e0, hk0]; omega
  | ⟨1, _⟩ => show win2_2.index t 1 * 512 + 1 * (x 1).val = (k 1).val; rw [e1, hk1]; omega

/-- The output weights' one block is the whole array. -/
theorem iblk2_3_apply (c : Dev nD) (t : Fin cfg2.N) (x : S512x128.Idx) (k : S512x128.Idx)
    (hk0 : (k 0).val = (x 0).val) (hk1 : (k 1).val = (x 1).val) :
    (Hand.iblk2 V c 3 t : Vec Ideal S512x128 .bf16) x = (V c main_v6 : S512x128.Idx → Elt Ideal .bf16) k := by
  obtain ⟨-, -, -, -, -, -, e0, e1, -⟩ := idx_facts2 t
  unfold Hand.iblk2
  rw [View.read_apply]
  show V c main_v6 _ = V c main_v6 _
  congr 1
  funext a
  apply Fin.ext
  match a with
  | ⟨0, _⟩ => show win2_3.index t 0 * 512 + 1 * (x 0).val = (k 0).val; rw [e0, hk0]; omega
  | ⟨1, _⟩ => show win2_3.index t 1 * 128 + 1 * (x 1).val = (k 1).val; rw [e1, hk1]; omega

/-- One entry of what a point stores, from blocks that are rows 512·q … of the two row arrays and the whole matrices. -/
theorem point2 (a0 a1 : S32768x512.Idx → EReal) (a2 : S512x512.Idx → EReal) (a3 : S512x128.Idx → EReal)
    (x0 x1 : Vec Ideal S512x512 .f32) (x2 : Vec Ideal S512x512 .bf16) (x3 : Vec Ideal S512x128 .bf16) (q : Nat)
    (h0 : ∀ (x : S512x512.Idx) (k : S32768x512.Idx), (k 0).val = 512 * q + (x 0).val → (k 1).val = (x 1).val → x0 x = a0 k)
    (h1 : ∀ (x : S512x512.Idx) (k : S32768x512.Idx), (k 0).val = 512 * q + (x 0).val → (k 1).val = (x 1).val → x1 x = a1 k)
    (h2 : ∀ (x k : S512x512.Idx), (k 0).val = (x 0).val → (k 1).val = (x 1).val → x2 x = a2 k)
    (h3 : ∀ (x k : S512x128.Idx), (k 0).val = (x 0).val → (k 1).val = (x 1).val → x3 x = a3 k)
    (j : S512x128.Idx) (i : S32768x128.Idx) (hi0 : (i 0).val = 512 * q + (j 0).val) (hi1 : (i 1).val = (j 1).val) :
    Gen.k2_pay1 (F := Ideal) x0 x1 x2 x3 j = G2 a0 a1 a2 a3 i := by
  obtain ⟨p, l, rfl⟩ : ∃ (p : Fin 512) (l : Fin 128), j = ix2 p l := ⟨j 0, j 1, eq_ix2 j⟩
  refine (Payloads.pay2_at x0 x1 x2 x3 p l).trans ?_
  show (∑ k : Fin 512, max (∑ d : Fin 512, (x0 (ix2 p d) + x1 (ix2 p d)) * x2 (ix2 d k)) 0 * x3 (ix2 k l))
    = ∑ k : Fin 512, max (∑ d : Fin 512, (a0 (ix2 (i 0) d) + a1 (ix2 (i 0) d)) * a2 (ix2 d k)) 0 * a3 (ix2 k (i 1))
  refine Finset.sum_congr rfl fun k _ => ?_
  rw [h3 (ix2 k l) (ix2 k (i 1)) rfl hi1]
  refine congrArg (fun z => max z 0 * a3 (ix2 k (i 1))) (Finset.sum_congr rfl fun d _ => ?_)
  rw [h0 (ix2 p d) (ix2 (i 0) d) hi0 rfl, h1 (ix2 p d) (ix2 (i 0) d) hi0 rfl, h2 (ix2 d k) (ix2 d k) rfl rfl]

/-- What point t writes back is block t of G2 of the arrays as the region finds them. -/
theorem flushed_eq2 (c : Dev nD) (t : Fin cfg2.N) :
    (Hand.dat2 V c).flushed 4 t
      = ((cfg2.win 4).blk t).view.read (Elt Ideal) (G2 (V c main_v0) (V c main_v56) (V c main_v4) (V c main_v6)) := by
  rw [Hand.flushed2_4]
  unfold Hand.out2_4
  rw [View.canon_unit_zero hz2]
  simp only [View.ld_unit_zero (S := S512x512) hz2, View.ld_unit_zero (S := S512x128) hz2]
  obtain ⟨-, -, -, -, -, -, -, -, e0, e1⟩ := idx_facts2 t
  funext j
  refine point2 (V c main_v0) (V c main_v56) (V c main_v4) (V c main_v6)
    (Hand.iblk2 V c 0 t) (Hand.iblk2 V c 1 t) (Hand.iblk2 V c 2 t) (Hand.iblk2 V c 3 t) t.val
    (fun x k hk0 hk1 => iblk2_0_apply V c t x k hk0 hk1) (fun x k hk0 hk1 => iblk2_1_apply V c t x k hk0 hk1)
    (fun x k hk0 hk1 => iblk2_2_apply V c t x k hk0 hk1) (fun x k hk0 hk1 => iblk2_3_apply V c t x k hk0 hk1)
    ((cfg2.win 4).xinj (grid2.coords t) j) (((cfg2.win 4).blk t).view.emb j) ?_ ?_
  · show win2_4.index t 0 * 512 + 1 * (j 0).val = 512 * t.val + (j 0).val; rw [e0]; omega
  · show win2_4.index t 1 * 128 + 1 * (j 1).val = (j 1).val; rw [e1]; omega

/-- An index of the result array is in point t's block iff each coordinate is in the block's range. -/
theorem mem_blk2 (t : Fin cfg2.N) (i : S32768x128.Idx) :
    i ∈ ((cfg2.win 4).blk t).view.set ↔ ∀ a : Fin 2, win2_4.index t a * S512x128.size a ≤ (i a).val ∧ (i a).val < win2_4.index t a * S512x128.size a + S512x128.size a := by
  show i ∈ ((View.whole main_v57).slice (win2_4.rect t)).set ↔ _
  rw [View.set_slice_whole, Rect.mem_set_unit]
  exact Iff.rfl

/-- The result array after the region. -/
theorem final2 (c : Dev nD) :
    (Hand.dat2 V c).arrAt 4 cfg2.N = G2 (V c main_v0) (V c main_v56) (V c main_v4) (V c main_v6) :=
  (Hand.dat2 V c).arrAt_eq_of_cover 4 (G2 (V c main_v0) (V c main_v56) (V c main_v4) (V c main_v6))
    (fun t _ => flushed_eq2 V c t) fun i => by
    have hi0 : (i 0).val < 32768 := (i 0).isLt
    have hi1 : (i 1).val < 128 := (i 1).isLt
    have hN : cfg2.N = 64 := Gen.N_2
    refine ⟨⟨(i 0).val / 512, by rw [hN]; omega⟩, Gen.flush2_4 _, ?_⟩
    rw [mem_blk2]
    obtain ⟨-, -, -, -, -, -, -, -, e0, e1⟩ := idx_facts2 ⟨(i 0).val / 512, by rw [hN]; omega⟩
    intro a
    match a with
    | ⟨0, _⟩ => show win2_4.index _ 0 * 512 ≤ (i 0).val ∧ (i 0).val < win2_4.index _ 0 * 512 + 512; rw [e0]; show (i 0).val / 512 * 512 ≤ (i 0).val ∧ (i 0).val < (i 0).val / 512 * 512 + 512; omega
    | ⟨1, _⟩ => show win2_4.index _ 1 * 128 ≤ (i 1).val ∧ (i 1).val < win2_4.index _ 1 * 128 + 128; rw [e1]; omega

end Cert.KernelIdeal.HandValue

end
-- ==== Proof.LibRowSet.lean ====
/-
  Rows written by data: a scatter of rows whose body keeps the update, read at an index.

  `x.at[idx].set(upd)` over the rows of an `[R, C]` table (one row index per update row, carried as an `[N, 1]` array of
  words) takes the update elements one after another, each replacing the table's entry at the place its index word
  names; the word is read signed and NOT clamped, so a word outside `[0, R)` names no row and its update is dropped.
  Read at one place, the result is therefore decided by the updates that land there: where exactly one does, it is that
  update's element, whatever the order; where none does, it is the table's own entry.

  The first section says this for a left fold over any list, free of shapes; the second for a scatter with any dimension
  numbers; the third for the scatter of rows.
-/
import Idealize.ShloMosaic.PureOps.Ideal
import Idealize.ShloMosaic.Lib.ValueIdx
import proofs.«157345_j20959440404665_2_alg».proof.Proof.LibRowIndex

namespace Cert.Lib.RowSet

open Idealize.ShloMosaic Idealize.ShloMosaic.ValueIdx

/-! ## A fold of overwrites, free of shapes

A step `s r b` takes a table `r : ι → α` and a key `b`: when the key names a place (`g b = some i`) the new table holds `v b`
there and `r` elsewhere; when it names none (`g b = none`) the table is unchanged. The three hypotheses `hhit`, `hother`,
`hnone` say exactly that, so the lemmas hold for any way of writing such a step. -/

section Fold
variable {β ι α : Type} (g : β → Option ι) (s : (ι → α) → β → (ι → α)) (v : β → α)

/-- A place no key of the list names keeps its starting value through the whole fold. -/
theorem foldl_apply_of_forall_ne
    (hother : ∀ (r : ι → α) (b : β) (i i' : ι), g b = some i → i' ≠ i → s r b i' = r i')
    (hnone : ∀ (r : ι → α) (b : β), g b = none → s r b = r)
    (i' : ι) (L : List β) (r₀ : ι → α) (h : ∀ b ∈ L, g b ≠ some i') :
    L.foldl s r₀ i' = r₀ i' := by
  induction L generalizing r₀ with
  | nil => rfl
  | cons a L ih =>
    rw [List.foldl_cons, ih (s r₀ a) (fun b hb => h b (List.mem_cons_of_mem _ hb))]
    cases hg : g a with
    | none => rw [hnone r₀ a hg]
    | some i =>
      refine hother r₀ a i i' hg (fun e => h a (List.mem_cons_self ..) ?_)
      rw [hg, e]

/-- A place named by exactly one key `b` of the list (every key of the list that names it IS `b`) ends the fold holding
    `v b`: the keys after the last occurrence of `b` do not touch the place, and that occurrence writes `v b` there. -/
theorem foldl_apply_of_unique
    (hhit : ∀ (r : ι → α) (b : β) (i : ι), g b = some i → s r b i = v b)
    (hother : ∀ (r : ι → α) (b : β) (i i' : ι), g b = some i → i' ≠ i → s r b i' = r i')
    (hnone : ∀ (r : ι → α) (b : β), g b = none → s r b = r)
    (i' : ι) (b : β) (hb : g b = some i') (L : List β) (r₀ : ι → α) (hm : b ∈ L)
    (hu : ∀ b' ∈ L, g b' = some i' → b' = b) :
    L.foldl s r₀ i' = v b := by
  induction L generalizing r₀ with
  | nil => exact absurd hm List.not_mem_nil
  | cons a L ih =>
    rw [List.foldl_cons]
    by_cases hbL : b ∈ L
    · exact ih (s r₀ a) hbL (fun b' hb' => hu b' (List.mem_cons_of_mem _ hb'))
    · have hab : a = b := by
        rcases List.mem_cons.1 hm with h | h
        · exact h.symm
        · exact absurd h hbL
      rw [foldl_apply_of_forall_ne g s hother hnone i' L (s r₀ a)
        (fun b' hb' e => hbL (hu b' (List.mem_cons_of_mem _ hb') e ▸ hb')), hab]
      exact hhit r₀ b i' hb

end Fold

/-! ## A scatter whose body keeps the update, any dimension numbers -/

section Scatter
variable {s si u : Shape} {α : Type} {w : Nat} (d : ScatterDims s si u) (x : s.Idx → α) (idx : IVec si w) (upd : u.Idx → α)

/-- Where exactly one update index `j` lands on the place `i`, the scatter that keeps the update reads `upd j` there. -/
theorem scatter_set_apply_of_unique (i : s.Idx) (j : u.Idx) (hj : d.resultIdx? j idx = some i)
    (hu : ∀ j' : u.Idx, d.resultIdx? j' idx = some i → j' = j) :
    Host.scatter d (fun _ b => b) x idx upd i = upd j := by
  unfold Host.scatter
  refine (foldl_apply_of_unique (fun n => d.resultIdx? (u.rowMajor.symm n) idx) _ (fun n => upd (u.rowMajor.symm n))
    ?_ ?_ ?_ i (u.rowMajor j) ?_ (List.finRange u.numel) x (List.mem_finRange _) ?_).trans ?_
  · intro r b i h
    simp only [h, if_pos]
  · intro r b i i' h hne
    simp only [h, if_neg hne]
  · intro r b h
    simp only [h]
  · show d.resultIdx? (u.rowMajor.symm (u.rowMajor j)) idx = some i
    rw [Equiv.symm_apply_apply]; exact hj
  · intro b' _ hb'
    rw [← hu _ hb', Equiv.apply_symm_apply]
  · show upd (u.rowMajor.symm (u.rowMajor j)) = upd j
    rw [Equiv.symm_apply_apply]

/-- Where no update index lands on the place `i`, the scatter leaves the operand's element there. -/
theorem scatter_set_apply_of_forall_ne (i : s.Idx) (hn : ∀ j : u.Idx, d.resultIdx? j idx ≠ some i) :
    Host.scatter d (fun _ b => b) x idx upd i = x i := by
  unfold Host.scatter
  refine foldl_apply_of_forall_ne (fun n => d.resultIdx? (u.rowMajor.symm n) idx) _ ?_ ?_ i (List.finRange u.numel) x
    (fun b _ => hn _)
  · intro r b i i' h hne
    simp only [h, if_neg hne]
  · intro r b h
    simp only [h]

end Scatter

/-! ## The scatter of rows -/

/-- A scatter of `[N, C]` update rows into the rows of an `[R, C]` table, the row named by an `[N, 1]` array of words:
    the dimension numbers of `x.at[idx].set(upd)` (and of `.add`) with one row index per update row. -/
abbrev rowSet (R C N : Nat) (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ where
  updateWindowDims := [1]
  insertedWindowDims := [0]
  scatterDimsToOperandDims := [0]
  indexVectorDim := 1
  wf := wf

section Rows
variable {R C N w : Nat} {α : Type}
  (wf : ScatterDims.WF ⟨2, ![R, C]⟩ ⟨2, ![N, 1]⟩ ⟨2, ![N, C]⟩ [1] [0] [0] 1)
  (x : (⟨2, ![R, C]⟩ : Shape).Idx → α) (idx : IVec ⟨2, ![N, 1]⟩ w) (upd : (⟨2, ![N, C]⟩ : Shape).Idx → α)

/-- The update element `(n, c)` lands on the table's place `(r, c')` exactly when the `n`-th index word, read signed, IS `r`
    and `c = c'`; a word outside `[0, R)` lands nowhere. -/
theorem rowSet_resultIdx?_eq_some_iff (n : Fin N) (c : Fin C) (r : Fin R) (c' : Fin C) :
    (rowSet R C N wf).resultIdx? (ix2 n c) idx = some (ix2 r c')
      ↔ (idx (ix2 n (0 : Fin 1))).toInt = (r.val : ℤ) ∧ c = c' := by
  rw [show rowSet R C N wf = Cert.RowIndex.rowScatter R C N wf from rfl,
    Cert.RowIndex.rowScatter_resultIdx?_eq_some_iff wf (ix2 n c) idx (ix2 r c')]
  exact and_congr_right fun _ => Fin.val_inj

/-- The same, for any update index `j` and any place `i` of the table. -/
theorem rowSet_resultIdx?_eq_some_iff' (j : (⟨2, ![N, C]⟩ : Shape).Idx) (i : (⟨2, ![R, C]⟩ : Shape).Idx) :
    (rowSet R C N wf).resultIdx? j idx = some i
      ↔ (idx (ix2 (j 0) (0 : Fin 1))).toInt = ((i 0).val : ℤ) ∧ (j 1).val = (i 1).val :=
  Cert.RowIndex.rowScatter_resultIdx?_eq_some_iff wf j idx i

/-- THE ROW SET READ AT A ROW NAMED ONCE: if the `n`-th index word is `r` and no other word is, the result's row `r` is the
    update's row `n`. -/
theorem rowSet_apply_of_unique (n : Fin N) (r : Fin R) (c : Fin C)
    (hn : (idx (ix2 n (0 : Fin 1))).toInt = (r.val : ℤ))
    (hu : ∀ n' : Fin N, (idx (ix2 n' (0 : Fin 1))).toInt = (r.val : ℤ) → n' = n) :
    Host.scatter (rowSet R C N wf) (fun _ b => b) x idx upd (ix2 r c) = upd (ix2 n c) := by
  refine scatter_set_apply_of_unique (rowSet R C N wf) x idx upd (ix2 r c) (ix2 n c)
    ((rowSet_resultIdx?_eq_some_iff wf idx n c r c).2 ⟨hn, rfl⟩) ?_
  intro j' hj'
  have h := (rowSet_resultIdx?_eq_some_iff' wf idx j' (ix2 r c)).1 hj'
  have h0 : j' 0 = n := hu (j' 0) h.1
  have h1 : j' 1 = c := Fin.ext h.2
  exact (eq_ix2 j').trans (congrArg₂ ix2 h0 h1)

/-- THE ROW SET READ AT A ROW THE WORDS NAME AT MOST ONCE: if the words that name a row (those in `[0, R)`) are pairwise
    distinct and the `n`-th word is `r`, the result's row `r` is the update's row `n`. -/
theorem rowSet_apply_hit (n : Fin N) (r : Fin R) (c : Fin C)
    (hinj : ∀ a b : Fin N, 0 ≤ (idx (ix2 a (0 : Fin 1))).toInt → (idx (ix2 a (0 : Fin 1))).toInt < (R : ℤ) →
      0 ≤ (idx (ix2 b (0 : Fin 1))).toInt → (idx (ix2 b (0 : Fin 1))).toInt < (R : ℤ) →
      (idx (ix2 a (0 : Fin 1))).toInt = (idx (ix2 b (0 : Fin 1))).toInt → a = b)
    (hn : (idx (ix2 n (0 : Fin 1))).toInt = (r.val : ℤ)) :
    Host.scatter (rowSet R C N wf) (fun _ b => b) x idx upd (ix2 r c) = upd (ix2 n c) := by
  have hr := r.isLt
  refine rowSet_apply_of_unique wf x idx upd n r c hn fun n' hn' => ?_
  exact hinj n' n (by omega) (by omega) (by omega) (by omega) (hn'.trans hn.symm)

/-- THE ROW SET READ AT A ROW NO WORD NAMES: the table's own entry. -/
theorem rowSet_apply_miss (r : Fin R) (c : Fin C)
    (hmiss : ∀ n : Fin N, (idx (ix2 n (0 : Fin 1))).toInt ≠ (r.val : ℤ)) :
    Host.scatter (rowSet R C N wf) (fun _ b => b) x idx upd (ix2 r c) = x (ix2 r c) := by
  refine scatter_set_apply_of_forall_ne (rowSet R C N wf) x idx upd (ix2 r c) fun j hj => ?_
  exact hmiss (j 0) ((rowSet_resultIdx?_eq_some_iff' wf idx j (ix2 r c)).1 hj).1

end Rows

end Cert.Lib.RowSet
-- ==== Proof.RoutingMoves.lean ====
/-
  The moving half of the routing facts: rows scattered to their places and fetched back.

  Let the place words name, token by token, pairwise distinct rows below 36864. A place word is then not negative, so the
  wrap "add the extent if negative" that precedes an indexed access leaves it alone, and the column of row indices holds the
  place words themselves. The scatter of the token rows over the zero array writes row n of the tokens to row p n and
  nothing else there, and leaves zero on every row no token names. The guarded fetch of a table's rows at the places reads
  row p n of the table for token n: the guard holds because every place lies in [0, 36863].
-/
import proofs.«157345_j20959440404665_2_alg».proof.Proof.RoutingChain
import proofs.«157345_j20959440404665_2_alg».proof.Proof.LibRowSet
import proofs.«157345_j20959440404665_2_alg».proof.Proof.LibRowIndex
import proofs.«157345_j20959440404665_2_alg».proof.Proof.LibGroupedPositions
import proofs.«157345_j20959440404665_2_alg».proof.Proof.LibSmallWords
import Idealize.ShloMosaic.Lib.Pipeline.Value

noncomputable section

namespace Cert.KernelIdeal.Routing

open Cert.KernelIdeal Idealize.ShloMosaic Idealize.ShloMosaic.ValueIdx

variable {F : FTy → Type} [FloatOps F]

/-! ## The arrays inside the two definitions, named -/

/-- The place words with a negative word moved up by the extent 36864. -/
def normPlace (pl : IVec S32768 32) : IVec S32768 32 :=
  select (cmpi .slt pl (broadcastInDim S32768 ![] Gen.bcast_S_S32768 (constantI S_ 32 0#32)))
    (addi pl (broadcastInDim S32768 ![] Gen.bcast_S_S32768 (constantI S_ 32 36864#32))) pl

/-- The column of row indices is that array as a column. -/
theorem placeCol_eq (pl : IVec S32768 32) :
    placeCol pl = broadcastInDim S32768x1 ![0] Gen.bcast_S32768_S32768x1_0 (normPlace pl) := rfl

/-- The fetch's guard: 1 where the row index lies in [0, 36863]. -/
def fetchOk (pl : IVec S32768 32) : IVec S32768 1 :=
  Host.reduce IntOp.andi
    (andi (cmpi .sge (placeCol pl) (broadcastInDim S32768x1 ![] Gen.bcast_S_S32768x1 (constantI S_ 32 0#32)))
          (cmpi .sle (placeCol pl) (broadcastInDim S32768x1 ![0, 1] Gen.bcast_S1x1_S32768x1_0_1
                          (broadcastInDim S1x1 ![1] Gen.bcast_S1_S1x1_1 (constantI S1 32 36863#32)))))
    (constantI S_ 1 1#1) Gen.reducesTo_S32768x1_S32768_d1 Gen.h_S_

/-- The fetch, spelt with the arrays above. -/
theorem fetch_eq (tab : FVec F S36864x512 .f32) (pl : IVec S32768 32) :
    fetch tab pl = select (broadcastInDim S32768x512 ![0] Gen.bcast_S32768_S32768x512_0 (fetchOk pl))
      (Host.gather gather_S36864x512_S32768x1_S32768x512_1_0_n_n_0_1_1512 tab (placeCol pl))
      (broadcastInDim S32768x512 ![] Gen.bcast_S_S32768x512 (constant S_ .f32 0x7FC00000#32)) := rfl

/-! ## Place words that name rows -/

variable (pl : IVec S32768 32) (p : Fin 32768 → ℕ)

/-- A place word below 36864 reads signed as the row it names. -/
theorem place_toInt (hp : ∀ n, (pl (ValueIdx.ix1 n)).toNat = p n) (hlt : ∀ n, p n < 36864) (n : Fin 32768) :
    (pl (ValueIdx.ix1 n)).toInt = (p n : ℤ) := by
  rw [BitVec.toInt_eq_toNat_of_lt (by rw [hp]; have := hlt n; omega), hp]

/-- The column of row indices at row n is the n-th place word: it is not negative, so it is not wrapped. -/
theorem placeCol_at (hp : ∀ n, (pl (ValueIdx.ix1 n)).toNat = p n) (hlt : ∀ n, p n < 36864) (n : Fin 32768) (c : Fin 1) :
    placeCol pl (ix2 n c) = pl (ValueIdx.ix1 n) := by
  rw [placeCol_eq]
  refine (broadcastInDim_apply _ _ (normPlace pl) (ix2 n c) (ValueIdx.ix1 n) (fun a => match a with | ⟨0, _⟩ => rfl)).trans ?_
  show Scalar.select (IntOp.cmpi .slt (pl (ValueIdx.ix1 n)) 0#32) (IntOp.addi (pl (ValueIdx.ix1 n)) 36864#32)
    (pl (ValueIdx.ix1 n)) = _
  exact Cert.Lib.SmallWords.normalize_nonneg _ _ (by rw [place_toInt pl p hp hlt]; exact Int.natCast_nonneg _)

/-- The row index of token n, read signed, is p n. -/
theorem placeCol_toInt (hp : ∀ n, (pl (ValueIdx.ix1 n)).toNat = p n) (hlt : ∀ n, p n < 36864) (n : Fin 32768) (c : Fin 1) :
    (placeCol pl (ix2 n c)).toInt = (p n : ℤ) := by
  rw [placeCol_at pl p hp hlt, place_toInt pl p hp hlt]

/-! ## The scatter of the token rows -/

/-- Row p n of the grouped array is row n of the tokens: token n is the only one placed there. -/
theorem grouped_hit (hp : ∀ n, (pl (ValueIdx.ix1 n)).toNat = p n) (hlt : ∀ n, p n < 36864) (hinj : Function.Injective p)
    (rows : FVec F S32768x1024 .bf16) (n : Fin 32768) (f : Fin 1024) :
    grouped (placeCol pl) rows (ix2 (⟨p n, hlt n⟩ : Fin 36864) f) = rows (ix2 n f) := by
  unfold grouped
  refine Cert.Lib.RowSet.rowSet_apply_of_unique scatter_S36864x1024_S32768x1_S32768x1024_1_0_0_1.wf _ (placeCol pl) rows n
    ⟨p n, hlt n⟩ f (placeCol_toInt pl p hp hlt n 0) (fun n' hn' => hinj ?_)
  rw [placeCol_toInt pl p hp hlt n' 0] at hn'
  exact_mod_cast hn'

/-- A row of the grouped array that no token is placed on holds the zero the scatter started from. -/
theorem grouped_miss (hp : ∀ n, (pl (ValueIdx.ix1 n)).toNat = p n) (hlt : ∀ n, p n < 36864)
    (rows : FVec F S32768x1024 .bf16) (r : Fin 36864) (f : Fin 1024) (hr : ∀ n, p n ≠ r.val) :
    grouped (placeCol pl) rows (ix2 r f)
      = (broadcastInDim S36864x1024 ![] Gen.bcast_S_S36864x1024 (constant S_ .bf16 0x0000#16) : FVec F S36864x1024 .bf16) (ix2 r f) := by
  unfold grouped
  refine Cert.Lib.RowSet.rowSet_apply_miss scatter_S36864x1024_S32768x1_S32768x1024_1_0_0_1.wf _ (placeCol pl) rows r f
    (fun n hn => hr n ?_)
  rw [placeCol_toInt pl p hp hlt n 0] at hn
  exact_mod_cast hn

/-! ## The fetch of a table's rows -/

/-- The fetch's guard is 1 at every token: every place lies in [0, 36863]. -/
theorem fetchOk_at (hp : ∀ n, (pl (ValueIdx.ix1 n)).toNat = p n) (hlt : ∀ n, p n < 36864) (j : S32768.Idx) :
    fetchOk pl j = 1#1 := by
  unfold fetchOk
  rw [Cert.Lib.SmallWords.reduce_andi_iff]
  refine ⟨rfl, fun i _ => ?_⟩
  obtain ⟨m, c, rfl⟩ : ∃ (m : Fin 32768) (c : Fin 1), i = ix2 m c := ⟨i 0, i 1, eq_ix2 i⟩
  show IntOp.andi (IntOp.cmpi .sge (placeCol pl (ix2 m c)) 0#32) (IntOp.cmpi .sle (placeCol pl (ix2 m c)) 36863#32) = 1#1
  rw [IntOp.andi_eq_one, IntOp.cmpi_sge, IntOp.cmpi_sle, placeCol_toInt pl p hp hlt]
  have hm := hlt m
  have h0 : (0#32 : BitVec 32).toInt = 0 := by decide
  have h1 : (36863#32 : BitVec 32).toInt = 36863 := by decide
  rw [h0, h1]
  omega

/-- THE FETCH: token n reads row p n of the table. -/
theorem fetch_at (hp : ∀ n, (pl (ValueIdx.ix1 n)).toNat = p n) (hlt : ∀ n, p n < 36864)
    (tab : FVec F S36864x512 .f32) (n : Fin 32768) (j : Fin 512) :
    fetch tab pl (ix2 n j) = tab (ix2 (⟨p n, hlt n⟩ : Fin 36864) j) := by
  rw [fetch_eq]
  show Scalar.select (broadcastInDim S32768x512 ![0] Gen.bcast_S32768_S32768x512_0 (fetchOk pl) (ix2 n j))
    (Host.gather gather_S36864x512_S32768x1_S32768x512_1_0_n_n_0_1_1512 tab (placeCol pl) (ix2 n j)) _ = _
  rw [broadcastInDim_apply _ _ (fetchOk pl) (ix2 n j) (ValueIdx.ix1 n) (fun a => match a with | ⟨0, _⟩ => rfl),
    fetchOk_at pl p hp hlt, select_one,
    ← Cert.RowIndex.clampRow_of_eq (by norm_num) (placeCol pl (ix2 n (0 : Fin 1))) ⟨p n, hlt n⟩ (placeCol_toInt pl p hp hlt n 0)]
  exact Cert.RowIndex.rowGather_apply (by norm_num) gather_S36864x512_S32768x1_S32768x512_1_0_n_n_0_1_1512.wf tab (placeCol pl) n j

end Cert.KernelIdeal.Routing

end
-- ==== Proof.ValueBridge.lean ====
/-
  The value of the three kernels chained through the routing, as one function of the six argument arrays.

  The first kernel computes the shared first layer for every token. Its rows are scattered to the tokens' places in the
  grouped array (the counting-sort position of each token: its label's room plus its rank), the second kernel multiplies
  each tile of 512 grouped rows by the weights of the tile's label, and the rows are fetched back at the same places. Since
  the places are pairwise distinct and below the grouped array's extent, the row fetched back for token n is the row computed
  from token n's own first layer; since the tile holding a token's place carries the token's label, the weights used are
  those of the token's label. So the array fetched back is, entry by entry, the branch each token's label selects, and the
  third kernel's first column is the routed network's output.
-/
import proofs.«157345_j20959440404665_2_alg».proof.Proof.RoutingMoves
import proofs.«157345_j20959440404665_2_alg».proof.Proof.RoutingPlaces
import proofs.«157345_j20959440404665_2_alg».proof.Proof.LibGroupedPositions
import proofs.«157345_j20959440404665_2_alg».proof.Proof.PreLabels
import proofs.«157345_j20959440404665_2_alg».proof.Proof.Spec
import Idealize.ShloMosaic.Lib.KernelVsHost
import Idealize.ShloMosaic.Lib.Pipeline.Value

open scoped BigOperators

noncomputable section

namespace Cert.KernelIdeal.Bridge

open Cert.KernelIdeal Cert.KernelIdeal.Routing Idealize.ShloMosaic Idealize.ShloMosaic.ValueIdx

/-! ## The three kernels' outputs as whole-array functions -/

/-- The first kernel: a matrix product followed by the positive part. -/
abbrev G0 (a0 : S32768x512.Idx → EReal) (a2 : S512x1024.Idx → EReal) : S32768x1024.Idx → EReal :=
  fun i => max (∑ d : Fin 512, a0 (ix2 (i 0) d) * a2 (ix2 d (i 1))) 0

/-- The second kernel: each tile of 512 rows times the weights of the tile's label g, then the positive part. -/
abbrev G1 (xg : S36864x1024.Idx → EReal) (wt : S8x1024x512.Idx → EReal) (g : Fin 72 → Fin 8) : S36864x512.Idx → EReal :=
  fun i => max (∑ f : Fin 1024, xg (ix2 (i 0) f)
    * wt (ix3 (g ⟨(i 0).val / 512, by have : (i 0).val < 36864 := (i 0).isLt; omega⟩) f (i 1))) 0

/-- The third kernel: the residual sum times a matrix, the positive part, times a second matrix. -/
abbrev G2 (a0 a1 : S32768x512.Idx → EReal) (a2 : S512x512.Idx → EReal) (a3 : S512x128.Idx → EReal) :
    S32768x128.Idx → EReal :=
  fun i => ∑ k : Fin 512, max (∑ d : Fin 512, (a0 (ix2 (i 0) d) + a1 (ix2 (i 0) d)) * a2 (ix2 d k)) 0 * a3 (ix2 k (i 1))

/-! ## Three changes of layout -/

/-- The input viewed as [32768, 512] holds at (n, d) the entry (n / 512, n % 512, d): the same row-major position. -/
theorem xrow_at (x : FVec Ideal S64x512x512 .f32) (n : Fin 32768) (d : Fin 512) :
    shapeCast S32768x512 x Gen.shapeCasts_S64x512x512_S32768x512 (ix2 n d) = Cert.Routed.xrow x n d := by
  unfold Cert.Routed.xrow
  refine shapeCast_apply x _ (ix2 n d) (ix3 (Cert.Routed.tokB n) (Cert.Routed.tokS n) d) ?_
  rw [Shape.rowMajor_val_three, Shape.rowMajor_val_two]
  show ((n.val / 512) * 512 + n.val % 512) * 512 + d.val = n.val * 512 + d.val
  omega

/-- Column 0 of a [512, 1] column padded on the right to [512, 128] is the column. -/
theorem pad_col0 (w2 : FVec Ideal S512x1 .f32) (z : FVec Ideal S_ .f32) (k : Fin 512) :
    pad S512x128 ![0, 0] ![0, 127] ![0, 0] w2 z Gen.pads_S512x1_S512x128_000_01270 Gen.h_S_ (ix2 k (0 : Fin 128))
      = w2 (ix2 k (0 : Fin 1)) :=
  pad_apply_of_inside _ _ _ w2 z _ _ (ix2 k (0 : Fin 128)) (ix2 k (0 : Fin 1)) (fun a => match a with
    | ⟨0, _⟩ => by show k.val = 0 + k.val * (0 + 1); omega
    | ⟨1, _⟩ => rfl)

/-- The slice of column 0 of a [32768, 128] array is that column. -/
theorem slice_col0 (o : S32768x128.Idx → EReal) (n : Fin 32768) :
    extractStridedSlice S32768x1 ![0, 0] o Gen.slices_S32768x128_S32768x1_0_0 (ix2 n (0 : Fin 1)) = o (ix2 n (0 : Fin 128)) :=
  extractStridedSlice_apply _ o _ (ix2 n (0 : Fin 1)) (ix2 n (0 : Fin 128)) (fun a => match a with
    | ⟨0, _⟩ => by show n.val = 0 + n.val; omega
    | ⟨1, _⟩ => rfl)

/-! ## The chain -/

section Chain
variable (x : FVec Ideal S64x512x512 .f32) (t : IVec S64x512 32) (wpre : FVec Ideal S512x1024 .f32)
  (wt : FVec Ideal S8x1024x512 .f32) (wc1 : FVec Ideal S512x512 .f32) (wc2 : FVec Ideal S512x1 .f32)
  (z : FVec Ideal S_ .f32) (g : Fin 72 → Fin 8)

/-- The label array, flat. -/
abbrev flat : IVec S32768 32 := shapeCast S32768 t Gen.shapeCasts_S64x512_S32768
/-- The input as [32768, 512]. -/
abbrev X2 : S32768x512.Idx → EReal := shapeCast S32768x512 x Gen.shapeCasts_S64x512x512_S32768x512
/-- The first kernel's output. -/
abbrev o0 : FVec Ideal S32768x1024 .bf16 := G0 (X2 x) (truncf .bf16 wpre Gen.bitsLt_bf16_f32)
/-- Its rows at their places. -/
abbrev xg : FVec Ideal S36864x1024 .bf16 := grouped (F := Ideal) (placeCol (placeT (flat t))) (o0 x wpre)
/-- The second kernel's output. -/
abbrev o1 : FVec Ideal S36864x512 .f32 := G1 (xg x t wpre) (truncf .bf16 wt Gen.bitsLt_bf16_f32) g
/-- Its rows fetched back. -/
abbrev yv : FVec Ideal S32768x512 .f32 := fetch (F := Ideal) (o1 x t wpre wt g) (placeT (flat t))
/-- The third kernel's output. -/
abbrev o2 : S32768x128.Idx → EReal :=
  G2 (X2 x) (yv x t wpre wt g) (truncf .bf16 wc1 Gen.bitsLt_bf16_f32)
    (truncf .bf16 (pad S512x128 ![0, 0] ![0, 127] ![0, 0] wc2 z Gen.pads_S512x1_S512x128_000_01270 Gen.h_S_) Gen.bitsLt_bf16_f32)

/-- The first kernel's output is the shared first layer. -/
theorem o0_at (n : Fin 32768) (f : Fin 1024) : o0 x wpre (ix2 n f) = Cert.Routed.pre x wpre n f := by
  unfold Cert.Routed.pre
  refine congrArg (fun s => max s 0) (Finset.sum_congr rfl fun d _ => ?_)
  show shapeCast S32768x512 x Gen.shapeCasts_S64x512x512_S32768x512 (ix2 n d) * wpre (ix2 d f) = _
  rw [xrow_at]

/-- The position of token n in the grouped array. -/
abbrev P (h : InRange (flat t)) (n : Fin 32768) : ℕ := Cert.Lib.GroupedPositions.pos 512 (lab (flat t) h) n

/-- Every position is below the grouped array's extent: 32768 + 8 · 511 < 36864. -/
theorem P_lt (h : InRange (flat t)) (n : Fin 32768) : P t h n < 36864 := by
  have := Cert.Lib.GroupedPositions.pos_lt (N := 32768) (K := 8) (T := 512) (by norm_num) (lab (flat t) h) n
  show Cert.Lib.GroupedPositions.pos 512 (lab (flat t) h) n < 36864
  omega

/-- The tile holding token n's position. -/
abbrev tileOf (h : InRange (flat t)) (n : Fin 32768) : Fin 72 := ⟨P t h n / 512, by have := P_lt t h n; omega⟩

variable (h : InRange (flat t))
  (hplace : ∀ n : Fin 32768, (placeT (flat t) (ValueIdx.ix1 n)).toNat = P t h n)
  (htile : ∀ n : Fin 32768, (tileT (flat t) (ValueIdx.ix1 (tileOf t h n))).toNat = (lab (flat t) h n).val)
  (hg : ∀ τ : Fin 72, (g τ).val = (tileT (flat t) (ValueIdx.ix1 τ)).toNat)

include hplace in
/-- The grouped array's row at token n's position is token n's first layer. -/
theorem xg_at (n : Fin 32768) (f : Fin 1024) :
    xg x t wpre (ix2 (⟨P t h n, P_lt t h n⟩ : Fin 36864) f) = Cert.Routed.pre x wpre n f :=
  (grouped_hit (F := Ideal) (placeT (flat t)) (P t h) hplace (P_lt t h)
    (Cert.Lib.GroupedPositions.pos_inj (by norm_num) (lab (flat t) h)) (o0 x wpre) n f).trans (o0_at x wpre n f)

include htile hg in
/-- The tile holding token n's position carries token n's label. -/
theorem g_tileOf (n : Fin 32768) : g (tileOf t h n) = lab (flat t) h n :=
  Fin.ext ((hg _).trans (htile n))

include hplace htile hg in
/-- The second kernel's row at token n's position is the branch of token n's label. -/
theorem o1_at (n : Fin 32768) (d : Fin 512) :
    o1 x t wpre wt g (ix2 (⟨P t h n, P_lt t h n⟩ : Fin 36864) d) = Cert.Routed.typed x wpre wt (lab (flat t) h n) n d := by
  unfold Cert.Routed.typed
  show max (∑ f : Fin 1024, xg x t wpre (ix2 (⟨P t h n, P_lt t h n⟩ : Fin 36864) f) * wt (ix3 (g (tileOf t h n)) f d)) 0 = _
  rw [g_tileOf t g h htile hg n]
  refine congrArg (fun s => max s 0) (Finset.sum_congr rfl fun f _ => ?_)
  rw [xg_at x t wpre h hplace n f]

include hplace htile hg in
/-- The row fetched back for token n is the branch of token n's label. -/
theorem y_at (n : Fin 32768) (d : Fin 512) :
    yv x t wpre wt g (ix2 n d) = Cert.Routed.typed x wpre wt (lab (flat t) h n) n d :=
  (fetch_at (F := Ideal) (placeT (flat t)) (P t h) hplace (P_lt t h) (o1 x t wpre wt g) n d).trans
    (o1_at x t wpre wt g h hplace htile hg n d)

/-- The branch the label word selects is the branch of the label as a number. -/
theorem routed_eq (n : Fin 32768) (d : Fin 512) :
    Cert.Routed.routed x wpre wt (Cert.Routed.label t n) n d = Cert.Routed.typed x wpre wt (lab (flat t) h n) n d := by
  unfold Cert.Routed.routed
  rw [← Cert.PreLabels.flat_label t n, dif_pos (h n)]
  rfl

include hplace htile hg in
/-- THE KERNELS' VALUE: the first column of the third kernel's output is the routed network. -/
theorem kernel_is_G :
    extractStridedSlice S32768x1 ![0, 0] (o2 x t wpre wt wc1 wc2 z g) Gen.slices_S32768x128_S32768x1_0_0
      = Cert.Routed.G x t wpre wt wc1 wc2 := by
  funext i
  obtain ⟨n, c, rfl⟩ : ∃ (n : Fin 32768) (c : Fin 1), i = ix2 n c := ⟨i 0, i 1, eq_ix2 i⟩
  obtain rfl : c = 0 := Subsingleton.elim _ _
  rw [slice_col0]
  show ∑ k : Fin 512, max (∑ d : Fin 512, (X2 x (ix2 n d) + yv x t wpre wt g (ix2 n d)) * wc1 (ix2 d k)) 0
      * pad S512x128 ![0, 0] ![0, 127] ![0, 0] wc2 z Gen.pads_S512x1_S512x128_000_01270 Gen.h_S_ (ix2 k (0 : Fin 128))
    = ∑ c : Fin 512, Cert.Routed.hid x t wpre wt wc1 n c * wc2 (ix2 c (0 : Fin 1))
  refine Finset.sum_congr rfl fun k _ => ?_
  rw [pad_col0]
  unfold Cert.Routed.hid
  refine congrArg (fun s => max s 0 * wc2 (ix2 k (0 : Fin 1))) (Finset.sum_congr rfl fun d _ => ?_)
  rw [show X2 x (ix2 n d) = Cert.Routed.xrow x n d from xrow_at x n d, y_at x t wpre wt g h hplace htile hg n d,
    routed_eq x t wpre wt h n d]

/-- THE KERNELS' VALUE, with the places and the tiles' labels read off the program's own integer stages: for any table g
    of tile labels that agrees with the program's, the first column of the third kernel's output is the routed network. -/
theorem kernel_is_G_routed (h : InRange (flat t))
    (hg : ∀ τ : Fin 72, (g τ).val = (tileT (flat t) (ValueIdx.ix1 τ)).toNat) :
    extractStridedSlice S32768x1 ![0, 0] (o2 x t wpre wt wc1 wc2 z g) Gen.slices_S32768x128_S32768x1_0_0
      = Cert.Routed.G x t wpre wt wc1 wc2 :=
  kernel_is_G x t wpre wt wc1 wc2 z g h (placeT_toNat (flat t) h) (tile_of_place (flat t) h) hg

/-- The program's table of tile labels, as labels. -/
abbrev gT (h : InRange (flat t)) (τ : Fin 72) : Fin 8 := ⟨(tileT (flat t) (ValueIdx.ix1 τ)).toNat, tileT_lt (flat t) h τ⟩

/-- THE KERNELS' VALUE at the program's own table of tile labels. -/
theorem kernel_is_G_gT (h : InRange (flat t)) :
    extractStridedSlice S32768x1 ![0, 0] (o2 x t wpre wt wc1 wc2 z (gT t h)) Gen.slices_S32768x128_S32768x1_0_0
      = Cert.Routed.G x t wpre wt wc1 wc2 :=
  kernel_is_G_routed x t wpre wt wc1 wc2 z (gT t h) h (fun _ => rfl)

end Chain

end Cert.KernelIdeal.Bridge

end
-- ==== Proof.KernelResult.lean ====
/-
  The result buffer after the run is the routed network of the six argument arrays.

  The host stretches compute each region's inputs from the arguments, the three regions leave in their output arrays the
  whole-array functions G0, G1, G2 of what they read, and the stretches between them scatter and fetch the rows at the
  places the label column's integer pipeline computes. Substituting stage into stage, the third region's output is the chain
  of ValueBridge at the argument arrays, whose first column is the routed network; the last stretch slices that column out.
-/
import proofs.«157345_j20959440404665_2_alg».proof.Proof.KernelChain
import proofs.«157345_j20959440404665_2_alg».proof.Proof.KFrame.Data
import proofs.«157345_j20959440404665_2_alg».proof.Proof.KFrame.TableOk
import proofs.«157345_j20959440404665_2_alg».proof.Proof.KValue.Region0
import proofs.«157345_j20959440404665_2_alg».proof.Proof.KValue.Region1
import proofs.«157345_j20959440404665_2_alg».proof.Proof.KValue.Region2
import proofs.«157345_j20959440404665_2_alg».proof.Proof.ValueBridge

set_option maxRecDepth 16384

noncomputable section

namespace Cert.KernelIdeal.Result

open Cert.KernelIdeal Cert.KernelIdeal.Gen Cert.KernelIdeal.Routing
open Idealize.ShloMosaic Idealize.ShloMosaic.TcCoe Idealize.SL.Sem Idealize.ShloMosaic.ValueIdx

/-! ## The padded last column, any float model -/

section Generic
variable {F : FTy → Type} [FloatOps F] (m : (ℓ : Loc nD τ sig) → Buf (Elt F) ℓ) (c : Dev nD)

/-- The first stretch leaves the last layer's column as it found it. -/
theorem arg5_at1 : (Gen.V1 m c main_arg5 : (⟨S512x1, .f32⟩ : BufTy).Contents (Elt F)) = Gen.V0 m c main_arg5 :=
  Gen.V1_of m c _ (by decide)

/-- The zero word the padding reads. -/
theorem c_eq : (Gen.V1 m c main_c : (⟨S_, .i32⟩ : BufTy).Contents (Elt F)) = constantI S_ 32 0#32 :=
  HostRead.hostOps0_c (Gen.V0 m c)

/-- The last layer's column padded with zero columns to 128. -/
theorem v5_eq : (Gen.V2 m c main_v5 : (⟨S512x128, .f32⟩ : BufTy).Contents (Elt F))
    = pad S512x128 ![0, 0] ![0, 127] ![0, 0] (Gen.V0 m c main_arg5) (sitofp .f32 (constantI S_ 32 0#32))
        Gen.pads_S512x1_S512x128_000_01270 Gen.h_S_ := by
  rw [show (Gen.V2 m c main_v5 : (⟨S512x128, .f32⟩ : BufTy).Contents (Elt F)) = _ from HostRead.hostOps0_1_v5 (Gen.V1 m c),
    arg5_at1 m c, c_eq m c]

/-- The padded column rounded to sixteen bits: what the third region reads. -/
theorem v6_eq : (Gen.V3 m c main_v6 : (⟨S512x128, .bf16⟩ : BufTy).Contents (Elt F))
    = truncf .bf16 (pad S512x128 ![0, 0] ![0, 127] ![0, 0] (Gen.V0 m c main_arg5) (sitofp .f32 (constantI S_ 32 0#32))
        Gen.pads_S512x1_S512x128_000_01270 Gen.h_S_) Gen.bitsLt_bf16_f32 := by
  rw [show (Gen.V3 m c main_v6 : (⟨S512x128, .bf16⟩ : BufTy).Contents (Elt F)) = _ from HostRead.hostOps0_2_v6 (Gen.V2 m c),
    v5_eq m c]

end Generic

/-! ## The chain at the ideal values -/

section AtIdeal
variable (m : (ℓ : Loc nD τ sig) → Buf (Elt Ideal) ℓ) (hOk : Hand.Ok m) (c : Dev nD)

/-- The six argument arrays as the launch holds them on core c. -/
abbrev A0 : FVec Ideal S64x512x512 .f32 := Gen.V0 m c main_arg0
abbrev A1 : IVec S64x512 32 := Gen.V0 m c main_arg1
abbrev A2 : FVec Ideal S512x1024 .f32 := Gen.V0 m c main_arg2
abbrev A3 : FVec Ideal S8x1024x512 .f32 := Gen.V0 m c main_arg3
abbrev A4 : FVec Ideal S512x512 .f32 := Gen.V0 m c main_arg4
abbrev A5 : FVec Ideal S512x1 .f32 := Gen.V0 m c main_arg5
/-- The padding value: the zero word as a float. -/
abbrev z0 : FVec Ideal S_ .f32 := sitofp .f32 (constantI S_ 32 0#32)

/-- The flat label array of the chain is the flat label array of the bridge. -/
theorem flat_eq : Bridge.flat (A1 m c) = Chain.flat m c := rfl

/-- What the first region leaves is the first kernel's value at the arguments. -/
theorem o0_eq : (Hand.outs m hOk 4 main_v7 c : S32768x1024.Idx → EReal) = Bridge.o0 (A0 m c) (A2 m c) := by
  have e1 : (Hand.outs m hOk 4 main_v7 c : S32768x1024.Idx → EReal) = (Hand.dat0 (Hand.ent0 m) c).arrAt 2 cfg0.N :=
    (Hand.outs_4 m hOk c).trans (Hand.left0_eq m c)
  have e2 := HandValue.final0 (Hand.ent0 m) c
  have a : (Hand.ent0 m c main_v0 : S32768x512.Idx → EReal) = Bridge.X2 (A0 m c) := (Chain.v0_at3 m c).trans (Chain.v0_eq m c)
  have b : (Hand.ent0 m c main_v2 : S512x1024.Idx → EReal) = truncf .bf16 (A2 m c) Gen.bitsLt_bf16_f32 :=
    (Chain.v2_at3 m c).trans (Chain.v2_eq m c)
  exact e1.trans (e2.trans (congrArg₂ Bridge.G0 a b))

include hOk in
/-- The grouped array the second region reads is the first kernel's rows at their places. -/
theorem xg_eq : (Hand.ent1 m c main_v54 : S36864x1024.Idx → EReal) = Bridge.xg (A0 m c) (A1 m c) (A2 m c) := by
  have e : (Gen.V17 m (Hand.outs m hOk) c main_v54 : S36864x1024.Idx → EReal)
      = grouped (F := Ideal) (placeCol (placeT (Chain.flat m c))) (Hand.outs m hOk 4 main_v7 c) :=
    Chain.v54_eq m (Hand.outs m hOk) c
  exact e.trans (congrArg (grouped (F := Ideal) (placeCol (placeT (Chain.flat m c)))) (o0_eq m hOk c))

/-- The grouped weights the second region reads. -/
theorem w3_eq : (Hand.ent1 m c main_v3 : S8x1024x512.Idx → EReal) = truncf .bf16 (A3 m c) Gen.bitsLt_bf16_f32 :=
  (Chain.v3_at17 m (Hand.outsA m) c).trans (Chain.v3_eq m c)

/-- The table the second region reads holds the program's tile labels (there is one core). -/
theorem tbl_eq_tileT : (Hand.tbl m 0 : S72.Idx → BitVec 32) = tileT (Chain.flat m c) := by
  obtain rfl : c = 0 := Subsingleton.elim _ _
  exact (Hand.tbl_eq m).trans (Chain.v46_eq m (Hand.outsA m) 0)

/-- What the second region leaves is the second kernel's value at the grouped rows and the program's tile labels. -/
theorem o1_eq (hr : InRange (Chain.flat m c)) :
    (Hand.outs m hOk 18 main_v55 c : S36864x512.Idx → EReal)
      = Bridge.o1 (A0 m c) (A1 m c) (A2 m c) (A3 m c) (Bridge.gT (A1 m c) hr) := by
  have e1 : (Hand.outs m hOk 18 main_v55 c : S36864x512.Idx → EReal)
      = (Hand.dat1 (Hand.ent1 m) (Hand.adm1 m hOk) c).arrAt 2 (cfg1 (Hand.adm1 m hOk)).N :=
    (Hand.outs_18 m hOk c).trans (Hand.left1_eq m hOk c)
  have e2 := HandValue.final1 (Hand.ent1 m) (Hand.adm1 m hOk) (Bridge.gT (A1 m c) hr)
    (fun q => congrArg (fun w : S72.Idx → BitVec 32 => (w (ValueIdx.ix1 q)).toNat) (tbl_eq_tileT m c)) c
  exact e1.trans (e2.trans (congrArg₂ (fun a b => Bridge.G1 a b (Bridge.gT (A1 m c) hr)) (xg_eq m hOk c) (w3_eq m c)))

/-- The rows fetched back for the third region. -/
theorem y_eq (hr : InRange (Chain.flat m c)) :
    (Hand.ent2 m hOk c main_v56 : S32768x512.Idx → EReal)
      = Bridge.yv (A0 m c) (A1 m c) (A2 m c) (A3 m c) (Bridge.gT (A1 m c) hr) := by
  have e : (Gen.V19 m (Hand.outs m hOk) c main_v56 : S32768x512.Idx → EReal)
      = fetch (F := Ideal) (Hand.outs m hOk 18 main_v55 c) (placeT (Chain.flat m c)) := Chain.v56_eq m (Hand.outs m hOk) c
  exact e.trans (congrArg (fun o => fetch (F := Ideal) o (placeT (Chain.flat m c))) (o1_eq m hOk c hr))

/-- What the third region leaves is the third kernel's value along the chain. -/
theorem o2_eq (hr : InRange (Chain.flat m c)) :
    (Hand.outs m hOk 20 main_v57 c : S32768x128.Idx → EReal)
      = Bridge.o2 (A0 m c) (A1 m c) (A2 m c) (A3 m c) (A4 m c) (A5 m c) z0 (Bridge.gT (A1 m c) hr) := by
  have e1 : (Hand.outs m hOk 20 main_v57 c : S32768x128.Idx → EReal) = (Hand.dat2 (Hand.ent2 m hOk) c).arrAt 4 cfg2.N :=
    (Hand.outs_20 m hOk c).trans (Hand.left2_eq m hOk c)
  have e2 := HandValue.final2 (Hand.ent2 m hOk) c
  have a : (Hand.ent2 m hOk c main_v0 : S32768x512.Idx → EReal) = Bridge.X2 (A0 m c) :=
    (Chain.v0_at19 m (Hand.outsB m hOk) c).trans (Chain.v0_eq m c)
  have b : (Hand.ent2 m hOk c main_v4 : S512x512.Idx → EReal) = truncf .bf16 (A4 m c) Gen.bitsLt_bf16_f32 :=
    (Chain.v4_at19 m (Hand.outsB m hOk) c).trans (Chain.v4_eq m c)
  have d : (Hand.ent2 m hOk c main_v6 : S512x128.Idx → EReal)
      = truncf .bf16 (pad S512x128 ![0, 0] ![0, 127] ![0, 0] (A5 m c) z0 Gen.pads_S512x1_S512x128_000_01270 Gen.h_S_)
          Gen.bitsLt_bf16_f32 :=
    (Chain.v6_at19 m (Hand.outsB m hOk) c).trans (v6_eq m c)
  have e3 : HandValue.G2 (Hand.ent2 m hOk c main_v0) (Hand.ent2 m hOk c main_v56) (Hand.ent2 m hOk c main_v4)
      (Hand.ent2 m hOk c main_v6)
      = Bridge.o2 (A0 m c) (A1 m c) (A2 m c) (A3 m c) (A4 m c) (A5 m c) z0 (Bridge.gT (A1 m c) hr) := by
    rw [a, y_eq m hOk c hr, b, d]
  exact e1.trans (e2.trans e3)

/-- THE RESULT BUFFER AFTER THE RUN IS THE ROUTED NETWORK OF THE ARGUMENTS. -/
theorem result_is_G (hr : InRange (Chain.flat m c)) :
    (Gen.V21 m (Hand.outs m hOk) c main_v58 : S32768x1.Idx → EReal)
      = Cert.Routed.G (Gen.V0 m c main_arg0) (Gen.V0 m c main_arg1) (Gen.V0 m c main_arg2) (Gen.V0 m c main_arg3)
          (Gen.V0 m c main_arg4) (Gen.V0 m c main_arg5) := by
  have e : (Gen.V21 m (Hand.outs m hOk) c main_v58 : S32768x1.Idx → EReal)
      = extractStridedSlice S32768x1 ![0, 0] (Hand.outs m hOk 20 main_v57 c) Gen.slices_S32768x128_S32768x1_0_0 :=
    Chain.v58_eq m (Hand.outs m hOk) c
  have e' : extractStridedSlice S32768x1 ![0, 0] (Hand.outs m hOk 20 main_v57 c : S32768x128.Idx → EReal)
        Gen.slices_S32768x128_S32768x1_0_0
      = extractStridedSlice S32768x1 ![0, 0]
          (Bridge.o2 (A0 m c) (A1 m c) (A2 m c) (A3 m c) (A4 m c) (A5 m c) z0 (Bridge.gT (A1 m c) hr))
          Gen.slices_S32768x128_S32768x1_0_0 :=
    congrArg (fun o : S32768x128.Idx → EReal =>
      extractStridedSlice S32768x1 ![0, 0] o Gen.slices_S32768x128_S32768x1_0_0) (o2_eq m hOk c hr)
  have e'' := Bridge.kernel_is_G_gT (A0 m c) (A1 m c) (A2 m c) (A3 m c) (A4 m c) (A5 m c) z0 hr
  exact e.trans (e'.trans e'')

end AtIdeal

end Cert.KernelIdeal.Result

end
-- ==== Proof.RefRead.lean ====
/-
  The reference's run and its stages read at an index, as generated; this module only brings them into scope.
-/
import proofs.«157345_j20959440404665_2_alg».proof.Proof.Gen.ReferenceIdeal.Run
import proofs.«157345_j20959440404665_2_alg».proof.Proof.Gen.ReferenceIdeal.Read
-- ==== Proof.RefIsSpec.lean ====
/-
  The reference network, read entry by entry, is the routed feed-forward network of the specification.

  The reference flattens the tokens to rows (row n = 512·b + s is token (b, s)), applies the shared first layer, computes
  all eight branches for every token, and keeps for each token the branch its label names by a chain of eight selects
  that starts from zero; a label outside 0..7 therefore keeps the zero, which is what the specification's routing says.
  Each layer is read at an index (n, column) and identified with the specification's layer of the same name; the
  contractions are the plain sums over the inner axis, and a relu is the maximum with zero.
-/
import proofs.«157345_j20959440404665_2_alg».proof.Proof.RefRead
import proofs.«157345_j20959440404665_2_alg».proof.Proof.Spec

open scoped BigOperators

noncomputable section

namespace Cert.ReferenceIdeal.RefValue

open Cert.ReferenceIdeal Cert.ReferenceIdeal.Gen Idealize.ShloMosaic Idealize.ShloMosaic.ValueIdx Cert.Routed

/-! ### The flattened input, the labels, the first layer -/

/-- Row n, column d of the flattened input is entry (n / 512, n % 512, d) of the input. -/
theorem idx_x (n : Fin 32768) (d : Fin 512) :
    Read.idx_main_v0 (ix2 n d) = ix3 (tokB n) (tokS n) d := funext fun a => Fin.ext (by
  have hn := n.isLt; have hd := d.isLt
  match a with
  | ⟨0, _⟩ => show (n.val * 512 + d.val) / 262144 = n.val / 512; omega
  | ⟨1, _⟩ => show (n.val * 512 + d.val) / 512 % 512 = n.val % 512; omega
  | ⟨2, _⟩ => show (n.val * 512 + d.val) % 512 = d.val; omega)

theorem x_at (x : (⟨S64x512x512, .f32⟩ : BufTy).Contents (Elt Ideal)) (n : Fin 32768) (d : Fin 512) :
    Read.val_main_v0 (F := Ideal) x (ix2 n d) = xrow x n d := by
  rw [Read.val_main_v0_apply, idx_x]; rfl

/-- Entry n of the flattened labels is the label of token n. -/
theorem label_at (t : (⟨S64x512, .i32⟩ : BufTy).Contents (Elt Ideal)) (n : Fin 32768) :
    Read.val_main_v1 (F := Ideal) t (ix1 n) = label t n := by
  rw [Read.val_main_v1_apply]
  exact congrArg t (funext fun a => Fin.ext (by match a with | ⟨0, _⟩ => rfl | ⟨1, _⟩ => rfl))

theorem lidx_v2 (n : Fin 32768) (f : Fin 1024) (k : Fin 512) : Read.lidx_main_v2 (ix2 n f) k = ix2 n k :=
  funext fun a => Fin.ext (by match a with | ⟨0, _⟩ => rfl | ⟨1, _⟩ => rfl)
theorem ridx_v2 (n : Fin 32768) (f : Fin 1024) (k : Fin 512) : Read.ridx_main_v2 (ix2 n f) k = ix2 k f :=
  funext fun a => Fin.ext (by match a with | ⟨0, _⟩ => rfl | ⟨1, _⟩ => rfl)

/-- The shared first layer at token n, feature f. -/
theorem pre_at (x : (⟨S64x512x512, .f32⟩ : BufTy).Contents (Elt Ideal)) (wpre : (⟨S512x1024, .f32⟩ : BufTy).Contents (Elt Ideal))
    (n : Fin 32768) (f : Fin 1024) :
    Read.val_main_v3 (F := Ideal) x wpre (ix2 n f) = pre x wpre n f := by
  rw [Read.val_main_v3_apply, Read.val_main_v2_apply, Read.val_main_call0_v0_apply, Read.val_main_call0_cst_apply]
  simp only [lidx_v2, ridx_v2, x_at, Ideal.maximumf_def, Ideal.ofBits_def, Ideal.ofBits_zero_f32]
  rfl

/-! ### The first branch (label 0) -/

/-- Entry (f, j) of the weight matrix of type 0: the slab 0 of the branch weights, flattened to a matrix. -/
theorem wt_at_0 (wt : (⟨S8x1024x512, .f32⟩ : BufTy).Contents (Elt Ideal)) (f : Fin 1024) (j : Fin 512) :
    Read.val_main_v6 (F := Ideal) wt (ix2 f j) = wt (ix3 0 f j) := by
  rw [Read.val_main_v6_apply, Read.val_main_v5_apply]
  refine congrArg wt (funext fun a => Fin.ext ?_)
  have hf := f.isLt; have hj := j.isLt
  match a with
  | ⟨0, _⟩ => rfl
  | ⟨1, _⟩ => show (f.val * 512 + j.val) / 512 % 1024 = f.val; omega
  | ⟨2, _⟩ => show (f.val * 512 + j.val) % 512 = j.val; omega

theorem lidx_v7 (n : Fin 32768) (j : Fin 512) (k : Fin 1024) : Read.lidx_main_v7 (ix2 n j) k = ix2 n k :=
  funext fun a => Fin.ext (by match a with | ⟨0, _⟩ => rfl | ⟨1, _⟩ => rfl)
theorem ridx_v7 (n : Fin 32768) (j : Fin 512) (k : Fin 1024) : Read.ridx_main_v7 (ix2 n j) k = ix2 k j :=
  funext fun a => Fin.ext (by match a with | ⟨0, _⟩ => rfl | ⟨1, _⟩ => rfl)

/-- The branch of type 0 at token n, column j. -/
theorem typed_at_0 (x : (⟨S64x512x512, .f32⟩ : BufTy).Contents (Elt Ideal)) (wpre : (⟨S512x1024, .f32⟩ : BufTy).Contents (Elt Ideal))
    (wt : (⟨S8x1024x512, .f32⟩ : BufTy).Contents (Elt Ideal)) (n : Fin 32768) (j : Fin 512) :
    Read.val_main_v8 (F := Ideal) x wpre wt (ix2 n j) = typed x wpre wt 0 n j := by
  rw [Read.val_main_v8_apply, Read.val_main_v7_apply, Read.val_main_call1_v0_apply, Read.val_main_call1_cst_apply]
  simp only [lidx_v7, ridx_v7, pre_at, wt_at_0, Ideal.maximumf_def, Ideal.ofBits_def, Ideal.ofBits_zero_f32]
  rfl

/-- The test "the label of token n is 0", spread over the row. -/
theorem cond_at_0 (t : (⟨S64x512, .i32⟩ : BufTy).Contents (Elt Ideal)) (n : Fin 32768) (j : Fin 512) :
    Read.val_main_call2_v0 (F := Ideal) t (ix2 n j) = IntOp.cmpi .eq (label t n) 0#32 := by
  rw [Read.val_main_call2_v0_apply, Read.val_main_v11_apply, Read.val_main_v10_apply]
  have e : Read.idx_main_v11 (Read.idx_main_call2_v0 (ix2 n j)) = ix1 n :=
    funext fun a => Fin.ext (by match a with | ⟨0, _⟩ => rfl)
  rw [e, label_at, Read.val_main_v9_apply, Read.val_main_c_apply]

/-! ### The second branch (label 1) -/

/-- Entry (f, j) of the weight matrix of type 1: the slab 1 of the branch weights, flattened to a matrix. -/
theorem wt_at_1 (wt : (⟨S8x1024x512, .f32⟩ : BufTy).Contents (Elt Ideal)) (f : Fin 1024) (j : Fin 512) :
    Read.val_main_v14 (F := Ideal) wt (ix2 f j) = wt (ix3 1 f j) := by
  rw [Read.val_main_v14_apply, Read.val_main_v13_apply]
  refine congrArg wt (funext fun a => Fin.ext ?_)
  have hf := f.isLt; have hj := j.isLt
  match a with
  | ⟨0, _⟩ => rfl
  | ⟨1, _⟩ => show (f.val * 512 + j.val) / 512 % 1024 = f.val; omega
  | ⟨2, _⟩ => show (f.val * 512 + j.val) % 512 = j.val; omega

theorem lidx_v15 (n : Fin 32768) (j : Fin 512) (k : Fin 1024) : Read.lidx_main_v15 (ix2 n j) k = ix2 n k :=
  funext fun a => Fin.ext (by match a with | ⟨0, _⟩ => rfl | ⟨1, _⟩ => rfl)
theorem ridx_v15 (n : Fin 32768) (j : Fin 512) (k : Fin 1024) : Read.ridx_main_v15 (ix2 n j) k = ix2 k j :=
  funext fun a => Fin.ext (by match a with | ⟨0, _⟩ => rfl | ⟨1, _⟩ => rfl)

/-- The branch of type 1 at token n, column j. -/
theorem typed_at_1 (x : (⟨S64x512x512, .f32⟩ : BufTy).Contents (Elt Ideal)) (wpre : (⟨S512x1024, .f32⟩ : BufTy).Contents (Elt Ideal))
    (wt : (⟨S8x1024x512, .f32⟩ : BufTy).Contents (Elt Ideal)) (n : Fin 32768) (j : Fin 512) :
    Read.val_main_v16 (F := Ideal) x wpre wt (ix2 n j) = typed x wpre wt 1 n j := by
  rw [Read.val_main_v16_apply, Read.val_main_v15_apply, Read.val_main_call3_v0_apply, Read.val_main_call3_cst_apply]
  simp only [lidx_v15, ridx_v15, pre_at, wt_at_1, Ideal.maximumf_def, Ideal.ofBits_def, Ideal.ofBits_zero_f32]
  rfl

/-- The test "the label of token n is 1", spread over the row. -/
theorem cond_at_1 (t : (⟨S64x512, .i32⟩ : BufTy).Contents (Elt Ideal)) (n : Fin 32768) (j : Fin 512) :
    Read.val_main_call4_v0 (F := Ideal) t (ix2 n j) = IntOp.cmpi .eq (label t n) 1#32 := by
  rw [Read.val_main_call4_v0_apply, Read.val_main_v19_apply, Read.val_main_v18_apply]
  have e : Read.idx_main_v19 (Read.idx_main_call4_v0 (ix2 n j)) = ix1 n :=
    funext fun a => Fin.ext (by match a with | ⟨0, _⟩ => rfl)
  rw [e, label_at, Read.val_main_v17_apply, Read.val_main_c_0_apply]

/-! ### The third branch (label 2) -/

/-- Entry (f, j) of the weight matrix of type 2: the slab 2 of the branch weights, flattened to a matrix. -/
theorem wt_at_2 (wt : (⟨S8x1024x512, .f32⟩ : BufTy).Contents (Elt Ideal)) (f : Fin 1024) (j : Fin 512) :
    Read.val_main_v22 (F := Ideal) wt (ix2 f j) = wt (ix3 2 f j) := by
  rw [Read.val_main_v22_apply, Read.val_main_v21_apply]
  refine congrArg wt (funext fun a => Fin.ext ?_)
  have hf := f.isLt; have hj := j.isLt
  match a with
  | ⟨0, _⟩ => rfl
  | ⟨1, _⟩ => show (f.val * 512 + j.val) / 512 % 1024 = f.val; omega
  | ⟨2, _⟩ => show (f.val * 512 + j.val) % 512 = j.val; omega

theorem lidx_v23 (n : Fin 32768) (j : Fin 512) (k : Fin 1024) : Read.lidx_main_v23 (ix2 n j) k = ix2 n k :=
  funext fun a => Fin.ext (by match a with | ⟨0, _⟩ => rfl | ⟨1, _⟩ => rfl)
theorem ridx_v23 (n : Fin 32768) (j : Fin 512) (k : Fin 1024) : Read.ridx_main_v23 (ix2 n j) k = ix2 k j :=
  funext fun a => Fin.ext (by match a with | ⟨0, _⟩ => rfl | ⟨1, _⟩ => rfl)

/-- The branch of type 2 at token n, column j. -/
theorem typed_at_2 (x : (⟨S64x512x512, .f32⟩ : BufTy).Contents (Elt Ideal)) (wpre : (⟨S512x1024, .f32⟩ : BufTy).Contents (Elt Ideal))
    (wt : (⟨S8x1024x512, .f32⟩ : BufTy).Contents (Elt Ideal)) (n : Fin 32768) (j : Fin 512) :
    Read.val_main_v24 (F := Ideal) x wpre wt (ix2 n j) = typed x wpre wt 2 n j := by
  rw [Read.val_main_v24_apply, Read.val_main_v23_apply, Read.val_main_call5_v0_apply, Read.val_main_call5_cst_apply]
  simp only [lidx_v23, ridx_v23, pre_at, wt_at_2, Ideal.maximumf_def, Ideal.ofBits_def, Ideal.ofBits_zero_f32]
  rfl

/-- The test "the label of token n is 2", spread over the row. -/
theorem cond_at_2 (t : (⟨S64x512, .i32⟩ : BufTy).Contents (Elt Ideal)) (n : Fin 32768) (j : Fin 512) :
    Read.val_main_call6_v0 (F := Ideal) t (ix2 n j) = IntOp.cmpi .eq (label t n) 2#32 := by
  rw [Read.val_main_call6_v0_apply, Read.val_main_v27_apply, Read.val_main_v26_apply]
  have e : Read.idx_main_v27 (Read.idx_main_call6_v0 (ix2 n j)) = ix1 n :=
    funext fun a => Fin.ext (by match a with | ⟨0, _⟩ => rfl)
  rw [e, label_at, Read.val_main_v25_apply, Read.val_main_c_1_apply]

/-! ### The fourth branch (label 3) -/

/-- Entry (f, j) of the weight matrix of type 3: the slab 3 of the branch weights, flattened to a matrix. -/
theorem wt_at_3 (wt : (⟨S8x1024x512, .f32⟩ : BufTy).Contents (Elt Ideal)) (f : Fin 1024) (j : Fin 512) :
    Read.val_main_v30 (F := Ideal) wt (ix2 f j) = wt (ix3 3 f j) := by
  rw [Read.val_main_v30_apply, Read.val_main_v29_apply]
  refine congrArg wt (funext fun a => Fin.ext ?_)
  have hf := f.isLt; have hj := j.isLt
  match a with
  | ⟨0, _⟩ => rfl
  | ⟨1, _⟩ => show (f.val * 512 + j.val) / 512 % 1024 = f.val; omega
  | ⟨2, _⟩ => show (f.val * 512 + j.val) % 512 = j.val; omega

theorem lidx_v31 (n : Fin 32768) (j : Fin 512) (k : Fin 1024) : Read.lidx_main_v31 (ix2 n j) k = ix2 n k :=
  funext fun a => Fin.ext (by match a with | ⟨0, _⟩ => rfl | ⟨1, _⟩ => rfl)
theorem ridx_v31 (n : Fin 32768) (j : Fin 512) (k : Fin 1024) : Read.ridx_main_v31 (ix2 n j) k = ix2 k j :=
  funext fun a => Fin.ext (by match a with | ⟨0, _⟩ => rfl | ⟨1, _⟩ => rfl)

/-- The branch of type 3 at token n, column j. -/
theorem typed_at_3 (x : (⟨S64x512x512, .f32⟩ : BufTy).Contents (Elt Ideal)) (wpre : (⟨S512x1024, .f32⟩ : BufTy).Contents (Elt Ideal))
    (wt : (⟨S8x1024x512, .f32⟩ : BufTy).Contents (Elt Ideal)) (n : Fin 32768) (j : Fin 512) :
    Read.val_main_v32 (F := Ideal) x wpre wt (ix2 n j) = typed x wpre wt 3 n j := by
  rw [Read.val_main_v32_apply, Read.val_main_v31_apply, Read.val_main_call7_v0_apply, Read.val_main_call7_cst_apply]
  simp only [lidx_v31, ridx_v31, pre_at, wt_at_3, Ideal.maximumf_def, Ideal.ofBits_def, Ideal.ofBits_zero_f32]
  rfl

/-- The test "the label of token n is 3", spread over the row. -/
theorem cond_at_3 (t : (⟨S64x512, .i32⟩ : BufTy).Contents (Elt Ideal)) (n : Fin 32768) (j : Fin 512) :
    Read.val_main_call8_v0 (F := Ideal) t (ix2 n j) = IntOp.cmpi .eq (label t n) 3#32 := by
  rw [Read.val_main_call8_v0_apply, Read.val_main_v35_apply, Read.val_main_v34_apply]
  have e : Read.idx_main_v35 (Read.idx_main_call8_v0 (ix2 n j)) = ix1 n :=
    funext fun a => Fin.ext (by match a with | ⟨0, _⟩ => rfl)
  rw [e, label_at, Read.val_main_v33_apply, Read.val_main_c_2_apply]

/-! ### The fifth branch (label 4) -/

/-- Entry (f, j) of the weight matrix of type 4: the slab 4 of the branch weights, flattened to a matrix. -/
theorem wt_at_4 (wt : (⟨S8x1024x512, .f32⟩ : BufTy).Contents (Elt Ideal)) (f : Fin 1024) (j : Fin 512) :
    Read.val_main_v38 (F := Ideal) wt (ix2 f j) = wt (ix3 4 f j) := by
  rw [Read.val_main_v38_apply, Read.val_main_v37_apply]
  refine congrArg wt (funext fun a => Fin.ext ?_)
  have hf := f.isLt; have hj := j.isLt
  match a with
  | ⟨0, _⟩ => rfl
  | ⟨1, _⟩ => show (f.val * 512 + j.val) / 512 % 1024 = f.val; omega
  | ⟨2, _⟩ => show (f.val * 512 + j.val) % 512 = j.val; omega

theorem lidx_v39 (n : Fin 32768) (j : Fin 512) (k : Fin 1024) : Read.lidx_main_v39 (ix2 n j) k = ix2 n k :=
  funext fun a => Fin.ext (by match a with | ⟨0, _⟩ => rfl | ⟨1, _⟩ => rfl)
theorem ridx_v39 (n : Fin 32768) (j : Fin 512) (k : Fin 1024) : Read.ridx_main_v39 (ix2 n j) k = ix2 k j :=
  funext fun a => Fin.ext (by match a with | ⟨0, _⟩ => rfl | ⟨1, _⟩ => rfl)

/-- The branch of type 4 at token n, column j. -/
theorem typed_at_4 (x : (⟨S64x512x512, .f32⟩ : BufTy).Contents (Elt Ideal)) (wpre : (⟨S512x1024, .f32⟩ : BufTy).Contents (Elt Ideal))
    (wt : (⟨S8x1024x512, .f32⟩ : BufTy).Contents (Elt Ideal)) (n : Fin 32768) (j : Fin 512) :
    Read.val_main_v40 (F := Ideal) x wpre wt (ix2 n j) = typed x wpre wt 4 n j := by
  rw [Read.val_main_v40_apply, Read.val_main_v39_apply, Read.val_main_call9_v0_apply, Read.val_main_call9_cst_apply]
  simp only [lidx_v39, ridx_v39, pre_at, wt_at_4, Ideal.maximumf_def, Ideal.ofBits_def, Ideal.ofBits_zero_f32]
  rfl

/-- The test "the label of token n is 4", spread over the row. -/
theorem cond_at_4 (t : (⟨S64x512, .i32⟩ : BufTy).Contents (Elt Ideal)) (n : Fin 32768) (j : Fin 512) :
    Read.val_main_call10_v0 (F := Ideal) t (ix2 n j) = IntOp.cmpi .eq (label t n) 4#32 := by
  rw [Read.val_main_call10_v0_apply, Read.val_main_v43_apply, Read.val_main_v42_apply]
  have e : Read.idx_main_v43 (Read.idx_main_call10_v0 (ix2 n j)) = ix1 n :=
    funext fun a => Fin.ext (by match a with | ⟨0, _⟩ => rfl)
  rw [e, label_at, Read.val_main_v41_apply, Read.val_main_c_3_apply]

/-! ### The sixth branch (label 5) -/

/-- Entry (f, j) of the weight matrix of type 5: the slab 5 of the branch weights, flattened to a matrix. -/
theorem wt_at_5 (wt : (⟨S8x1024x512, .f32⟩ : BufTy).Contents (Elt Ideal)) (f : Fin 1024) (j : Fin 512) :
    Read.val_main_v46 (F := Ideal) wt (ix2 f j) = wt (ix3 5 f j) := by
  rw [Read.val_main_v46_apply, Read.val_main_v45_apply]
  refine congrArg wt (funext fun a => Fin.ext ?_)
  have hf := f.isLt; have hj := j.isLt
  match a with
  | ⟨0, _⟩ => rfl
  | ⟨1, _⟩ => show (f.val * 512 + j.val) / 512 % 1024 = f.val; omega
  | ⟨2, _⟩ => show (f.val * 512 + j.val) % 512 = j.val; omega

theorem lidx_v47 (n : Fin 32768) (j : Fin 512) (k : Fin 1024) : Read.lidx_main_v47 (ix2 n j) k = ix2 n k :=
  funext fun a => Fin.ext (by match a with | ⟨0, _⟩ => rfl | ⟨1, _⟩ => rfl)
theorem ridx_v47 (n : Fin 32768) (j : Fin 512) (k : Fin 1024) : Read.ridx_main_v47 (ix2 n j) k = ix2 k j :=
  funext fun a => Fin.ext (by match a with | ⟨0, _⟩ => rfl | ⟨1, _⟩ => rfl)

/-- The branch of type 5 at token n, column j. -/
theorem typed_at_5 (x : (⟨S64x512x512, .f32⟩ : BufTy).Contents (Elt Ideal)) (wpre : (⟨S512x1024, .f32⟩ : BufTy).Contents (Elt Ideal))
    (wt : (⟨S8x1024x512, .f32⟩ : BufTy).Contents (Elt Ideal)) (n : Fin 32768) (j : Fin 512) :
    Read.val_main_v48 (F := Ideal) x wpre wt (ix2 n j) = typed x wpre wt 5 n j := by
  rw [Read.val_main_v48_apply, Read.val_main_v47_apply, Read.val_main_call11_v0_apply, Read.val_main_call11_cst_apply]
  simp only [lidx_v47, ridx_v47, pre_at, wt_at_5, Ideal.maximumf_def, Ideal.ofBits_def, Ideal.ofBits_zero_f32]
  rfl

/-- The test "the label of token n is 5", spread over the row. -/
theorem cond_at_5 (t : (⟨S64x512, .i32⟩ : BufTy).Contents (Elt Ideal)) (n : Fin 32768) (j : Fin 512) :
    Read.val_main_call12_v0 (F := Ideal) t (ix2 n j) = IntOp.cmpi .eq (label t n) 5#32 := by
  rw [Read.val_main_call12_v0_apply, Read.val_main_v51_apply, Read.val_main_v50_apply]
  have e : Read.idx_main_v51 (Read.idx_main_call12_v0 (ix2 n j)) = ix1 n :=
    funext fun a => Fin.ext (by match a with | ⟨0, _⟩ => rfl)
  rw [e, label_at, Read.val_main_v49_apply, Read.val_main_c_4_apply]

/-! ### The seventh branch (label 6) -/

/-- Entry (f, j) of the weight matrix of type 6: the slab 6 of the branch weights, flattened to a matrix. -/
theorem wt_at_6 (wt : (⟨S8x1024x512, .f32⟩ : BufTy).Contents (Elt Ideal)) (f : Fin 1024) (j : Fin 512) :
    Read.val_main_v54 (F := Ideal) wt (ix2 f j) = wt (ix3 6 f j) := by
  rw [Read.val_main_v54_apply, Read.val_main_v53_apply]
  refine congrArg wt (funext fun a => Fin.ext ?_)
  have hf := f.isLt; have hj := j.isLt
  match a with
  | ⟨0, _⟩ => rfl
  | ⟨1, _⟩ => show (f.val * 512 + j.val) / 512 % 1024 = f.val; omega
  | ⟨2, _⟩ => show (f.val * 512 + j.val) % 512 = j.val; omega

theorem lidx_v55 (n : Fin 32768) (j : Fin 512) (k : Fin 1024) : Read.lidx_main_v55 (ix2 n j) k = ix2 n k :=
  funext fun a => Fin.ext (by match a with | ⟨0, _⟩ => rfl | ⟨1, _⟩ => rfl)
theorem ridx_v55 (n : Fin 32768) (j : Fin 512) (k : Fin 1024) : Read.ridx_main_v55 (ix2 n j) k = ix2 k j :=
  funext fun a => Fin.ext (by match a with | ⟨0, _⟩ => rfl | ⟨1, _⟩ => rfl)

/-- The branch of type 6 at token n, column j. -/
theorem typed_at_6 (x : (⟨S64x512x512, .f32⟩ : BufTy).Contents (Elt Ideal)) (wpre : (⟨S512x1024, .f32⟩ : BufTy).Contents (Elt Ideal))
    (wt : (⟨S8x1024x512, .f32⟩ : BufTy).Contents (Elt Ideal)) (n : Fin 32768) (j : Fin 512) :
    Read.val_main_v56 (F := Ideal) x wpre wt (ix2 n j) = typed x wpre wt 6 n j := by
  rw [Read.val_main_v56_apply, Read.val_main_v55_apply, Read.val_main_call13_v0_apply, Read.val_main_call13_cst_apply]
  simp only [lidx_v55, ridx_v55, pre_at, wt_at_6, Ideal.maximumf_def, Ideal.ofBits_def, Ideal.ofBits_zero_f32]
  rfl

/-- The test "the label of token n is 6", spread over the row. -/
theorem cond_at_6 (t : (⟨S64x512, .i32⟩ : BufTy).Contents (Elt Ideal)) (n : Fin 32768) (j : Fin 512) :
    Read.val_main_call14_v0 (F := Ideal) t (ix2 n j) = IntOp.cmpi .eq (label t n) 6#32 := by
  rw [Read.val_main_call14_v0_apply, Read.val_main_v59_apply, Read.val_main_v58_apply]
  have e : Read.idx_main_v59 (Read.idx_main_call14_v0 (ix2 n j)) = ix1 n :=
    funext fun a => Fin.ext (by match a with | ⟨0, _⟩ => rfl)
  rw [e, label_at, Read.val_main_v57_apply, Read.val_main_c_5_apply]

/-! ### The eighth branch (label 7) -/

/-- Entry (f, j) of the weight matrix of type 7: the slab 7 of the branch weights, flattened to a matrix. -/
theorem wt_at_7 (wt : (⟨S8x1024x512, .f32⟩ : BufTy).Contents (Elt Ideal)) (f : Fin 1024) (j : Fin 512) :
    Read.val_main_v62 (F := Ideal) wt (ix2 f j) = wt (ix3 7 f j) := by
  rw [Read.val_main_v62_apply, Read.val_main_v61_apply]
  refine congrArg wt (funext fun a => Fin.ext ?_)
  have hf := f.isLt; have hj := j.isLt
  match a with
  | ⟨0, _⟩ => rfl
  | ⟨1, _⟩ => show (f.val * 512 + j.val) / 512 % 1024 = f.val; omega
  | ⟨2, _⟩ => show (f.val * 512 + j.val) % 512 = j.val; omega

theorem lidx_v63 (n : Fin 32768) (j : Fin 512) (k : Fin 1024) : Read.lidx_main_v63 (ix2 n j) k = ix2 n k :=
  funext fun a => Fin.ext (by match a with | ⟨0, _⟩ => rfl | ⟨1, _⟩ => rfl)
theorem ridx_v63 (n : Fin 32768) (j : Fin 512) (k : Fin 1024) : Read.ridx_main_v63 (ix2 n j) k = ix2 k j :=
  funext fun a => Fin.ext (by match a with | ⟨0, _⟩ => rfl | ⟨1, _⟩ => rfl)

/-- The branch of type 7 at token n, column j. -/
theorem typed_at_7 (x : (⟨S64x512x512, .f32⟩ : BufTy).Contents (Elt Ideal)) (wpre : (⟨S512x1024, .f32⟩ : BufTy).Contents (Elt Ideal))
    (wt : (⟨S8x1024x512, .f32⟩ : BufTy).Contents (Elt Ideal)) (n : Fin 32768) (j : Fin 512) :
    Read.val_main_v64 (F := Ideal) x wpre wt (ix2 n j) = typed x wpre wt 7 n j := by
  rw [Read.val_main_v64_apply, Read.val_main_v63_apply, Read.val_main_call15_v0_apply, Read.val_main_call15_cst_apply]
  simp only [lidx_v63, ridx_v63, pre_at, wt_at_7, Ideal.maximumf_def, Ideal.ofBits_def, Ideal.ofBits_zero_f32]
  rfl

/-- The test "the label of token n is 7", spread over the row. -/
theorem cond_at_7 (t : (⟨S64x512, .i32⟩ : BufTy).Contents (Elt Ideal)) (n : Fin 32768) (j : Fin 512) :
    Read.val_main_call16_v0 (F := Ideal) t (ix2 n j) = IntOp.cmpi .eq (label t n) 7#32 := by
  rw [Read.val_main_call16_v0_apply, Read.val_main_v67_apply, Read.val_main_v66_apply]
  have e : Read.idx_main_v67 (Read.idx_main_call16_v0 (ix2 n j)) = ix1 n :=
    funext fun a => Fin.ext (by match a with | ⟨0, _⟩ => rfl)
  rw [e, label_at, Read.val_main_v65_apply, Read.val_main_c_6_apply]

/-! ### The chain of selects is the routing -/

/-- Two different words compare unequal. -/
theorem cmpi_eq_zero {w v : BitVec 32} (h : w ≠ v) : IntOp.cmpi .eq w v = 0#1 := by
  show BitVec.ofBool (w == v) = 0#1
  rw [beq_false_of_ne h]; rfl

/-- Eight selects on "the label is b", b = 0..7, each keeping the branch b over what the earlier ones left, starting
    from zero: for a label below 8 exactly one test holds and its branch is what remains; for any other label none
    holds and the zero remains. -/
theorem chain_routed (x : (⟨S64x512x512, .f32⟩ : BufTy).Contents (Elt Ideal)) (wpre : (⟨S512x1024, .f32⟩ : BufTy).Contents (Elt Ideal))
    (wt : (⟨S8x1024x512, .f32⟩ : BufTy).Contents (Elt Ideal)) (w : BitVec 32) (n : Fin 32768) (j : Fin 512) :
    (Scalar.select (IntOp.cmpi .eq w 7#32) (typed x wpre wt 7 n j)
      (Scalar.select (IntOp.cmpi .eq w 6#32) (typed x wpre wt 6 n j)
      (Scalar.select (IntOp.cmpi .eq w 5#32) (typed x wpre wt 5 n j)
      (Scalar.select (IntOp.cmpi .eq w 4#32) (typed x wpre wt 4 n j)
      (Scalar.select (IntOp.cmpi .eq w 3#32) (typed x wpre wt 3 n j)
      (Scalar.select (IntOp.cmpi .eq w 2#32) (typed x wpre wt 2 n j)
      (Scalar.select (IntOp.cmpi .eq w 1#32) (typed x wpre wt 1 n j)
      (Scalar.select (IntOp.cmpi .eq w 0#32) (typed x wpre wt 0 n j)
      0))))))))
      = routed x wpre wt w n j := by
  unfold routed
  by_cases h : w.toNat < 8
  · rw [dif_pos h]
    obtain ⟨m, hm, rfl⟩ : ∃ m, m < 8 ∧ w = BitVec.ofNat 32 m := ⟨w.toNat, h, BitVec.eq_of_toNat_eq (by
      rw [BitVec.toNat_ofNat]; exact (Nat.mod_eq_of_lt w.isLt).symm)⟩
    interval_cases m <;> rfl
  · rw [dif_neg h]
    have hz : ∀ v : BitVec 32, v.toNat < 8 → IntOp.cmpi .eq w v = 0#1 :=
      fun v hv => cmpi_eq_zero (fun e => h (e ▸ hv))
    simp only [hz 0#32 (by decide), hz 1#32 (by decide), hz 2#32 (by decide), hz 3#32 (by decide),
      hz 4#32 (by decide), hz 5#32 (by decide), hz 6#32 (by decide), hz 7#32 (by decide), select_zero]

/-- What the chain of selects leaves at token n, column j: the branch the label of n names. -/
theorem where_at (x : (⟨S64x512x512, .f32⟩ : BufTy).Contents (Elt Ideal)) (t : (⟨S64x512, .i32⟩ : BufTy).Contents (Elt Ideal))
    (wpre : (⟨S512x1024, .f32⟩ : BufTy).Contents (Elt Ideal)) (wt : (⟨S8x1024x512, .f32⟩ : BufTy).Contents (Elt Ideal))
    (n : Fin 32768) (j : Fin 512) :
    Read.val_main_v68 (F := Ideal) x t wpre wt (ix2 n j) = routed x wpre wt (label t n) n j := by
  rw [Read.val_main_v68_apply, Read.val_main_v60_apply, Read.val_main_v52_apply, Read.val_main_v44_apply,
    Read.val_main_v36_apply, Read.val_main_v28_apply, Read.val_main_v20_apply, Read.val_main_v12_apply,
    Read.val_main_v4_apply, Read.val_main_cst_apply]
  simp only [cond_at_0, cond_at_1, cond_at_2, cond_at_3, cond_at_4, cond_at_5, cond_at_6, cond_at_7,
    typed_at_0, typed_at_1, typed_at_2, typed_at_3, typed_at_4, typed_at_5, typed_at_6, typed_at_7,
    Ideal.ofBits_def, Ideal.ofBits_zero_f32]
  exact chain_routed x wpre wt (label t n) n j

/-! ### The residual sum, the hidden layer, the output -/

/-- The residual sum at token n, column d. -/
theorem sum_at (x : (⟨S64x512x512, .f32⟩ : BufTy).Contents (Elt Ideal)) (t : (⟨S64x512, .i32⟩ : BufTy).Contents (Elt Ideal))
    (wpre : (⟨S512x1024, .f32⟩ : BufTy).Contents (Elt Ideal)) (wt : (⟨S8x1024x512, .f32⟩ : BufTy).Contents (Elt Ideal))
    (n : Fin 32768) (d : Fin 512) :
    Read.val_main_v69 (F := Ideal) x t wpre wt (ix2 n d) = xrow x n d + routed x wpre wt (label t n) n d := by
  rw [Read.val_main_v69_apply, x_at, where_at]; rfl

theorem lidx_v70 (n : Fin 32768) (c : Fin 512) (k : Fin 512) : Read.lidx_main_v70 (ix2 n c) k = ix2 n k :=
  funext fun a => Fin.ext (by match a with | ⟨0, _⟩ => rfl | ⟨1, _⟩ => rfl)
theorem ridx_v70 (n : Fin 32768) (c : Fin 512) (k : Fin 512) : Read.ridx_main_v70 (ix2 n c) k = ix2 k c :=
  funext fun a => Fin.ext (by match a with | ⟨0, _⟩ => rfl | ⟨1, _⟩ => rfl)

/-- The hidden layer at token n, unit c. -/
theorem hid_at (x : (⟨S64x512x512, .f32⟩ : BufTy).Contents (Elt Ideal)) (t : (⟨S64x512, .i32⟩ : BufTy).Contents (Elt Ideal))
    (wpre : (⟨S512x1024, .f32⟩ : BufTy).Contents (Elt Ideal)) (wt : (⟨S8x1024x512, .f32⟩ : BufTy).Contents (Elt Ideal))
    (wc1 : (⟨S512x512, .f32⟩ : BufTy).Contents (Elt Ideal)) (n : Fin 32768) (c : Fin 512) :
    Read.val_main_v71 (F := Ideal) x t wpre wt wc1 (ix2 n c) = hid x t wpre wt wc1 n c := by
  rw [Read.val_main_v71_apply, Read.val_main_v70_apply, Read.val_main_call17_v0_apply, Read.val_main_call17_cst_apply]
  simp only [lidx_v70, ridx_v70, sum_at, Ideal.maximumf_def, Ideal.ofBits_def, Ideal.ofBits_zero_f32]
  rfl

theorem lidx_v72 (n : Fin 32768) (u : Fin 1) (k : Fin 512) : Read.lidx_main_v72 (ix2 n u) k = ix2 n k :=
  funext fun a => Fin.ext (by match a with | ⟨0, _⟩ => rfl | ⟨1, _⟩ => rfl)
theorem ridx_v72 (n : Fin 32768) (u : Fin 1) (k : Fin 512) : Read.ridx_main_v72 (ix2 n u) k = ix2 k u :=
  funext fun a => Fin.ext (by match a with | ⟨0, _⟩ => rfl | ⟨1, _⟩ => rfl)

/-- The reference's result, as a function of its six arguments, is the specification's network. -/
theorem ref_is_G (x : (⟨S64x512x512, .f32⟩ : BufTy).Contents (Elt Ideal)) (t : (⟨S64x512, .i32⟩ : BufTy).Contents (Elt Ideal))
    (wpre : (⟨S512x1024, .f32⟩ : BufTy).Contents (Elt Ideal)) (wt : (⟨S8x1024x512, .f32⟩ : BufTy).Contents (Elt Ideal))
    (wc1 : (⟨S512x512, .f32⟩ : BufTy).Contents (Elt Ideal)) (wc2 : (⟨S512x1, .f32⟩ : BufTy).Contents (Elt Ideal)) :
    Read.val_main_v72 (F := Ideal) x t wpre wt wc1 wc2 = G x t wpre wt wc1 wc2 := by
  funext i
  obtain ⟨n, u, rfl⟩ : ∃ (n : Fin 32768) (u : Fin 1), i = ix2 n u := ⟨i 0, i 1, eq_ix2 i⟩
  obtain rfl : u = 0 := Subsingleton.elim _ _
  rw [Read.val_main_v72_apply]
  simp only [lidx_v72, ridx_v72, hid_at]
  rfl

end Cert.ReferenceIdeal.RefValue

end
-- ==== Proof.lean ====
/-
  A routed feed-forward network: every token goes through a shared first layer, then through the ONE of eight
  second-layer branches that its integer label names, is added back to its input, and goes through two more layers.

  The reference computes all eight branches for every token and selects by the label. The kernel instead sorts the
  tokens by label into one padded array (each label's group rounded up to whole tiles of 512 rows), so that each tile
  holds tokens of one label and one matrix product per tile suffices; it then fetches each token's row back. On labels
  in 0..7 — the stated domain — the two agree at every entry over the extended reals, with no algebra beyond
  regrouping: the token's place in the padded array is injective, its tile's label is its own label, and every
  product is the same sum.

  The claims:
  * the three frames: each program runs to the end, faults nowhere and leaves its arguments as it found them. For the
    two kernel programs (the word-level one and its idealization: the same text) this is the run of @main's host
    stretches and three pipelined regions; the second region's weight window is addressed by a table of tile labels
    that @main computes, and the labels' range makes every entry of that table a valid block index.
  * the idealization rewrote nothing, so nothing is owed for it.
  * the value: after the kernel's run the result buffer is the network function G of the arguments (the regions'
    outputs as whole-array functions, the scatter and the fetch at the tokens' places, the tile labels), and the
    reference's run ends at the same G.
-/
import proofs.«157345_j20959440404665_2_alg».proof.Defs
import proofs.«157345_j20959440404665_2_alg».proof.Proof.KFrame.Run
import proofs.«157345_j20959440404665_2_alg».proof.Proof.Bits.KFrame.Run
import proofs.«157345_j20959440404665_2_alg».proof.Proof.TableOk
import proofs.«157345_j20959440404665_2_alg».proof.Proof.Bits.TableOk
import proofs.«157345_j20959440404665_2_alg».proof.Proof.KernelResult
import proofs.«157345_j20959440404665_2_alg».proof.Proof.RefIsSpec
import proofs.«157345_j20959440404665_2_alg».proof.Proof.Gen.Kernel
import proofs.«157345_j20959440404665_2_alg».proof.Proof.Gen.KernelIdeal
import proofs.«157345_j20959440404665_2_alg».proof.Proof.Gen.ReferenceIdeal
import proofs.«157345_j20959440404665_2_alg».proof.Proof.Gen.Pre_finite_inputs

noncomputable section

namespace Cert.Proof

open Idealize.ShloMosaic Idealize.ShloMosaic.TcCoe Idealize.SL.Sem

/-- The word-level kernel program runs and keeps its arguments: the labels' range makes the tile-label table valid. -/
theorem frame_kernel : Cert.frame_Kernel := fun m ρ hpre =>
  Cert.Kernel.Hand.frame m ρ (Cert.Kernel.TableOk.ok_of_pre m hpre)

/-- The idealized kernel program runs and keeps its arguments, for the same reason. -/
theorem frame_kernelIdeal : Cert.frame_KernelIdeal := fun m ρ hpre =>
  Cert.KernelIdeal.Hand.frame m ρ (Cert.KernelIdeal.TableOk.ok_of_pre m hpre)

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end at the network function of the (agreeing) arguments. -/
theorem algebraic : Cert.algebraic_KernelIdeal_ReferenceIdeal := by
  intro m ρ m' ρ' hpre hagree
  have hOk : Cert.KernelIdeal.Hand.Ok m := Cert.KernelIdeal.TableOk.ok_of_pre m hpre
  refine ⟨fun c => Cert.KernelIdeal.Gen.V21 m (Cert.KernelIdeal.Hand.outs m hOk) c Cert.KernelIdeal.main_v58,
    Cert.KernelIdeal.Hand.run m ρ hOk, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v72_eq, Cert.ReferenceIdeal.RefValue.ref_is_G, (hagree c).1, (hagree c).2.1,
    (hagree c).2.2.1, (hagree c).2.2.2.1, (hagree c).2.2.2.2.1, (hagree c).2.2.2.2.2]
  exact (Cert.KernelIdeal.Result.result_is_G m hOk c (Cert.KernelIdeal.TableOk.inRange_of_pre m hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
